-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S3200000 : Shape := ⟨1, ![3200000]⟩
abbrev S100000 : Shape := ⟨1, ![100000]⟩
abbrev S2x64 : Shape := ⟨2, ![2, 64]⟩
abbrev S64 : Shape := ⟨1, ![64]⟩
abbrev S64x64 : Shape := ⟨2, ![64, 64]⟩
abbrev S_ : Shape := ⟨0, ![]⟩

class Facts : Prop where
  bcast_S_S100000x2 : S_.BroadcastsInDim S100000x2 (![] : Fin 0 → Fin S100000x2.rank)
  reducesTo_S100000x2_S_d0_1 : S100000x2.ReducesTo [0, 1] S_
  h_S_ : 0 < S_.numel
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part3 {F : FTy → Type} [FloatOps F] (main_arg15 : FVec F S64x64 .f32) (main_arg16 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg15
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg16
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  main_v63

def fn_part2 {F : FTy → Type} [FloatOps F] (main_arg11 : FVec F S64x64 .f32) (main_arg12 : FVec F S64 .f32) (main_arg13 : FVec F S64x64 .f32) (main_arg14 : FVec F S64 .f32) (main_arg15 : FVec F S64x64 .f32) (main_arg16 : FVec F S64 .f32) (main_v33 : IVec S_ 1) : IVec S_ 1 :=
  let main_v34 : FVec F S64x64 .f32 := Host.absf main_arg11
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg12
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg13
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg14
  let main_cst_18 : FVec F S_ .f32 := constant S_ .f32 0x7F800000#32
  let main_v50 : FVec F S64 .f32 := broadcastInDim S64 ![] bcast_S_S64 main_cst_18
  fn_part3 (F := F) main_arg15 main_arg16 main_v48 main_v49 main_v50

def fn_part1 {F : FTy → Type} [FloatOps F] (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg9
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg10
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg11 main_arg12 main_arg13 main_arg14 main_arg15 main_arg16 main_v33

def fn {F : FTy → Type} [FloatOps F] (main_arg0 : FVec F S100000x2 .f32) (main_arg1 : IVec S3200000 32) (main_arg2 : IVec S3200000 32) (main_arg3 : IVec S100000 1) (main_arg4 : IVec S100000 1) (main_arg5 : FVec F S2x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64x64 .f32) (main_arg16 : FVec F S64 .f32) : IVec S_ 1 :=
  let main_v0 : FVec F S100000x2 .f32 := Host.absf main_arg0
  let main_cst : FVec F S_ .f32 := constant S_ .f32 0x7F800000#32
  let main_v1 : FVec F S100000x2 .f32 := broadcastInDim S100000x2 ![] bcast_S_S100000x2 main_cst
  let main_v2 : IVec S100000x2 1 := cmpf .olt main_v0 main_v1
  let main_c : IVec S_ 1 := constantI S_ 1 1#1
  let main_v3 : IVec S_ 1 := (fun x v => Host.reduce IntOp.andi x v reducesTo_S100000x2_S_d0_1 h_S_) main_v2 main_c
  let main_v4 : FVec F S2x64 .f32 := Host.absf main_arg5
  let main_cst_0 : FVec F S_ .f32 := constant S_ .f32 0x7F800000#32
  let main_v5 : FVec F S2x64 .f32 := broadcastInDim S2x64 ![] bcast_S_S2x64 main_cst_0
  let main_v6 : IVec S2x64 1 := cmpf .olt main_v4 main_v5
  let main_c_1 : IVec S_ 1 := constantI S_ 1 1#1
  let main_v7 : IVec S_ 1 := (fun x v => Host.reduce IntOp.andi x v reducesTo_S2x64_S_d0_1 h_S_) main_v6 main_c_1
  let main_v8 : IVec S_ 1 := andi main_v3 main_v7
  let main_v9 : FVec F S64 .f32 := Host.absf main_arg6
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg7
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg8 main_arg9 main_arg10 main_arg11 main_arg12 main_arg13 main_arg14 main_arg15 main_arg16 main_v13 main_v16
-- ==== Kernel.lean ====
abbrev S100000x2 : Shape := ⟨2, ![100000, 2]⟩
abbrev S3200000 : Shape := ⟨1, ![3200000]⟩
abbrev S100000 : Shape := ⟨1, ![100000]⟩
abbrev S2x64 : Shape := ⟨2, ![2, 64]⟩
abbrev S64 : Shape := ⟨1, ![64]⟩
abbrev S64x64 : Shape := ⟨2, ![64, 64]⟩
abbrev S100000x1 : Shape := ⟨2, ![100000, 1]⟩
abbrev S_ : Shape := ⟨0, ![]⟩
abbrev S1 : Shape := ⟨1, ![1]⟩
abbrev S3 : Shape := ⟨1, ![3]⟩
abbrev S3200000x1 : Shape := ⟨2, ![3200000, 1]⟩
abbrev S3200000x2 : Shape := ⟨2, ![3200000, 2]⟩
abbrev S1x64 : Shape := ⟨2, ![1, 64]⟩
abbrev S100000x64 : Shape := ⟨2, ![100000, 64]⟩
abbrev S10000x2 : Shape := ⟨2, ![10000, 2]⟩
abbrev S10000x64 : Shape := ⟨2, ![10000, 64]⟩
abbrev S3x64 : Shape := ⟨2, ![3, 64]⟩
abbrev S5000x64 : Shape := ⟨2, ![5000, 64]⟩
abbrev S5000x1 : Shape := ⟨2, ![5000, 1]⟩
abbrev S3x1 : Shape := ⟨2, ![3, 1]⟩
abbrev S192 : Shape := ⟨1, ![192]⟩
abbrev S3200000x64 : Shape := ⟨2, ![3200000, 64]⟩
abbrev S576 : Shape := ⟨1, ![576]⟩

abbrev nBuf : Space → Nat
  | .hbm => 135
  | .vmem => 54
  | .smem => 0
  | _ => 0

abbrev hbmTy0_0 (i : Nat) : BufTy := match i % 128 with
  | 0 => ⟨S100000x2, .f32⟩
  | 1 => ⟨S3200000, .i32⟩
  | 2 => ⟨S3200000, .i32⟩
  | 3 => ⟨S100000, .i1⟩
  | 4 => ⟨S100000, .i1⟩
  | 5 => ⟨S2x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S100000, .i1⟩
  | 18 => ⟨S100000, .i1⟩
  | 19 => ⟨S100000, .f32⟩
  | 20 => ⟨S100000x1, .f32⟩
  | 21 => ⟨S100000, .f32⟩
  | 22 => ⟨S100000x1, .f32⟩
  | 23 => ⟨S100000, .f32⟩
  | 24 => ⟨S100000x1, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S1, .f32⟩
  | 32 => ⟨S1, .f32⟩
  | 33 => ⟨S1, .f32⟩
  | 34 => ⟨S3, .f32⟩
  | 35 => ⟨S_, .i32⟩
  | 36 => ⟨S3200000, .i32⟩
  | 37 => ⟨S3200000, .i1⟩
  | 38 => ⟨S_, .i32⟩
  | 39 => ⟨S3200000, .i32⟩
  | 40 => ⟨S3200000, .i32⟩
  | 41 => ⟨S3200000, .i32⟩
  | 42 => ⟨S3200000x1, .i32⟩
  | 43 => ⟨S3200000x2, .f32⟩
  | 44 => ⟨S_, .f32⟩
  | 45 => ⟨S100000x2, .f32⟩
  | 46 => ⟨S3200000x1, .i32⟩
  | 47 => ⟨S100000x2, .f32⟩
  | 48 => ⟨S100000x2, .f32⟩
  | 49 => ⟨S1x64, .f32⟩
  | 50 => ⟨S1x64, .f32⟩
  | 51 => ⟨S100000x64, .f32⟩
  | 52 => ⟨S3x64, .f32⟩
  | 53 => ⟨S3x1, .f32⟩
  | 54 => ⟨S_, .f32⟩
  | 55 => ⟨S3x1, .f32⟩
  | 56 => ⟨S3x1, .i1⟩
  | 57 => ⟨S_, .f32⟩
  | 58 => ⟨S3, .f32⟩
  | 59 => ⟨S3, .f32⟩
  | 60 => ⟨S3x1, .f32⟩
  | 61 => ⟨S3x64, .f32⟩
  | 62 => ⟨S3x64, .f32⟩
  | 63 => ⟨S_, .f32⟩
  | 64 => ⟨S3x64, .f32⟩
  | 65 => ⟨S3x64, .i1⟩
  | 66 => ⟨S3x64, .f32⟩
  | 67 => ⟨S192, .f32⟩
  | 68 => ⟨S_, .i32⟩
  | 69 => ⟨S3200000, .i32⟩
  | 70 => ⟨S3200000, .i1⟩
  | 71 => ⟨S_, .i32⟩
  | 72 => ⟨S3200000, .i32⟩
  | 73 => ⟨S3200000, .i32⟩
  | 74 => ⟨S3200000, .i32⟩
  | 75 => ⟨S3200000x1, .i32⟩
  | 76 => ⟨S3200000x64, .f32⟩
  | 77 => ⟨S_, .f32⟩
  | 78 => ⟨S100000x64, .f32⟩
  | 79 => ⟨S3200000x1, .i32⟩
  | 80 => ⟨S100000x64, .f32⟩
  | 81 => ⟨S100000x64, .f32⟩
  | 82 => ⟨S1x64, .f32⟩
  | 83 => ⟨S1x64, .f32⟩
  | 84 => ⟨S100000x64, .f32⟩
  | 85 => ⟨S3x64, .f32⟩
  | 86 => ⟨S3x1, .f32⟩
  | 87 => ⟨S_, .f32⟩
  | 88 => ⟨S3x1, .f32⟩
  | 89 => ⟨S3x1, .i1⟩
  | 90 => ⟨S_, .f32⟩
  | 91 => ⟨S3, .f32⟩
  | 92 => ⟨S3, .f32⟩
  | 93 => ⟨S3x1, .f32⟩
  | 94 => ⟨S3x64, .f32⟩
  | 95 => ⟨S3x64, .f32⟩
  | 96 => ⟨S_, .f32⟩
  | 97 => ⟨S3x64, .f32⟩
  | 98 => ⟨S3x64, .i1⟩
  | 99 => ⟨S3x64, .f32⟩
  | 100 => ⟨S192, .f32⟩
  | 101 => ⟨S_, .i32⟩
  | 102 => ⟨S3200000, .i32⟩
  | 103 => ⟨S3200000, .i1⟩
  | 104 => ⟨S_, .i32⟩
  | 105 => ⟨S3200000, .i32⟩
  | 106 => ⟨S3200000, .i32⟩
  | 107 => ⟨S3200000, .i32⟩
  | 108 => ⟨S3200000x1, .i32⟩
  | 109 => ⟨S3200000x64, .f32⟩
  | 110 => ⟨S_, .f32⟩
  | 111 => ⟨S100000x64, .f32⟩
  | 112 => ⟨S3200000x1, .i32⟩
  | 113 => ⟨S100000x64, .f32⟩
  | 114 => ⟨S100000x64, .f32⟩
  | 115 => ⟨S1x64, .f32⟩
  | 116 => ⟨S1x64, .f32⟩
  | 117 => ⟨S100000x64, .f32⟩
  | 118 => ⟨S3x64, .f32⟩
  | 119 => ⟨S3x1, .f32⟩
  | 120 => ⟨S_, .f32⟩
  | 121 => ⟨S3x1, .f32⟩
  | 122 => ⟨S3x1, .i1⟩
  | 123 => ⟨S_, .f32⟩
  | 124 => ⟨S3, .f32⟩
  | 125 => ⟨S3, .f32⟩
  | 126 => ⟨S3x1, .f32⟩
  | 127 => ⟨S3x64, .f32⟩
  | _ => ⟨S100000x2, .f32⟩

abbrev hbmTy0_1 (i : Nat) : BufTy := match i % 128 with
  | 0 => ⟨S3x64, .f32⟩
  | 1 => ⟨S_, .f32⟩
  | 2 => ⟨S3x64, .f32⟩
  | 3 => ⟨S3x64, .i1⟩
  | 4 => ⟨S3x64, .f32⟩
  | 5 => ⟨S192, .f32⟩
  | 6 => ⟨S576, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | .local _ .vmem, ⟨0, _⟩ => ⟨S10000x2, .f32⟩
  | .local _ .vmem, ⟨1, _⟩ => ⟨S10000x2, .f32⟩
  | .local _ .vmem, ⟨2, _⟩ => ⟨S2x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S5000x64, .f32⟩
  | .local _ .vmem, ⟨9, _⟩ => ⟨S5000x64, .f32⟩
  | .local _ .vmem, ⟨10, _⟩ => ⟨S5000x1, .f32⟩
  | .local _ .vmem, ⟨11, _⟩ => ⟨S5000x1, .f32⟩
  | .local _ .vmem, ⟨12, _⟩ => ⟨S5000x1, .f32⟩
  | .local _ .vmem, ⟨13, _⟩ => ⟨S5000x1, .f32⟩
  | .local _ .vmem, ⟨14, _⟩ => ⟨S5000x1, .f32⟩
  | .local _ .vmem, ⟨15, _⟩ => ⟨S5000x1, .f32⟩
  | .local _ .vmem, ⟨16, _⟩ => ⟨S3x64, .f32⟩
  | .local _ .vmem, ⟨17, _⟩ => ⟨S3x64, .f32⟩
  | .local _ .vmem, ⟨18, _⟩ => ⟨S10000x64, .f32⟩
  | .local _ .vmem, ⟨19, _⟩ => ⟨S10000x64, .f32⟩
  | .local _ .vmem, ⟨20, _⟩ => ⟨S64x64, .f32⟩
  | .local _ .vmem, ⟨21, _⟩ => ⟨S1x64, .f32⟩
  | .local _ .vmem, ⟨22, _⟩ => ⟨S64x64, .f32⟩
  | .local _ .vmem, ⟨23, _⟩ => ⟨S1x64, .f32⟩
  | .local _ .vmem, ⟨24, _⟩ => ⟨S10000x64, .f32⟩
  | .local _ .vmem, ⟨25, _⟩ => ⟨S10000x64, .f32⟩
  | .local _ .vmem, ⟨26, _⟩ => ⟨S5000x64, .f32⟩
  | .local _ .vmem, ⟨27, _⟩ => ⟨S5000x64, .f32⟩
  | .local _ .vmem, ⟨28, _⟩ => ⟨S5000x1, .f32⟩
  | .local _ .vmem, ⟨29, _⟩ => ⟨S5000x1, .f32⟩
  | .local _ .vmem, ⟨30, _⟩ => ⟨S5000x1, .f32⟩
  | .local _ .vmem, ⟨31, _⟩ => ⟨S5000x1, .f32⟩
  | .local _ .vmem, ⟨32, _⟩ => ⟨S5000x1, .f32⟩
  | .local _ .vmem, ⟨33, _⟩ => ⟨S5000x1, .f32⟩
  | .local _ .vmem, ⟨34, _⟩ => ⟨S3x64, .f32⟩
  | .local _ .vmem, ⟨35, _⟩ => ⟨S3x64, .f32⟩
  | .local _ .vmem, ⟨36, _⟩ => ⟨S10000x64, .f32⟩
  | .local _ .vmem, ⟨37, _⟩ => ⟨S10000x64, .f32⟩
  | .local _ .vmem, ⟨38, _⟩ => ⟨S64x64, .f32⟩
  | .local _ .vmem, ⟨39, _⟩ => ⟨S1x64, .f32⟩
  | .local _ .vmem, ⟨40, _⟩ => ⟨S64x64, .f32⟩
  | .local _ .vmem, ⟨41, _⟩ => ⟨S1x64, .f32⟩
  | .local _ .vmem, ⟨42, _⟩ => ⟨S10000x64, .f32⟩
  | .local _ .vmem, ⟨43, _⟩ => ⟨S10000x64, .f32⟩
  | .local _ .vmem, ⟨44, _⟩ => ⟨S5000x64, .f32⟩
  | .local _ .vmem, ⟨45, _⟩ => ⟨S5000x64, .f32⟩
  | .local _ .vmem, ⟨46, _⟩ => ⟨S5000x1, .f32⟩
  | .local _ .vmem, ⟨47, _⟩ => ⟨S5000x1, .f32⟩
  | .local _ .vmem, ⟨48, _⟩ => ⟨S5000x1, .f32⟩
  | .local _ .vmem, ⟨49, _⟩ => ⟨S5000x1, .f32⟩
  | .local _ .vmem, ⟨50, _⟩ => ⟨S5000x1, .f32⟩
  | .local _ .vmem, ⟨51, _⟩ => ⟨S5000x1, .f32⟩
  | .local _ .vmem, ⟨52, _⟩ => ⟨S3x64, .f32⟩
  | .local _ .vmem, ⟨53, _⟩ => ⟨S3x64, .f32⟩
  | _, _ => ⟨S100000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_4 : Ref sig .tc := ⟨.hbm, 54, rfl⟩
abbrev main_v31 : Ref sig .tc := ⟨.hbm, 55, rfl⟩
abbrev main_v32 : Ref sig .tc := ⟨.hbm, 56, rfl⟩
abbrev main_cst_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_call0_v0 : Ref sig .tc := ⟨.hbm, 65, rfl⟩
abbrev main_v39 : Ref sig .tc := ⟨.hbm, 66, rfl⟩
abbrev main_v40 : Ref sig .tc := ⟨.hbm, 67, rfl⟩
abbrev main_c_7 : Ref sig .tc := ⟨.hbm, 68, rfl⟩
abbrev main_v41 : Ref sig .tc := ⟨.hbm, 69, rfl⟩
abbrev main_v42 : Ref sig .tc := ⟨.hbm, 70, rfl⟩
abbrev main_c_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_9 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_12 : Ref sig .tc := ⟨.hbm, 96, rfl⟩
abbrev main_v64 : Ref sig .tc := ⟨.hbm, 97, rfl⟩
abbrev main_call1_v0 : Ref sig .tc := ⟨.hbm, 98, rfl⟩
abbrev main_v65 : Ref sig .tc := ⟨.hbm, 99, rfl⟩
abbrev main_v66 : Ref sig .tc := ⟨.hbm, 100, rfl⟩
abbrev main_c_13 : Ref sig .tc := ⟨.hbm, 101, rfl⟩
abbrev main_v67 : Ref sig .tc := ⟨.hbm, 102, rfl⟩
abbrev main_v68 : Ref sig .tc := ⟨.hbm, 103, rfl⟩
abbrev main_c_14 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_15 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_cst_16 : Ref sig .tc := ⟨.hbm, 120, rfl⟩
abbrev main_v83 : Ref sig .tc := ⟨.hbm, 121, rfl⟩
abbrev main_v84 : Ref sig .tc := ⟨.hbm, 122, rfl⟩
abbrev main_cst_17 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_18 : Ref sig .tc := ⟨.hbm, 129, rfl⟩
abbrev main_v90 : Ref sig .tc := ⟨.hbm, 130, rfl⟩
abbrev main_call2_v0 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc3_stg3_0 : Ref sig .tc := ⟨.vmem, 32, rfl⟩
abbrev cc3_stg3_1 : Ref sig .tc := ⟨.vmem, 33, rfl⟩
abbrev cc3_stg4_0 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg4_0 : Ref sig .tc := ⟨.vmem, 41, rfl⟩
abbrev cc4_stg5_0 : Ref sig .tc := ⟨.vmem, 42, rfl⟩
abbrev cc4_stg5_1 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg1_1 : Ref sig .tc := ⟨.vmem, 47, rfl⟩
abbrev cc5_stg2_0 : Ref sig .tc := ⟨.vmem, 48, rfl⟩
abbrev cc5_stg2_1 : Ref sig .tc := ⟨.vmem, 49, rfl⟩
abbrev cc5_stg3_0 : Ref sig .tc := ⟨.vmem, 50, rfl⟩
abbrev cc5_stg3_1 : Ref sig .tc := ⟨.vmem, 51, rfl⟩
abbrev cc5_stg4_0 : Ref sig .tc := ⟨.vmem, 52, rfl⟩
abbrev cc5_scratch0 : Ref sig .tc := ⟨.vmem, 53, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32
abbrev cc3_sem4_0 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem3_1 : DmaSem sig := 49
abbrev cc5_sem4_0 : DmaSem sig := 50

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v38 : BitVec 1 := Scalar.cmpi .eq arg0 c19_i32
  let v39 : BitVec 32 := Scalar.extui v38
  let c0_i32_20 : BitVec 32 := 0#32
  let v40 : BitVec 1 := Scalar.cmpi .ne v39 c0_i32_20
  v40

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S3x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def k3_cond2 (i : grid3.Coords) : BitVec 1 :=
  let arg0 : BitVec 32 := BitVec.ofNat 32 (i 0).val
  let c19_i32 : BitVec 32 := 19#32
  let v38 : BitVec 1 := Scalar.cmpi .eq arg0 c19_i32
  let v39 : BitVec 32 := Scalar.extui v38
  let c0_i32_20 : BitVec 32 := 0#32
  let v40 : BitVec 1 := Scalar.cmpi .ne v39 c0_i32_20
  v40

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S3x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def k5_cond2 (i : grid5.Coords) : BitVec 1 :=
  let arg0 : BitVec 32 := BitVec.ofNat 32 (i 0).val
  let c19_i32 : BitVec 32 := 19#32
  let v38 : BitVec 1 := Scalar.cmpi .eq arg0 c19_i32
  let v39 : BitVec 32 := Scalar.extui v38
  let c0_i32_20 : BitVec 32 := 0#32
  let v40 : BitVec 1 := Scalar.cmpi .ne v39 c0_i32_20
  v40

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x1 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S3x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

class Facts₀ : Prop where
  shapeCasts_S100000_S100000x1 : S100000.ShapeCasts S100000x1
  reducesTo_S100000x1_S_d0_1 : S100000x1.ReducesTo [0, 1] S_
  h_S_ : 0 < S_.numel
  bcast_S_S1 : S_.BroadcastsInDim S1 (![] : Fin 0 → Fin S1.rank)
  concatenates_S1_S1_S1_S3_d0 : Shape.Concatenates [S1, S1, S1] S3 0
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x2 : S_.BroadcastsInDim S100000x2 (![] : Fin 0 → Fin S100000x2.rank)
  shapeCasts_S64_S1x64 : S64.ShapeCasts S1x64
  inb_S10000x2_S10000x2_0_0 : ∀ a, (![0, 0] : Fin 2 → Nat) a + S10000x2.size a ≤ S10000x2.size a
  h_S10000x2 : 0 < S10000x2.numel
  shapeCasts_S10000x2_S10000x2 : S10000x2.ShapeCasts S10000x2
  bitsLt_bf16_f32 : FTy.bits .bf16 < FTy.bits .f32
  inb_S2x64_S2x64_0_0 : ∀ a, (![0, 0] : Fin 2 → Nat) a + S2x64.size a ≤ S2x64.size a
  h_S2x64 : 0 < S2x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  inb_S10000x64_S10000x64_0_0 : ∀ a, (![0, 0] : Fin 2 → Nat) a + S10000x64.size a ≤ S10000x64.size a
  h_S10000x64 : 0 < S10000x64.numel
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  reduces_S5000x64_S64 : S5000x64.Reduces [0] S64
  inb_S3x64_S1x64_0_0 : ∀ a, (![0, 0] : Fin 2 → Nat) a + S1x64.size a ≤ S3x64.size a
  inb_S3x64_S1x64_1_0 : ∀ a, (![1, 0] : Fin 2 → Nat) a + S1x64.size a ≤ S3x64.size a
  inb_S3x64_S1x64_2_0 : ∀ a, (![2, 0] : Fin 2 → Nat) a + S1x64.size a ≤ S3x64.size a
  bcast_S3_S3x1_0 : S3.BroadcastsInDim S3x1 (![0] : Fin 1 → Fin S3x1.rank)
  bcast_S_S3x1 : S_.BroadcastsInDim S3x1 (![] : Fin 0 → Fin S3x1.rank)
  bcast_S_S3 : S_.BroadcastsInDim S3 (![] : Fin 0 → Fin S3.rank)
  bcast_S3x1_S3x64_0_1 : S3x1.BroadcastsInDim S3x64 (![0, 1] : Fin 2 → Fin S3x64.rank)
  bcast_S_S3x64 : S_.BroadcastsInDim S3x64 (![] : Fin 0 → Fin S3x64.rank)
  shapeCasts_S3x64_S192 : S3x64.ShapeCasts S192
  bcast_S_S100000x64 : S_.BroadcastsInDim S100000x64 (![] : Fin 0 → Fin S100000x64.rank)
  shapeCasts_S10000x64_S10000x64 : S10000x64.ShapeCasts S10000x64
  concatenates_S192_S192_S192_S576_d0 : Shape.Concatenates [S192, S192, S192] S576 0
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1
  dot_S10000x2_S2x64_S10000x64_1_0_0_1_n_n_wf : DotDims.WF S10000x2 S2x64 S10000x64 [1] [0] [0] [1] [] []
  dot_S10000x64_S64x64_S10000x64_1_0_0_1_n_n_wf : DotDims.WF S10000x64 S64x64 S10000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x2.size a ≤ S100000x2.size a
  hwx0_0 : ∀ i : grid0.Coords, EltTy.bits .f32 = 32 ∨ (Rect.block (s := S100000x2) S10000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x64.size a ≤ S2x64.size a
  hwx0_1 : ∀ i : grid0.Coords, EltTy.bits .f32 = 32 ∨ (Rect.block (s := S2x64) S2x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S100000x1.size a
  hwx1_3 : ∀ i : grid1.Coords, EltTy.bits .f32 = 32 ∨ (Rect.block (s := S100000x1) S5000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x64.size a ≤ S3x64.size a
  hwx1_4 : ∀ i : grid1.Coords, EltTy.bits .f32 = 32 ∨ (Rect.block (s := S3x64) S3x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x64.size a ≤ S100000x64.size a
  hwx2_5 : ∀ i : grid2.Coords, EltTy.bits .f32 = 32 ∨ (Rect.block (s := S100000x64) S10000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S100000x1.size a
  hwx3_3 : ∀ i : grid3.Coords, EltTy.bits .f32 = 32 ∨ (Rect.block (s := S100000x1) S5000x1.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S3x64.size a ≤ S3x64.size a
  hwx3_4 : ∀ i : grid3.Coords, EltTy.bits .f32 = 32 ∨ (Rect.block (s := S3x64) S3x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .f32 = 32 ∨ (Rect.block (s := S100000x64) S10000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S100000x1.size a
  hwx5_2 : ∀ i : grid5.Coords, EltTy.bits .f32 = 32 ∨ (Rect.block (s := S100000x1) S5000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x1.size a ≤ S100000x1.size a
  hwx5_3 : ∀ i : grid5.Coords, EltTy.bits .f32 = 32 ∨ (Rect.block (s := S100000x1) S5000x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S3x64.size a ≤ S3x64.size a
  hwx5_4 : ∀ i : grid5.Coords, EltTy.bits .f32 = 32 ∨ (Rect.block (s := S3x64) S3x64.size (cc5_transform_4 i) (hinb5_4 i)).WholeWords (EltTy.packing .f32)

variable [Facts₀]

def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def dot_S10000x2_S2x64_S10000x64_1_0_0_1_n_n : DotDims S10000x2 S2x64 S10000x64 where
  lhsContracting := [1]
  rhsContracting := [0]
  lhsNonContracting := [0]
  rhsNonContracting := [1]
  lhsBatch := []
  rhsBatch := []
  wf := dot_S10000x2_S2x64_S10000x64_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_v25) S10000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S2x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29) S3x64.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_v51) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S10000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v54) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v7) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v55) S3x64.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev idle3 : Fin 5 → grid3.Coords → Bool := fun | 0 => fun _ => false | 1 => fun _ => false | 2 => fun _ => false | 3 => fun _ => false | 4 => fun i => !(k3_cond2 i == 1#1) | ⟨_ + 5, h⟩ => absurd h (Nat.not_lt.2 (Nat.le_add_left _ _))

abbrev win4_0 : Pipeline.Window sig grid4 :=
  Pipeline.Window.ofSpec (Memref.whole main_v77) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v78) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v79) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v80) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v80) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v3) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v5) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v7) S5000x1.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v81) S3x64.size cc5_transform_4 reads5_4 true true 1 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev idle5 : Fin 5 → grid5.Coords → Bool := fun | 0 => fun _ => false | 1 => fun _ => false | 2 => fun _ => false | 3 => fun _ => false | 4 => fun i => !(k5_cond2 i == 1#1) | ⟨_ + 5, h⟩ => absurd h (Nat.not_lt.2 (Nat.le_add_left _ _))

class Facts : Prop extends Facts₀ where

variable [Facts]
-- ==== ReferenceIdeal.lean ====
abbrev S100000x2 : Shape := ⟨2, ![100000, 2]⟩
abbrev S3200000 : Shape := ⟨1, ![3200000]⟩
abbrev S100000 : Shape := ⟨1, ![100000]⟩
abbrev S2x64 : Shape := ⟨2, ![2, 64]⟩
abbrev S64 : Shape := ⟨1, ![64]⟩
abbrev S64x64 : Shape := ⟨2, ![64, 64]⟩
abbrev S_ : Shape := ⟨0, ![]⟩
abbrev S3200000x1 : Shape := ⟨2, ![3200000, 1]⟩
abbrev S3200000x2 : Shape := ⟨2, ![3200000, 2]⟩
abbrev S100000x64 : Shape := ⟨2, ![100000, 64]⟩
abbrev S1x64 : Shape := ⟨2, ![1, 64]⟩
abbrev S1x100000 : Shape := ⟨2, ![1, 100000]⟩
abbrev S3x100000 : Shape := ⟨2, ![3, 100000]⟩
abbrev S3 : Shape := ⟨1, ![3]⟩
abbrev S3x64 : Shape := ⟨2, ![3, 64]⟩
abbrev S3x1 : Shape := ⟨2, ![3, 1]⟩
abbrev S192 : Shape := ⟨1, ![192]⟩
abbrev S3200000x64 : Shape := ⟨2, ![3200000, 64]⟩
abbrev S576 : Shape := ⟨1, ![576]⟩

abbrev nBuf : Space → Nat
  | .hbm => 177
  | .vmem => 0
  | .smem => 0
  | _ => 0

abbrev hbmTy0_0 (i : Nat) : BufTy := match i % 128 with
  | 0 => ⟨S100000x2, .f32⟩
  | 1 => ⟨S3200000, .i32⟩
  | 2 => ⟨S3200000, .i32⟩
  | 3 => ⟨S100000, .i1⟩
  | 4 => ⟨S100000, .i1⟩
  | 5 => ⟨S2x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64x64, .f32⟩
  | 16 => ⟨S64, .f32⟩
  | 17 => ⟨S_, .i32⟩
  | 18 => ⟨S3200000, .i32⟩
  | 19 => ⟨S3200000, .i1⟩
  | 20 => ⟨S_, .i32⟩
  | 21 => ⟨S3200000, .i32⟩
  | 22 => ⟨S3200000, .i32⟩
  | 23 => ⟨S3200000, .i32⟩
  | 24 => ⟨S3200000x1, .i32⟩
  | 25 => ⟨S3200000x2, .f32⟩
  | 26 => ⟨S_, .f32⟩
  | 27 => ⟨S100000x2, .f32⟩
  | 28 => ⟨S3200000x1, .i32⟩
  | 29 => ⟨S100000x2, .f32⟩
  | 30 => ⟨S100000x2, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S100000x64, .f32⟩
  | 37 => ⟨S100000x64, .f32⟩
  | 38 => ⟨S100000x64, .f32⟩
  | 39 => ⟨S1x64, .f32⟩
  | 40 => ⟨S100000x64, .f32⟩
  | 41 => ⟨S100000x64, .f32⟩
  | 42 => ⟨S_, .f32⟩
  | 43 => ⟨S100000x64, .f32⟩
  | 44 => ⟨S100000x64, .f32⟩
  | 45 => ⟨S100000, .i1⟩
  | 46 => ⟨S100000, .i1⟩
  | 47 => ⟨S1x100000, .i1⟩
  | 48 => ⟨S1x100000, .i1⟩
  | 49 => ⟨S1x100000, .i1⟩
  | 50 => ⟨S3x100000, .i1⟩
  | 51 => ⟨S3x100000, .f32⟩
  | 52 => ⟨S_, .f32⟩
  | 53 => ⟨S3, .f32⟩
  | 54 => ⟨S3x64, .f32⟩
  | 55 => ⟨S3x1, .f32⟩
  | 56 => ⟨S_, .f32⟩
  | 57 => ⟨S3x1, .f32⟩
  | 58 => ⟨S3x1, .i1⟩
  | 59 => ⟨S_, .f32⟩
  | 60 => ⟨S3, .f32⟩
  | 61 => ⟨S3, .f32⟩
  | 62 => ⟨S3x1, .f32⟩
  | 63 => ⟨S3x64, .f32⟩
  | 64 => ⟨S3x64, .f32⟩
  | 65 => ⟨S_, .f32⟩
  | 66 => ⟨S3x64, .f32⟩
  | 67 => ⟨S3x64, .i1⟩
  | 68 => ⟨S3x64, .f32⟩
  | 69 => ⟨S192, .f32⟩
  | 70 => ⟨S_, .i32⟩
  | 71 => ⟨S3200000, .i32⟩
  | 72 => ⟨S3200000, .i1⟩
  | 73 => ⟨S_, .i32⟩
  | 74 => ⟨S3200000, .i32⟩
  | 75 => ⟨S3200000, .i32⟩
  | 76 => ⟨S3200000, .i32⟩
  | 77 => ⟨S3200000x1, .i32⟩
  | 78 => ⟨S3200000x64, .f32⟩
  | 79 => ⟨S_, .f32⟩
  | 80 => ⟨S100000x64, .f32⟩
  | 81 => ⟨S3200000x1, .i32⟩
  | 82 => ⟨S100000x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S100000x64, .f32⟩
  | 92 => ⟨S1x64, .f32⟩
  | 93 => ⟨S100000x64, .f32⟩
  | 94 => ⟨S100000x64, .f32⟩
  | 95 => ⟨S_, .f32⟩
  | 96 => ⟨S100000x64, .f32⟩
  | 97 => ⟨S100000x64, .f32⟩
  | 98 => ⟨S100000, .i1⟩
  | 99 => ⟨S100000, .i1⟩
  | 100 => ⟨S1x100000, .i1⟩
  | 101 => ⟨S1x100000, .i1⟩
  | 102 => ⟨S1x100000, .i1⟩
  | 103 => ⟨S3x100000, .i1⟩
  | 104 => ⟨S3x100000, .f32⟩
  | 105 => ⟨S_, .f32⟩
  | 106 => ⟨S3, .f32⟩
  | 107 => ⟨S3x64, .f32⟩
  | 108 => ⟨S3x1, .f32⟩
  | 109 => ⟨S_, .f32⟩
  | 110 => ⟨S3x1, .f32⟩
  | 111 => ⟨S3x1, .i1⟩
  | 112 => ⟨S_, .f32⟩
  | 113 => ⟨S3, .f32⟩
  | 114 => ⟨S3, .f32⟩
  | 115 => ⟨S3x1, .f32⟩
  | 116 => ⟨S3x64, .f32⟩
  | 117 => ⟨S3x64, .f32⟩
  | 118 => ⟨S_, .f32⟩
  | 119 => ⟨S3x64, .f32⟩
  | 120 => ⟨S3x64, .i1⟩
  | 121 => ⟨S3x64, .f32⟩
  | 122 => ⟨S192, .f32⟩
  | 123 => ⟨S_, .i32⟩
  | 124 => ⟨S3200000, .i32⟩
  | 125 => ⟨S3200000, .i1⟩
  | 126 => ⟨S_, .i32⟩
  | 127 => ⟨S3200000, .i32⟩
  | _ => ⟨S100000x2, .f32⟩

abbrev hbmTy0_1 (i : Nat) : BufTy := match i % 128 with
  | 0 => ⟨S3200000, .i32⟩
  | 1 => ⟨S3200000, .i32⟩
  | 2 => ⟨S3200000x1, .i32⟩
  | 3 => ⟨S3200000x64, .f32⟩
  | 4 => ⟨S_, .f32⟩
  | 5 => ⟨S100000x64, .f32⟩
  | 6 => ⟨S3200000x1, .i32⟩
  | 7 => ⟨S100000x64, .f32⟩
  | 8 => ⟨S100000x64, .f32⟩
  | 9 => ⟨S100000x64, .f32⟩
  | 10 => ⟨S1x64, .f32⟩
  | 11 => ⟨S100000x64, .f32⟩
  | 12 => ⟨S100000x64, .f32⟩
  | 13 => ⟨S_, .f32⟩
  | 14 => ⟨S100000x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S100000x64, .f32⟩
  | 22 => ⟨S100000x64, .f32⟩
  | 23 => ⟨S100000, .i1⟩
  | 24 => ⟨S100000, .i1⟩
  | 25 => ⟨S1x100000, .i1⟩
  | 26 => ⟨S1x100000, .i1⟩
  | 27 => ⟨S1x100000, .i1⟩
  | 28 => ⟨S3x100000, .i1⟩
  | 29 => ⟨S3x100000, .f32⟩
  | 30 => ⟨S_, .f32⟩
  | 31 => ⟨S3, .f32⟩
  | 32 => ⟨S3x64, .f32⟩
  | 33 => ⟨S3x1, .f32⟩
  | 34 => ⟨S_, .f32⟩
  | 35 => ⟨S3x1, .f32⟩
  | 36 => ⟨S3x1, .i1⟩
  | 37 => ⟨S_, .f32⟩
  | 38 => ⟨S3, .f32⟩
  | 39 => ⟨S3, .f32⟩
  | 40 => ⟨S3x1, .f32⟩
  | 41 => ⟨S3x64, .f32⟩
  | 42 => ⟨S3x64, .f32⟩
  | 43 => ⟨S_, .f32⟩
  | 44 => ⟨S3x64, .f32⟩
  | 45 => ⟨S3x64, .i1⟩
  | 46 => ⟨S3x64, .f32⟩
  | 47 => ⟨S192, .f32⟩
  | 48 => ⟨S576, .f32⟩
  | _ => ⟨S100000x2, .f32⟩

abbrev hbmTy (i : Nat) : BufTy := match i / 128 with
  | 0 => hbmTy0_0 i
  | 1 => hbmTy0_1 i
  | _ => ⟨S100000x2, .f32⟩

abbrev bufTy : (tb : Table) → Fin (tcTables nBuf tb) → BufTy
  | .hbm, ⟨i, _⟩ => hbmTy i
  | _, _ => ⟨S100000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_call0_cst : Ref sig .tc := ⟨.hbm, 35, rfl⟩
abbrev main_call0_v0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_call1_cst : Ref sig .tc := ⟨.hbm, 42, rfl⟩
abbrev main_call1_v0 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_1 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_2 : Ref sig .tc := ⟨.hbm, 56, rfl⟩
abbrev main_v31 : Ref sig .tc := ⟨.hbm, 57, rfl⟩
abbrev main_v32 : Ref sig .tc := ⟨.hbm, 58, rfl⟩
abbrev main_cst_3 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_4 : Ref sig .tc := ⟨.hbm, 65, rfl⟩
abbrev main_v38 : Ref sig .tc := ⟨.hbm, 66, rfl⟩
abbrev main_call2_v0 : Ref sig .tc := ⟨.hbm, 67, rfl⟩
abbrev main_v39 : Ref sig .tc := ⟨.hbm, 68, rfl⟩
abbrev main_v40 : Ref sig .tc := ⟨.hbm, 69, rfl⟩
abbrev main_c_5 : Ref sig .tc := ⟨.hbm, 70, rfl⟩
abbrev main_v41 : Ref sig .tc := ⟨.hbm, 71, rfl⟩
abbrev main_v42 : Ref sig .tc := ⟨.hbm, 72, rfl⟩
abbrev main_c_6 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_cst_7 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_call3_cst : Ref sig .tc := ⟨.hbm, 88, rfl⟩
abbrev main_call3_v0 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_call4_cst : Ref sig .tc := ⟨.hbm, 95, rfl⟩
abbrev main_call4_v0 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_8 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_9 : Ref sig .tc := ⟨.hbm, 109, rfl⟩
abbrev main_v72 : Ref sig .tc := ⟨.hbm, 110, rfl⟩
abbrev main_v73 : Ref sig .tc := ⟨.hbm, 111, rfl⟩
abbrev main_cst_10 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_cst_11 : Ref sig .tc := ⟨.hbm, 118, rfl⟩
abbrev main_v79 : Ref sig .tc := ⟨.hbm, 119, rfl⟩
abbrev main_call5_v0 : Ref sig .tc := ⟨.hbm, 120, rfl⟩
abbrev main_v80 : Ref sig .tc := ⟨.hbm, 121, rfl⟩
abbrev main_v81 : Ref sig .tc := ⟨.hbm, 122, rfl⟩
abbrev main_c_12 : Ref sig .tc := ⟨.hbm, 123, rfl⟩
abbrev main_v82 : Ref sig .tc := ⟨.hbm, 124, rfl⟩
abbrev main_v83 : Ref sig .tc := ⟨.hbm, 125, rfl⟩
abbrev main_c_13 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_cst_14 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_call6_cst : Ref sig .tc := ⟨.hbm, 141, rfl⟩
abbrev main_call6_v0 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_call7_cst : Ref sig .tc := ⟨.hbm, 148, rfl⟩
abbrev main_call7_v0 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_cst_15 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_cst_16 : Ref sig .tc := ⟨.hbm, 162, rfl⟩
abbrev main_v113 : Ref sig .tc := ⟨.hbm, 163, rfl⟩
abbrev main_v114 : Ref sig .tc := ⟨.hbm, 164, rfl⟩
abbrev main_cst_17 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_cst_18 : Ref sig .tc := ⟨.hbm, 171, rfl⟩
abbrev main_v120 : Ref sig .tc := ⟨.hbm, 172, rfl⟩
abbrev main_call8_v0 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x2 : S_.BroadcastsInDim S100000x2 (![] : Fin 0 → Fin S100000x2.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000_S1x100000_1 : S100000.BroadcastsInDim S1x100000 (![1] : Fin 1 → Fin S1x100000.rank)
  concatenates_S1x100000_S1x100000_S1x100000_S3x100000_d0 : Shape.Concatenates [S1x100000, S1x100000, S1x100000] S3x100000 0
  reducesTo_S3x100000_S3_d1 : S3x100000.ReducesTo [1] S3
  h_S_ : 0 < S_.numel
  bcast_S3_S3x1_0 : S3.BroadcastsInDim S3x1 (![0] : Fin 1 → Fin S3x1.rank)
  bcast_S_S3x1 : S_.BroadcastsInDim S3x1 (![] : Fin 0 → Fin S3x1.rank)
  bcast_S_S3 : S_.BroadcastsInDim S3 (![] : Fin 0 → Fin S3.rank)
  bcast_S3x1_S3x64_0_1 : S3x1.BroadcastsInDim S3x64 (![0, 1] : Fin 2 → Fin S3x64.rank)
  bcast_S_S3x64 : S_.BroadcastsInDim S3x64 (![] : Fin 0 → Fin S3x64.rank)
  shapeCasts_S3x64_S192 : S3x64.ShapeCasts S192
  concatenates_S192_S192_S192_S576_d0 : Shape.Concatenates [S192, S192, S192] S576 0
  gather_S100000x2_S3200000x1_S3200000x2_1_0_n_n_0_1_12_wf : GatherDims.WF S100000x2 S3200000x1 S3200000x2 [1] [0] [] [0] [] 1 ![1, 2]
  scatter_S100000x2_S3200000x1_S3200000x2_1_0_0_1_wf : ScatterDims.WF S100000x2 S3200000x1 S3200000x2 [1] [0] [0] 1
  dot_S100000x2_S2x64_S100000x64_1_0_0_1_n_n_wf : DotDims.WF S100000x2 S2x64 S100000x64 [1] [0] [0] [1] [] []
  dot_S100000x64_S64x64_S100000x64_1_0_0_1_n_n_wf : DotDims.WF S100000x64 S64x64 S100000x64 [1] [0] [0] [1] [] []
  dot_S3x100000_S100000x64_S3x64_1_0_0_1_n_n_wf : DotDims.WF S3x100000 S100000x64 S3x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def scatter_S100000x2_S3200000x1_S3200000x2_1_0_0_1 : ScatterDims S100000x2 S3200000x1 S3200000x2 where
  updateWindowDims := [1]
  insertedWindowDims := [0]
  scatterDimsToOperandDims := [0]
  indexVectorDim := 1
  wf := scatter_S100000x2_S3200000x1_S3200000x2_1_0_0_1_wf
def dot_S100000x2_S2x64_S100000x64_1_0_0_1_n_n : DotDims S100000x2 S2x64 S100000x64 where
  lhsContracting := [1]
  rhsContracting := [0]
  lhsNonContracting := [0]
  rhsNonContracting := [1]
  lhsBatch := []
  rhsBatch := []
  wf := dot_S100000x2_S2x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S3x100000_S100000x64_S3x64_1_0_0_1_n_n : DotDims S3x100000 S100000x64 S3x64 where
  lhsContracting := [1]
  rhsContracting := [0]
  lhsNonContracting := [0]
  rhsNonContracting := [1]
  lhsBatch := []
  rhsBatch := []
  wf := dot_S3x100000_S100000x64_S3x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.K_Mlp0.lean ====
import proofs.«181750_j70806830841988_1_alg».proof.Proof.Gen.Kernel.Launch
import proofs.«181750_j70806830841988_1_alg».proof.Proof.Gen.Kernel.Skeleton
import proofs.«181750_j70806830841988_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The dense layer of pipeline 0: what its body does to the staging buffers

Pipeline 0 walks ten row blocks of 10000 rows. At each block it holds six staging buffers: the activation rows of the
block, the first weight matrix, the first bias row, the second weight matrix, the second bias row, and the block
of output rows. The body reads the five inputs whole, forms one 10000 x 64 value from them, and overwrites the
output buffer whole with it; the inputs stay as they were. Everything here is stated for an arbitrary assignment
`V` of contents to the core's buffers at the moment the pipeline starts, and for an arbitrary float model.
-/

-- membership of an index in a rectangle 10000 rows long is found by structural recursion along the rows
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the pipeline starts
variable (V : (c : Dev nD) → (b : Ref sig .tc) → Buf (Elt F) ((c : Thread nD τ).loc b))

/-! ## Blocks -/

/-- The block of window `w` at grid point `t`: the part of the window's array, as `V` gives it, that the
    window's index map selects at `t`. For window 0 and the output this is rows `10000 t … 10000 t + 9999`;
    for the weights and biases it is the whole array at every point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds the window's block at EVERY point, whether or not a transfer filled it
    there, provided the array is `V`'s and the body leaves the buffer alone. Where it was filled this is what the
    transfer brought; where it was not, the block index is the one of the point before (the index map did not
    move, which is the case of the four parameter windows after the first point), and the buffer still holds
    that point's block, which is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each buffer, whole -/

abbrev r0_0 : Rect S10000x2 := Rect.unit (s := S10000x2) ![0, 0] S10000x2.size inb_S10000x2_S10000x2_0_0
abbrev r0_1 : Rect S2x64 := Rect.unit (s := S2x64) ![0, 0] S2x64.size inb_S2x64_S2x64_0_0
abbrev r0_2 : Rect S1x64 := Rect.unit (s := S1x64) ![0, 0] S1x64.size inb_S1x64_S1x64_0_0
abbrev r0_3 : Rect S64x64 := Rect.unit (s := S64x64) ![0, 0] S64x64.size inb_S64x64_S64x64_0_0
abbrev r0_4 : Rect S1x64 := Rect.unit (s := S1x64) ![0, 0] S1x64.size inb_S1x64_S1x64_0_0
abbrev r0_5 : Rect S10000x64 := Rect.unit (s := S10000x64) ![0, 0] S10000x64.size inb_S10000x64_S10000x64_0_0

/-! ## What the body leaves in the output buffer -/

/-- The output buffer after the body, as a function of what the five input buffers read: the one value the body
    stores, laid over the whole buffer. -/
def out0_5 (x0 : Vec F S10000x2 .f32) (x1 : Vec F S2x64 .f32) (x2 : Vec F S1x64 .f32) (x3 : Vec F S64x64 .f32) (x4 : Vec F S1x64 .f32) : Vec F S10000x64 .f32 :=
  View.canon [⟨r0_5, k0_pay1 (View.ld x0 r0_0) (View.ld x1 r0_1) (View.ld x2 r0_2) (View.ld x3 r0_3) (View.ld x4 r0_4)⟩]

/-- The one store is through the whole rectangle, so every index of the buffer lies in it. -/
theorem cover0_5 (p0 : Vec F S10000x64 .f32) (y : S10000x64.Idx) :
    ∃ pc ∈ ([⟨r0_5, p0⟩] : List (View.Piece (Elt F) S10000x64 .f32)), y ∈ pc.1.set :=
  View.cover_of_tiled [⟨r0_5, p0⟩] S10000x64.size (by rfl) y

/-! ## The body's triple -/

set_option maxHeartbeats 1000000 in
/-- Run on six whole staging buffers, the inputs reading `x0 … x4` and the output holding anything, the body ends
    with the inputs reading what they read and the output reading `out0_5 x0 … x4`. The body is five whole loads,
    one load of the output buffer whose value is dropped, and one whole store; after the store the buffer reads the
    stored value everywhere because the store's rectangle covers it. -/
theorem sound_kernel0 (c : Dev nD) (E : Set ℕ) (i : grid0.Coords) (arg1 : Memref sig .tc .vmem S10000x2 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x2 .f32) (x1 : Vec F S2x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The data the pipeline's correctness statement is instantiated at, on core `c`: the arrays are `V`'s; after the
    body at point `t` every input buffer holds its block and the output buffer holds `out0_5` of the five input
    blocks; the invariant is the one that leaves every other buffer and the generator register untouched; all
    shares are full and nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The data's arrays are `V`'s. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-! Each input buffer holds its block when the body starts, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body starts from at point `t`: the invariant, the core's debt, and each window's current staging
    buffer at what it holds before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it ends with: the same, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the triple above applies with `xW` the blocks;
    the invariant and the debt are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline's correctness statement asks of the body, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K_Mlp2.lean ====
import proofs.«181750_j70806830841988_1_alg».proof.Proof.Gen.Kernel.Launch
import proofs.«181750_j70806830841988_1_alg».proof.Proof.Gen.Kernel.Skeleton
import proofs.«181750_j70806830841988_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The dense layer of pipeline 2: what its body does to the staging buffers

Pipeline 2 walks ten row blocks of 10000 rows. At each block it holds six staging buffers: the activation rows of the
block, the first weight matrix, the first bias row, the second weight matrix, the second bias row, and the block
of output rows. The body reads the five inputs whole, forms one 10000 x 64 value from them, and overwrites the
output buffer whole with it; the inputs stay as they were. Everything here is stated for an arbitrary assignment
`V` of contents to the core's buffers at the moment the pipeline starts, and for an arbitrary float model.
-/

-- membership of an index in a rectangle 10000 rows long is found by structural recursion along the rows
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the pipeline starts
variable (V : (c : Dev nD) → (b : Ref sig .tc) → Buf (Elt F) ((c : Thread nD τ).loc b))

/-! ## Blocks -/

/-- The block of window `w` at grid point `t`: the part of the window's array, as `V` gives it, that the
    window's index map selects at `t`. For window 0 and the output this is rows `10000 t … 10000 t + 9999`;
    for the weights and biases it is the whole array at every point. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds the window's block at EVERY point, whether or not a transfer filled it
    there, provided the array is `V`'s and the body leaves the buffer alone. Where it was filled this is what the
    transfer brought; where it was not, the block index is the one of the point before (the index map did not
    move, which is the case of the four parameter windows after the first point), and the buffer still holds
    that point's block, which is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each buffer, whole -/

abbrev r2_0 : Rect S10000x64 := Rect.unit (s := S10000x64) ![0, 0] S10000x64.size inb_S10000x64_S10000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0
abbrev r2_3 : Rect S64x64 := Rect.unit (s := S64x64) ![0, 0] S64x64.size inb_S64x64_S64x64_0_0
abbrev r2_4 : Rect S1x64 := Rect.unit (s := S1x64) ![0, 0] S1x64.size inb_S1x64_S1x64_0_0
abbrev r2_5 : Rect S10000x64 := Rect.unit (s := S10000x64) ![0, 0] S10000x64.size inb_S10000x64_S10000x64_0_0

/-! ## What the body leaves in the output buffer -/

/-- The output buffer after the body, as a function of what the five input buffers read: the one value the body
    stores, laid over the whole buffer. -/
def out2_5 (x0 : Vec F S10000x64 .f32) (x1 : Vec F S64x64 .f32) (x2 : Vec F S1x64 .f32) (x3 : Vec F S64x64 .f32) (x4 : Vec F S1x64 .f32) : Vec F S10000x64 .f32 :=
  View.canon [⟨r2_5, k2_pay1 (View.ld x0 r2_0) (View.ld x1 r2_1) (View.ld x2 r2_2) (View.ld x3 r2_3) (View.ld x4 r2_4)⟩]

/-- The one store is through the whole rectangle, so every index of the buffer lies in it. -/
theorem cover2_5 (p0 : Vec F S10000x64 .f32) (y : S10000x64.Idx) :
    ∃ pc ∈ ([⟨r2_5, p0⟩] : List (View.Piece (Elt F) S10000x64 .f32)), y ∈ pc.1.set :=
  View.cover_of_tiled [⟨r2_5, p0⟩] S10000x64.size (by rfl) y

/-! ## The body's triple -/

set_option maxHeartbeats 1000000 in
/-- Run on six whole staging buffers, the inputs reading `x0 … x4` and the output holding anything, the body ends
    with the inputs reading what they read and the output reading `out2_5 x0 … x4`. The body is five whole loads,
    one load of the output buffer whose value is dropped, and one whole store; after the store the buffer reads the
    stored value everywhere because the store's rectangle covers it. -/
theorem sound_kernel2 (c : Dev nD) (E : Set ℕ) (i : grid2.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S64x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The data the pipeline's correctness statement is instantiated at, on core `c`: the arrays are `V`'s; after the
    body at point `t` every input buffer holds its block and the output buffer holds `out2_5` of the five input
    blocks; the invariant is the one that leaves every other buffer and the generator register untouched; all
    shares are full and nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The data's arrays are `V`'s. -/
theorem A_eq2 (c : Dev nD) (w : Fin cfg2.W) : (dat2 V c).A w = V c (Pipeline.arrRef spec2 w) := by
  dsimp only [dat2]

/-! What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-! Each input buffer holds its block when the body starts, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body starts from at point `t`: the invariant, the core's debt, and each window's current staging
    buffer at what it holds before the body, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it ends with: the same, each buffer at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their blocks, so the triple above applies with `xW` the blocks;
    the invariant and the debt are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline's correctness statement asks of the body, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K_Mlp4.lean ====
import proofs.«181750_j70806830841988_1_alg».proof.Proof.Gen.Kernel.Launch
import proofs.«181750_j70806830841988_1_alg».proof.Proof.Gen.Kernel.Skeleton
import proofs.«181750_j70806830841988_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The dense layer of pipeline 4: what its body does to the staging buffers

Pipeline 4 walks ten row blocks of 10000 rows. At each block it holds six staging buffers: the activation rows of the
block, the first weight matrix, the first bias row, the second weight matrix, the second bias row, and the block
of output rows. The body reads the five inputs whole, forms one 10000 x 64 value from them, and overwrites the
output buffer whole with it; the inputs stay as they were. Everything here is stated for an arbitrary assignment
`V` of contents to the core's buffers at the moment the pipeline starts, and for an arbitrary float model.
-/

-- membership of an index in a rectangle 10000 rows long is found by structural recursion along the rows
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the pipeline starts
variable (V : (c : Dev nD) → (b : Ref sig .tc) → Buf (Elt F) ((c : Thread nD τ).loc b))

/-! ## Blocks -/

/-- The block of window `w` at grid point `t`: the part of the window's array, as `V` gives it, that the
    window's index map selects at `t`. For window 0 and the output this is rows `10000 t … 10000 t + 9999`;
    for the weights and biases it is the whole array at every point. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's staging buffer holds the window's block at EVERY point, whether or not a transfer filled it
    there, provided the array is `V`'s and the body leaves the buffer alone. Where it was filled this is what the
    transfer brought; where it was not, the block index is the one of the point before (the index map did not
    move, which is the case of the four parameter windows after the first point), and the buffer still holds
    that point's block, which is this point's. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body reads and writes: each buffer, whole -/

abbrev r4_0 : Rect S10000x64 := Rect.unit (s := S10000x64) ![0, 0] S10000x64.size inb_S10000x64_S10000x64_0_0
abbrev r4_1 : Rect S64x64 := Rect.unit (s := S64x64) ![0, 0] S64x64.size inb_S64x64_S64x64_0_0
abbrev r4_2 : Rect S1x64 := Rect.unit (s := S1x64) ![0, 0] S1x64.size inb_S1x64_S1x64_0_0
abbrev r4_3 : Rect S64x64 := Rect.unit (s := S64x64) ![0, 0] S64x64.size inb_S64x64_S64x64_0_0
abbrev r4_4 : Rect S1x64 := Rect.unit (s := S1x64) ![0, 0] S1x64.size inb_S1x64_S1x64_0_0
abbrev r4_5 : Rect S10000x64 := Rect.unit (s := S10000x64) ![0, 0] S10000x64.size inb_S10000x64_S10000x64_0_0

/-! ## What the body leaves in the output buffer -/

/-- The output buffer after the body, as a function of what the five input buffers read: the one value the body
    stores, laid over the whole buffer. -/
def out4_5 (x0 : Vec F S10000x64 .f32) (x1 : Vec F S64x64 .f32) (x2 : Vec F S1x64 .f32) (x3 : Vec F S64x64 .f32) (x4 : Vec F S1x64 .f32) : Vec F S10000x64 .f32 :=
  View.canon [⟨r4_5, k4_pay1 (View.ld x0 r4_0) (View.ld x1 r4_1) (View.ld x2 r4_2) (View.ld x3 r4_3) (View.ld x4 r4_4)⟩]

/-- The one store is through the whole rectangle, so every index of the buffer lies in it. -/
theorem cover4_5 (p0 : Vec F S10000x64 .f32) (y : S10000x64.Idx) :
    ∃ pc ∈ ([⟨r4_5, p0⟩] : List (View.Piece (Elt F) S10000x64 .f32)), y ∈ pc.1.set :=
  View.cover_of_tiled [⟨r4_5, p0⟩] S10000x64.size (by rfl) y

/-! ## The body's triple -/

set_option maxHeartbeats 1000000 in
/-- Run on six whole staging buffers, the inputs reading `x0 … x4` and the output holding anything, the body ends
    with the inputs reading what they read and the output reading `out4_5 x0 … x4`. The body is five whole loads,
    one load of the output buffer whose value is dropped, and one whole store; after the store the buffer reads the
    stored value everywhere because the store's rectangle covers it. -/
theorem sound_kernel4 (c : Dev nD) (E : Set ℕ) (i : grid4.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S64x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__mlp_kernel i arg1 harg1 arg2 harg2 arg3 harg3 arg4 harg4 arg5 harg5 arg6 harg6) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The data the pipeline's correctness statement is instantiated at, on core `c`: the arrays are `V`'s; after the
    body at point `t` every input buffer holds its block and the output buffer holds `out4_5` of the five input
    blocks; the invariant is the one that leaves every other buffer and the generator register untouched; all
    shares are full and nothing is owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The data's arrays are `V`'s. -/
theorem A_eq4 (c : Dev nD) (w : Fin cfg4.W) : (dat4 V c).A w = V c (Pipeline.arrRef spec4 w) := by
  dsimp only [dat4]

/-! What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

/-! Each input buffer holds its block when the body starts, at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body starts from at point `t`: the invariant, the core's debt, and each window's current staging
    buffer at what it holds before the body, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it ends with: the same, each buffer at what the body leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the input buffers hold their blocks, so the triple above applies with `xW` the blocks;
    the invariant and the debt are not touched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline's correctness statement asks of the body, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K_Pool1Runs.lean ====
import proofs.«181750_j70806830841988_1_alg».proof.Proof.Gen.Kernel.Launch
import proofs.«181750_j70806830841988_1_alg».proof.Proof.Gen.Kernel.Skeleton
import proofs.«181750_j70806830841988_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of the long row axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling call 1: what its three cases share

The masked-sum pooling kernel of custom_call 1 runs over a grid of 20 row blocks. It keeps three running sums
(one row of 64 per mask) in a 3x64 scratch: the scratch is set to zero at the first block, each block adds its three
masked column sums to the three rows, and the last block copies the scratch to the 3x64 output. Everything is
stated at a PARAMETER `V`: the contents of the core's buffers when the call is entered. -/

section Entry
variable (V : (c : Dev nD) → (b : Ref sig .tc) → Buf (Elt F) ((c : Thread nD τ).loc b))

/-! ## The windows' blocks -/

/-- Window `w`'s block at point `t`, read off its array as the call finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s and whose body leaves the block in place: an input that is never idle and never cut. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, for any proof data whose array is
    `V`'s and whose body leaves the block in place: an input that is never idle and never cut. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, for any proof data whose array is
    `V`'s and whose body leaves the block in place: an input that is never idle and never cut. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, for any proof data whose array is
    `V`'s and whose body leaves the block in place: an input that is never idle and never cut. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The body's two conditions -/

/-- The first condition of the body (is this the first row block?), from the grid coordinates. -/
abbrev cond1_0 (i : grid1.Coords) : Prop := (Scalar.cmpi .ne (Scalar.extui (Scalar.cmpi .eq (BitVec.ofNat 32 (i 0).val) 0#32)) 0#32) = 1#1
/-- It holds exactly at point 0 of the 20. -/
theorem hcond1_0 : ∀ t : Fin cfg1.N, cond1_0 (grid1.coords t) ↔ t.val % 20 = 0 :=
  (by decide +kernel : ∀ t : Fin grid1.N, cond1_0 (grid1.coords t) ↔ t.val % 20 = 0)

/-- The second condition of the body (is this the last row block?), from the grid coordinates. -/
abbrev cond1_1 (i : grid1.Coords) : Prop := k1_cond2 i = 1#1
/-- It holds exactly at point 19 of the 20. -/
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle -/

/-- Window 0 is an input: never idle. -/
theorem liveAt1_0 : ∀ t : Fin cfg1.N, cfg1.idle 0 (grid1.coords t) = false := by decide +kernel
/-- Window 1 is an input: never idle. -/
theorem liveAt1_1 : ∀ t : Fin cfg1.N, cfg1.idle 1 (grid1.coords t) = false := by decide +kernel
/-- Window 2 is an input: never idle. -/
theorem liveAt1_2 : ∀ t : Fin cfg1.N, cfg1.idle 2 (grid1.coords t) = false := by decide +kernel
/-- Window 3 is an input: never idle. -/
theorem liveAt1_3 : ∀ t : Fin cfg1.N, cfg1.idle 3 (grid1.coords t) = false := by decide +kernel
/-- At the first point the output window 4 is idle: nothing is stored into it, -/
theorem idleAt1_4_A : ∀ t : Fin cfg1.N, cond1_0 (grid1.coords t) → ¬cond1_1 (grid1.coords t) → cfg1.idle 4 (grid1.coords t) = true := by decide +kernel
/-- and its block is not written back there. -/
theorem noFlush1_4_A : ∀ t : Fin cfg1.N, cond1_0 (grid1.coords t) → ¬cond1_1 (grid1.coords t) → (cfg1.win 4).flush t = false := by decide +kernel
/-- At the points between the first and the last the output window 4 is idle, -/
theorem idleAt1_4_B : ∀ t : Fin cfg1.N, ¬cond1_0 (grid1.coords t) → ¬cond1_1 (grid1.coords t) → cfg1.idle 4 (grid1.coords t) = true := by decide +kernel
/-- and not written back. -/
theorem noFlush1_4_B : ∀ t : Fin cfg1.N, ¬cond1_0 (grid1.coords t) → ¬cond1_1 (grid1.coords t) → (cfg1.win 4).flush t = false := by decide +kernel
/-- At the last point the output window 4 is live: the scratch is copied into it. -/
theorem liveAt1_4_C : ∀ t : Fin cfg1.N, ¬cond1_0 (grid1.coords t) → cond1_1 (grid1.coords t) → cfg1.idle 4 (grid1.coords t) = false := by decide +kernel

/-! ## The memrefs the body is called with -/

/-- The one staging buffer of output window 4, as a view: what the window holds is stated through it. -/
abbrev VO1_4 : View sig .tc .vmem S3x64 .f32 := (Memref.whole cc1_stg4_0 : Memref sig .tc .vmem S3x64 .f32).view
/-- Each window's current staging memref at point `t`, and its wholeness. -/
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S3x64 .f32 := win1_4.stage (cfg1.slots t 4)
abbrev hs1_4 (t : Fin cfg1.N) : (ms1_4 t).IsWhole := hstage1_4 ((cfg1.slots t 4).cast nbuf1_4)
/-- The scratch: a whole scoped buffer of the call's own, passed beside the windows. -/
abbrev scM1_0 : Memref sig .tc .vmem S3x64 .f32 := Memref.whole cc1_scratch0
/-- The scratch as a view: the three running sums are stated through it. -/
abbrev VS1_0 : View sig .tc .vmem S3x64 .f32 := scM1_0.view

/-- The core's other scoped buffers (the other calls' staging buffers and scratch), at some contents each: carried
    unopened beside this call's scratch. -/
abbrev rest1 (c : Dev nD) : sProp 𝕄 :=
  Pipeline.scopedRestBut (Ix := Unit) (Name := ℕ) (U := UR sig nD τ) (Lvl := ℕ) (Val := Elt F) spec1 c [cc1_scratch0]

/-- The call's invariant with the scratch as a memref owned at some contents: what the body obligation hands the run
    and takes back. -/
theorem PhiA1_eq (c : Dev nD) :
    (Pipeline.ΦA spec1 c : sProp 𝕄)
      = iprop(iprop(iprop((∃ d, owns (c : Thread nD τ) scM1_0 fullShare d)) ∗ rest1 (F := F) c) ∗ (∃ r, prngReg c r)) := by
  unfold Pipeline.ΦA; rw [scopedRest1_split]; simp only [scM1_0, owns_whole]; try rfl

end Cert.Kernel.Hand

end
-- ==== Proof.K_Pool1RunA.lean ====
import proofs.«181750_j70806830841988_1_alg».proof.Proof.K_Pool1Runs

-- membership of an index in a rectangle of the long row axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- THE FIRST BLOCK (first condition holds, second fails). On whole memrefs — the four inputs at their contents, the
    output window's buffer at contents `xi4` that the body does not touch, the scratch at anything — the body zeroes
    the scratch, then adds each mask's column sums to its row, and runs to the continuation holding the inputs and the
    output's buffer as they were and the scratch with its pieces written (`LS0`, last first).
    The printed functions are their skeletons, which the symbolic run executes through the call of the printed part;
    each condition is decided by the case's hypotheses; the pieces are the witness the run finds. -/
noncomputable def kernelRun1_A (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond1_0 i) (hc1 : ¬cond1_1 i)
    (x0 : Vec F S5000x64 .f32) (x1 : Vec F S5000x1 .f32) (x2 : Vec F S5000x1 .f32) (x3 : Vec F S5000x1 .f32) :
    Σ' (L4 : List (View.Piece (Elt F) S3x64 .f32)), { LS0 : List (View.Piece (Elt F) S3x64 .f32) //
      ∀ (xi4 : Vec F S3x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc1__pool_kernel i arg1 harg1 arg2 harg2 arg3 harg3 arg4 harg4 arg5 harg5 arg6 harg6) K } := by
  refine ⟨[], ?_, fun xi4 E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.Kernel.Hand

end
-- ==== Proof.K_Pool1RunB.lean ====
import proofs.«181750_j70806830841988_1_alg».proof.Proof.K_Pool1RunA

-- membership of an index in a rectangle of the long row axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- A BLOCK BETWEEN THE FIRST AND THE LAST (both conditions fail). On whole memrefs — the four inputs at their
    contents, the output window's buffer at contents `xi4` that the body does not touch, the scratch at the running
    sums `xs0` the block before left — the body adds each mask's column sums to its row, and runs to the continuation
    holding the inputs and the output's buffer as they were and the scratch with its pieces written (`LS0`, last first).
    The printed functions are their skeletons, which the symbolic run executes through the call of the printed part;
    each condition is decided by the case's hypotheses; the pieces are the witness the run finds. -/
noncomputable def kernelRun1_B (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : ¬cond1_1 i)
    (x0 : Vec F S5000x64 .f32) (x1 : Vec F S5000x1 .f32) (x2 : Vec F S5000x1 .f32) (x3 : Vec F S5000x1 .f32) (xs0 : Vec F S3x64 .f32) :
    Σ' (L4 : List (View.Piece (Elt F) S3x64 .f32)), { LS0 : List (View.Piece (Elt F) S3x64 .f32) //
      ∀ (xi4 : Vec F S3x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc1__pool_kernel i arg1 harg1 arg2 harg2 arg3 harg3 arg4 harg4 arg5 harg5 arg6 harg6) K } := by
  refine ⟨[], ?_, fun xi4 E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.Kernel.Hand

end
-- ==== Proof.K_Pool1RunC.lean ====
import proofs.«181750_j70806830841988_1_alg».proof.Proof.K_Pool1RunB

-- membership of an index in a rectangle of the long row axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- THE LAST BLOCK (first condition fails, second holds). On whole memrefs — the four inputs at their contents, the
    output window's buffer at anything, the scratch at the running sums `xs0` the block before left — the body adds
    each mask's column sums to its row, then copies the scratch to the output, and runs to the continuation holding
    the inputs as they were and the output's buffer and the scratch with their pieces written (`L4`, `LS0`, last first).
    The printed functions are their skeletons, which the symbolic run executes through the call of the printed part;
    each condition is decided by the case's hypotheses; the pieces are the witness the run finds. -/
noncomputable def kernelRun1_C (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : cond1_1 i)
    (x0 : Vec F S5000x64 .f32) (x1 : Vec F S5000x1 .f32) (x2 : Vec F S5000x1 .f32) (x3 : Vec F S5000x1 .f32) (xs0 : Vec F S3x64 .f32) :
    Σ' (L4 : List (View.Piece (Elt F) S3x64 .f32)), { LS0 : List (View.Piece (Elt F) S3x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc1__pool_kernel i arg1 harg1 arg2 harg2 arg3 harg3 arg4 harg4 arg5 harg5 arg6 harg6) K } := by
  refine ⟨?_, ?_, fun E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.Kernel.Hand

end
-- ==== Proof.K_Pool1.lean ====
import proofs.«181750_j70806830841988_1_alg».proof.Proof.K_Pool1RunC

-- membership of an index in a rectangle of the long row axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling call 1: what its buffers hold point by point, the proof data, the body obligation -/

/-- At the first block nothing is stored into output window 4 (the window is idle there and not written back): no pieces —
    a placeholder that nothing consults. -/
def out1_A_4 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond1_0 i) (hc1 : ¬cond1_1 i)
    (x0 : Vec F S5000x64 .f32) (x1 : Vec F S5000x1 .f32) (x2 : Vec F S5000x1 .f32) (x3 : Vec F S5000x1 .f32) : Vec F S3x64 .f32 :=
  VO1_4.read (Elt F) (VO1_4.writes (Elt F) VO1_4.junk (kernelRun1_A c i arg1 harg1 arg2 harg2 arg3 harg3 arg4 harg4 arg5 harg5 arg6 harg6 hc0 hc1 x0 x1 x2 x3).1)

/-- The pieces the first block writes into the scratch cover it: among them is the store of the whole 3x64 block. -/
theorem scover1_A_0 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond1_0 i) (hc1 : ¬cond1_1 i)
    (x0 : Vec F S5000x64 .f32) (x1 : Vec F S5000x1 .f32) (x2 : Vec F S5000x1 .f32) (x3 : Vec F S5000x1 .f32) (y : S3x64.Idx) :
    ∃ pc ∈ (kernelRun1_A c i arg1 harg1 arg2 harg2 arg3 harg3 arg4 harg4 arg5 harg5 arg6 harg6 hc0 hc1 x0 x1 x2 x3).2.1, y ∈ pc.1.set :=
  View.cover_of_tiledL (kernelRun1_A c i arg1 harg1 arg2 harg2 arg3 harg3 arg4 harg4 arg5 harg5 arg6 harg6 hc0 hc1 x0 x1 x2 x3).2.1 S3x64.size (by sl_kernel_rfl) y

/-- What the first block leaves in the scratch: its pieces read back over junk. -/
def sout1_A_0 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond1_0 i) (hc1 : ¬cond1_1 i)
    (x0 : Vec F S5000x64 .f32) (x1 : Vec F S5000x1 .f32) (x2 : Vec F S5000x1 .f32) (x3 : Vec F S5000x1 .f32) : Vec F S3x64 .f32 :=
  VS1_0.read (Elt F) (VS1_0.writes (Elt F) VS1_0.junk (kernelRun1_A c i arg1 harg1 arg2 harg2 arg3 harg3 arg4 harg4 arg5 harg5 arg6 harg6 hc0 hc1 x0 x1 x2 x3).2.1)

/-- At a block between the first and the last nothing is stored into output window 4 (the window is idle there and not written back): no pieces —
    a placeholder that nothing consults. -/
def out1_B_4 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : ¬cond1_1 i)
    (x0 : Vec F S5000x64 .f32) (x1 : Vec F S5000x1 .f32) (x2 : Vec F S5000x1 .f32) (x3 : Vec F S5000x1 .f32) (xs0 : Vec F S3x64 .f32) : Vec F S3x64 .f32 :=
  VO1_4.read (Elt F) (VO1_4.writes (Elt F) VO1_4.junk (kernelRun1_B c i arg1 harg1 arg2 harg2 arg3 harg3 arg4 harg4 arg5 harg5 arg6 harg6 hc0 hc1 x0 x1 x2 x3 xs0).1)

/-- The pieces a block between the first and the last writes into the scratch cover it: its three rows of 1x64 tile the 3x64 block. -/
theorem scover1_B_0 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : ¬cond1_1 i)
    (x0 : Vec F S5000x64 .f32) (x1 : Vec F S5000x1 .f32) (x2 : Vec F S5000x1 .f32) (x3 : Vec F S5000x1 .f32) (xs0 : Vec F S3x64 .f32) (y : S3x64.Idx) :
    ∃ pc ∈ (kernelRun1_B c i arg1 harg1 arg2 harg2 arg3 harg3 arg4 harg4 arg5 harg5 arg6 harg6 hc0 hc1 x0 x1 x2 x3 xs0).2.1, y ∈ pc.1.set :=
  View.cover_of_tiledL (kernelRun1_B c i arg1 harg1 arg2 harg2 arg3 harg3 arg4 harg4 arg5 harg5 arg6 harg6 hc0 hc1 x0 x1 x2 x3 xs0).2.1 S1x64.size (by sl_kernel_rfl) y

/-- What a block between the first and the last leaves in the scratch: its pieces read back over junk. -/
def sout1_B_0 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : ¬cond1_1 i)
    (x0 : Vec F S5000x64 .f32) (x1 : Vec F S5000x1 .f32) (x2 : Vec F S5000x1 .f32) (x3 : Vec F S5000x1 .f32) (xs0 : Vec F S3x64 .f32) : Vec F S3x64 .f32 :=
  VS1_0.read (Elt F) (VS1_0.writes (Elt F) VS1_0.junk (kernelRun1_B c i arg1 harg1 arg2 harg2 arg3 harg3 arg4 harg4 arg5 harg5 arg6 harg6 hc0 hc1 x0 x1 x2 x3 xs0).2.1)

/-- At the last block the one store into output window 4 covers its 3x64 block. -/
theorem cover1_C_4 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : cond1_1 i)
    (x0 : Vec F S5000x64 .f32) (x1 : Vec F S5000x1 .f32) (x2 : Vec F S5000x1 .f32) (x3 : Vec F S5000x1 .f32) (xs0 : Vec F S3x64 .f32) (y : S3x64.Idx) :
    ∃ pc ∈ (kernelRun1_C c i arg1 harg1 arg2 harg2 arg3 harg3 arg4 harg4 arg5 harg5 arg6 harg6 hc0 hc1 x0 x1 x2 x3 xs0).1, y ∈ pc.1.set :=
  View.cover_of_tiledL (kernelRun1_C c i arg1 harg1 arg2 harg2 arg3 harg3 arg4 harg4 arg5 harg5 arg6 harg6 hc0 hc1 x0 x1 x2 x3 xs0).1 S3x64.size (by sl_kernel_rfl) y

/-- What the last block leaves in output window 4's staging buffer: its pieces read back over junk. -/
def out1_C_4 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : cond1_1 i)
    (x0 : Vec F S5000x64 .f32) (x1 : Vec F S5000x1 .f32) (x2 : Vec F S5000x1 .f32) (x3 : Vec F S5000x1 .f32) (xs0 : Vec F S3x64 .f32) : Vec F S3x64 .f32 :=
  VO1_4.read (Elt F) (VO1_4.writes (Elt F) VO1_4.junk (kernelRun1_C c i arg1 harg1 arg2 harg2 arg3 harg3 arg4 harg4 arg5 harg5 arg6 harg6 hc0 hc1 x0 x1 x2 x3 xs0).1)

/-- The pieces the last block writes into the scratch cover it: its three rows of 1x64 tile the 3x64 block. -/
theorem scover1_C_0 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : cond1_1 i)
    (x0 : Vec F S5000x64 .f32) (x1 : Vec F S5000x1 .f32) (x2 : Vec F S5000x1 .f32) (x3 : Vec F S5000x1 .f32) (xs0 : Vec F S3x64 .f32) (y : S3x64.Idx) :
    ∃ pc ∈ (kernelRun1_C c i arg1 harg1 arg2 harg2 arg3 harg3 arg4 harg4 arg5 harg5 arg6 harg6 hc0 hc1 x0 x1 x2 x3 xs0).2.1, y ∈ pc.1.set :=
  View.cover_of_tiledL (kernelRun1_C c i arg1 harg1 arg2 harg2 arg3 harg3 arg4 harg4 arg5 harg5 arg6 harg6 hc0 hc1 x0 x1 x2 x3 xs0).2.1 S1x64.size (by sl_kernel_rfl) y

/-- What the last block leaves in the scratch: its pieces read back over junk. -/
def sout1_C_0 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : cond1_1 i)
    (x0 : Vec F S5000x64 .f32) (x1 : Vec F S5000x1 .f32) (x2 : Vec F S5000x1 .f32) (x3 : Vec F S5000x1 .f32) (xs0 : Vec F S3x64 .f32) : Vec F S3x64 .f32 :=
  VS1_0.read (Elt F) (VS1_0.writes (Elt F) VS1_0.junk (kernelRun1_C c i arg1 harg1 arg2 harg2 arg3 harg3 arg4 harg4 arg5 harg5 arg6 harg6 hc0 hc1 x0 x1 x2 x3 xs0).2.1)

section Entry
variable (V : (c : Dev nD) → (b : Ref sig .tc) → Buf (Elt F) ((c : Thread nD τ).loc b))

/-! ## What the output window and the scratch hold after each point -/

/-- THE ACCUMULATION. What output window 4's staging buffer and the scratch hold after the body at position `n`
    (the output's buffer, then the scratch): the case the closed forms select at `n`, run at the point's memrefs and
    input blocks, the scratch at what the point before left. An assignment of the conditions no point meets is no case. -/
def outsAt1 (c : Dev nD) : (n : ℕ) → n < cfg1.N → Vec F S3x64 .f32 × Vec F S3x64 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 20 = 0 then
      if h1 : (n + 1) % 20 = 19 then
        False.elim (by have hN : n + 1 < 20 := lt_of_lt_of_eq hn (show cfg1.N = 20 from N_1); omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 20 = 19 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at the first block: that case's contents. -/
theorem outsAt1_A (c : Dev nD) (t : Fin cfg1.N) (h0 : t.val % 20 = 0) (h1 : ¬t.val % 20 = 19) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a block between the first and the last: that case's contents, over what the point before left. -/
theorem outsAt1_B (c : Dev nD) (t : Fin cfg1.N) (h0 : ¬t.val % 20 = 0) (h1 : ¬t.val % 20 = 19) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last block: that case's contents, over what the point before left. -/
theorem outsAt1_C (c : Dev nD) (t : Fin cfg1.N) (h0 : ¬t.val % 20 = 0) (h1 : t.val % 20 = 19) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The call's invariant before position `n`: before the first point the scoped rest with the scratch at anything;
    afterwards the scratch at the running sums the point before left, the core's other scoped buffers unopened, and the
    generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's running sums. -/
theorem PhiS1_succ (c : Dev nD) (n : ℕ) (hn : n < cfg1.N) :
    PhiS1 V c (n + 1) hn = iprop(iprop(iprop(owns (c : Thread nD τ) scM1_0 fullShare ((outsAt1 V c n hn).2)) ∗ rest1 (F := F) c) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ rest1 (F := F) c) ∗ (∃ r, prngReg c r)) := by
  cases n with
  | zero => exact absurd rfl hz
  | succ n => rfl

/-! ## The pipeline's proof data -/

/-- The proof data of this call's pipeline on core `c`: the arrays as the call finds them (`V`); after the body at
    point `t` each input's buffer at its block and the output's at `outsAt1`; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which case the point is in; so
    that case's run applies. The invariant hands the body the scratch at what the point before left (at anything at the
    first point), the core's other scoped buffers and the generator register pass through unread, and the scratch is
    taken back at this point's running sums (the case's pieces cover it); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  by_cases h0 : t.val % 20 = 0
  · by_cases h1 : t.val % 20 = 19
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 20 = 19
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_C_0 c _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_B_0 c _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Entry

end Cert.Kernel.Hand

end
-- ==== Proof.K_Pool3Runs.lean ====
import proofs.«181750_j70806830841988_1_alg».proof.Proof.Gen.Kernel.Launch
import proofs.«181750_j70806830841988_1_alg».proof.Proof.Gen.Kernel.Skeleton
import proofs.«181750_j70806830841988_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of the long row axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling call 3: what its three cases share

The masked-sum pooling kernel of custom_call 3 runs over a grid of 20 row blocks. It keeps three running sums
(one row of 64 per mask) in a 3x64 scratch: the scratch is set to zero at the first block, each block adds its three
masked column sums to the three rows, and the last block copies the scratch to the 3x64 output. Everything is
stated at a PARAMETER `V`: the contents of the core's buffers when the call is entered. -/

section Entry
variable (V : (c : Dev nD) → (b : Ref sig .tc) → Buf (Elt F) ((c : Thread nD τ).loc b))

/-! ## The windows' blocks -/

/-- Window `w`'s block at point `t`, read off its array as the call finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place: an input that is never idle and never cut. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, for any proof data whose array is
    `V`'s and whose body leaves the block in place: an input that is never idle and never cut. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, for any proof data whose array is
    `V`'s and whose body leaves the block in place: an input that is never idle and never cut. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, for any proof data whose array is
    `V`'s and whose body leaves the block in place: an input that is never idle and never cut. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

end Entry

/-! ## The body's two conditions -/

/-- The first condition of the body (is this the first row block?), from the grid coordinates. -/
abbrev cond3_0 (i : grid3.Coords) : Prop := (Scalar.cmpi .ne (Scalar.extui (Scalar.cmpi .eq (BitVec.ofNat 32 (i 0).val) 0#32)) 0#32) = 1#1
/-- It holds exactly at point 0 of the 20. -/
theorem hcond3_0 : ∀ t : Fin cfg3.N, cond3_0 (grid3.coords t) ↔ t.val % 20 = 0 :=
  (by decide +kernel : ∀ t : Fin grid3.N, cond3_0 (grid3.coords t) ↔ t.val % 20 = 0)

/-- The second condition of the body (is this the last row block?), from the grid coordinates. -/
abbrev cond3_1 (i : grid3.Coords) : Prop := k3_cond2 i = 1#1
/-- It holds exactly at point 19 of the 20. -/
theorem hcond3_1 : ∀ t : Fin cfg3.N, cond3_1 (grid3.coords t) ↔ t.val % 20 = 19 :=
  (by decide +kernel : ∀ t : Fin grid3.N, cond3_1 (grid3.coords t) ↔ t.val % 20 = 19)

/-! ## Where the windows are idle -/

/-- Window 0 is an input: never idle. -/
theorem liveAt3_0 : ∀ t : Fin cfg3.N, cfg3.idle 0 (grid3.coords t) = false := by decide +kernel
/-- Window 1 is an input: never idle. -/
theorem liveAt3_1 : ∀ t : Fin cfg3.N, cfg3.idle 1 (grid3.coords t) = false := by decide +kernel
/-- Window 2 is an input: never idle. -/
theorem liveAt3_2 : ∀ t : Fin cfg3.N, cfg3.idle 2 (grid3.coords t) = false := by decide +kernel
/-- Window 3 is an input: never idle. -/
theorem liveAt3_3 : ∀ t : Fin cfg3.N, cfg3.idle 3 (grid3.coords t) = false := by decide +kernel
/-- At the first point the output window 4 is idle: nothing is stored into it, -/
theorem idleAt3_4_A : ∀ t : Fin cfg3.N, cond3_0 (grid3.coords t) → ¬cond3_1 (grid3.coords t) → cfg3.idle 4 (grid3.coords t) = true := by decide +kernel
/-- and its block is not written back there. -/
theorem noFlush3_4_A : ∀ t : Fin cfg3.N, cond3_0 (grid3.coords t) → ¬cond3_1 (grid3.coords t) → (cfg3.win 4).flush t = false := by decide +kernel
/-- At the points between the first and the last the output window 4 is idle, -/
theorem idleAt3_4_B : ∀ t : Fin cfg3.N, ¬cond3_0 (grid3.coords t) → ¬cond3_1 (grid3.coords t) → cfg3.idle 4 (grid3.coords t) = true := by decide +kernel
/-- and not written back. -/
theorem noFlush3_4_B : ∀ t : Fin cfg3.N, ¬cond3_0 (grid3.coords t) → ¬cond3_1 (grid3.coords t) → (cfg3.win 4).flush t = false := by decide +kernel
/-- At the last point the output window 4 is live: the scratch is copied into it. -/
theorem liveAt3_4_C : ∀ t : Fin cfg3.N, ¬cond3_0 (grid3.coords t) → cond3_1 (grid3.coords t) → cfg3.idle 4 (grid3.coords t) = false := by decide +kernel

/-! ## The memrefs the body is called with -/

/-- The one staging buffer of output window 4, as a view: what the window holds is stated through it. -/
abbrev VO3_4 : View sig .tc .vmem S3x64 .f32 := (Memref.whole cc3_stg4_0 : Memref sig .tc .vmem S3x64 .f32).view
/-- Each window's current staging memref at point `t`, and its wholeness. -/
abbrev ms3_0 (t : Fin cfg3.N) : Memref sig .tc .vmem S5000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S5000x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S5000x1 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S3x64 .f32 := win3_4.stage (cfg3.slots t 4)
abbrev hs3_4 (t : Fin cfg3.N) : (ms3_4 t).IsWhole := hstage3_4 ((cfg3.slots t 4).cast nbuf3_4)
/-- The scratch: a whole scoped buffer of the call's own, passed beside the windows. -/
abbrev scM3_0 : Memref sig .tc .vmem S3x64 .f32 := Memref.whole cc3_scratch0
/-- The scratch as a view: the three running sums are stated through it. -/
abbrev VS3_0 : View sig .tc .vmem S3x64 .f32 := scM3_0.view

/-- The core's other scoped buffers (the other calls' staging buffers and scratch), at some contents each: carried
    unopened beside this call's scratch. -/
abbrev rest3 (c : Dev nD) : sProp 𝕄 :=
  Pipeline.scopedRestBut (Ix := Unit) (Name := ℕ) (U := UR sig nD τ) (Lvl := ℕ) (Val := Elt F) spec3 c [cc3_scratch0]

/-- The call's invariant with the scratch as a memref owned at some contents: what the body obligation hands the run
    and takes back. -/
theorem PhiA3_eq (c : Dev nD) :
    (Pipeline.ΦA spec3 c : sProp 𝕄)
      = iprop(iprop(iprop((∃ d, owns (c : Thread nD τ) scM3_0 fullShare d)) ∗ rest3 (F := F) c) ∗ (∃ r, prngReg c r)) := by
  unfold Pipeline.ΦA; rw [scopedRest3_split]; simp only [scM3_0, owns_whole]; try rfl

end Cert.Kernel.Hand

end
-- ==== Proof.K_Pool3RunA.lean ====
import proofs.«181750_j70806830841988_1_alg».proof.Proof.K_Pool3Runs

-- membership of an index in a rectangle of the long row axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- THE FIRST BLOCK (first condition holds, second fails). On whole memrefs — the four inputs at their contents, the
    output window's buffer at contents `xi4` that the body does not touch, the scratch at anything — the body zeroes
    the scratch, then adds each mask's column sums to its row, and runs to the continuation holding the inputs and the
    output's buffer as they were and the scratch with its pieces written (`LS0`, last first).
    The printed functions are their skeletons, which the symbolic run executes through the call of the printed part;
    each condition is decided by the case's hypotheses; the pieces are the witness the run finds. -/
noncomputable def kernelRun3_A (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond3_0 i) (hc1 : ¬cond3_1 i)
    (x0 : Vec F S5000x64 .f32) (x1 : Vec F S5000x1 .f32) (x2 : Vec F S5000x1 .f32) (x3 : Vec F S5000x1 .f32) :
    Σ' (L4 : List (View.Piece (Elt F) S3x64 .f32)), { LS0 : List (View.Piece (Elt F) S3x64 .f32) //
      ∀ (xi4 : Vec F S3x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6) K } := by
  refine ⟨[], ?_, fun xi4 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.Kernel.Hand

end
-- ==== Proof.K_Pool3RunB.lean ====
import proofs.«181750_j70806830841988_1_alg».proof.Proof.K_Pool3RunA

-- membership of an index in a rectangle of the long row axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- A BLOCK BETWEEN THE FIRST AND THE LAST (both conditions fail). On whole memrefs — the four inputs at their
    contents, the output window's buffer at contents `xi4` that the body does not touch, the scratch at the running
    sums `xs0` the block before left — the body adds each mask's column sums to its row, and runs to the continuation
    holding the inputs and the output's buffer as they were and the scratch with its pieces written (`LS0`, last first).
    The printed functions are their skeletons, which the symbolic run executes through the call of the printed part;
    each condition is decided by the case's hypotheses; the pieces are the witness the run finds. -/
noncomputable def kernelRun3_B (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : ¬cond3_1 i)
    (x0 : Vec F S5000x64 .f32) (x1 : Vec F S5000x1 .f32) (x2 : Vec F S5000x1 .f32) (x3 : Vec F S5000x1 .f32) (xs0 : Vec F S3x64 .f32) :
    Σ' (L4 : List (View.Piece (Elt F) S3x64 .f32)), { LS0 : List (View.Piece (Elt F) S3x64 .f32) //
      ∀ (xi4 : Vec F S3x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6) K } := by
  refine ⟨[], ?_, fun xi4 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.Kernel.Hand

end
-- ==== Proof.K_Pool3RunC.lean ====
import proofs.«181750_j70806830841988_1_alg».proof.Proof.K_Pool3RunB

-- membership of an index in a rectangle of the long row axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- THE LAST BLOCK (first condition fails, second holds). On whole memrefs — the four inputs at their contents, the
    output window's buffer at anything, the scratch at the running sums `xs0` the block before left — the body adds
    each mask's column sums to its row, then copies the scratch to the output, and runs to the continuation holding
    the inputs as they were and the output's buffer and the scratch with their pieces written (`L4`, `LS0`, last first).
    The printed functions are their skeletons, which the symbolic run executes through the call of the printed part;
    each condition is decided by the case's hypotheses; the pieces are the witness the run finds. -/
noncomputable def kernelRun3_C (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : cond3_1 i)
    (x0 : Vec F S5000x64 .f32) (x1 : Vec F S5000x1 .f32) (x2 : Vec F S5000x1 .f32) (x3 : Vec F S5000x1 .f32) (xs0 : Vec F S3x64 .f32) :
    Σ' (L4 : List (View.Piece (Elt F) S3x64 .f32)), { LS0 : List (View.Piece (Elt F) S3x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6) K } := by
  refine ⟨?_, ?_, fun E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.Kernel.Hand

end
-- ==== Proof.K_Pool3.lean ====
import proofs.«181750_j70806830841988_1_alg».proof.Proof.K_Pool3RunC

-- membership of an index in a rectangle of the long row axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling call 3: what its buffers hold point by point, the proof data, the body obligation -/

/-- At the first block nothing is stored into output window 4 (the window is idle there and not written back): no pieces —
    a placeholder that nothing consults. -/
def out3_A_4 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond3_0 i) (hc1 : ¬cond3_1 i)
    (x0 : Vec F S5000x64 .f32) (x1 : Vec F S5000x1 .f32) (x2 : Vec F S5000x1 .f32) (x3 : Vec F S5000x1 .f32) : Vec F S3x64 .f32 :=
  VO3_4.read (Elt F) (VO3_4.writes (Elt F) VO3_4.junk (kernelRun3_A c i arg1 harg1 arg2 harg2 arg3 harg3 arg4 harg4 arg5 harg5 arg6 harg6 hc0 hc1 x0 x1 x2 x3).1)

/-- The pieces the first block writes into the scratch cover it: among them is the store of the whole 3x64 block. -/
theorem scover3_A_0 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond3_0 i) (hc1 : ¬cond3_1 i)
    (x0 : Vec F S5000x64 .f32) (x1 : Vec F S5000x1 .f32) (x2 : Vec F S5000x1 .f32) (x3 : Vec F S5000x1 .f32) (y : S3x64.Idx) :
    ∃ pc ∈ (kernelRun3_A c i arg1 harg1 arg2 harg2 arg3 harg3 arg4 harg4 arg5 harg5 arg6 harg6 hc0 hc1 x0 x1 x2 x3).2.1, y ∈ pc.1.set :=
  View.cover_of_tiledL (kernelRun3_A c i arg1 harg1 arg2 harg2 arg3 harg3 arg4 harg4 arg5 harg5 arg6 harg6 hc0 hc1 x0 x1 x2 x3).2.1 S3x64.size (by sl_kernel_rfl) y

/-- What the first block leaves in the scratch: its pieces read back over junk. -/
def sout3_A_0 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond3_0 i) (hc1 : ¬cond3_1 i)
    (x0 : Vec F S5000x64 .f32) (x1 : Vec F S5000x1 .f32) (x2 : Vec F S5000x1 .f32) (x3 : Vec F S5000x1 .f32) : Vec F S3x64 .f32 :=
  VS3_0.read (Elt F) (VS3_0.writes (Elt F) VS3_0.junk (kernelRun3_A c i arg1 harg1 arg2 harg2 arg3 harg3 arg4 harg4 arg5 harg5 arg6 harg6 hc0 hc1 x0 x1 x2 x3).2.1)

/-- At a block between the first and the last nothing is stored into output window 4 (the window is idle there and not written back): no pieces —
    a placeholder that nothing consults. -/
def out3_B_4 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : ¬cond3_1 i)
    (x0 : Vec F S5000x64 .f32) (x1 : Vec F S5000x1 .f32) (x2 : Vec F S5000x1 .f32) (x3 : Vec F S5000x1 .f32) (xs0 : Vec F S3x64 .f32) : Vec F S3x64 .f32 :=
  VO3_4.read (Elt F) (VO3_4.writes (Elt F) VO3_4.junk (kernelRun3_B c i arg1 harg1 arg2 harg2 arg3 harg3 arg4 harg4 arg5 harg5 arg6 harg6 hc0 hc1 x0 x1 x2 x3 xs0).1)

/-- The pieces a block between the first and the last writes into the scratch cover it: its three rows of 1x64 tile the 3x64 block. -/
theorem scover3_B_0 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : ¬cond3_1 i)
    (x0 : Vec F S5000x64 .f32) (x1 : Vec F S5000x1 .f32) (x2 : Vec F S5000x1 .f32) (x3 : Vec F S5000x1 .f32) (xs0 : Vec F S3x64 .f32) (y : S3x64.Idx) :
    ∃ pc ∈ (kernelRun3_B c i arg1 harg1 arg2 harg2 arg3 harg3 arg4 harg4 arg5 harg5 arg6 harg6 hc0 hc1 x0 x1 x2 x3 xs0).2.1, y ∈ pc.1.set :=
  View.cover_of_tiledL (kernelRun3_B c i arg1 harg1 arg2 harg2 arg3 harg3 arg4 harg4 arg5 harg5 arg6 harg6 hc0 hc1 x0 x1 x2 x3 xs0).2.1 S1x64.size (by sl_kernel_rfl) y

/-- What a block between the first and the last leaves in the scratch: its pieces read back over junk. -/
def sout3_B_0 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : ¬cond3_1 i)
    (x0 : Vec F S5000x64 .f32) (x1 : Vec F S5000x1 .f32) (x2 : Vec F S5000x1 .f32) (x3 : Vec F S5000x1 .f32) (xs0 : Vec F S3x64 .f32) : Vec F S3x64 .f32 :=
  VS3_0.read (Elt F) (VS3_0.writes (Elt F) VS3_0.junk (kernelRun3_B c i arg1 harg1 arg2 harg2 arg3 harg3 arg4 harg4 arg5 harg5 arg6 harg6 hc0 hc1 x0 x1 x2 x3 xs0).2.1)

/-- At the last block the one store into output window 4 covers its 3x64 block. -/
theorem cover3_C_4 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : cond3_1 i)
    (x0 : Vec F S5000x64 .f32) (x1 : Vec F S5000x1 .f32) (x2 : Vec F S5000x1 .f32) (x3 : Vec F S5000x1 .f32) (xs0 : Vec F S3x64 .f32) (y : S3x64.Idx) :
    ∃ pc ∈ (kernelRun3_C c i arg1 harg1 arg2 harg2 arg3 harg3 arg4 harg4 arg5 harg5 arg6 harg6 hc0 hc1 x0 x1 x2 x3 xs0).1, y ∈ pc.1.set :=
  View.cover_of_tiledL (kernelRun3_C c i arg1 harg1 arg2 harg2 arg3 harg3 arg4 harg4 arg5 harg5 arg6 harg6 hc0 hc1 x0 x1 x2 x3 xs0).1 S3x64.size (by sl_kernel_rfl) y

/-- What the last block leaves in output window 4's staging buffer: its pieces read back over junk. -/
def out3_C_4 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : cond3_1 i)
    (x0 : Vec F S5000x64 .f32) (x1 : Vec F S5000x1 .f32) (x2 : Vec F S5000x1 .f32) (x3 : Vec F S5000x1 .f32) (xs0 : Vec F S3x64 .f32) : Vec F S3x64 .f32 :=
  VO3_4.read (Elt F) (VO3_4.writes (Elt F) VO3_4.junk (kernelRun3_C c i arg1 harg1 arg2 harg2 arg3 harg3 arg4 harg4 arg5 harg5 arg6 harg6 hc0 hc1 x0 x1 x2 x3 xs0).1)

/-- The pieces the last block writes into the scratch cover it: its three rows of 1x64 tile the 3x64 block. -/
theorem scover3_C_0 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : cond3_1 i)
    (x0 : Vec F S5000x64 .f32) (x1 : Vec F S5000x1 .f32) (x2 : Vec F S5000x1 .f32) (x3 : Vec F S5000x1 .f32) (xs0 : Vec F S3x64 .f32) (y : S3x64.Idx) :
    ∃ pc ∈ (kernelRun3_C c i arg1 harg1 arg2 harg2 arg3 harg3 arg4 harg4 arg5 harg5 arg6 harg6 hc0 hc1 x0 x1 x2 x3 xs0).2.1, y ∈ pc.1.set :=
  View.cover_of_tiledL (kernelRun3_C c i arg1 harg1 arg2 harg2 arg3 harg3 arg4 harg4 arg5 harg5 arg6 harg6 hc0 hc1 x0 x1 x2 x3 xs0).2.1 S1x64.size (by sl_kernel_rfl) y

/-- What the last block leaves in the scratch: its pieces read back over junk. -/
def sout3_C_0 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : cond3_1 i)
    (x0 : Vec F S5000x64 .f32) (x1 : Vec F S5000x1 .f32) (x2 : Vec F S5000x1 .f32) (x3 : Vec F S5000x1 .f32) (xs0 : Vec F S3x64 .f32) : Vec F S3x64 .f32 :=
  VS3_0.read (Elt F) (VS3_0.writes (Elt F) VS3_0.junk (kernelRun3_C c i arg1 harg1 arg2 harg2 arg3 harg3 arg4 harg4 arg5 harg5 arg6 harg6 hc0 hc1 x0 x1 x2 x3 xs0).2.1)

section Entry
variable (V : (c : Dev nD) → (b : Ref sig .tc) → Buf (Elt F) ((c : Thread nD τ).loc b))

/-! ## What the output window and the scratch hold after each point -/

/-- THE ACCUMULATION. What output window 4's staging buffer and the scratch hold after the body at position `n`
    (the output's buffer, then the scratch): the case the closed forms select at `n`, run at the point's memrefs and
    input blocks, the scratch at what the point before left. An assignment of the conditions no point meets is no case. -/
def outsAt3 (c : Dev nD) : (n : ℕ) → n < cfg3.N → Vec F S3x64 .f32 × Vec F S3x64 .f32
  | 0, hn => (out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩))
  | n + 1, hn =>
    if h0 : (n + 1) % 20 = 0 then
      if h1 : (n + 1) % 20 = 19 then
        False.elim (by have hN : n + 1 < 20 := lt_of_lt_of_eq hn (show cfg3.N = 20 from N_3); omega)
      else
        (out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩))
    else
      if h1 : (n + 1) % 20 = 19 then
        (out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)
      else
        (out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)

/-- `outsAt3` at the first block: that case's contents. -/
theorem outsAt3_A (c : Dev nD) (t : Fin cfg3.N) (h0 : t.val % 20 = 0) (h1 : ¬t.val % 20 = 19) :
    outsAt3 V c t.val t.isLt = (out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t) (iblk3 V c 3 t), sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t) (iblk3 V c 3 t)) := by
  obtain ⟨n, hn⟩ := t
  cases n with
  | zero => exact rfl
  | succ n => exact (dif_pos h0).trans ((dif_neg h1).trans rfl)

/-- `outsAt3` at a block between the first and the last: that case's contents, over what the point before left. -/
theorem outsAt3_B (c : Dev nD) (t : Fin cfg3.N) (h0 : ¬t.val % 20 = 0) (h1 : ¬t.val % 20 = 19) :
    outsAt3 V c t.val t.isLt = (out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at the last block: that case's contents, over what the point before left. -/
theorem outsAt3_C (c : Dev nD) (t : Fin cfg3.N) (h0 : ¬t.val % 20 = 0) (h1 : t.val % 20 = 19) :
    outsAt3 V c t.val t.isLt = (out3_C_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The call's invariant before position `n`: before the first point the scoped rest with the scratch at anything;
    afterwards the scratch at the running sums the point before left, the core's other scoped buffers unopened, and the
    generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2)) ∗ rest3 (F := F) c) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the scratch at that point's running sums. -/
theorem PhiS3_succ (c : Dev nD) (n : ℕ) (hn : n < cfg3.N) :
    PhiS3 V c (n + 1) hn = iprop(iprop(iprop(owns (c : Thread nD τ) scM3_0 fullShare ((outsAt3 V c n hn).2)) ∗ rest3 (F := F) c) ∗ (∃ r, prngReg c r)) := rfl

/-- Before a point that is not the first: the scratch at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2)) ∗ rest3 (F := F) c) ∗ (∃ r, prngReg c r)) := by
  cases n with
  | zero => exact absurd rfl hz
  | succ n => rfl

/-! ## The pipeline's proof data -/

/-- The proof data of this call's pipeline on core `c`: the arrays as the call finds them (`V`); after the body at
    point `t` each input's buffer at its block and the output's at `outsAt3`; the invariant `PhiS3`; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

/-- The proof data's arrays are the entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the inputs' memrefs hold their blocks; the closed forms say which case the point is in; so
    that case's run applies. The invariant hands the body the scratch at what the point before left (at anything at the
    first point), the core's other scoped buffers and the generator register pass through unread, and the scratch is
    taken back at this point's running sums (the case's pieces cover it); the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 20 := lt_of_lt_of_eq t.isLt (show cfg3.N = 20 from N_3)
  by_cases h0 : t.val % 20 = 0
  · by_cases h1 : t.val % 20 = 19
    · exfalso; omega
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [Dat.leavesExact_idle (dat3 V c) 4 t (idleAt3_4_A t ((hcond3_0 t).mpr h0) (fun h => h1 ((hcond3_1 t).mp h))) (noFlush3_4_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, Hr⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t) (iblk3 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS3_castSucc V c t, PhiS3_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t) (iblk3 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 20 = 19
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4_C t (fun h => h0 ((hcond3_0 t).mp h)) ((hcond3_1 t).mpr h1)], after3_4]
      rw [outsAt3_C V c t h0 h1]
      unfold out3_C_4 sout3_C_0; (try dsimp only)
      by_cases hz : t.val = 0
      · exfalso; omega
      · rw [PhiS3_castSucc V c t, PhiS3_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun3_C c (grid3.coords t) _ _ _ _ _ _ _ _ _ _ _ _ (fun h => h0 ((hcond3_0 t).mp h)) ((hcond3_1 t).mpr h1) (iblk3 V c 0 t) (iblk3 V c 1 t) (iblk3 V c 2 t) (iblk3 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_C_0 c _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover3_C_4 c _ _ _ _ _ _ _ _ _ _ _ _ _ _ _ _ _ _ _ _)
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [Dat.leavesExact_idle (dat3 V c) 4 t (idleAt3_4_B t (fun h => h0 ((hcond3_0 t).mp h)) (fun h => h1 ((hcond3_1 t).mp h))) (noFlush3_4_B t (fun h => h0 ((hcond3_0 t).mp h)) (fun h => h1 ((hcond3_1 t).mp h)))]
      rw [outsAt3_B V c t h0 h1]
      unfold sout3_B_0; (try dsimp only)
      by_cases hz : t.val = 0
      · exfalso; omega
      · rw [PhiS3_castSucc V c t, PhiS3_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun3_B c (grid3.coords t) _ _ _ _ _ _ _ _ _ _ _ _ (fun h => h0 ((hcond3_0 t).mp h)) (fun h => h1 ((hcond3_1 t).mp h)) (iblk3 V c 0 t) (iblk3 V c 1 t) (iblk3 V c 2 t) (iblk3 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_B_0 c _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the call is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 20 := N_3; omega)

end Entry

end Cert.Kernel.Hand

end
-- ==== Proof.K_Pool5Runs.lean ====
import proofs.«181750_j70806830841988_1_alg».proof.Proof.Gen.Kernel.Launch
import proofs.«181750_j70806830841988_1_alg».proof.Proof.Gen.Kernel.Skeleton
import proofs.«181750_j70806830841988_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of the long row axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling call 5: what its three cases share

The masked-sum pooling kernel of custom_call 5 runs over a grid of 20 row blocks. It keeps three running sums
(one row of 64 per mask) in a 3x64 scratch: the scratch is set to zero at the first block, each block adds its three
masked column sums to the three rows, and the last block copies the scratch to the 3x64 output. Everything is
stated at a PARAMETER `V`: the contents of the core's buffers when the call is entered. -/

section Entry
variable (V : (c : Dev nD) → (b : Ref sig .tc) → Buf (Elt F) ((c : Thread nD τ).loc b))

/-! ## The windows' blocks -/

/-- Window `w`'s block at point `t`, read off its array as the call finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, for any proof data whose array is
    `V`'s and whose body leaves the block in place: an input that is never idle and never cut. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, for any proof data whose array is
    `V`'s and whose body leaves the block in place: an input that is never idle and never cut. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, for any proof data whose array is
    `V`'s and whose body leaves the block in place: an input that is never idle and never cut. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, for any proof data whose array is
    `V`'s and whose body leaves the block in place: an input that is never idle and never cut. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

end Entry

/-! ## The body's two conditions -/

/-- The first condition of the body (is this the first row block?), from the grid coordinates. -/
abbrev cond5_0 (i : grid5.Coords) : Prop := (Scalar.cmpi .ne (Scalar.extui (Scalar.cmpi .eq (BitVec.ofNat 32 (i 0).val) 0#32)) 0#32) = 1#1
/-- It holds exactly at point 0 of the 20. -/
theorem hcond5_0 : ∀ t : Fin cfg5.N, cond5_0 (grid5.coords t) ↔ t.val % 20 = 0 :=
  (by decide +kernel : ∀ t : Fin grid5.N, cond5_0 (grid5.coords t) ↔ t.val % 20 = 0)

/-- The second condition of the body (is this the last row block?), from the grid coordinates. -/
abbrev cond5_1 (i : grid5.Coords) : Prop := k5_cond2 i = 1#1
/-- It holds exactly at point 19 of the 20. -/
theorem hcond5_1 : ∀ t : Fin cfg5.N, cond5_1 (grid5.coords t) ↔ t.val % 20 = 19 :=
  (by decide +kernel : ∀ t : Fin grid5.N, cond5_1 (grid5.coords t) ↔ t.val % 20 = 19)

/-! ## Where the windows are idle -/

/-- Window 0 is an input: never idle. -/
theorem liveAt5_0 : ∀ t : Fin cfg5.N, cfg5.idle 0 (grid5.coords t) = false := by decide +kernel
/-- Window 1 is an input: never idle. -/
theorem liveAt5_1 : ∀ t : Fin cfg5.N, cfg5.idle 1 (grid5.coords t) = false := by decide +kernel
/-- Window 2 is an input: never idle. -/
theorem liveAt5_2 : ∀ t : Fin cfg5.N, cfg5.idle 2 (grid5.coords t) = false := by decide +kernel
/-- Window 3 is an input: never idle. -/
theorem liveAt5_3 : ∀ t : Fin cfg5.N, cfg5.idle 3 (grid5.coords t) = false := by decide +kernel
/-- At the first point the output window 4 is idle: nothing is stored into it, -/
theorem idleAt5_4_A : ∀ t : Fin cfg5.N, cond5_0 (grid5.coords t) → ¬cond5_1 (grid5.coords t) → cfg5.idle 4 (grid5.coords t) = true := by decide +kernel
/-- and its block is not written back there. -/
theorem noFlush5_4_A : ∀ t : Fin cfg5.N, cond5_0 (grid5.coords t) → ¬cond5_1 (grid5.coords t) → (cfg5.win 4).flush t = false := by decide +kernel
/-- At the points between the first and the last the output window 4 is idle, -/
theorem idleAt5_4_B : ∀ t : Fin cfg5.N, ¬cond5_0 (grid5.coords t) → ¬cond5_1 (grid5.coords t) → cfg5.idle 4 (grid5.coords t) = true := by decide +kernel
/-- and not written back. -/
theorem noFlush5_4_B : ∀ t : Fin cfg5.N, ¬cond5_0 (grid5.coords t) → ¬cond5_1 (grid5.coords t) → (cfg5.win 4).flush t = false := by decide +kernel
/-- At the last point the output window 4 is live: the scratch is copied into it. -/
theorem liveAt5_4_C : ∀ t : Fin cfg5.N, ¬cond5_0 (grid5.coords t) → cond5_1 (grid5.coords t) → cfg5.idle 4 (grid5.coords t) = false := by decide +kernel

/-! ## The memrefs the body is called with -/

/-- The one staging buffer of output window 4, as a view: what the window holds is stated through it. -/
abbrev VO5_4 : View sig .tc .vmem S3x64 .f32 := (Memref.whole cc5_stg4_0 : Memref sig .tc .vmem S3x64 .f32).view
/-- Each window's current staging memref at point `t`, and its wholeness. -/
abbrev ms5_0 (t : Fin cfg5.N) : Memref sig .tc .vmem S5000x64 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S5000x1 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S5000x1 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S5000x1 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S3x64 .f32 := win5_4.stage (cfg5.slots t 4)
abbrev hs5_4 (t : Fin cfg5.N) : (ms5_4 t).IsWhole := hstage5_4 ((cfg5.slots t 4).cast nbuf5_4)
/-- The scratch: a whole scoped buffer of the call's own, passed beside the windows. -/
abbrev scM5_0 : Memref sig .tc .vmem S3x64 .f32 := Memref.whole cc5_scratch0
/-- The scratch as a view: the three running sums are stated through it. -/
abbrev VS5_0 : View sig .tc .vmem S3x64 .f32 := scM5_0.view

/-- The core's other scoped buffers (the other calls' staging buffers and scratch), at some contents each: carried
    unopened beside this call's scratch. -/
abbrev rest5 (c : Dev nD) : sProp 𝕄 :=
  Pipeline.scopedRestBut (Ix := Unit) (Name := ℕ) (U := UR sig nD τ) (Lvl := ℕ) (Val := Elt F) spec5 c [cc5_scratch0]

/-- The call's invariant with the scratch as a memref owned at some contents: what the body obligation hands the run
    and takes back. -/
theorem PhiA5_eq (c : Dev nD) :
    (Pipeline.ΦA spec5 c : sProp 𝕄)
      = iprop(iprop(iprop((∃ d, owns (c : Thread nD τ) scM5_0 fullShare d)) ∗ rest5 (F := F) c) ∗ (∃ r, prngReg c r)) := by
  unfold Pipeline.ΦA; rw [scopedRest5_split]; simp only [scM5_0, owns_whole]; try rfl

end Cert.Kernel.Hand

end
-- ==== Proof.K_Pool5RunA.lean ====
import proofs.«181750_j70806830841988_1_alg».proof.Proof.K_Pool5Runs

-- membership of an index in a rectangle of the long row axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- THE FIRST BLOCK (first condition holds, second fails). On whole memrefs — the four inputs at their contents, the
    output window's buffer at contents `xi4` that the body does not touch, the scratch at anything — the body zeroes
    the scratch, then adds each mask's column sums to its row, and runs to the continuation holding the inputs and the
    output's buffer as they were and the scratch with its pieces written (`LS0`, last first).
    The printed functions are their skeletons, which the symbolic run executes through the call of the printed part;
    each condition is decided by the case's hypotheses; the pieces are the witness the run finds. -/
noncomputable def kernelRun5_A (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond5_0 i) (hc1 : ¬cond5_1 i)
    (x0 : Vec F S5000x64 .f32) (x1 : Vec F S5000x1 .f32) (x2 : Vec F S5000x1 .f32) (x3 : Vec F S5000x1 .f32) :
    Σ' (L4 : List (View.Piece (Elt F) S3x64 .f32)), { LS0 : List (View.Piece (Elt F) S3x64 .f32) //
      ∀ (xi4 : Vec F S3x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc5__pool_kernel i arg1 harg1 arg2 harg2 arg3 harg3 arg4 harg4 arg5 harg5 arg6 harg6) K } := by
  refine ⟨[], ?_, fun xi4 E K => ?run⟩
  case run =>
    simp only [cc5__pool_kernel_eq_skeleton]; unfold cc5__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.Kernel.Hand

end
-- ==== Proof.K_Pool5RunB.lean ====
import proofs.«181750_j70806830841988_1_alg».proof.Proof.K_Pool5RunA

-- membership of an index in a rectangle of the long row axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- A BLOCK BETWEEN THE FIRST AND THE LAST (both conditions fail). On whole memrefs — the four inputs at their
    contents, the output window's buffer at contents `xi4` that the body does not touch, the scratch at the running
    sums `xs0` the block before left — the body adds each mask's column sums to its row, and runs to the continuation
    holding the inputs and the output's buffer as they were and the scratch with its pieces written (`LS0`, last first).
    The printed functions are their skeletons, which the symbolic run executes through the call of the printed part;
    each condition is decided by the case's hypotheses; the pieces are the witness the run finds. -/
noncomputable def kernelRun5_B (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : ¬cond5_1 i)
    (x0 : Vec F S5000x64 .f32) (x1 : Vec F S5000x1 .f32) (x2 : Vec F S5000x1 .f32) (x3 : Vec F S5000x1 .f32) (xs0 : Vec F S3x64 .f32) :
    Σ' (L4 : List (View.Piece (Elt F) S3x64 .f32)), { LS0 : List (View.Piece (Elt F) S3x64 .f32) //
      ∀ (xi4 : Vec F S3x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc5__pool_kernel i arg1 harg1 arg2 harg2 arg3 harg3 arg4 harg4 arg5 harg5 arg6 harg6) K } := by
  refine ⟨[], ?_, fun xi4 E K => ?run⟩
  case run =>
    simp only [cc5__pool_kernel_eq_skeleton]; unfold cc5__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.Kernel.Hand

end
-- ==== Proof.K_Pool5RunC.lean ====
import proofs.«181750_j70806830841988_1_alg».proof.Proof.K_Pool5RunB

-- membership of an index in a rectangle of the long row axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- THE LAST BLOCK (first condition fails, second holds). On whole memrefs — the four inputs at their contents, the
    output window's buffer at anything, the scratch at the running sums `xs0` the block before left — the body adds
    each mask's column sums to its row, then copies the scratch to the output, and runs to the continuation holding
    the inputs as they were and the output's buffer and the scratch with their pieces written (`L4`, `LS0`, last first).
    The printed functions are their skeletons, which the symbolic run executes through the call of the printed part;
    each condition is decided by the case's hypotheses; the pieces are the witness the run finds. -/
noncomputable def kernelRun5_C (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : cond5_1 i)
    (x0 : Vec F S5000x64 .f32) (x1 : Vec F S5000x1 .f32) (x2 : Vec F S5000x1 .f32) (x3 : Vec F S5000x1 .f32) (xs0 : Vec F S3x64 .f32) :
    Σ' (L4 : List (View.Piece (Elt F) S3x64 .f32)), { LS0 : List (View.Piece (Elt F) S3x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc5__pool_kernel i arg1 harg1 arg2 harg2 arg3 harg3 arg4 harg4 arg5 harg5 arg6 harg6) K } := by
  refine ⟨?_, ?_, fun E K => ?run⟩
  case run =>
    simp only [cc5__pool_kernel_eq_skeleton]; unfold cc5__pool_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.Kernel.Hand

end
-- ==== Proof.K_Pool5.lean ====
import proofs.«181750_j70806830841988_1_alg».proof.Proof.K_Pool5RunC

-- membership of an index in a rectangle of the long row axis recurses once per coordinate
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling call 5: what its buffers hold point by point, the proof data, the body obligation -/

/-- At the first block nothing is stored into output window 4 (the window is idle there and not written back): no pieces —
    a placeholder that nothing consults. -/
def out5_A_4 (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond5_0 i) (hc1 : ¬cond5_1 i)
    (x0 : Vec F S5000x64 .f32) (x1 : Vec F S5000x1 .f32) (x2 : Vec F S5000x1 .f32) (x3 : Vec F S5000x1 .f32) : Vec F S3x64 .f32 :=
  VO5_4.read (Elt F) (VO5_4.writes (Elt F) VO5_4.junk (kernelRun5_A c i arg1 harg1 arg2 harg2 arg3 harg3 arg4 harg4 arg5 harg5 arg6 harg6 hc0 hc1 x0 x1 x2 x3).1)

/-- The pieces the first block writes into the scratch cover it: among them is the store of the whole 3x64 block. -/
theorem scover5_A_0 (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond5_0 i) (hc1 : ¬cond5_1 i)
    (x0 : Vec F S5000x64 .f32) (x1 : Vec F S5000x1 .f32) (x2 : Vec F S5000x1 .f32) (x3 : Vec F S5000x1 .f32) (y : S3x64.Idx) :
    ∃ pc ∈ (kernelRun5_A c i arg1 harg1 arg2 harg2 arg3 harg3 arg4 harg4 arg5 harg5 arg6 harg6 hc0 hc1 x0 x1 x2 x3).2.1, y ∈ pc.1.set :=
  View.cover_of_tiledL (kernelRun5_A c i arg1 harg1 arg2 harg2 arg3 harg3 arg4 harg4 arg5 harg5 arg6 harg6 hc0 hc1 x0 x1 x2 x3).2.1 S3x64.size (by sl_kernel_rfl) y

/-- What the first block leaves in the scratch: its pieces read back over junk. -/
def sout5_A_0 (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond5_0 i) (hc1 : ¬cond5_1 i)
    (x0 : Vec F S5000x64 .f32) (x1 : Vec F S5000x1 .f32) (x2 : Vec F S5000x1 .f32) (x3 : Vec F S5000x1 .f32) : Vec F S3x64 .f32 :=
  VS5_0.read (Elt F) (VS5_0.writes (Elt F) VS5_0.junk (kernelRun5_A c i arg1 harg1 arg2 harg2 arg3 harg3 arg4 harg4 arg5 harg5 arg6 harg6 hc0 hc1 x0 x1 x2 x3).2.1)

/-- At a block between the first and the last nothing is stored into output window 4 (the window is idle there and not written back): no pieces —
    a placeholder that nothing consults. -/
def out5_B_4 (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : ¬cond5_1 i)
    (x0 : Vec F S5000x64 .f32) (x1 : Vec F S5000x1 .f32) (x2 : Vec F S5000x1 .f32) (x3 : Vec F S5000x1 .f32) (xs0 : Vec F S3x64 .f32) : Vec F S3x64 .f32 :=
  VO5_4.read (Elt F) (VO5_4.writes (Elt F) VO5_4.junk (kernelRun5_B c i arg1 harg1 arg2 harg2 arg3 harg3 arg4 harg4 arg5 harg5 arg6 harg6 hc0 hc1 x0 x1 x2 x3 xs0).1)

/-- The pieces a block between the first and the last writes into the scratch cover it: its three rows of 1x64 tile the 3x64 block. -/
theorem scover5_B_0 (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : ¬cond5_1 i)
    (x0 : Vec F S5000x64 .f32) (x1 : Vec F S5000x1 .f32) (x2 : Vec F S5000x1 .f32) (x3 : Vec F S5000x1 .f32) (xs0 : Vec F S3x64 .f32) (y : S3x64.Idx) :
    ∃ pc ∈ (kernelRun5_B c i arg1 harg1 arg2 harg2 arg3 harg3 arg4 harg4 arg5 harg5 arg6 harg6 hc0 hc1 x0 x1 x2 x3 xs0).2.1, y ∈ pc.1.set :=
  View.cover_of_tiledL (kernelRun5_B c i arg1 harg1 arg2 harg2 arg3 harg3 arg4 harg4 arg5 harg5 arg6 harg6 hc0 hc1 x0 x1 x2 x3 xs0).2.1 S1x64.size (by sl_kernel_rfl) y

/-- What a block between the first and the last leaves in the scratch: its pieces read back over junk. -/
def sout5_B_0 (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : ¬cond5_1 i)
    (x0 : Vec F S5000x64 .f32) (x1 : Vec F S5000x1 .f32) (x2 : Vec F S5000x1 .f32) (x3 : Vec F S5000x1 .f32) (xs0 : Vec F S3x64 .f32) : Vec F S3x64 .f32 :=
  VS5_0.read (Elt F) (VS5_0.writes (Elt F) VS5_0.junk (kernelRun5_B c i arg1 harg1 arg2 harg2 arg3 harg3 arg4 harg4 arg5 harg5 arg6 harg6 hc0 hc1 x0 x1 x2 x3 xs0).2.1)

/-- At the last block the one store into output window 4 covers its 3x64 block. -/
theorem cover5_C_4 (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : cond5_1 i)
    (x0 : Vec F S5000x64 .f32) (x1 : Vec F S5000x1 .f32) (x2 : Vec F S5000x1 .f32) (x3 : Vec F S5000x1 .f32) (xs0 : Vec F S3x64 .f32) (y : S3x64.Idx) :
    ∃ pc ∈ (kernelRun5_C c i arg1 harg1 arg2 harg2 arg3 harg3 arg4 harg4 arg5 harg5 arg6 harg6 hc0 hc1 x0 x1 x2 x3 xs0).1, y ∈ pc.1.set :=
  View.cover_of_tiledL (kernelRun5_C c i arg1 harg1 arg2 harg2 arg3 harg3 arg4 harg4 arg5 harg5 arg6 harg6 hc0 hc1 x0 x1 x2 x3 xs0).1 S3x64.size (by sl_kernel_rfl) y

/-- What the last block leaves in output window 4's staging buffer: its pieces read back over junk. -/
def out5_C_4 (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : cond5_1 i)
    (x0 : Vec F S5000x64 .f32) (x1 : Vec F S5000x1 .f32) (x2 : Vec F S5000x1 .f32) (x3 : Vec F S5000x1 .f32) (xs0 : Vec F S3x64 .f32) : Vec F S3x64 .f32 :=
  VO5_4.read (Elt F) (VO5_4.writes (Elt F) VO5_4.junk (kernelRun5_C c i arg1 harg1 arg2 harg2 arg3 harg3 arg4 harg4 arg5 harg5 arg6 harg6 hc0 hc1 x0 x1 x2 x3 xs0).1)

/-- The pieces the last block writes into the scratch cover it: its three rows of 1x64 tile the 3x64 block. -/
theorem scover5_C_0 (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : cond5_1 i)
    (x0 : Vec F S5000x64 .f32) (x1 : Vec F S5000x1 .f32) (x2 : Vec F S5000x1 .f32) (x3 : Vec F S5000x1 .f32) (xs0 : Vec F S3x64 .f32) (y : S3x64.Idx) :
    ∃ pc ∈ (kernelRun5_C c i arg1 harg1 arg2 harg2 arg3 harg3 arg4 harg4 arg5 harg5 arg6 harg6 hc0 hc1 x0 x1 x2 x3 xs0).2.1, y ∈ pc.1.set :=
  View.cover_of_tiledL (kernelRun5_C c i arg1 harg1 arg2 harg2 arg3 harg3 arg4 harg4 arg5 harg5 arg6 harg6 hc0 hc1 x0 x1 x2 x3 xs0).2.1 S1x64.size (by sl_kernel_rfl) y

/-- What the last block leaves in the scratch: its pieces read back over junk. -/
def sout5_C_0 (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : cond5_1 i)
    (x0 : Vec F S5000x64 .f32) (x1 : Vec F S5000x1 .f32) (x2 : Vec F S5000x1 .f32) (x3 : Vec F S5000x1 .f32) (xs0 : Vec F S3x64 .f32) : Vec F S3x64 .f32 :=
  VS5_0.read (Elt F) (VS5_0.writes (Elt F) VS5_0.junk (kernelRun5_C c i arg1 harg1 arg2 harg2 arg3 harg3 arg4 harg4 arg5 harg5 arg6 harg6 hc0 hc1 x0 x1 x2 x3 xs0).2.1)

section Entry
variable (V : (c : Dev nD) → (b : Ref sig .tc) → Buf (Elt F) ((c : Thread nD τ).loc b))

/-! ## What the output window and the scratch hold after each point -/

/-- THE ACCUMULATION. What output window 4's staging buffer and the scratch hold after the body at position `n`
    (the output's buffer, then the scratch): the case the closed forms select at `n`, run at the point's memrefs and
    input blocks, the scratch at what the point before left. An assignment of the conditions no point meets is no case. -/
def outsAt5 (c : Dev nD) : (n : ℕ) → n < cfg5.N → Vec F S3x64 .f32 × Vec F S3x64 .f32
  | 0, hn => (out5_A_4 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩))
  | n + 1, hn =>
    if h0 : (n + 1) % 20 = 0 then
      if h1 : (n + 1) % 20 = 19 then
        False.elim (by have hN : n + 1 < 20 := lt_of_lt_of_eq hn (show cfg5.N = 20 from N_5); omega)
      else
        (out5_A_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩))
    else
      if h1 : (n + 1) % 20 = 19 then
        (out5_C_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2)
      else
        (out5_B_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2)

/-- `outsAt5` at the first block: that case's contents. -/
theorem outsAt5_A (c : Dev nD) (t : Fin cfg5.N) (h0 : t.val % 20 = 0) (h1 : ¬t.val % 20 = 19) :
    outsAt5 V c t.val t.isLt = (out5_A_4 c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (fun h => h1 ((hcond5_1 t).mp h)) (iblk5 V c 0 t) (iblk5 V c 1 t) (iblk5 V c 2 t) (iblk5 V c 3 t), sout5_A_0 c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (fun h => h1 ((hcond5_1 t).mp h)) (iblk5 V c 0 t) (iblk5 V c 1 t) (iblk5 V c 2 t) (iblk5 V c 3 t)) := by
  obtain ⟨n, hn⟩ := t
  cases n with
  | zero => exact rfl
  | succ n => exact (dif_pos h0).trans ((dif_neg h1).trans rfl)

/-- `outsAt5` at a block between the first and the last: that case's contents, over what the point before left. -/
theorem outsAt5_B (c : Dev nD) (t : Fin cfg5.N) (h0 : ¬t.val % 20 = 0) (h1 : ¬t.val % 20 = 19) :
    outsAt5 V c t.val t.isLt = (out5_B_4 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) (fun h => h1 ((hcond5_1 t).mp h)) (iblk5 V c 0 t) (iblk5 V c 1 t) (iblk5 V c 2 t) (iblk5 V c 3 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) (fun h => h1 ((hcond5_1 t).mp h)) (iblk5 V c 0 t) (iblk5 V c 1 t) (iblk5 V c 2 t) (iblk5 V c 3 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt5` at the last block: that case's contents, over what the point before left. -/
theorem outsAt5_C (c : Dev nD) (t : Fin cfg5.N) (h0 : ¬t.val % 20 = 0) (h1 : t.val % 20 = 19) :
    outsAt5 V c t.val t.isLt = (out5_C_4 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h1) (iblk5 V c 0 t) (iblk5 V c 1 t) (iblk5 V c 2 t) (iblk5 V c 3 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h1) (iblk5 V c 0 t) (iblk5 V c 1 t) (iblk5 V c 2 t) (iblk5 V c 3 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The call's invariant before position `n`: before the first point the scoped rest with the scratch at anything;
    afterwards the scratch at the running sums the point before left, the core's other scoped buffers unopened, and the
    generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2)) ∗ rest5 (F := F) c) ∗ (∃ r, prngReg c r))

theorem PhiS5_zero (c : Dev nD) (n : ℕ) (h : n ≤ cfg5.N) (hz : n = 0) : PhiS5 V c n h = Pipeline.ΦA spec5 c := by
  subst hz; rfl

/-- After point `n` (before point `n + 1`): the scratch at that point's running sums. -/
theorem PhiS5_succ (c : Dev nD) (n : ℕ) (hn : n < cfg5.N) :
    PhiS5 V c (n + 1) hn = iprop(iprop(iprop(owns (c : Thread nD τ) scM5_0 fullShare ((outsAt5 V c n hn).2)) ∗ rest5 (F := F) c) ∗ (∃ r, prngReg c r)) := rfl

/-- Before a point that is not the first: the scratch at what the point before left. -/
theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2)) ∗ rest5 (F := F) c) ∗ (∃ r, prngReg c r)) := by
  cases n with
  | zero => exact absurd rfl hz
  | succ n => rfl

/-! ## The pipeline's proof data -/

/-- The proof data of this call's pipeline on core `c`: the arrays as the call finds them (`V`); after the body at
    point `t` each input's buffer at its block and the output's at `outsAt5`; the invariant `PhiS5`; nothing owed;
    full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => (outsAt5 V c t.val t.isLt).1
  Φ t := PhiS5 V c t.val (Nat.le_of_lt_succ t.isLt)
  q _ := fullShare
  owed _ := 0

/-- The proof data's arrays are the entry contents. -/
theorem A_eq5 (c : Dev nD) (w : Fin cfg5.W) : (dat5 V c).A w = V c (Pipeline.arrRef spec5 w) := by
  dsimp only [dat5]

/-- The invariant at a point's start, restated at `t.val`. -/
theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = (outsAt5 V c t.val t.isLt).1 := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4800000 in
/-- The body at any point: the inputs' memrefs hold their blocks; the closed forms say which case the point is in; so
    that case's run applies. The invariant hands the body the scratch at what the point before left (at anything at the
    first point), the core's other scoped buffers and the generator register pass through unread, and the scratch is
    taken back at this point's running sums (the case's pieces cover it); the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  have hN : t.val < 20 := lt_of_lt_of_eq t.isLt (show cfg5.N = 20 from N_5)
  by_cases h0 : t.val % 20 = 0
  · by_cases h1 : t.val % 20 = 19
    · exfalso; omega
    · rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [Dat.leavesExact_idle (dat5 V c) 4 t (idleAt5_4_A t ((hcond5_0 t).mpr h0) (fun h => h1 ((hcond5_1 t).mp h))) (noFlush5_4_A t ((hcond5_0 t).mpr h0) (fun h => h1 ((hcond5_1 t).mp h)))]
      rw [outsAt5_A V c t h0 h1]
      unfold sout5_A_0; (try dsimp only)
      by_cases hz : t.val = 0
      · rw [PhiS5_castSucc V c t, PhiS5_zero V c _ _ hz, PhiA5_eq]
        iintro ⟨⟨⟨HS0, Hr⟩, Hg⟩, Ho, ⟨%d0, H0⟩, ⟨%d1, H1⟩, ⟨%d2, H2⟩, ⟨%d3, H3⟩, ⟨%d4, H4⟩⟩
        iapply ((kernelRun5_A c (grid5.coords t) _ _ _ _ _ _ _ _ _ _ _ _ ((hcond5_0 t).mpr h0) (fun h => h1 ((hcond5_1 t).mp h)) (iblk5 V c 0 t) (iblk5 V c 1 t) (iblk5 V c 2 t) (iblk5 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover5_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS5_castSucc V c t, PhiS5_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun5_A c (grid5.coords t) _ _ _ _ _ _ _ _ _ _ _ _ ((hcond5_0 t).mpr h0) (fun h => h1 ((hcond5_1 t).mp h)) (iblk5 V c 0 t) (iblk5 V c 1 t) (iblk5 V c 2 t) (iblk5 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover5_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 20 = 19
    · rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4_C t (fun h => h0 ((hcond5_0 t).mp h)) ((hcond5_1 t).mpr h1)], after5_4]
      rw [outsAt5_C V c t h0 h1]
      unfold out5_C_4 sout5_C_0; (try dsimp only)
      by_cases hz : t.val = 0
      · exfalso; omega
      · rw [PhiS5_castSucc V c t, PhiS5_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun5_C c (grid5.coords t) _ _ _ _ _ _ _ _ _ _ _ _ (fun h => h0 ((hcond5_0 t).mp h)) ((hcond5_1 t).mpr h1) (iblk5 V c 0 t) (iblk5 V c 1 t) (iblk5 V c 2 t) (iblk5 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover5_C_0 c _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover5_C_4 c _ _ _ _ _ _ _ _ _ _ _ _ _ _ _ _ _ _ _ _)
    · rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [Dat.leavesExact_idle (dat5 V c) 4 t (idleAt5_4_B t (fun h => h0 ((hcond5_0 t).mp h)) (fun h => h1 ((hcond5_1 t).mp h))) (noFlush5_4_B t (fun h => h0 ((hcond5_0 t).mp h)) (fun h => h1 ((hcond5_1 t).mp h)))]
      rw [outsAt5_B V c t h0 h1]
      unfold sout5_B_0; (try dsimp only)
      by_cases hz : t.val = 0
      · exfalso; omega
      · rw [PhiS5_castSucc V c t, PhiS5_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun5_B c (grid5.coords t) _ _ _ _ _ _ _ _ _ _ _ _ (fun h => h0 ((hcond5_0 t).mp h)) (fun h => h1 ((hcond5_1 t).mp h)) (iblk5 V c 0 t) (iblk5 V c 1 t) (iblk5 V c 2 t) (iblk5 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover5_B_0 c _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the call is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the launch's back: the scratch's named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, Hr⟩, Hg⟩
  isplitl [HS0 Hr]
  · isplitl [HS0]
    · iexists _; iexact HS0
    iexact Hr
  iexact Hg

/-- The same after the last point. -/
theorem hout5 (c : Dev nD) : (dat5 V c).Φ (Fin.last cfg5.N) ⊢ Pipeline.ΦA spec5 c :=
  Phi_out5 V c _ (by rw [Fin.val_last]; have : cfg5.N = 20 := N_5; omega)

end Entry

end Cert.Kernel.Hand

end
-- ==== Proof.K_Run.lean ====
/-
  The run of the program's @main as sixteen items — ten stretches of host operations and six kernel regions —
  with the contents of every unscoped buffer named at each boundary, on every core:
  the launch memory; after a stretch of host operations, the operations' results folded over what was there;
  after a kernel region, the region's arrays at what its pipeline leaves (an input array as it was, the output array at
  its blocks written back in grid order) and every other buffer untouched.  From the run: every argument array
  ends as launched (no host operation writes one, no region has one as its output), and the result buffer ends at the
  last boundary's contents.
-/
import proofs.«181750_j70806830841988_1_alg».proof.Proof.Gen.Kernel.Launch
import proofs.«181750_j70806830841988_1_alg».proof.Proof.Gen.Kernel.Skeleton
import proofs.«181750_j70806830841988_1_alg».proof.Proof.Gen.Kernel.Points
import proofs.«181750_j70806830841988_1_alg».proof.Proof.Gen.Kernel.Regions
import proofs.«181750_j70806830841988_1_alg».proof.Proof.K_Mlp0
import proofs.«181750_j70806830841988_1_alg».proof.Proof.K_Mlp2
import proofs.«181750_j70806830841988_1_alg».proof.Proof.K_Mlp4
import proofs.«181750_j70806830841988_1_alg».proof.Proof.K_Pool1
import proofs.«181750_j70806830841988_1_alg».proof.Proof.K_Pool3
import proofs.«181750_j70806830841988_1_alg».proof.Proof.K_Pool5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s unscoped buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- Region 0's entry contents read at the TensorCore's references. -/
abbrev En0 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (En0 m) c).arrAt w cfg0.N
theorem W2_arr (c : Dev nD) (w : Fin cfg0.W) :
    W2 m c (Proc.devRef .tc (Pipeline.arrRef spec0 w)) = (dat0 (En0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- Region 0's exit contents read at the TensorCore's references. -/
abbrev Ex0 : (c : Dev nD) → (b : Ref sig .tc) → Buf (Elt F) ((c : Thread nD τ).loc b) := fun c b => W2 m c b
theorem hF0 (c : Dev nD) (w : Fin cfg0.W) : (dat0 (En0 m) c).arrAt w cfg0.N = Ex0 m c (Pipeline.arrRef spec0 w) :=
  (W2_arr m c w).symm
theorem hrest0 (c : Dev nD) : ∀ b, b ∉ Finset.univ.image (Pipeline.arrRef spec0) → Ex0 m c b = En0 m c b :=
  fun b hb => W2_of_ne m c b fun w e => hb (Finset.mem_image.mpr ⟨w, Finset.mem_univ _, e⟩)
/-- A region changes only its output array: an input array is handed back as it was found. -/
theorem W2_keep (c : Dev nD) (b : Ref sig .tc) (hb : b ≠ main_v28) :
    W2 m c (Proc.devRef .tc b) = W1 m c (Proc.devRef .tc b) := by
  by_cases h : ∃ w, Pipeline.arrRef spec0 w = b
  · obtain ⟨w, rfl⟩ := h
    rw [W2_arr]
    fin_cases w
    · exact ((dat0 (En0 m) c).arrAt_in 0 rfl _).trans (A_eq0 (En0 m) c 0)
    · exact ((dat0 (En0 m) c).arrAt_in 1 rfl _).trans (A_eq0 (En0 m) c 1)
    · exact ((dat0 (En0 m) c).arrAt_in 2 rfl _).trans (A_eq0 (En0 m) c 2)
    · exact ((dat0 (En0 m) c).arrAt_in 3 rfl _).trans (A_eq0 (En0 m) c 3)
    · exact ((dat0 (En0 m) c).arrAt_in 4 rfl _).trans (A_eq0 (En0 m) c 4)
    · exact absurd rfl hb
  · exact W2_of_ne m c b (fun w e => h ⟨w, e⟩)
/-- Region 1's entry contents read at the TensorCore's references. -/
abbrev En1 : (c : Dev nD) → (b : Ref sig .tc) → Buf (Elt F) ((c : Thread nD τ).loc b) := fun c b => W2 m c b
/-- At region 1's exit: its arrays at what the pipeline leaves, every other buffer as entered. -/
def W3 (c : Dev nD) : Valuation τ sig (Elt F) :=
  Pipeline.withArrays spec1 c (W2 m c) fun w => (dat1 (En1 m) c).arrAt w cfg1.N
theorem W3_arr (c : Dev nD) (w : Fin cfg1.W) :
    W3 m c (Proc.devRef .tc (Pipeline.arrRef spec1 w)) = (dat1 (En1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- Region 1's exit contents read at the TensorCore's references. -/
abbrev Ex1 : (c : Dev nD) → (b : Ref sig .tc) → Buf (Elt F) ((c : Thread nD τ).loc b) := fun c b => W3 m c b
theorem hF1 (c : Dev nD) (w : Fin cfg1.W) : (dat1 (En1 m) c).arrAt w cfg1.N = Ex1 m c (Pipeline.arrRef spec1 w) :=
  (W3_arr m c w).symm
theorem hrest1 (c : Dev nD) : ∀ b, b ∉ Finset.univ.image (Pipeline.arrRef spec1) → Ex1 m c b = En1 m c b :=
  fun b hb => W3_of_ne m c b fun w e => hb (Finset.mem_image.mpr ⟨w, Finset.mem_univ _, e⟩)
/-- A region changes only its output array: an input array is handed back as it was found. -/
theorem W3_keep (c : Dev nD) (b : Ref sig .tc) (hb : b ≠ main_v29) :
    W3 m c (Proc.devRef .tc b) = W2 m c (Proc.devRef .tc b) := by
  by_cases h : ∃ w, Pipeline.arrRef spec1 w = b
  · obtain ⟨w, rfl⟩ := h
    rw [W3_arr]
    fin_cases w
    · exact ((dat1 (En1 m) c).arrAt_in 0 rfl _).trans (A_eq1 (En1 m) c 0)
    · exact ((dat1 (En1 m) c).arrAt_in 1 rfl _).trans (A_eq1 (En1 m) c 1)
    · exact ((dat1 (En1 m) c).arrAt_in 2 rfl _).trans (A_eq1 (En1 m) c 2)
    · exact ((dat1 (En1 m) c).arrAt_in 3 rfl _).trans (A_eq1 (En1 m) c 3)
    · exact absurd rfl hb
  · exact W3_of_ne m c b (fun w e => h ⟨w, e⟩)
/-- After the host stretch `hostOps2`. -/
abbrev W4 : Dev nD → Valuation τ sig (Elt F) := fun c => StableHlo.after hostOps2 (W3 m c)
/-- After the host stretch `hostOps2_1`. -/
abbrev W5 : Dev nD → Valuation τ sig (Elt F) := fun c => StableHlo.after hostOps2_1 (W4 m c)
/-- After the host stretch `hostOps2_2`. -/
abbrev W6 : Dev nD → Valuation τ sig (Elt F) := fun c => StableHlo.after hostOps2_2 (W5 m c)
/-- Region 2's entry contents read at the TensorCore's references. -/
abbrev En2 : (c : Dev nD) → (b : Ref sig .tc) → Buf (Elt F) ((c : Thread nD τ).loc b) := fun c b => W6 m c b
/-- At region 2's exit: its arrays at what the pipeline leaves, every other buffer as entered. -/
def W7 (c : Dev nD) : Valuation τ sig (Elt F) :=
  Pipeline.withArrays spec2 c (W6 m c) fun w => (dat2 (En2 m) c).arrAt w cfg2.N
theorem W7_arr (c : Dev nD) (w : Fin cfg2.W) :
    W7 m c (Proc.devRef .tc (Pipeline.arrRef spec2 w)) = (dat2 (En2 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- Region 2's exit contents read at the TensorCore's references. -/
abbrev Ex2 : (c : Dev nD) → (b : Ref sig .tc) → Buf (Elt F) ((c : Thread nD τ).loc b) := fun c b => W7 m c b
theorem hF2 (c : Dev nD) (w : Fin cfg2.W) : (dat2 (En2 m) c).arrAt w cfg2.N = Ex2 m c (Pipeline.arrRef spec2 w) :=
  (W7_arr m c w).symm
theorem hrest2 (c : Dev nD) : ∀ b, b ∉ Finset.univ.image (Pipeline.arrRef spec2) → Ex2 m c b = En2 m c b :=
  fun b hb => W7_of_ne m c b fun w e => hb (Finset.mem_image.mpr ⟨w, Finset.mem_univ _, e⟩)
/-- A region changes only its output array: an input array is handed back as it was found. -/
theorem W7_keep (c : Dev nD) (b : Ref sig .tc) (hb : b ≠ main_v54) :
    W7 m c (Proc.devRef .tc b) = W6 m c (Proc.devRef .tc b) := by
  by_cases h : ∃ w, Pipeline.arrRef spec2 w = b
  · obtain ⟨w, rfl⟩ := h
    rw [W7_arr]
    fin_cases w
    · exact ((dat2 (En2 m) c).arrAt_in 0 rfl _).trans (A_eq2 (En2 m) c 0)
    · exact ((dat2 (En2 m) c).arrAt_in 1 rfl _).trans (A_eq2 (En2 m) c 1)
    · exact ((dat2 (En2 m) c).arrAt_in 2 rfl _).trans (A_eq2 (En2 m) c 2)
    · exact ((dat2 (En2 m) c).arrAt_in 3 rfl _).trans (A_eq2 (En2 m) c 3)
    · exact ((dat2 (En2 m) c).arrAt_in 4 rfl _).trans (A_eq2 (En2 m) c 4)
    · exact absurd rfl hb
  · exact W7_of_ne m c b (fun w e => h ⟨w, e⟩)
/-- Region 3's entry contents read at the TensorCore's references. -/
abbrev En3 : (c : Dev nD) → (b : Ref sig .tc) → Buf (Elt F) ((c : Thread nD τ).loc b) := fun c b => W7 m c b
/-- At region 3's exit: its arrays at what the pipeline leaves, every other buffer as entered. -/
def W8 (c : Dev nD) : Valuation τ sig (Elt F) :=
  Pipeline.withArrays spec3 c (W7 m c) fun w => (dat3 (En3 m) c).arrAt w cfg3.N
theorem W8_arr (c : Dev nD) (w : Fin cfg3.W) :
    W8 m c (Proc.devRef .tc (Pipeline.arrRef spec3 w)) = (dat3 (En3 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- Region 3's exit contents read at the TensorCore's references. -/
abbrev Ex3 : (c : Dev nD) → (b : Ref sig .tc) → Buf (Elt F) ((c : Thread nD τ).loc b) := fun c b => W8 m c b
theorem hF3 (c : Dev nD) (w : Fin cfg3.W) : (dat3 (En3 m) c).arrAt w cfg3.N = Ex3 m c (Pipeline.arrRef spec3 w) :=
  (W8_arr m c w).symm
theorem hrest3 (c : Dev nD) : ∀ b, b ∉ Finset.univ.image (Pipeline.arrRef spec3) → Ex3 m c b = En3 m c b :=
  fun b hb => W8_of_ne m c b fun w e => hb (Finset.mem_image.mpr ⟨w, Finset.mem_univ _, e⟩)
/-- A region changes only its output array: an input array is handed back as it was found. -/
theorem W8_keep (c : Dev nD) (b : Ref sig .tc) (hb : b ≠ main_v55) :
    W8 m c (Proc.devRef .tc b) = W7 m c (Proc.devRef .tc b) := by
  by_cases h : ∃ w, Pipeline.arrRef spec3 w = b
  · obtain ⟨w, rfl⟩ := h
    rw [W8_arr]
    fin_cases w
    · exact ((dat3 (En3 m) c).arrAt_in 0 rfl _).trans (A_eq3 (En3 m) c 0)
    · exact ((dat3 (En3 m) c).arrAt_in 1 rfl _).trans (A_eq3 (En3 m) c 1)
    · exact ((dat3 (En3 m) c).arrAt_in 2 rfl _).trans (A_eq3 (En3 m) c 2)
    · exact ((dat3 (En3 m) c).arrAt_in 3 rfl _).trans (A_eq3 (En3 m) c 3)
    · exact absurd rfl hb
  · exact W8_of_ne m c b (fun w e => h ⟨w, e⟩)
/-- After the host stretch `hostOps4`. -/
abbrev W9 : Dev nD → Valuation τ sig (Elt F) := fun c => StableHlo.after hostOps4 (W8 m c)
/-- After the host stretch `hostOps4_1`. -/
abbrev W10 : Dev nD → Valuation τ sig (Elt F) := fun c => StableHlo.after hostOps4_1 (W9 m c)
/-- After the host stretch `hostOps4_2`. -/
abbrev W11 : Dev nD → Valuation τ sig (Elt F) := fun c => StableHlo.after hostOps4_2 (W10 m c)
/-- Region 4's entry contents read at the TensorCore's references. -/
abbrev En4 : (c : Dev nD) → (b : Ref sig .tc) → Buf (Elt F) ((c : Thread nD τ).loc b) := fun c b => W11 m c b
/-- At region 4's exit: its arrays at what the pipeline leaves, every other buffer as entered. -/
def W12 (c : Dev nD) : Valuation τ sig (Elt F) :=
  Pipeline.withArrays spec4 c (W11 m c) fun w => (dat4 (En4 m) c).arrAt w cfg4.N
theorem W12_arr (c : Dev nD) (w : Fin cfg4.W) :
    W12 m c (Proc.devRef .tc (Pipeline.arrRef spec4 w)) = (dat4 (En4 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
/-- Region 4's exit contents read at the TensorCore's references. -/
abbrev Ex4 : (c : Dev nD) → (b : Ref sig .tc) → Buf (Elt F) ((c : Thread nD τ).loc b) := fun c b => W12 m c b
theorem hF4 (c : Dev nD) (w : Fin cfg4.W) : (dat4 (En4 m) c).arrAt w cfg4.N = Ex4 m c (Pipeline.arrRef spec4 w) :=
  (W12_arr m c w).symm
theorem hrest4 (c : Dev nD) : ∀ b, b ∉ Finset.univ.image (Pipeline.arrRef spec4) → Ex4 m c b = En4 m c b :=
  fun b hb => W12_of_ne m c b fun w e => hb (Finset.mem_image.mpr ⟨w, Finset.mem_univ _, e⟩)
/-- A region changes only its output array: an input array is handed back as it was found. -/
theorem W12_keep (c : Dev nD) (b : Ref sig .tc) (hb : b ≠ main_v80) :
    W12 m c (Proc.devRef .tc b) = W11 m c (Proc.devRef .tc b) := by
  by_cases h : ∃ w, Pipeline.arrRef spec4 w = b
  · obtain ⟨w, rfl⟩ := h
    rw [W12_arr]
    fin_cases w
    · exact ((dat4 (En4 m) c).arrAt_in 0 rfl _).trans (A_eq4 (En4 m) c 0)
    · exact ((dat4 (En4 m) c).arrAt_in 1 rfl _).trans (A_eq4 (En4 m) c 1)
    · exact ((dat4 (En4 m) c).arrAt_in 2 rfl _).trans (A_eq4 (En4 m) c 2)
    · exact ((dat4 (En4 m) c).arrAt_in 3 rfl _).trans (A_eq4 (En4 m) c 3)
    · exact ((dat4 (En4 m) c).arrAt_in 4 rfl _).trans (A_eq4 (En4 m) c 4)
    · exact absurd rfl hb
  · exact W12_of_ne m c b (fun w e => h ⟨w, e⟩)
/-- Region 5's entry contents read at the TensorCore's references. -/
abbrev En5 : (c : Dev nD) → (b : Ref sig .tc) → Buf (Elt F) ((c : Thread nD τ).loc b) := fun c b => W12 m c b
/-- At region 5's exit: its arrays at what the pipeline leaves, every other buffer as entered. -/
def W13 (c : Dev nD) : Valuation τ sig (Elt F) :=
  Pipeline.withArrays spec5 c (W12 m c) fun w => (dat5 (En5 m) c).arrAt w cfg5.N
theorem W13_arr (c : Dev nD) (w : Fin cfg5.W) :
    W13 m c (Proc.devRef .tc (Pipeline.arrRef spec5 w)) = (dat5 (En5 m) c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m c (Proc.devRef .tc b) = W12 m c (Proc.devRef .tc b) := by
  unfold W13; exact Pipeline.withArrays_of_ne spec5 c _ _ b hb
/-- Region 5's exit contents read at the TensorCore's references. -/
abbrev Ex5 : (c : Dev nD) → (b : Ref sig .tc) → Buf (Elt F) ((c : Thread nD τ).loc b) := fun c b => W13 m c b
theorem hF5 (c : Dev nD) (w : Fin cfg5.W) : (dat5 (En5 m) c).arrAt w cfg5.N = Ex5 m c (Pipeline.arrRef spec5 w) :=
  (W13_arr m c w).symm
theorem hrest5 (c : Dev nD) : ∀ b, b ∉ Finset.univ.image (Pipeline.arrRef spec5) → Ex5 m c b = En5 m c b :=
  fun b hb => W13_of_ne m c b fun w e => hb (Finset.mem_image.mpr ⟨w, Finset.mem_univ _, e⟩)
/-- A region changes only its output array: an input array is handed back as it was found. -/
theorem W13_keep (c : Dev nD) (b : Ref sig .tc) (hb : b ≠ main_v81) :
    W13 m c (Proc.devRef .tc b) = W12 m c (Proc.devRef .tc b) := by
  by_cases h : ∃ w, Pipeline.arrRef spec5 w = b
  · obtain ⟨w, rfl⟩ := h
    rw [W13_arr]
    fin_cases w
    · exact ((dat5 (En5 m) c).arrAt_in 0 rfl _).trans (A_eq5 (En5 m) c 0)
    · exact ((dat5 (En5 m) c).arrAt_in 1 rfl _).trans (A_eq5 (En5 m) c 1)
    · exact ((dat5 (En5 m) c).arrAt_in 2 rfl _).trans (A_eq5 (En5 m) c 2)
    · exact ((dat5 (En5 m) c).arrAt_in 3 rfl _).trans (A_eq5 (En5 m) c 3)
    · exact absurd rfl hb
  · exact W13_of_ne m c b (fun w e => h ⟨w, e⟩)
/-- After the host stretch `hostOps6`. -/
abbrev W14 : Dev nD → Valuation τ sig (Elt F) := fun c => StableHlo.after hostOps6 (W13 m c)
/-- After the host stretch `hostOps6_1`. -/
abbrev W15 : Dev nD → Valuation τ sig (Elt F) := fun c => StableHlo.after hostOps6_1 (W14 m c)
/-- After the host stretch `hostOps6_2`. -/
abbrev W16 : Dev nD → Valuation τ sig (Elt F) := fun c => StableHlo.after hostOps6_2 (W15 m c)

/-- A buffer that no host operation writes and that is no region's output array ends as launched. -/
theorem W16_keep (c : Dev nD) (b : Ref sig .tc) (h0 : b ∉ hostOps0_W) (h3 : b ∉ hostOps2_W) (h4 : b ∉ hostOps2_1_W) (h5 : b ∉ hostOps2_2_W) (h8 : b ∉ hostOps4_W) (h9 : b ∉ hostOps4_1_W) (h10 : b ∉ hostOps4_2_W) (h13 : b ∉ hostOps6_W) (h14 : b ∉ hostOps6_1_W) (h15 : b ∉ hostOps6_2_W)
    (hv : b ∉ ([main_v28, main_v29, main_v54, main_v55, main_v80, main_v81] : List (Ref sig .tc))) :
    W16 m c (Proc.devRef .tc b) = m ((c : Thread nD τ).loc b) := by
  have e28 : b ≠ main_v28 := fun e => hv (by subst e; decide)
  have e29 : b ≠ main_v29 := fun e => hv (by subst e; decide)
  have e54 : b ≠ main_v54 := fun e => hv (by subst e; decide)
  have e55 : b ≠ main_v55 := fun e => hv (by subst e; decide)
  have e80 : b ≠ main_v80 := fun e => hv (by subst e; decide)
  have e81 : b ≠ main_v81 := fun e => hv (by subst e; decide)
  calc W16 m c (Proc.devRef .tc b)
    _ = W15 m c (Proc.devRef .tc b) := StableHlo.after_of_writes_sub hostOps6_2 _ hostOps6_2_writes h15
    _ = W14 m c (Proc.devRef .tc b) := StableHlo.after_of_writes_sub hostOps6_1 _ hostOps6_1_writes h14
    _ = W13 m c (Proc.devRef .tc b) := StableHlo.after_of_writes_sub hostOps6 _ hostOps6_writes h13
    _ = W12 m c (Proc.devRef .tc b) := W13_keep m c b e81
    _ = W11 m c (Proc.devRef .tc b) := W12_keep m c b e80
    _ = W10 m c (Proc.devRef .tc b) := StableHlo.after_of_writes_sub hostOps4_2 _ hostOps4_2_writes h10
    _ = W9 m c (Proc.devRef .tc b) := StableHlo.after_of_writes_sub hostOps4_1 _ hostOps4_1_writes h9
    _ = W8 m c (Proc.devRef .tc b) := StableHlo.after_of_writes_sub hostOps4 _ hostOps4_writes h8
    _ = W7 m c (Proc.devRef .tc b) := W8_keep m c b e55
    _ = W6 m c (Proc.devRef .tc b) := W7_keep m c b e54
    _ = W5 m c (Proc.devRef .tc b) := StableHlo.after_of_writes_sub hostOps2_2 _ hostOps2_2_writes h5
    _ = W4 m c (Proc.devRef .tc b) := StableHlo.after_of_writes_sub hostOps2_1 _ hostOps2_1_writes h4
    _ = W3 m c (Proc.devRef .tc b) := StableHlo.after_of_writes_sub hostOps2 _ hostOps2_writes h3
    _ = W2 m c (Proc.devRef .tc b) := W3_keep m c b e29
    _ = W1 m c (Proc.devRef .tc b) := W2_keep m c b e28
    _ = W0 m c (Proc.devRef .tc b) := StableHlo.after_of_writes_sub hostOps0 _ hostOps0_writes h0
    _ = m ((c : Thread nD τ).loc b) := rfl

/-! ## The proof data family and the thread state -/

/-- Every pipeline's proof data, each at its region's entry contents. -/
def hdats : (p : Fin 6) → (c : Dev nD) → Dat τ (Elt F) Unit ℕ (UR sig nD τ) ℕ (Pipeline.pin (pcfgs (F := F)) adm p) c
  | ⟨0, _⟩ => fun c => dat0 (En0 m) c
  | ⟨1, _⟩ => fun c => dat1 (En1 m) c
  | ⟨2, _⟩ => fun c => dat2 (En2 m) c
  | ⟨3, _⟩ => fun c => dat3 (En3 m) c
  | ⟨4, _⟩ => fun c => dat4 (En4 m) c
  | ⟨5, _⟩ => fun c => dat5 (En5 m) c
abbrev hV : Variants := Variants.none
/-- No core owes another anything: no level is assigned. -/
abbrev hL : GSem nD τ sig → Finset Unit := fun _ => ∅
abbrev hlv : GSem nD τ sig → Unit → ℕ := fun _ _ => 0
/-- What rides beside the buffers through every item: the core's generator register at some state and its dues, at nothing. -/
abbrev Ride (c : Dev nD) : sProp 𝕄 := iprop((∃ r, prngReg c r) ∗ ∃ W, owes (c : Thread nD τ) (0 : CellTallies nD τ sig Unit) W)
/-- A host stretch as an item: the unscoped buffers from the contents `W` to the operations' fold over them. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ hV hL hlv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tend (c : Dev nD) : sProp 𝕄 := iprop(StableHlo.held (c : Thread nD τ) (Pipeline.ucRefs τ sig) (W16 m c) ∗ ∃ r, prngReg c r)

/-- The last item's thread state, regrouped: the dues stand apart. -/
theorem tail_ent (c : Dev nD) : iprop(StableHlo.held (c : Thread nD τ) (Pipeline.ucRefs τ sig) (W16 m c) ∗ Ride c)
    ⊢ (iprop(Tend m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The regions as items -/

set_option backward.isDefEq.respectTransparency.types false in
/-- Region 0 over the thread state: entered from every unscoped buffer at `W1`, left at `W2`; its arrays split out
    of the unscoped buffers and put back at the exit contents; the generator register into the region's invariant and out;
    nothing owed; no semaphore of the kernel's own. -/
def hreg0 : Pipeline.RegionSeg (pcfgs (F := F)) adm (hdats m) () defs₀ hV hL hlv 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ hL hlv 0 fun _ _ => rfl
  pre c := iprop(StableHlo.held (c : Thread nD τ) (Pipeline.ucRefs τ sig) (W1 m c) ∗ Ride c)
  post c := iprop(StableHlo.held (c : Thread nD τ) (Pipeline.ucRefs τ sig) (W2 m c) ∗ Ride c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (hdats m) launch0.win launch0.arr_whole c
      ((hdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (hdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (hdats m) ((hdats m 0 c).share_full fun _ => rfl)
      (En0 m c) (Ex0 m c) ((hdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`; its arrays split out
    of the unscoped buffers and put back at the exit contents; the generator register into the region's invariant and out;
    nothing owed; no semaphore of the kernel's own. -/
def hreg1 : Pipeline.RegionSeg (pcfgs (F := F)) adm (hdats m) () defs₀ hV hL hlv 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ hL hlv 1 fun _ _ => rfl
  pre c := iprop(StableHlo.held (c : Thread nD τ) (Pipeline.ucRefs τ sig) (W2 m c) ∗ Ride c)
  post c := iprop(StableHlo.held (c : Thread nD τ) (Pipeline.ucRefs τ sig) (W3 m c) ∗ Ride c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) adm (hdats m) launch1.win launch1.arr_whole c
      ((hdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 1 c).Φ 0 = (dat1 (En1 m) c).Φ 0 from rfl]
    refine BI.Entails.trans (?_ : _ ⊢ (Pipeline.ΦA spec1 c : sProp 𝕄)) (hin1 (En1 m) c)
    unfold Pipeline.ΦA
    iintro ⟨Hp, -, Hr⟩
    isplitl [Hr]; · iexact Hr
    iexact Hp
  hout c := by
    rw [Pipeline.ownSems0_none, show (hdats m 1 c).Φ (Fin.last _) = (dat1 (En1 m) c).Φ (Fin.last cfg1.N) from rfl]
    refine BI.Entails.trans (hout1 (En1 m) c) (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (hdats m) ((hdats m 1 c).share_full fun _ => rfl)
      (En1 m c) (Ex1 m c) ((hdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W6`, left at `W7`; its arrays split out
    of the unscoped buffers and put back at the exit contents; the generator register into the region's invariant and out;
    nothing owed; no semaphore of the kernel's own. -/
def hreg2 : Pipeline.RegionSeg (pcfgs (F := F)) adm (hdats m) () defs₀ hV hL hlv 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ hL hlv 2 fun _ _ => rfl
  pre c := iprop(StableHlo.held (c : Thread nD τ) (Pipeline.ucRefs τ sig) (W6 m c) ∗ Ride c)
  post c := iprop(StableHlo.held (c : Thread nD τ) (Pipeline.ucRefs τ sig) (W7 m c) ∗ Ride c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) adm (hdats m) launch2.win launch2.arr_whole c
      ((hdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (hdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (hdats m) ((hdats m 2 c).share_full fun _ => rfl)
      (En2 m c) (Ex2 m c) ((hdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`; its arrays split out
    of the unscoped buffers and put back at the exit contents; the generator register into the region's invariant and out;
    nothing owed; no semaphore of the kernel's own. -/
def hreg3 : Pipeline.RegionSeg (pcfgs (F := F)) adm (hdats m) () defs₀ hV hL hlv 3 where
  win := launch3.win.to₀
  block_pos := launch3.block_pos
  stage_whole := launch3.stage_whole
  K := PEmpty
  osem k := k.elim
  ho := Pipeline.OwnSemFacts.none _
  hbody c := (body_obligation3 (En3 m) c).loose
  hwaits := Pipeline.hwaits_of_owed_zero _ _ _ _ hL hlv 3 fun _ _ => rfl
  pre c := iprop(StableHlo.held (c : Thread nD τ) (Pipeline.ucRefs τ sig) (W7 m c) ∗ Ride c)
  post c := iprop(StableHlo.held (c : Thread nD τ) (Pipeline.ucRefs τ sig) (W8 m c) ∗ Ride c)
  X c := iprop(∃ r, prngReg c r)
  Y c := iprop(∃ r, prngReg c r)
  Z c := Pipeline.unscopedRest (Ix := Unit) (Name := ℕ) (U := UR sig nD τ) (Lvl := ℕ) spec3 c (En3 m c)
  hentry c := by
    rw [Pipeline.ownSems0_none]
    have hsplit := Pipeline.arrays_of_unscopedBufs (p := 3) (pcfgs (F := F)) adm (hdats m) launch3.win launch3.arr_whole c
      ((hdats m 3 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 3 c).Φ 0 = (dat3 (En3 m) c).Φ 0 from rfl]
    refine BI.Entails.trans (?_ : _ ⊢ (Pipeline.ΦA spec3 c : sProp 𝕄)) (hin3 (En3 m) c)
    unfold Pipeline.ΦA
    iintro ⟨Hp, -, Hr⟩
    isplitl [Hr]; · iexact Hr
    iexact Hp
  hout c := by
    rw [Pipeline.ownSems0_none, show (hdats m 3 c).Φ (Fin.last _) = (dat3 (En3 m) c).Φ (Fin.last cfg3.N) from rfl]
    refine BI.Entails.trans (hout3 (En3 m) c) (?_ : (Pipeline.ΦA spec3 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (hdats m) ((hdats m 3 c).share_full fun _ => rfl)
      (En3 m c) (Ex3 m c) ((hdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W11`, left at `W12`; its arrays split out
    of the unscoped buffers and put back at the exit contents; the generator register into the region's invariant and out;
    nothing owed; no semaphore of the kernel's own. -/
def hreg4 : Pipeline.RegionSeg (pcfgs (F := F)) adm (hdats m) () defs₀ hV hL hlv 4 where
  win := launch4.win.to₀
  block_pos := launch4.block_pos
  stage_whole := launch4.stage_whole
  K := PEmpty
  osem k := k.elim
  ho := Pipeline.OwnSemFacts.none _
  hbody c := (body_obligation4 (En4 m) c).loose
  hwaits := Pipeline.hwaits_of_owed_zero _ _ _ _ hL hlv 4 fun _ _ => rfl
  pre c := iprop(StableHlo.held (c : Thread nD τ) (Pipeline.ucRefs τ sig) (W11 m c) ∗ Ride c)
  post c := iprop(StableHlo.held (c : Thread nD τ) (Pipeline.ucRefs τ sig) (W12 m c) ∗ Ride c)
  X c := iprop(∃ r, prngReg c r)
  Y c := iprop(∃ r, prngReg c r)
  Z c := Pipeline.unscopedRest (Ix := Unit) (Name := ℕ) (U := UR sig nD τ) (Lvl := ℕ) spec4 c (En4 m c)
  hentry c := by
    rw [Pipeline.ownSems0_none]
    have hsplit := Pipeline.arrays_of_unscopedBufs (p := 4) (pcfgs (F := F)) adm (hdats m) launch4.win launch4.arr_whole c
      ((hdats m 4 c).share_full fun _ => rfl) (En4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (hdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (hdats m) ((hdats m 4 c).share_full fun _ => rfl)
      (En4 m c) (Ex4 m c) ((hdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W12`, left at `W13`; its arrays split out
    of the unscoped buffers and put back at the exit contents; the generator register into the region's invariant and out;
    nothing owed; no semaphore of the kernel's own. -/
def hreg5 : Pipeline.RegionSeg (pcfgs (F := F)) adm (hdats m) () defs₀ hV hL hlv 5 where
  win := launch5.win.to₀
  block_pos := launch5.block_pos
  stage_whole := launch5.stage_whole
  K := PEmpty
  osem k := k.elim
  ho := Pipeline.OwnSemFacts.none _
  hbody c := (body_obligation5 (En5 m) c).loose
  hwaits := Pipeline.hwaits_of_owed_zero _ _ _ _ hL hlv 5 fun _ _ => rfl
  pre c := iprop(StableHlo.held (c : Thread nD τ) (Pipeline.ucRefs τ sig) (W12 m c) ∗ Ride c)
  post c := iprop(StableHlo.held (c : Thread nD τ) (Pipeline.ucRefs τ sig) (W13 m c) ∗ Ride c)
  X c := iprop(∃ r, prngReg c r)
  Y c := iprop(∃ r, prngReg c r)
  Z c := Pipeline.unscopedRest (Ix := Unit) (Name := ℕ) (U := UR sig nD τ) (Lvl := ℕ) spec5 c (En5 m c)
  hentry c := by
    rw [Pipeline.ownSems0_none]
    have hsplit := Pipeline.arrays_of_unscopedBufs (p := 5) (pcfgs (F := F)) adm (hdats m) launch5.win launch5.arr_whole c
      ((hdats m 5 c).share_full fun _ => rfl) (En5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 5 c).Φ 0 = (dat5 (En5 m) c).Φ 0 from rfl]
    refine BI.Entails.trans (?_ : _ ⊢ (Pipeline.ΦA spec5 c : sProp 𝕄)) (hin5 (En5 m) c)
    unfold Pipeline.ΦA
    iintro ⟨Hp, -, Hr⟩
    isplitl [Hr]; · iexact Hr
    iexact Hp
  hout c := by
    rw [Pipeline.ownSems0_none, show (hdats m 5 c).Φ (Fin.last _) = (dat5 (En5 m) c).Φ (Fin.last cfg5.N) from rfl]
    refine BI.Entails.trans (hout5 (En5 m) c) (?_ : (Pipeline.ΦA spec5 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (hdats m) ((hdats m 5 c).share_full fun _ => rfl)
      (En5 m c) (Ex5 m c) ((hdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's sixteen items in order. -/
abbrev hsegs : List (Pipeline.Seg (pcfgs (F := F)) adm (hdats m) () defs₀ hV hL hlv) :=
  [ .host (hseg hostOps0 hostOps0_sub hostOps0_fresh (W0 m)),
    .region (hreg0 m),
    .region (hreg1 m),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)),
    .region (hreg2 m),
    .region (hreg3 m),
    .host (hseg hostOps4 hostOps4_sub hostOps4_fresh (W8 m)),
    .host (hseg hostOps4_1 hostOps4_1_sub hostOps4_1_fresh (W9 m)),
    .host (hseg hostOps4_2 hostOps4_2_sub hostOps4_2_fresh (W10 m)),
    .region (hreg4 m),
    .region (hreg5 m),
    .host (hseg hostOps6 hostOps6_sub hostOps6_fresh (W13 m)),
    .host (hseg hostOps6_1 hostOps6_1_sub hostOps6_1_fresh (W14 m)),
    .host (hseg hostOps6_2 hostOps6_2_sub hostOps6_2_fresh (W15 m)) ]

set_option backward.isDefEq.respectTransparency.types false in
/-- THE RUN. From any memory with zero counters, every weakly fair execution of @main on the TensorCores terminates,
    nothing faulting, and every final state has every unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W16 m c b) := by
  refine Pipeline.θ_run_regions_kit_dev (pcfgs (F := F)) adm (hdats m) () cellOf_inj emb₁ defs₀ hV hL hlv m ρ main
    (fun _ => hsegs m)
    (fun c Q => by
      rewrite [main_chain c, Seg.run_eq_chain,
        show (hsegs m).map Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          Prog.lift (.customCall (Pipeline.entry 2) ()),
          Prog.lift (.customCall (Pipeline.entry 3) ()),
          StableHlo.seq hostOps4,
          StableHlo.seq hostOps4_1,
          StableHlo.seq hostOps4_2,
          Prog.lift (.customCall (Pipeline.entry 4) ()),
          Prog.lift (.customCall (Pipeline.entry 5) ()),
          StableHlo.seq hostOps6,
          StableHlo.seq hostOps6_1,
          StableHlo.seq hostOps6_2 ] from rfl]
      exact .rfl)
    (fun c => by simp only [hsegs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c)) (Tₙ := Tend m)
    (hch := fun c => ⟨.rfl, .rfl, .rfl, .rfl, .rfl, .rfl, .rfl, .rfl, .rfl, .rfl, .rfl, .rfl, .rfl, .rfl, .rfl, .rfl, tail_ent m c⟩)
    (hinit := by
      refine Pipeline.initEach hL hlv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m c b)
    (hfin := fun c s' => by
      iintro ⟨⟨Hh, -⟩, HSI⟩
      unfold StableHlo.held
      imodintro
      iapply (pointsTo_read_all (Pipeline.ucRefs τ sig) (fun b => (((c : Thread nD τ)).1, b)) (W16 m c) s')
      isplitl [Hh] <;> iassumption)
    (hQ := fun s h => h)

/-- An argument array is written by no host operation and is no region's output. -/
theorem W16_arg (c : Dev nD) (b : Ref sig .tc)
    (h : b ∈ ([main_arg0, main_arg1, main_arg2, main_arg3, main_arg4, main_arg5, main_arg6, main_arg7, main_arg8, main_arg9, main_arg10, main_arg11, main_arg12, main_arg13, main_arg14, main_arg15, main_arg16] : List (Ref sig .tc))) :
    W16 m c (Proc.devRef .tc b) = m ((c : Thread nD τ).loc b) := by
  simp only [List.mem_cons, List.mem_nil_iff, or_false] at h
  rcases h with rfl | rfl | rfl | rfl | rfl | rfl | rfl | rfl | rfl | rfl | rfl | rfl | rfl | rfl | rfl | rfl | rfl <;>
    exact W16_keep m c _ (by decide) (by decide) (by decide) (by decide) (by decide) (by decide) (by decide) (by decide) (by decide) (by decide) (by decide)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_arg0 (by decide))).trans (W16_arg m c main_arg0 (by decide)),
    (h c _ (mem_uc main_arg1 (by decide))).trans (W16_arg m c main_arg1 (by decide)),
    (h c _ (mem_uc main_arg2 (by decide))).trans (W16_arg m c main_arg2 (by decide)),
    (h c _ (mem_uc main_arg3 (by decide))).trans (W16_arg m c main_arg3 (by decide)),
    (h c _ (mem_uc main_arg4 (by decide))).trans (W16_arg m c main_arg4 (by decide)),
    (h c _ (mem_uc main_arg5 (by decide))).trans (W16_arg m c main_arg5 (by decide)),
    (h c _ (mem_uc main_arg6 (by decide))).trans (W16_arg m c main_arg6 (by decide)),
    (h c _ (mem_uc main_arg7 (by decide))).trans (W16_arg m c main_arg7 (by decide)),
    (h c _ (mem_uc main_arg8 (by decide))).trans (W16_arg m c main_arg8 (by decide)),
    (h c _ (mem_uc main_arg9 (by decide))).trans (W16_arg m c main_arg9 (by decide)),
    (h c _ (mem_uc main_arg10 (by decide))).trans (W16_arg m c main_arg10 (by decide)),
    (h c _ (mem_uc main_arg11 (by decide))).trans (W16_arg m c main_arg11 (by decide)),
    (h c _ (mem_uc main_arg12 (by decide))).trans (W16_arg m c main_arg12 (by decide)),
    (h c _ (mem_uc main_arg13 (by decide))).trans (W16_arg m c main_arg13 (by decide)),
    (h c _ (mem_uc main_arg14 (by decide))).trans (W16_arg m c main_arg14 (by decide)),
    (h c _ (mem_uc main_arg15 (by decide))).trans (W16_arg m c main_arg15 (by decide)),
    (h c _ (mem_uc main_arg16 (by decide))).trans (W16_arg m c main_arg16 (by decide))⟩) (run_all m ρ)

end Cert.Kernel.Hand

end
-- ==== Proof.KI_Mlp0.lean ====
import proofs.«181750_j70806830841988_1_alg».proof.Proof.Gen.KernelIdeal.Launch
import proofs.«181750_j70806830841988_1_alg».proof.Proof.Gen.KernelIdeal.Skeleton
import proofs.«181750_j70806830841988_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The dense layer of pipeline 0: what its body does to the staging buffers

Pipeline 0 walks ten row blocks of 10000 rows. At each block it holds six staging buffers: the activation rows of the
block, the first weight matrix, the first bias row, the second weight matrix, the second bias row, and the block
of output rows. The body reads the five inputs whole, forms one 10000 x 64 value from them, and overwrites the
output buffer whole with it; the inputs stay as they were. Everything here is stated for an arbitrary assignment
`V` of contents to the core's buffers at the moment the pipeline starts, and for an arbitrary float model.
-/

-- membership of an index in a rectangle 10000 rows long is found by structural recursion along the rows
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the pipeline starts
variable (V : (c : Dev nD) → (b : Ref sig .tc) → Buf (Elt F) ((c : Thread nD τ).loc b))

/-! ## Blocks -/

/-- The block of window `w` at grid point `t`: the part of the window's array, as `V` gives it, that the
    window's index map selects at `t`. For window 0 and the output this is rows `10000 t … 10000 t + 9999`;
    for the weights and biases it is the whole array at every point. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds the window's block at EVERY point, whether or not a transfer filled it
    there, provided the array is `V`'s and the body leaves the buffer alone. Where it was filled this is what the
    transfer brought; where it was not, the block index is the one of the point before (the index map did not
    move, which is the case of the four parameter windows after the first point), and the buffer still holds
    that point's block, which is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body reads and writes: each buffer, whole -/

abbrev r0_0 : Rect S10000x2 := Rect.unit (s := S10000x2) ![0, 0] S10000x2.size inb_S10000x2_S10000x2_0_0
abbrev r0_1 : Rect S2x64 := Rect.unit (s := S2x64) ![0, 0] S2x64.size inb_S2x64_S2x64_0_0
abbrev r0_2 : Rect S1x64 := Rect.unit (s := S1x64) ![0, 0] S1x64.size inb_S1x64_S1x64_0_0
abbrev r0_3 : Rect S64x64 := Rect.unit (s := S64x64) ![0, 0] S64x64.size inb_S64x64_S64x64_0_0
abbrev r0_4 : Rect S1x64 := Rect.unit (s := S1x64) ![0, 0] S1x64.size inb_S1x64_S1x64_0_0
abbrev r0_5 : Rect S10000x64 := Rect.unit (s := S10000x64) ![0, 0] S10000x64.size inb_S10000x64_S10000x64_0_0

/-! ## What the body leaves in the output buffer -/

/-- The output buffer after the body, as a function of what the five input buffers read: the one value the body
    stores, laid over the whole buffer. -/
def out0_5 (x0 : Vec F S10000x2 .f32) (x1 : Vec F S2x64 .f32) (x2 : Vec F S1x64 .f32) (x3 : Vec F S64x64 .f32) (x4 : Vec F S1x64 .f32) : Vec F S10000x64 .f32 :=
  View.canon [⟨r0_5, k0_pay1 (View.ld x0 r0_0) (View.ld x1 r0_1) (View.ld x2 r0_2) (View.ld x3 r0_3) (View.ld x4 r0_4)⟩]

/-- The one store is through the whole rectangle, so every index of the buffer lies in it. -/
theorem cover0_5 (p0 : Vec F S10000x64 .f32) (y : S10000x64.Idx) :
    ∃ pc ∈ ([⟨r0_5, p0⟩] : List (View.Piece (Elt F) S10000x64 .f32)), y ∈ pc.1.set :=
  View.cover_of_tiled [⟨r0_5, p0⟩] S10000x64.size (by rfl) y

/-! ## The body's triple -/

set_option maxHeartbeats 1000000 in
/-- Run on six whole staging buffers, the inputs reading `x0 … x4` and the output holding anything, the body ends
    with the inputs reading what they read and the output reading `out0_5 x0 … x4`. The body is five whole loads,
    one load of the output buffer whose value is dropped, and one whole store; after the store the buffer reads the
    stored value everywhere because the store's rectangle covers it. -/
theorem sound_kernel0 (c : Dev nD) (E : Set ℕ) (i : grid0.Coords) (arg1 : Memref sig .tc .vmem S10000x2 .f32) (harg1 : arg1.IsWhole) (arg2 : Memref sig .tc .vmem S2x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x2 .f32) (x1 : Vec F S2x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The data the pipeline's correctness statement is instantiated at, on core `c`: the arrays are `V`'s; after the
    body at point `t` every input buffer holds its block and the output buffer holds `out0_5` of the five input
    blocks; the invariant is the one that leaves every other buffer and the generator register untouched; all
    shares are full and nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

/-- The data's arrays are `V`'s. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]

/-! Each input buffer holds its block when the body starts, at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation, at a generic point -/

/-- What the body starts from at point `t`: the invariant, the core's debt, and each window's current staging
    buffer at what it holds before the body, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it ends with: the same, each buffer at what the body leaves. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the input buffers hold their blocks, so the triple above applies with `xW` the blocks;
    the invariant and the debt are not touched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline's correctness statement asks of the body, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI_Mlp2.lean ====
import proofs.«181750_j70806830841988_1_alg».proof.Proof.Gen.KernelIdeal.Launch
import proofs.«181750_j70806830841988_1_alg».proof.Proof.Gen.KernelIdeal.Skeleton
import proofs.«181750_j70806830841988_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The dense layer of pipeline 2: what its body does to the staging buffers

Pipeline 2 walks ten row blocks of 10000 rows. At each block it holds six staging buffers: the activation rows of the
block, the first weight matrix, the first bias row, the second weight matrix, the second bias row, and the block
of output rows. The body reads the five inputs whole, forms one 10000 x 64 value from them, and overwrites the
output buffer whole with it; the inputs stay as they were. Everything here is stated for an arbitrary assignment
`V` of contents to the core's buffers at the moment the pipeline starts, and for an arbitrary float model.
-/

-- membership of an index in a rectangle 10000 rows long is found by structural recursion along the rows
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the pipeline starts
variable (V : (c : Dev nD) → (b : Ref sig .tc) → Buf (Elt F) ((c : Thread nD τ).loc b))

/-! ## Blocks -/

/-- The block of window `w` at grid point `t`: the part of the window's array, as `V` gives it, that the
    window's index map selects at `t`. For window 0 and the output this is rows `10000 t … 10000 t + 9999`;
    for the weights and biases it is the whole array at every point. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! An input window's staging buffer holds the window's block at EVERY point, whether or not a transfer filled it
    there, provided the array is `V`'s and the body leaves the buffer alone. Where it was filled this is what the
    transfer brought; where it was not, the block index is the one of the point before (the index map did not
    move, which is the case of the four parameter windows after the first point), and the buffer still holds
    that point's block, which is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body reads and writes: each buffer, whole -/

abbrev r2_0 : Rect S10000x64 := Rect.unit (s := S10000x64) ![0, 0] S10000x64.size inb_S10000x64_S10000x64_0_0
abbrev r2_1 : Rect S64x64 := Rect.unit (s := S64x64) ![0, 0] S64x64.size inb_S64x64_S64x64_0_0
abbrev r2_2 : Rect S1x64 := Rect.unit (s := S1x64) ![0, 0] S1x64.size inb_S1x64_S1x64_0_0
abbrev r2_3 : Rect S64x64 := Rect.unit (s := S64x64) ![0, 0] S64x64.size inb_S64x64_S64x64_0_0
abbrev r2_4 : Rect S1x64 := Rect.unit (s := S1x64) ![0, 0] S1x64.size inb_S1x64_S1x64_0_0
abbrev r2_5 : Rect S10000x64 := Rect.unit (s := S10000x64) ![0, 0] S10000x64.size inb_S10000x64_S10000x64_0_0

/-! ## What the body leaves in the output buffer -/

/-- The output buffer after the body, as a function of what the five input buffers read: the one value the body
    stores, laid over the whole buffer. -/
def out2_5 (x0 : Vec F S10000x64 .f32) (x1 : Vec F S64x64 .f32) (x2 : Vec F S1x64 .f32) (x3 : Vec F S64x64 .f32) (x4 : Vec F S1x64 .f32) : Vec F S10000x64 .f32 :=
  View.canon [⟨r2_5, k2_pay1 (View.ld x0 r2_0) (View.ld x1 r2_1) (View.ld x2 r2_2) (View.ld x3 r2_3) (View.ld x4 r2_4)⟩]

/-- The one store is through the whole rectangle, so every index of the buffer lies in it. -/
theorem cover2_5 (p0 : Vec F S10000x64 .f32) (y : S10000x64.Idx) :
    ∃ pc ∈ ([⟨r2_5, p0⟩] : List (View.Piece (Elt F) S10000x64 .f32)), y ∈ pc.1.set :=
  View.cover_of_tiled [⟨r2_5, p0⟩] S10000x64.size (by rfl) y

/-! ## The body's triple -/

set_option maxHeartbeats 1000000 in
/-- Run on six whole staging buffers, the inputs reading `x0 … x4` and the output holding anything, the body ends
    with the inputs reading what they read and the output reading `out2_5 x0 … x4`. The body is five whole loads,
    one load of the output buffer whose value is dropped, and one whole store; after the store the buffer reads the
    stored value everywhere because the store's rectangle covers it. -/
theorem sound_kernel2 (c : Dev nD) (E : Set ℕ) (i : grid2.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S64x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__mlp_kernel i arg1 harg1 arg2 harg2 arg3 harg3 arg4 harg4 arg5 harg5 arg6 harg6) K := by
  simp only [cc2__mlp_kernel_eq_skeleton]; unfold cc2__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The data the pipeline's correctness statement is instantiated at, on core `c`: the arrays are `V`'s; after the
    body at point `t` every input buffer holds its block and the output buffer holds `out2_5` of the five input
    blocks; the invariant is the one that leaves every other buffer and the generator register untouched; all
    shares are full and nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The data's arrays are `V`'s. -/
theorem A_eq2 (c : Dev nD) (w : Fin cfg2.W) : (dat2 V c).A w = V c (Pipeline.arrRef spec2 w) := by
  dsimp only [dat2]

/-! What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-! Each input buffer holds its block when the body starts, at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body starts from at point `t`: the invariant, the core's debt, and each window's current staging
    buffer at what it holds before the body, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it ends with: the same, each buffer at what the body leaves. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the input buffers hold their blocks, so the triple above applies with `xW` the blocks;
    the invariant and the debt are not touched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline's correctness statement asks of the body, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI_Mlp4.lean ====
import proofs.«181750_j70806830841988_1_alg».proof.Proof.Gen.KernelIdeal.Launch
import proofs.«181750_j70806830841988_1_alg».proof.Proof.Gen.KernelIdeal.Skeleton
import proofs.«181750_j70806830841988_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The dense layer of pipeline 4: what its body does to the staging buffers

Pipeline 4 walks ten row blocks of 10000 rows. At each block it holds six staging buffers: the activation rows of the
block, the first weight matrix, the first bias row, the second weight matrix, the second bias row, and the block
of output rows. The body reads the five inputs whole, forms one 10000 x 64 value from them, and overwrites the
output buffer whole with it; the inputs stay as they were. Everything here is stated for an arbitrary assignment
`V` of contents to the core's buffers at the moment the pipeline starts, and for an arbitrary float model.
-/

-- membership of an index in a rectangle 10000 rows long is found by structural recursion along the rows
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the pipeline starts
variable (V : (c : Dev nD) → (b : Ref sig .tc) → Buf (Elt F) ((c : Thread nD τ).loc b))

/-! ## Blocks -/

/-- The block of window `w` at grid point `t`: the part of the window's array, as `V` gives it, that the
    window's index map selects at `t`. For window 0 and the output this is rows `10000 t … 10000 t + 9999`;
    for the weights and biases it is the whole array at every point. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! An input window's staging buffer holds the window's block at EVERY point, whether or not a transfer filled it
    there, provided the array is `V`'s and the body leaves the buffer alone. Where it was filled this is what the
    transfer brought; where it was not, the block index is the one of the point before (the index map did not
    move, which is the case of the four parameter windows after the first point), and the buffer still holds
    that point's block, which is this point's. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The rectangles the body reads and writes: each buffer, whole -/

abbrev r4_0 : Rect S10000x64 := Rect.unit (s := S10000x64) ![0, 0] S10000x64.size inb_S10000x64_S10000x64_0_0
abbrev r4_1 : Rect S64x64 := Rect.unit (s := S64x64) ![0, 0] S64x64.size inb_S64x64_S64x64_0_0
abbrev r4_2 : Rect S1x64 := Rect.unit (s := S1x64) ![0, 0] S1x64.size inb_S1x64_S1x64_0_0
abbrev r4_3 : Rect S64x64 := Rect.unit (s := S64x64) ![0, 0] S64x64.size inb_S64x64_S64x64_0_0
abbrev r4_4 : Rect S1x64 := Rect.unit (s := S1x64) ![0, 0] S1x64.size inb_S1x64_S1x64_0_0
abbrev r4_5 : Rect S10000x64 := Rect.unit (s := S10000x64) ![0, 0] S10000x64.size inb_S10000x64_S10000x64_0_0

/-! ## What the body leaves in the output buffer -/

/-- The output buffer after the body, as a function of what the five input buffers read: the one value the body
    stores, laid over the whole buffer. -/
def out4_5 (x0 : Vec F S10000x64 .f32) (x1 : Vec F S64x64 .f32) (x2 : Vec F S1x64 .f32) (x3 : Vec F S64x64 .f32) (x4 : Vec F S1x64 .f32) : Vec F S10000x64 .f32 :=
  View.canon [⟨r4_5, k4_pay1 (View.ld x0 r4_0) (View.ld x1 r4_1) (View.ld x2 r4_2) (View.ld x3 r4_3) (View.ld x4 r4_4)⟩]

/-- The one store is through the whole rectangle, so every index of the buffer lies in it. -/
theorem cover4_5 (p0 : Vec F S10000x64 .f32) (y : S10000x64.Idx) :
    ∃ pc ∈ ([⟨r4_5, p0⟩] : List (View.Piece (Elt F) S10000x64 .f32)), y ∈ pc.1.set :=
  View.cover_of_tiled [⟨r4_5, p0⟩] S10000x64.size (by rfl) y

/-! ## The body's triple -/

set_option maxHeartbeats 1000000 in
/-- Run on six whole staging buffers, the inputs reading `x0 … x4` and the output holding anything, the body ends
    with the inputs reading what they read and the output reading `out4_5 x0 … x4`. The body is five whole loads,
    one load of the output buffer whose value is dropped, and one whole store; after the store the buffer reads the
    stored value everywhere because the store's rectangle covers it. -/
theorem sound_kernel4 (c : Dev nD) (E : Set ℕ) (i : grid4.Coords) (arg1 : Memref sig .tc .vmem S10000x64 .f32) (harg1 : arg1.IsWhole) (arg2 : Memref sig .tc .vmem S64x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S10000x64 .f32) (harg6 : arg6.IsWhole)
    (x0 : Vec F S10000x64 .f32) (x1 : Vec F S64x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__mlp_kernel i arg1 harg1 arg2 harg2 arg3 harg3 arg4 harg4 arg5 harg5 arg6 harg6) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The data the pipeline's correctness statement is instantiated at, on core `c`: the arrays are `V`'s; after the
    body at point `t` every input buffer holds its block and the output buffer holds `out4_5` of the five input
    blocks; the invariant is the one that leaves every other buffer and the generator register untouched; all
    shares are full and nothing is owed. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The data's arrays are `V`'s. -/
theorem A_eq4 (c : Dev nD) (w : Fin cfg4.W) : (dat4 V c).A w = V c (Pipeline.arrRef spec4 w) := by
  dsimp only [dat4]

/-! What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

/-! Each input buffer holds its block when the body starts, at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body starts from at point `t`: the invariant, the core's debt, and each window's current staging
    buffer at what it holds before the body, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it ends with: the same, each buffer at what the body leaves. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the input buffers hold their blocks, so the triple above applies with `xW` the blocks;
    the invariant and the debt are not touched. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation the pipeline's correctness statement asks of the body, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI_Pool1Runs.lean ====
import proofs.«181750_j70806830841988_1_alg».proof.Proof.Gen.KernelIdeal.Launch
import proofs.«181750_j70806830841988_1_alg».proof.Proof.Gen.KernelIdeal.Skeleton
import proofs.«181750_j70806830841988_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of the long row axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling call 1: what its three cases share

The masked-sum pooling kernel of custom_call 1 runs over a grid of 20 row blocks. It keeps three running sums
(one row of 64 per mask) in a 3x64 scratch: the scratch is set to zero at the first block, each block adds its three
masked column sums to the three rows, and the last block copies the scratch to the 3x64 output. Everything is
stated at a PARAMETER `V`: the contents of the core's buffers when the call is entered. -/

section Entry
variable (V : (c : Dev nD) → (b : Ref sig .tc) → Buf (Elt F) ((c : Thread nD τ).loc b))

/-! ## The windows' blocks -/

/-- Window `w`'s block at point `t`, read off its array as the call finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is
    `V`'s and whose body leaves the block in place: an input that is never idle and never cut. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, for any proof data whose array is
    `V`'s and whose body leaves the block in place: an input that is never idle and never cut. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, for any proof data whose array is
    `V`'s and whose body leaves the block in place: an input that is never idle and never cut. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, for any proof data whose array is
    `V`'s and whose body leaves the block in place: an input that is never idle and never cut. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Entry

/-! ## The body's two conditions -/

/-- The first condition of the body (is this the first row block?), from the grid coordinates. -/
abbrev cond1_0 (i : grid1.Coords) : Prop := (Scalar.cmpi .ne (Scalar.extui (Scalar.cmpi .eq (BitVec.ofNat 32 (i 0).val) 0#32)) 0#32) = 1#1
/-- It holds exactly at point 0 of the 20. -/
theorem hcond1_0 : ∀ t : Fin cfg1.N, cond1_0 (grid1.coords t) ↔ t.val % 20 = 0 :=
  (by decide +kernel : ∀ t : Fin grid1.N, cond1_0 (grid1.coords t) ↔ t.val % 20 = 0)

/-- The second condition of the body (is this the last row block?), from the grid coordinates. -/
abbrev cond1_1 (i : grid1.Coords) : Prop := k1_cond2 i = 1#1
/-- It holds exactly at point 19 of the 20. -/
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle -/

/-- Window 0 is an input: never idle. -/
theorem liveAt1_0 : ∀ t : Fin cfg1.N, cfg1.idle 0 (grid1.coords t) = false := by decide +kernel
/-- Window 1 is an input: never idle. -/
theorem liveAt1_1 : ∀ t : Fin cfg1.N, cfg1.idle 1 (grid1.coords t) = false := by decide +kernel
/-- Window 2 is an input: never idle. -/
theorem liveAt1_2 : ∀ t : Fin cfg1.N, cfg1.idle 2 (grid1.coords t) = false := by decide +kernel
/-- Window 3 is an input: never idle. -/
theorem liveAt1_3 : ∀ t : Fin cfg1.N, cfg1.idle 3 (grid1.coords t) = false := by decide +kernel
/-- At the first point the output window 4 is idle: nothing is stored into it, -/
theorem idleAt1_4_A : ∀ t : Fin cfg1.N, cond1_0 (grid1.coords t) → ¬cond1_1 (grid1.coords t) → cfg1.idle 4 (grid1.coords t) = true := by decide +kernel
/-- and its block is not written back there. -/
theorem noFlush1_4_A : ∀ t : Fin cfg1.N, cond1_0 (grid1.coords t) → ¬cond1_1 (grid1.coords t) → (cfg1.win 4).flush t = false := by decide +kernel
/-- At the points between the first and the last the output window 4 is idle, -/
theorem idleAt1_4_B : ∀ t : Fin cfg1.N, ¬cond1_0 (grid1.coords t) → ¬cond1_1 (grid1.coords t) → cfg1.idle 4 (grid1.coords t) = true := by decide +kernel
/-- and not written back. -/
theorem noFlush1_4_B : ∀ t : Fin cfg1.N, ¬cond1_0 (grid1.coords t) → ¬cond1_1 (grid1.coords t) → (cfg1.win 4).flush t = false := by decide +kernel
/-- At the last point the output window 4 is live: the scratch is copied into it. -/
theorem liveAt1_4_C : ∀ t : Fin cfg1.N, ¬cond1_0 (grid1.coords t) → cond1_1 (grid1.coords t) → cfg1.idle 4 (grid1.coords t) = false := by decide +kernel

/-! ## The memrefs the body is called with -/

/-- The one staging buffer of output window 4, as a view: what the window holds is stated through it. -/
abbrev VO1_4 : View sig .tc .vmem S3x64 .f32 := (Memref.whole cc1_stg4_0 : Memref sig .tc .vmem S3x64 .f32).view
/-- Each window's current staging memref at point `t`, and its wholeness. -/
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S5000x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S3x64 .f32 := win1_4.stage (cfg1.slots t 4)
abbrev hs1_4 (t : Fin cfg1.N) : (ms1_4 t).IsWhole := hstage1_4 ((cfg1.slots t 4).cast nbuf1_4)
/-- The scratch: a whole scoped buffer of the call's own, passed beside the windows. -/
abbrev scM1_0 : Memref sig .tc .vmem S3x64 .f32 := Memref.whole cc1_scratch0
/-- The scratch as a view: the three running sums are stated through it. -/
abbrev VS1_0 : View sig .tc .vmem S3x64 .f32 := scM1_0.view

/-- The core's other scoped buffers (the other calls' staging buffers and scratch), at some contents each: carried
    unopened beside this call's scratch. -/
abbrev rest1 (c : Dev nD) : sProp 𝕄 :=
  Pipeline.scopedRestBut (Ix := Unit) (Name := ℕ) (U := UR sig nD τ) (Lvl := ℕ) (Val := Elt F) spec1 c [cc1_scratch0]

/-- The call's invariant with the scratch as a memref owned at some contents: what the body obligation hands the run
    and takes back. -/
theorem PhiA1_eq (c : Dev nD) :
    (Pipeline.ΦA spec1 c : sProp 𝕄)
      = iprop(iprop(iprop((∃ d, owns (c : Thread nD τ) scM1_0 fullShare d)) ∗ rest1 (F := F) c) ∗ (∃ r, prngReg c r)) := by
  unfold Pipeline.ΦA; rw [scopedRest1_split]; simp only [scM1_0, owns_whole]; try rfl

end Cert.KernelIdeal.Hand

end
-- ==== Proof.KI_Pool1RunA.lean ====
import proofs.«181750_j70806830841988_1_alg».proof.Proof.KI_Pool1Runs

-- membership of an index in a rectangle of the long row axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- THE FIRST BLOCK (first condition holds, second fails). On whole memrefs — the four inputs at their contents, the
    output window's buffer at contents `xi4` that the body does not touch, the scratch at anything — the body zeroes
    the scratch, then adds each mask's column sums to its row, and runs to the continuation holding the inputs and the
    output's buffer as they were and the scratch with its pieces written (`LS0`, last first).
    The printed functions are their skeletons, which the symbolic run executes through the call of the printed part;
    each condition is decided by the case's hypotheses; the pieces are the witness the run finds. -/
noncomputable def kernelRun1_A (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond1_0 i) (hc1 : ¬cond1_1 i)
    (x0 : Vec F S5000x64 .f32) (x1 : Vec F S5000x1 .f32) (x2 : Vec F S5000x1 .f32) (x3 : Vec F S5000x1 .f32) :
    Σ' (L4 : List (View.Piece (Elt F) S3x64 .f32)), { LS0 : List (View.Piece (Elt F) S3x64 .f32) //
      ∀ (xi4 : Vec F S3x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc1__pool_kernel i arg1 harg1 arg2 harg2 arg3 harg3 arg4 harg4 arg5 harg5 arg6 harg6) K } := by
  refine ⟨[], ?_, fun xi4 E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.KernelIdeal.Hand

end
-- ==== Proof.KI_Pool1RunB.lean ====
import proofs.«181750_j70806830841988_1_alg».proof.Proof.KI_Pool1RunA

-- membership of an index in a rectangle of the long row axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- A BLOCK BETWEEN THE FIRST AND THE LAST (both conditions fail). On whole memrefs — the four inputs at their
    contents, the output window's buffer at contents `xi4` that the body does not touch, the scratch at the running
    sums `xs0` the block before left — the body adds each mask's column sums to its row, and runs to the continuation
    holding the inputs and the output's buffer as they were and the scratch with its pieces written (`LS0`, last first).
    The printed functions are their skeletons, which the symbolic run executes through the call of the printed part;
    each condition is decided by the case's hypotheses; the pieces are the witness the run finds. -/
noncomputable def kernelRun1_B (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : ¬cond1_1 i)
    (x0 : Vec F S5000x64 .f32) (x1 : Vec F S5000x1 .f32) (x2 : Vec F S5000x1 .f32) (x3 : Vec F S5000x1 .f32) (xs0 : Vec F S3x64 .f32) :
    Σ' (L4 : List (View.Piece (Elt F) S3x64 .f32)), { LS0 : List (View.Piece (Elt F) S3x64 .f32) //
      ∀ (xi4 : Vec F S3x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc1__pool_kernel i arg1 harg1 arg2 harg2 arg3 harg3 arg4 harg4 arg5 harg5 arg6 harg6) K } := by
  refine ⟨[], ?_, fun xi4 E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.KernelIdeal.Hand

end
-- ==== Proof.KI_Pool1RunC.lean ====
import proofs.«181750_j70806830841988_1_alg».proof.Proof.KI_Pool1RunB

-- membership of an index in a rectangle of the long row axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- THE LAST BLOCK (first condition fails, second holds). On whole memrefs — the four inputs at their contents, the
    output window's buffer at anything, the scratch at the running sums `xs0` the block before left — the body adds
    each mask's column sums to its row, then copies the scratch to the output, and runs to the continuation holding
    the inputs as they were and the output's buffer and the scratch with their pieces written (`L4`, `LS0`, last first).
    The printed functions are their skeletons, which the symbolic run executes through the call of the printed part;
    each condition is decided by the case's hypotheses; the pieces are the witness the run finds. -/
noncomputable def kernelRun1_C (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : cond1_1 i)
    (x0 : Vec F S5000x64 .f32) (x1 : Vec F S5000x1 .f32) (x2 : Vec F S5000x1 .f32) (x3 : Vec F S5000x1 .f32) (xs0 : Vec F S3x64 .f32) :
    Σ' (L4 : List (View.Piece (Elt F) S3x64 .f32)), { LS0 : List (View.Piece (Elt F) S3x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc1__pool_kernel i arg1 harg1 arg2 harg2 arg3 harg3 arg4 harg4 arg5 harg5 arg6 harg6) K } := by
  refine ⟨?_, ?_, fun E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.Hand

end
-- ==== Proof.KI_Pool1.lean ====
import proofs.«181750_j70806830841988_1_alg».proof.Proof.KI_Pool1RunC

-- membership of an index in a rectangle of the long row axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling call 1: what its buffers hold point by point, the proof data, the body obligation -/

/-- At the first block nothing is stored into output window 4 (the window is idle there and not written back): no pieces —
    a placeholder that nothing consults. -/
def out1_A_4 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond1_0 i) (hc1 : ¬cond1_1 i)
    (x0 : Vec F S5000x64 .f32) (x1 : Vec F S5000x1 .f32) (x2 : Vec F S5000x1 .f32) (x3 : Vec F S5000x1 .f32) : Vec F S3x64 .f32 :=
  VO1_4.read (Elt F) (VO1_4.writes (Elt F) VO1_4.junk (kernelRun1_A c i arg1 harg1 arg2 harg2 arg3 harg3 arg4 harg4 arg5 harg5 arg6 harg6 hc0 hc1 x0 x1 x2 x3).1)

/-- The pieces the first block writes into the scratch cover it: among them is the store of the whole 3x64 block. -/
theorem scover1_A_0 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond1_0 i) (hc1 : ¬cond1_1 i)
    (x0 : Vec F S5000x64 .f32) (x1 : Vec F S5000x1 .f32) (x2 : Vec F S5000x1 .f32) (x3 : Vec F S5000x1 .f32) (y : S3x64.Idx) :
    ∃ pc ∈ (kernelRun1_A c i arg1 harg1 arg2 harg2 arg3 harg3 arg4 harg4 arg5 harg5 arg6 harg6 hc0 hc1 x0 x1 x2 x3).2.1, y ∈ pc.1.set :=
  View.cover_of_tiledL (kernelRun1_A c i arg1 harg1 arg2 harg2 arg3 harg3 arg4 harg4 arg5 harg5 arg6 harg6 hc0 hc1 x0 x1 x2 x3).2.1 S3x64.size (by sl_kernel_rfl) y

/-- What the first block leaves in the scratch: its pieces read back over junk. -/
def sout1_A_0 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond1_0 i) (hc1 : ¬cond1_1 i)
    (x0 : Vec F S5000x64 .f32) (x1 : Vec F S5000x1 .f32) (x2 : Vec F S5000x1 .f32) (x3 : Vec F S5000x1 .f32) : Vec F S3x64 .f32 :=
  VS1_0.read (Elt F) (VS1_0.writes (Elt F) VS1_0.junk (kernelRun1_A c i arg1 harg1 arg2 harg2 arg3 harg3 arg4 harg4 arg5 harg5 arg6 harg6 hc0 hc1 x0 x1 x2 x3).2.1)

/-- At a block between the first and the last nothing is stored into output window 4 (the window is idle there and not written back): no pieces —
    a placeholder that nothing consults. -/
def out1_B_4 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : ¬cond1_1 i)
    (x0 : Vec F S5000x64 .f32) (x1 : Vec F S5000x1 .f32) (x2 : Vec F S5000x1 .f32) (x3 : Vec F S5000x1 .f32) (xs0 : Vec F S3x64 .f32) : Vec F S3x64 .f32 :=
  VO1_4.read (Elt F) (VO1_4.writes (Elt F) VO1_4.junk (kernelRun1_B c i arg1 harg1 arg2 harg2 arg3 harg3 arg4 harg4 arg5 harg5 arg6 harg6 hc0 hc1 x0 x1 x2 x3 xs0).1)

/-- The pieces a block between the first and the last writes into the scratch cover it: its three rows of 1x64 tile the 3x64 block. -/
theorem scover1_B_0 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : ¬cond1_1 i)
    (x0 : Vec F S5000x64 .f32) (x1 : Vec F S5000x1 .f32) (x2 : Vec F S5000x1 .f32) (x3 : Vec F S5000x1 .f32) (xs0 : Vec F S3x64 .f32) (y : S3x64.Idx) :
    ∃ pc ∈ (kernelRun1_B c i arg1 harg1 arg2 harg2 arg3 harg3 arg4 harg4 arg5 harg5 arg6 harg6 hc0 hc1 x0 x1 x2 x3 xs0).2.1, y ∈ pc.1.set :=
  View.cover_of_tiledL (kernelRun1_B c i arg1 harg1 arg2 harg2 arg3 harg3 arg4 harg4 arg5 harg5 arg6 harg6 hc0 hc1 x0 x1 x2 x3 xs0).2.1 S1x64.size (by sl_kernel_rfl) y

/-- What a block between the first and the last leaves in the scratch: its pieces read back over junk. -/
def sout1_B_0 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : ¬cond1_1 i)
    (x0 : Vec F S5000x64 .f32) (x1 : Vec F S5000x1 .f32) (x2 : Vec F S5000x1 .f32) (x3 : Vec F S5000x1 .f32) (xs0 : Vec F S3x64 .f32) : Vec F S3x64 .f32 :=
  VS1_0.read (Elt F) (VS1_0.writes (Elt F) VS1_0.junk (kernelRun1_B c i arg1 harg1 arg2 harg2 arg3 harg3 arg4 harg4 arg5 harg5 arg6 harg6 hc0 hc1 x0 x1 x2 x3 xs0).2.1)

/-- At the last block the one store into output window 4 covers its 3x64 block. -/
theorem cover1_C_4 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : cond1_1 i)
    (x0 : Vec F S5000x64 .f32) (x1 : Vec F S5000x1 .f32) (x2 : Vec F S5000x1 .f32) (x3 : Vec F S5000x1 .f32) (xs0 : Vec F S3x64 .f32) (y : S3x64.Idx) :
    ∃ pc ∈ (kernelRun1_C c i arg1 harg1 arg2 harg2 arg3 harg3 arg4 harg4 arg5 harg5 arg6 harg6 hc0 hc1 x0 x1 x2 x3 xs0).1, y ∈ pc.1.set :=
  View.cover_of_tiledL (kernelRun1_C c i arg1 harg1 arg2 harg2 arg3 harg3 arg4 harg4 arg5 harg5 arg6 harg6 hc0 hc1 x0 x1 x2 x3 xs0).1 S3x64.size (by sl_kernel_rfl) y

/-- What the last block leaves in output window 4's staging buffer: its pieces read back over junk. -/
def out1_C_4 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : cond1_1 i)
    (x0 : Vec F S5000x64 .f32) (x1 : Vec F S5000x1 .f32) (x2 : Vec F S5000x1 .f32) (x3 : Vec F S5000x1 .f32) (xs0 : Vec F S3x64 .f32) : Vec F S3x64 .f32 :=
  VO1_4.read (Elt F) (VO1_4.writes (Elt F) VO1_4.junk (kernelRun1_C c i arg1 harg1 arg2 harg2 arg3 harg3 arg4 harg4 arg5 harg5 arg6 harg6 hc0 hc1 x0 x1 x2 x3 xs0).1)

/-- The pieces the last block writes into the scratch cover it: its three rows of 1x64 tile the 3x64 block. -/
theorem scover1_C_0 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : cond1_1 i)
    (x0 : Vec F S5000x64 .f32) (x1 : Vec F S5000x1 .f32) (x2 : Vec F S5000x1 .f32) (x3 : Vec F S5000x1 .f32) (xs0 : Vec F S3x64 .f32) (y : S3x64.Idx) :
    ∃ pc ∈ (kernelRun1_C c i arg1 harg1 arg2 harg2 arg3 harg3 arg4 harg4 arg5 harg5 arg6 harg6 hc0 hc1 x0 x1 x2 x3 xs0).2.1, y ∈ pc.1.set :=
  View.cover_of_tiledL (kernelRun1_C c i arg1 harg1 arg2 harg2 arg3 harg3 arg4 harg4 arg5 harg5 arg6 harg6 hc0 hc1 x0 x1 x2 x3 xs0).2.1 S1x64.size (by sl_kernel_rfl) y

/-- What the last block leaves in the scratch: its pieces read back over junk. -/
def sout1_C_0 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : cond1_1 i)
    (x0 : Vec F S5000x64 .f32) (x1 : Vec F S5000x1 .f32) (x2 : Vec F S5000x1 .f32) (x3 : Vec F S5000x1 .f32) (xs0 : Vec F S3x64 .f32) : Vec F S3x64 .f32 :=
  VS1_0.read (Elt F) (VS1_0.writes (Elt F) VS1_0.junk (kernelRun1_C c i arg1 harg1 arg2 harg2 arg3 harg3 arg4 harg4 arg5 harg5 arg6 harg6 hc0 hc1 x0 x1 x2 x3 xs0).2.1)

section Entry
variable (V : (c : Dev nD) → (b : Ref sig .tc) → Buf (Elt F) ((c : Thread nD τ).loc b))

/-! ## What the output window and the scratch hold after each point -/

/-- THE ACCUMULATION. What output window 4's staging buffer and the scratch hold after the body at position `n`
    (the output's buffer, then the scratch): the case the closed forms select at `n`, run at the point's memrefs and
    input blocks, the scratch at what the point before left. An assignment of the conditions no point meets is no case. -/
def outsAt1 (c : Dev nD) : (n : ℕ) → n < cfg1.N → Vec F S3x64 .f32 × Vec F S3x64 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩))
  | n + 1, hn =>
    if h0 : (n + 1) % 20 = 0 then
      if h1 : (n + 1) % 20 = 19 then
        False.elim (by have hN : n + 1 < 20 := lt_of_lt_of_eq hn (show cfg1.N = 20 from N_1); omega)
      else
        (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩))
    else
      if h1 : (n + 1) % 20 = 19 then
        (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
      else
        (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- `outsAt1` at the first block: that case's contents. -/
theorem outsAt1_A (c : Dev nD) (t : Fin cfg1.N) (h0 : t.val % 20 = 0) (h1 : ¬t.val % 20 = 19) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((hcond1_0 t).mpr h0) (fun h => h1 ((hcond1_1 t).mp h)) (iblk1 V c 0 t) (iblk1 V c 1 t) (iblk1 V c 2 t) (iblk1 V c 3 t)) := by
  obtain ⟨n, hn⟩ := t
  cases n with
  | zero => exact rfl
  | succ n => exact (dif_pos h0).trans ((dif_neg h1).trans rfl)

/-- `outsAt1` at a block between the first and the last: that case's contents, over what the point before left. -/
theorem outsAt1_B (c : Dev nD) (t : Fin cfg1.N) (h0 : ¬t.val % 20 = 0) (h1 : ¬t.val % 20 = 19) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at the last block: that case's contents, over what the point before left. -/
theorem outsAt1_C (c : Dev nD) (t : Fin cfg1.N) (h0 : ¬t.val % 20 = 0) (h1 : t.val % 20 = 19) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The call's invariant before position `n`: before the first point the scoped rest with the scratch at anything;
    afterwards the scratch at the running sums the point before left, the core's other scoped buffers unopened, and the
    generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch at that point's running sums. -/
theorem PhiS1_succ (c : Dev nD) (n : ℕ) (hn : n < cfg1.N) :
    PhiS1 V c (n + 1) hn = iprop(iprop(iprop(owns (c : Thread nD τ) scM1_0 fullShare ((outsAt1 V c n hn).2)) ∗ rest1 (F := F) c) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ rest1 (F := F) c) ∗ (∃ r, prngReg c r)) := by
  cases n with
  | zero => exact absurd rfl hz
  | succ n => rfl

/-! ## The pipeline's proof data -/

/-- The proof data of this call's pipeline on core `c`: the arrays as the call finds them (`V`); after the body at
    point `t` each input's buffer at its block and the output's at `outsAt1`; the invariant `PhiS1`; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

/-- The proof data's arrays are the entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4800000 in
/-- The body at any point: the inputs' memrefs hold their blocks; the closed forms say which case the point is in; so
    that case's run applies. The invariant hands the body the scratch at what the point before left (at anything at the
    first point), the core's other scoped buffers and the generator register pass through unread, and the scratch is
    taken back at this point's running sums (the case's pieces cover it); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  by_cases h0 : t.val % 20 = 0
  · by_cases h1 : t.val % 20 = 19
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 20 = 19
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [outsAt1_C V c t h0 h1]
      unfold out1_C_4 sout1_C_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_C_0 c _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover1_C_4 c _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_B_0 c _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Entry

end Cert.KernelIdeal.Hand

end
-- ==== Proof.KI_Pool3Runs.lean ====
import proofs.«181750_j70806830841988_1_alg».proof.Proof.Gen.KernelIdeal.Launch
import proofs.«181750_j70806830841988_1_alg».proof.Proof.Gen.KernelIdeal.Skeleton
import proofs.«181750_j70806830841988_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of the long row axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling call 3: what its three cases share

The masked-sum pooling kernel of custom_call 3 runs over a grid of 20 row blocks. It keeps three running sums
(one row of 64 per mask) in a 3x64 scratch: the scratch is set to zero at the first block, each block adds its three
masked column sums to the three rows, and the last block copies the scratch to the 3x64 output. Everything is
stated at a PARAMETER `V`: the contents of the core's buffers when the call is entered. -/

section Entry
variable (V : (c : Dev nD) → (b : Ref sig .tc) → Buf (Elt F) ((c : Thread nD τ).loc b))

/-! ## The windows' blocks -/

/-- Window `w`'s block at point `t`, read off its array as the call finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is
    `V`'s and whose body leaves the block in place: an input that is never idle and never cut. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, for any proof data whose array is
    `V`'s and whose body leaves the block in place: an input that is never idle and never cut. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, for any proof data whose array is
    `V`'s and whose body leaves the block in place: an input that is never idle and never cut. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, for any proof data whose array is
    `V`'s and whose body leaves the block in place: an input that is never idle and never cut. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

end Entry

/-! ## The body's two conditions -/

/-- The first condition of the body (is this the first row block?), from the grid coordinates. -/
abbrev cond3_0 (i : grid3.Coords) : Prop := (Scalar.cmpi .ne (Scalar.extui (Scalar.cmpi .eq (BitVec.ofNat 32 (i 0).val) 0#32)) 0#32) = 1#1
/-- It holds exactly at point 0 of the 20. -/
theorem hcond3_0 : ∀ t : Fin cfg3.N, cond3_0 (grid3.coords t) ↔ t.val % 20 = 0 :=
  (by decide +kernel : ∀ t : Fin grid3.N, cond3_0 (grid3.coords t) ↔ t.val % 20 = 0)

/-- The second condition of the body (is this the last row block?), from the grid coordinates. -/
abbrev cond3_1 (i : grid3.Coords) : Prop := k3_cond2 i = 1#1
/-- It holds exactly at point 19 of the 20. -/
theorem hcond3_1 : ∀ t : Fin cfg3.N, cond3_1 (grid3.coords t) ↔ t.val % 20 = 19 :=
  (by decide +kernel : ∀ t : Fin grid3.N, cond3_1 (grid3.coords t) ↔ t.val % 20 = 19)

/-! ## Where the windows are idle -/

/-- Window 0 is an input: never idle. -/
theorem liveAt3_0 : ∀ t : Fin cfg3.N, cfg3.idle 0 (grid3.coords t) = false := by decide +kernel
/-- Window 1 is an input: never idle. -/
theorem liveAt3_1 : ∀ t : Fin cfg3.N, cfg3.idle 1 (grid3.coords t) = false := by decide +kernel
/-- Window 2 is an input: never idle. -/
theorem liveAt3_2 : ∀ t : Fin cfg3.N, cfg3.idle 2 (grid3.coords t) = false := by decide +kernel
/-- Window 3 is an input: never idle. -/
theorem liveAt3_3 : ∀ t : Fin cfg3.N, cfg3.idle 3 (grid3.coords t) = false := by decide +kernel
/-- At the first point the output window 4 is idle: nothing is stored into it, -/
theorem idleAt3_4_A : ∀ t : Fin cfg3.N, cond3_0 (grid3.coords t) → ¬cond3_1 (grid3.coords t) → cfg3.idle 4 (grid3.coords t) = true := by decide +kernel
/-- and its block is not written back there. -/
theorem noFlush3_4_A : ∀ t : Fin cfg3.N, cond3_0 (grid3.coords t) → ¬cond3_1 (grid3.coords t) → (cfg3.win 4).flush t = false := by decide +kernel
/-- At the points between the first and the last the output window 4 is idle, -/
theorem idleAt3_4_B : ∀ t : Fin cfg3.N, ¬cond3_0 (grid3.coords t) → ¬cond3_1 (grid3.coords t) → cfg3.idle 4 (grid3.coords t) = true := by decide +kernel
/-- and not written back. -/
theorem noFlush3_4_B : ∀ t : Fin cfg3.N, ¬cond3_0 (grid3.coords t) → ¬cond3_1 (grid3.coords t) → (cfg3.win 4).flush t = false := by decide +kernel
/-- At the last point the output window 4 is live: the scratch is copied into it. -/
theorem liveAt3_4_C : ∀ t : Fin cfg3.N, ¬cond3_0 (grid3.coords t) → cond3_1 (grid3.coords t) → cfg3.idle 4 (grid3.coords t) = false := by decide +kernel

/-! ## The memrefs the body is called with -/

/-- The one staging buffer of output window 4, as a view: what the window holds is stated through it. -/
abbrev VO3_4 : View sig .tc .vmem S3x64 .f32 := (Memref.whole cc3_stg4_0 : Memref sig .tc .vmem S3x64 .f32).view
/-- Each window's current staging memref at point `t`, and its wholeness. -/
abbrev ms3_0 (t : Fin cfg3.N) : Memref sig .tc .vmem S5000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S5000x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S5000x1 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S3x64 .f32 := win3_4.stage (cfg3.slots t 4)
abbrev hs3_4 (t : Fin cfg3.N) : (ms3_4 t).IsWhole := hstage3_4 ((cfg3.slots t 4).cast nbuf3_4)
/-- The scratch: a whole scoped buffer of the call's own, passed beside the windows. -/
abbrev scM3_0 : Memref sig .tc .vmem S3x64 .f32 := Memref.whole cc3_scratch0
/-- The scratch as a view: the three running sums are stated through it. -/
abbrev VS3_0 : View sig .tc .vmem S3x64 .f32 := scM3_0.view

/-- The core's other scoped buffers (the other calls' staging buffers and scratch), at some contents each: carried
    unopened beside this call's scratch. -/
abbrev rest3 (c : Dev nD) : sProp 𝕄 :=
  Pipeline.scopedRestBut (Ix := Unit) (Name := ℕ) (U := UR sig nD τ) (Lvl := ℕ) (Val := Elt F) spec3 c [cc3_scratch0]

/-- The call's invariant with the scratch as a memref owned at some contents: what the body obligation hands the run
    and takes back. -/
theorem PhiA3_eq (c : Dev nD) :
    (Pipeline.ΦA spec3 c : sProp 𝕄)
      = iprop(iprop(iprop((∃ d, owns (c : Thread nD τ) scM3_0 fullShare d)) ∗ rest3 (F := F) c) ∗ (∃ r, prngReg c r)) := by
  unfold Pipeline.ΦA; rw [scopedRest3_split]; simp only [scM3_0, owns_whole]; try rfl

end Cert.KernelIdeal.Hand

end
-- ==== Proof.KI_Pool3RunA.lean ====
import proofs.«181750_j70806830841988_1_alg».proof.Proof.KI_Pool3Runs

-- membership of an index in a rectangle of the long row axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- THE FIRST BLOCK (first condition holds, second fails). On whole memrefs — the four inputs at their contents, the
    output window's buffer at contents `xi4` that the body does not touch, the scratch at anything — the body zeroes
    the scratch, then adds each mask's column sums to its row, and runs to the continuation holding the inputs and the
    output's buffer as they were and the scratch with its pieces written (`LS0`, last first).
    The printed functions are their skeletons, which the symbolic run executes through the call of the printed part;
    each condition is decided by the case's hypotheses; the pieces are the witness the run finds. -/
noncomputable def kernelRun3_A (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond3_0 i) (hc1 : ¬cond3_1 i)
    (x0 : Vec F S5000x64 .f32) (x1 : Vec F S5000x1 .f32) (x2 : Vec F S5000x1 .f32) (x3 : Vec F S5000x1 .f32) :
    Σ' (L4 : List (View.Piece (Elt F) S3x64 .f32)), { LS0 : List (View.Piece (Elt F) S3x64 .f32) //
      ∀ (xi4 : Vec F S3x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6) K } := by
  refine ⟨[], ?_, fun xi4 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.KernelIdeal.Hand

end
-- ==== Proof.KI_Pool3RunB.lean ====
import proofs.«181750_j70806830841988_1_alg».proof.Proof.KI_Pool3RunA

-- membership of an index in a rectangle of the long row axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- A BLOCK BETWEEN THE FIRST AND THE LAST (both conditions fail). On whole memrefs — the four inputs at their
    contents, the output window's buffer at contents `xi4` that the body does not touch, the scratch at the running
    sums `xs0` the block before left — the body adds each mask's column sums to its row, and runs to the continuation
    holding the inputs and the output's buffer as they were and the scratch with its pieces written (`LS0`, last first).
    The printed functions are their skeletons, which the symbolic run executes through the call of the printed part;
    each condition is decided by the case's hypotheses; the pieces are the witness the run finds. -/
noncomputable def kernelRun3_B (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : ¬cond3_1 i)
    (x0 : Vec F S5000x64 .f32) (x1 : Vec F S5000x1 .f32) (x2 : Vec F S5000x1 .f32) (x3 : Vec F S5000x1 .f32) (xs0 : Vec F S3x64 .f32) :
    Σ' (L4 : List (View.Piece (Elt F) S3x64 .f32)), { LS0 : List (View.Piece (Elt F) S3x64 .f32) //
      ∀ (xi4 : Vec F S3x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6) K } := by
  refine ⟨[], ?_, fun xi4 E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.KernelIdeal.Hand

end
-- ==== Proof.KI_Pool3RunC.lean ====
import proofs.«181750_j70806830841988_1_alg».proof.Proof.KI_Pool3RunB

-- membership of an index in a rectangle of the long row axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- THE LAST BLOCK (first condition fails, second holds). On whole memrefs — the four inputs at their contents, the
    output window's buffer at anything, the scratch at the running sums `xs0` the block before left — the body adds
    each mask's column sums to its row, then copies the scratch to the output, and runs to the continuation holding
    the inputs as they were and the output's buffer and the scratch with their pieces written (`L4`, `LS0`, last first).
    The printed functions are their skeletons, which the symbolic run executes through the call of the printed part;
    each condition is decided by the case's hypotheses; the pieces are the witness the run finds. -/
noncomputable def kernelRun3_C (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : cond3_1 i)
    (x0 : Vec F S5000x64 .f32) (x1 : Vec F S5000x1 .f32) (x2 : Vec F S5000x1 .f32) (x3 : Vec F S5000x1 .f32) (xs0 : Vec F S3x64 .f32) :
    Σ' (L4 : List (View.Piece (Elt F) S3x64 .f32)), { LS0 : List (View.Piece (Elt F) S3x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc3__pool_kernel i arg1 harg1 arg2 harg2 arg3 harg3 arg4 harg4 arg5 harg5 arg6 harg6) K } := by
  refine ⟨?_, ?_, fun E K => ?run⟩
  case run =>
    simp only [cc3__pool_kernel_eq_skeleton]; unfold cc3__pool_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.Hand

end
-- ==== Proof.KI_Pool3.lean ====
import proofs.«181750_j70806830841988_1_alg».proof.Proof.KI_Pool3RunC

-- membership of an index in a rectangle of the long row axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling call 3: what its buffers hold point by point, the proof data, the body obligation -/

/-- At the first block nothing is stored into output window 4 (the window is idle there and not written back): no pieces —
    a placeholder that nothing consults. -/
def out3_A_4 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond3_0 i) (hc1 : ¬cond3_1 i)
    (x0 : Vec F S5000x64 .f32) (x1 : Vec F S5000x1 .f32) (x2 : Vec F S5000x1 .f32) (x3 : Vec F S5000x1 .f32) : Vec F S3x64 .f32 :=
  VO3_4.read (Elt F) (VO3_4.writes (Elt F) VO3_4.junk (kernelRun3_A c i arg1 harg1 arg2 harg2 arg3 harg3 arg4 harg4 arg5 harg5 arg6 harg6 hc0 hc1 x0 x1 x2 x3).1)

/-- The pieces the first block writes into the scratch cover it: among them is the store of the whole 3x64 block. -/
theorem scover3_A_0 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond3_0 i) (hc1 : ¬cond3_1 i)
    (x0 : Vec F S5000x64 .f32) (x1 : Vec F S5000x1 .f32) (x2 : Vec F S5000x1 .f32) (x3 : Vec F S5000x1 .f32) (y : S3x64.Idx) :
    ∃ pc ∈ (kernelRun3_A c i arg1 harg1 arg2 harg2 arg3 harg3 arg4 harg4 arg5 harg5 arg6 harg6 hc0 hc1 x0 x1 x2 x3).2.1, y ∈ pc.1.set :=
  View.cover_of_tiledL (kernelRun3_A c i arg1 harg1 arg2 harg2 arg3 harg3 arg4 harg4 arg5 harg5 arg6 harg6 hc0 hc1 x0 x1 x2 x3).2.1 S3x64.size (by sl_kernel_rfl) y

/-- What the first block leaves in the scratch: its pieces read back over junk. -/
def sout3_A_0 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond3_0 i) (hc1 : ¬cond3_1 i)
    (x0 : Vec F S5000x64 .f32) (x1 : Vec F S5000x1 .f32) (x2 : Vec F S5000x1 .f32) (x3 : Vec F S5000x1 .f32) : Vec F S3x64 .f32 :=
  VS3_0.read (Elt F) (VS3_0.writes (Elt F) VS3_0.junk (kernelRun3_A c i arg1 harg1 arg2 harg2 arg3 harg3 arg4 harg4 arg5 harg5 arg6 harg6 hc0 hc1 x0 x1 x2 x3).2.1)

/-- At a block between the first and the last nothing is stored into output window 4 (the window is idle there and not written back): no pieces —
    a placeholder that nothing consults. -/
def out3_B_4 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : ¬cond3_1 i)
    (x0 : Vec F S5000x64 .f32) (x1 : Vec F S5000x1 .f32) (x2 : Vec F S5000x1 .f32) (x3 : Vec F S5000x1 .f32) (xs0 : Vec F S3x64 .f32) : Vec F S3x64 .f32 :=
  VO3_4.read (Elt F) (VO3_4.writes (Elt F) VO3_4.junk (kernelRun3_B c i arg1 harg1 arg2 harg2 arg3 harg3 arg4 harg4 arg5 harg5 arg6 harg6 hc0 hc1 x0 x1 x2 x3 xs0).1)

/-- The pieces a block between the first and the last writes into the scratch cover it: its three rows of 1x64 tile the 3x64 block. -/
theorem scover3_B_0 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : ¬cond3_1 i)
    (x0 : Vec F S5000x64 .f32) (x1 : Vec F S5000x1 .f32) (x2 : Vec F S5000x1 .f32) (x3 : Vec F S5000x1 .f32) (xs0 : Vec F S3x64 .f32) (y : S3x64.Idx) :
    ∃ pc ∈ (kernelRun3_B c i arg1 harg1 arg2 harg2 arg3 harg3 arg4 harg4 arg5 harg5 arg6 harg6 hc0 hc1 x0 x1 x2 x3 xs0).2.1, y ∈ pc.1.set :=
  View.cover_of_tiledL (kernelRun3_B c i arg1 harg1 arg2 harg2 arg3 harg3 arg4 harg4 arg5 harg5 arg6 harg6 hc0 hc1 x0 x1 x2 x3 xs0).2.1 S1x64.size (by sl_kernel_rfl) y

/-- What a block between the first and the last leaves in the scratch: its pieces read back over junk. -/
def sout3_B_0 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : ¬cond3_1 i)
    (x0 : Vec F S5000x64 .f32) (x1 : Vec F S5000x1 .f32) (x2 : Vec F S5000x1 .f32) (x3 : Vec F S5000x1 .f32) (xs0 : Vec F S3x64 .f32) : Vec F S3x64 .f32 :=
  VS3_0.read (Elt F) (VS3_0.writes (Elt F) VS3_0.junk (kernelRun3_B c i arg1 harg1 arg2 harg2 arg3 harg3 arg4 harg4 arg5 harg5 arg6 harg6 hc0 hc1 x0 x1 x2 x3 xs0).2.1)

/-- At the last block the one store into output window 4 covers its 3x64 block. -/
theorem cover3_C_4 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : cond3_1 i)
    (x0 : Vec F S5000x64 .f32) (x1 : Vec F S5000x1 .f32) (x2 : Vec F S5000x1 .f32) (x3 : Vec F S5000x1 .f32) (xs0 : Vec F S3x64 .f32) (y : S3x64.Idx) :
    ∃ pc ∈ (kernelRun3_C c i arg1 harg1 arg2 harg2 arg3 harg3 arg4 harg4 arg5 harg5 arg6 harg6 hc0 hc1 x0 x1 x2 x3 xs0).1, y ∈ pc.1.set :=
  View.cover_of_tiledL (kernelRun3_C c i arg1 harg1 arg2 harg2 arg3 harg3 arg4 harg4 arg5 harg5 arg6 harg6 hc0 hc1 x0 x1 x2 x3 xs0).1 S3x64.size (by sl_kernel_rfl) y

/-- What the last block leaves in output window 4's staging buffer: its pieces read back over junk. -/
def out3_C_4 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : cond3_1 i)
    (x0 : Vec F S5000x64 .f32) (x1 : Vec F S5000x1 .f32) (x2 : Vec F S5000x1 .f32) (x3 : Vec F S5000x1 .f32) (xs0 : Vec F S3x64 .f32) : Vec F S3x64 .f32 :=
  VO3_4.read (Elt F) (VO3_4.writes (Elt F) VO3_4.junk (kernelRun3_C c i arg1 harg1 arg2 harg2 arg3 harg3 arg4 harg4 arg5 harg5 arg6 harg6 hc0 hc1 x0 x1 x2 x3 xs0).1)

/-- The pieces the last block writes into the scratch cover it: its three rows of 1x64 tile the 3x64 block. -/
theorem scover3_C_0 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : cond3_1 i)
    (x0 : Vec F S5000x64 .f32) (x1 : Vec F S5000x1 .f32) (x2 : Vec F S5000x1 .f32) (x3 : Vec F S5000x1 .f32) (xs0 : Vec F S3x64 .f32) (y : S3x64.Idx) :
    ∃ pc ∈ (kernelRun3_C c i arg1 harg1 arg2 harg2 arg3 harg3 arg4 harg4 arg5 harg5 arg6 harg6 hc0 hc1 x0 x1 x2 x3 xs0).2.1, y ∈ pc.1.set :=
  View.cover_of_tiledL (kernelRun3_C c i arg1 harg1 arg2 harg2 arg3 harg3 arg4 harg4 arg5 harg5 arg6 harg6 hc0 hc1 x0 x1 x2 x3 xs0).2.1 S1x64.size (by sl_kernel_rfl) y

/-- What the last block leaves in the scratch: its pieces read back over junk. -/
def sout3_C_0 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : cond3_1 i)
    (x0 : Vec F S5000x64 .f32) (x1 : Vec F S5000x1 .f32) (x2 : Vec F S5000x1 .f32) (x3 : Vec F S5000x1 .f32) (xs0 : Vec F S3x64 .f32) : Vec F S3x64 .f32 :=
  VS3_0.read (Elt F) (VS3_0.writes (Elt F) VS3_0.junk (kernelRun3_C c i arg1 harg1 arg2 harg2 arg3 harg3 arg4 harg4 arg5 harg5 arg6 harg6 hc0 hc1 x0 x1 x2 x3 xs0).2.1)

section Entry
variable (V : (c : Dev nD) → (b : Ref sig .tc) → Buf (Elt F) ((c : Thread nD τ).loc b))

/-! ## What the output window and the scratch hold after each point -/

/-- THE ACCUMULATION. What output window 4's staging buffer and the scratch hold after the body at position `n`
    (the output's buffer, then the scratch): the case the closed forms select at `n`, run at the point's memrefs and
    input blocks, the scratch at what the point before left. An assignment of the conditions no point meets is no case. -/
def outsAt3 (c : Dev nD) : (n : ℕ) → n < cfg3.N → Vec F S3x64 .f32 × Vec F S3x64 .f32
  | 0, hn => (out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩))
  | n + 1, hn =>
    if h0 : (n + 1) % 20 = 0 then
      if h1 : (n + 1) % 20 = 19 then
        False.elim (by have hN : n + 1 < 20 := lt_of_lt_of_eq hn (show cfg3.N = 20 from N_3); omega)
      else
        (out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩))
    else
      if h1 : (n + 1) % 20 = 19 then
        (out3_C_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)
      else
        (out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (outsAt3 c n (Nat.lt_of_succ_lt hn)).2)

/-- `outsAt3` at the first block: that case's contents. -/
theorem outsAt3_A (c : Dev nD) (t : Fin cfg3.N) (h0 : t.val % 20 = 0) (h1 : ¬t.val % 20 = 19) :
    outsAt3 V c t.val t.isLt = (out3_A_4 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t) (iblk3 V c 3 t), sout3_A_0 c (grid3.coords t) (ms3_0 t) (hs3_0 t) (ms3_1 t) (hs3_1 t) (ms3_2 t) (hs3_2 t) (ms3_3 t) (hs3_3 t) (ms3_4 t) (hs3_4 t) scM3_0 (Memref.isWhole_whole _) ((hcond3_0 t).mpr h0) (fun h => h1 ((hcond3_1 t).mp h)) (iblk3 V c 0 t) (iblk3 V c 1 t) (iblk3 V c 2 t) (iblk3 V c 3 t)) := by
  obtain ⟨n, hn⟩ := t
  cases n with
  | zero => exact rfl
  | succ n => exact (dif_pos h0).trans ((dif_neg h1).trans rfl)

/-- `outsAt3` at a block between the first and the last: that case's contents, over what the point before left. -/
theorem outsAt3_B (c : Dev nD) (t : Fin cfg3.N) (h0 : ¬t.val % 20 = 0) (h1 : ¬t.val % 20 = 19) :
    outsAt3 V c t.val t.isLt = (out3_B_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) (fun h => h1 ((hcond3_1 t).mp h)) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at the last block: that case's contents, over what the point before left. -/
theorem outsAt3_C (c : Dev nD) (t : Fin cfg3.N) (h0 : ¬t.val % 20 = 0) (h1 : t.val % 20 = 19) :
    outsAt3 V c t.val t.isLt = (out3_C_4 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) (ms3_4 t) (hs3_4 t) scM3_0 (Memref.isWhole_whole _) (fun h => h0 ((hcond3_0 t).mp h)) ((hcond3_1 t).mpr h1) (iblk3 V c 0 t) (iblk3 V c 1 t) (iblk3 V c 2 t) (iblk3 V c 3 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The call's invariant before position `n`: before the first point the scoped rest with the scratch at anything;
    afterwards the scratch at the running sums the point before left, the core's other scoped buffers unopened, and the
    generator register at some state. -/
def PhiS3 (c : Dev nD) : (n : ℕ) → n ≤ cfg3.N → sProp 𝕄
  | 0, _ => Pipeline.ΦA spec3 c
  | n + 1, hn => iprop(iprop(iprop(owns (c : Thread nD τ) scM3_0 fullShare ((outsAt3 V c n hn).2)) ∗ rest3 (F := F) c) ∗ (∃ r, prngReg c r))

theorem PhiS3_zero (c : Dev nD) (n : ℕ) (h : n ≤ cfg3.N) (hz : n = 0) : PhiS3 V c n h = Pipeline.ΦA spec3 c := by
  subst hz; rfl

/-- After point `n` (before point `n + 1`): the scratch at that point's running sums. -/
theorem PhiS3_succ (c : Dev nD) (n : ℕ) (hn : n < cfg3.N) :
    PhiS3 V c (n + 1) hn = iprop(iprop(iprop(owns (c : Thread nD τ) scM3_0 fullShare ((outsAt3 V c n hn).2)) ∗ rest3 (F := F) c) ∗ (∃ r, prngReg c r)) := rfl

/-- Before a point that is not the first: the scratch at what the point before left. -/
theorem PhiS3_pos (c : Dev nD) (n : ℕ) (h : n ≤ cfg3.N) (hz : n ≠ 0) :
    PhiS3 V c n h = iprop(iprop(iprop(owns (c : Thread nD τ) scM3_0 fullShare ((outsAt3 V c (n - 1) (by omega)).2)) ∗ rest3 (F := F) c) ∗ (∃ r, prngReg c r)) := by
  cases n with
  | zero => exact absurd rfl hz
  | succ n => rfl

/-! ## The pipeline's proof data -/

/-- The proof data of this call's pipeline on core `c`: the arrays as the call finds them (`V`); after the body at
    point `t` each input's buffer at its block and the output's at `outsAt3`; the invariant `PhiS3`; nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t.val t.isLt).1
  Φ t := PhiS3 V c t.val (Nat.le_of_lt_succ t.isLt)
  q _ := fullShare
  owed _ := 0

/-- The proof data's arrays are the entry contents. -/
theorem A_eq3 (c : Dev nD) (w : Fin cfg3.W) : (dat3 V c).A w = V c (Pipeline.arrRef spec3 w) := by
  dsimp only [dat3]

/-- The invariant at a point's start, restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = (outsAt3 V c t.val t.isLt).1 := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t)

set_option maxHeartbeats 4800000 in
/-- The body at any point: the inputs' memrefs hold their blocks; the closed forms say which case the point is in; so
    that case's run applies. The invariant hands the body the scratch at what the point before left (at anything at the
    first point), the core's other scoped buffers and the generator register pass through unread, and the scratch is
    taken back at this point's running sums (the case's pieces cover it); the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).owesAt () t.succ = (dat3 V c).owesAt () t.castSucc from rfl]
  rw [show (dat3 V c).Φ t.succ = PhiS3 V c (t.val + 1) t.isLt from rfl, PhiS3_succ]
  have hN : t.val < 20 := lt_of_lt_of_eq t.isLt (show cfg3.N = 20 from N_3)
  by_cases h0 : t.val % 20 = 0
  · by_cases h1 : t.val % 20 = 19
    · exfalso; omega
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [Dat.leavesExact_idle (dat3 V c) 4 t (idleAt3_4_A t ((hcond3_0 t).mpr h0) (fun h => h1 ((hcond3_1 t).mp h))) (noFlush3_4_A t ((hcond3_0 t).mpr h0) (fun h => h1 ((hcond3_1 t).mp h)))]
      rw [outsAt3_A V c t h0 h1]
      unfold sout3_A_0; (try dsimp only)
      by_cases hz : t.val = 0
      · rw [PhiS3_castSucc V c t, PhiS3_zero V c _ _ hz, PhiA3_eq]
        iintro ⟨⟨⟨HS0, Hr⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t) (iblk3 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS3_castSucc V c t, PhiS3_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun3_A c (grid3.coords t) _ _ _ _ _ _ _ _ _ _ _ _ ((hcond3_0 t).mpr h0) (fun h => h1 ((hcond3_1 t).mp h)) (iblk3 V c 0 t) (iblk3 V c 1 t) (iblk3 V c 2 t) (iblk3 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 20 = 19
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [show (dat3 V c).leavesExact 4 t = owns (c : Thread nD τ) (ms3_4 t) fullShare ((dat3 V c).after 4 t) from by
        unfold Dat.leavesExact; rw [liveAt3_4_C t (fun h => h0 ((hcond3_0 t).mp h)) ((hcond3_1 t).mpr h1)], after3_4]
      rw [outsAt3_C V c t h0 h1]
      unfold out3_C_4 sout3_C_0; (try dsimp only)
      by_cases hz : t.val = 0
      · exfalso; omega
      · rw [PhiS3_castSucc V c t, PhiS3_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun3_C c (grid3.coords t) _ _ _ _ _ _ _ _ _ _ _ _ (fun h => h0 ((hcond3_0 t).mp h)) ((hcond3_1 t).mpr h1) (iblk3 V c 0 t) (iblk3 V c 1 t) (iblk3 V c 2 t) (iblk3 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_C_0 c _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover3_C_4 c _ _ _ _ _ _ _ _ _ _ _ _ _ _ _ _ _ _ _ _)
    · rw [show (dat3 V c).leavesExact 0 t = owns (c : Thread nD τ) (ms3_0 t) fullShare ((dat3 V c).after 0 t) from by
        unfold Dat.leavesExact; rw [liveAt3_0 t], after3_0]
      rw [show (dat3 V c).leavesExact 1 t = owns (c : Thread nD τ) (ms3_1 t) fullShare ((dat3 V c).after 1 t) from by
        unfold Dat.leavesExact; rw [liveAt3_1 t], after3_1]
      rw [show (dat3 V c).leavesExact 2 t = owns (c : Thread nD τ) (ms3_2 t) fullShare ((dat3 V c).after 2 t) from by
        unfold Dat.leavesExact; rw [liveAt3_2 t], after3_2]
      rw [show (dat3 V c).leavesExact 3 t = owns (c : Thread nD τ) (ms3_3 t) fullShare ((dat3 V c).after 3 t) from by
        unfold Dat.leavesExact; rw [liveAt3_3 t], after3_3]
      rw [Dat.leavesExact_idle (dat3 V c) 4 t (idleAt3_4_B t (fun h => h0 ((hcond3_0 t).mp h)) (fun h => h1 ((hcond3_1 t).mp h))) (noFlush3_4_B t (fun h => h0 ((hcond3_0 t).mp h)) (fun h => h1 ((hcond3_1 t).mp h)))]
      rw [outsAt3_B V c t h0 h1]
      unfold sout3_B_0; (try dsimp only)
      by_cases hz : t.val = 0
      · exfalso; omega
      · rw [PhiS3_castSucc V c t, PhiS3_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun3_B c (grid3.coords t) _ _ _ _ _ _ _ _ _ _ _ _ (fun h => h0 ((hcond3_0 t).mp h)) (fun h => h1 ((hcond3_1 t).mp h)) (iblk3 V c 0 t) (iblk3 V c 1 t) (iblk3 V c 2 t) (iblk3 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover3_B_0 c _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the call is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨HS0, Hr⟩, Hg⟩
  isplitl [HS0 Hr]
  · isplitl [HS0]
    · iexists _; iexact HS0
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 20 := N_3; omega)

end Entry

end Cert.KernelIdeal.Hand

end
-- ==== Proof.KI_Pool5Runs.lean ====
import proofs.«181750_j70806830841988_1_alg».proof.Proof.Gen.KernelIdeal.Launch
import proofs.«181750_j70806830841988_1_alg».proof.Proof.Gen.KernelIdeal.Skeleton
import proofs.«181750_j70806830841988_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership of an index in a rectangle of the long row axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling call 5: what its three cases share

The masked-sum pooling kernel of custom_call 5 runs over a grid of 20 row blocks. It keeps three running sums
(one row of 64 per mask) in a 3x64 scratch: the scratch is set to zero at the first block, each block adds its three
masked column sums to the three rows, and the last block copies the scratch to the 3x64 output. Everything is
stated at a PARAMETER `V`: the contents of the core's buffers when the call is entered. -/

section Entry
variable (V : (c : Dev nD) → (b : Ref sig .tc) → Buf (Elt F) ((c : Thread nD τ).loc b))

/-! ## The windows' blocks -/

/-- Window `w`'s block at point `t`, read off its array as the call finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, for any proof data whose array is
    `V`'s and whose body leaves the block in place: an input that is never idle and never cut. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, for any proof data whose array is
    `V`'s and whose body leaves the block in place: an input that is never idle and never cut. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, for any proof data whose array is
    `V`'s and whose body leaves the block in place: an input that is never idle and never cut. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, for any proof data whose array is
    `V`'s and whose body leaves the block in place: an input that is never idle and never cut. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

end Entry

/-! ## The body's two conditions -/

/-- The first condition of the body (is this the first row block?), from the grid coordinates. -/
abbrev cond5_0 (i : grid5.Coords) : Prop := (Scalar.cmpi .ne (Scalar.extui (Scalar.cmpi .eq (BitVec.ofNat 32 (i 0).val) 0#32)) 0#32) = 1#1
/-- It holds exactly at point 0 of the 20. -/
theorem hcond5_0 : ∀ t : Fin cfg5.N, cond5_0 (grid5.coords t) ↔ t.val % 20 = 0 :=
  (by decide +kernel : ∀ t : Fin grid5.N, cond5_0 (grid5.coords t) ↔ t.val % 20 = 0)

/-- The second condition of the body (is this the last row block?), from the grid coordinates. -/
abbrev cond5_1 (i : grid5.Coords) : Prop := k5_cond2 i = 1#1
/-- It holds exactly at point 19 of the 20. -/
theorem hcond5_1 : ∀ t : Fin cfg5.N, cond5_1 (grid5.coords t) ↔ t.val % 20 = 19 :=
  (by decide +kernel : ∀ t : Fin grid5.N, cond5_1 (grid5.coords t) ↔ t.val % 20 = 19)

/-! ## Where the windows are idle -/

/-- Window 0 is an input: never idle. -/
theorem liveAt5_0 : ∀ t : Fin cfg5.N, cfg5.idle 0 (grid5.coords t) = false := by decide +kernel
/-- Window 1 is an input: never idle. -/
theorem liveAt5_1 : ∀ t : Fin cfg5.N, cfg5.idle 1 (grid5.coords t) = false := by decide +kernel
/-- Window 2 is an input: never idle. -/
theorem liveAt5_2 : ∀ t : Fin cfg5.N, cfg5.idle 2 (grid5.coords t) = false := by decide +kernel
/-- Window 3 is an input: never idle. -/
theorem liveAt5_3 : ∀ t : Fin cfg5.N, cfg5.idle 3 (grid5.coords t) = false := by decide +kernel
/-- At the first point the output window 4 is idle: nothing is stored into it, -/
theorem idleAt5_4_A : ∀ t : Fin cfg5.N, cond5_0 (grid5.coords t) → ¬cond5_1 (grid5.coords t) → cfg5.idle 4 (grid5.coords t) = true := by decide +kernel
/-- and its block is not written back there. -/
theorem noFlush5_4_A : ∀ t : Fin cfg5.N, cond5_0 (grid5.coords t) → ¬cond5_1 (grid5.coords t) → (cfg5.win 4).flush t = false := by decide +kernel
/-- At the points between the first and the last the output window 4 is idle, -/
theorem idleAt5_4_B : ∀ t : Fin cfg5.N, ¬cond5_0 (grid5.coords t) → ¬cond5_1 (grid5.coords t) → cfg5.idle 4 (grid5.coords t) = true := by decide +kernel
/-- and not written back. -/
theorem noFlush5_4_B : ∀ t : Fin cfg5.N, ¬cond5_0 (grid5.coords t) → ¬cond5_1 (grid5.coords t) → (cfg5.win 4).flush t = false := by decide +kernel
/-- At the last point the output window 4 is live: the scratch is copied into it. -/
theorem liveAt5_4_C : ∀ t : Fin cfg5.N, ¬cond5_0 (grid5.coords t) → cond5_1 (grid5.coords t) → cfg5.idle 4 (grid5.coords t) = false := by decide +kernel

/-! ## The memrefs the body is called with -/

/-- The one staging buffer of output window 4, as a view: what the window holds is stated through it. -/
abbrev VO5_4 : View sig .tc .vmem S3x64 .f32 := (Memref.whole cc5_stg4_0 : Memref sig .tc .vmem S3x64 .f32).view
/-- Each window's current staging memref at point `t`, and its wholeness. -/
abbrev ms5_0 (t : Fin cfg5.N) : Memref sig .tc .vmem S5000x64 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S5000x1 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S5000x1 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S5000x1 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S3x64 .f32 := win5_4.stage (cfg5.slots t 4)
abbrev hs5_4 (t : Fin cfg5.N) : (ms5_4 t).IsWhole := hstage5_4 ((cfg5.slots t 4).cast nbuf5_4)
/-- The scratch: a whole scoped buffer of the call's own, passed beside the windows. -/
abbrev scM5_0 : Memref sig .tc .vmem S3x64 .f32 := Memref.whole cc5_scratch0
/-- The scratch as a view: the three running sums are stated through it. -/
abbrev VS5_0 : View sig .tc .vmem S3x64 .f32 := scM5_0.view

/-- The core's other scoped buffers (the other calls' staging buffers and scratch), at some contents each: carried
    unopened beside this call's scratch. -/
abbrev rest5 (c : Dev nD) : sProp 𝕄 :=
  Pipeline.scopedRestBut (Ix := Unit) (Name := ℕ) (U := UR sig nD τ) (Lvl := ℕ) (Val := Elt F) spec5 c [cc5_scratch0]

/-- The call's invariant with the scratch as a memref owned at some contents: what the body obligation hands the run
    and takes back. -/
theorem PhiA5_eq (c : Dev nD) :
    (Pipeline.ΦA spec5 c : sProp 𝕄)
      = iprop(iprop(iprop((∃ d, owns (c : Thread nD τ) scM5_0 fullShare d)) ∗ rest5 (F := F) c) ∗ (∃ r, prngReg c r)) := by
  unfold Pipeline.ΦA; rw [scopedRest5_split]; simp only [scM5_0, owns_whole]; try rfl

end Cert.KernelIdeal.Hand

end
-- ==== Proof.KI_Pool5RunA.lean ====
import proofs.«181750_j70806830841988_1_alg».proof.Proof.KI_Pool5Runs

-- membership of an index in a rectangle of the long row axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- THE FIRST BLOCK (first condition holds, second fails). On whole memrefs — the four inputs at their contents, the
    output window's buffer at contents `xi4` that the body does not touch, the scratch at anything — the body zeroes
    the scratch, then adds each mask's column sums to its row, and runs to the continuation holding the inputs and the
    output's buffer as they were and the scratch with its pieces written (`LS0`, last first).
    The printed functions are their skeletons, which the symbolic run executes through the call of the printed part;
    each condition is decided by the case's hypotheses; the pieces are the witness the run finds. -/
noncomputable def kernelRun5_A (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond5_0 i) (hc1 : ¬cond5_1 i)
    (x0 : Vec F S5000x64 .f32) (x1 : Vec F S5000x1 .f32) (x2 : Vec F S5000x1 .f32) (x3 : Vec F S5000x1 .f32) :
    Σ' (L4 : List (View.Piece (Elt F) S3x64 .f32)), { LS0 : List (View.Piece (Elt F) S3x64 .f32) //
      ∀ (xi4 : Vec F S3x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc5__pool_kernel i arg1 harg1 arg2 harg2 arg3 harg3 arg4 harg4 arg5 harg5 arg6 harg6) K } := by
  refine ⟨[], ?_, fun xi4 E K => ?run⟩
  case run =>
    simp only [cc5__pool_kernel_eq_skeleton]; unfold cc5__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.KernelIdeal.Hand

end
-- ==== Proof.KI_Pool5RunB.lean ====
import proofs.«181750_j70806830841988_1_alg».proof.Proof.KI_Pool5RunA

-- membership of an index in a rectangle of the long row axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- A BLOCK BETWEEN THE FIRST AND THE LAST (both conditions fail). On whole memrefs — the four inputs at their
    contents, the output window's buffer at contents `xi4` that the body does not touch, the scratch at the running
    sums `xs0` the block before left — the body adds each mask's column sums to its row, and runs to the continuation
    holding the inputs and the output's buffer as they were and the scratch with its pieces written (`LS0`, last first).
    The printed functions are their skeletons, which the symbolic run executes through the call of the printed part;
    each condition is decided by the case's hypotheses; the pieces are the witness the run finds. -/
noncomputable def kernelRun5_B (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : ¬cond5_1 i)
    (x0 : Vec F S5000x64 .f32) (x1 : Vec F S5000x1 .f32) (x2 : Vec F S5000x1 .f32) (x3 : Vec F S5000x1 .f32) (xs0 : Vec F S3x64 .f32) :
    Σ' (L4 : List (View.Piece (Elt F) S3x64 .f32)), { LS0 : List (View.Piece (Elt F) S3x64 .f32) //
      ∀ (xi4 : Vec F S3x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS0)) -∗ K ⟨⟩))
          ⊢ wp frame (wpE (defs₀ (F := F)) Variants.none c none) E (cc5__pool_kernel i arg1 harg1 arg2 harg2 arg3 harg3 arg4 harg4 arg5 harg5 arg6 harg6) K } := by
  refine ⟨[], ?_, fun xi4 E K => ?run⟩
  case run =>
    simp only [cc5__pool_kernel_eq_skeleton]; unfold cc5__pool_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.KernelIdeal.Hand

end
-- ==== Proof.KI_Pool5RunC.lean ====
import proofs.«181750_j70806830841988_1_alg».proof.Proof.KI_Pool5RunB

-- membership of an index in a rectangle of the long row axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue walks it past the default budget)
set_option maxHeartbeats 1000000 in
/-- THE LAST BLOCK (first condition fails, second holds). On whole memrefs — the four inputs at their contents, the
    output window's buffer at anything, the scratch at the running sums `xs0` the block before left — the body adds
    each mask's column sums to its row, then copies the scratch to the output, and runs to the continuation holding
    the inputs as they were and the output's buffer and the scratch with their pieces written (`L4`, `LS0`, last first).
    The printed functions are their skeletons, which the symbolic run executes through the call of the printed part;
    each condition is decided by the case's hypotheses; the pieces are the witness the run finds. -/
noncomputable def kernelRun5_C (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : cond5_1 i)
    (x0 : Vec F S5000x64 .f32) (x1 : Vec F S5000x1 .f32) (x2 : Vec F S5000x1 .f32) (x3 : Vec F S5000x1 .f32) (xs0 : Vec F S3x64 .f32) :
    Σ' (L4 : List (View.Piece (Elt F) S3x64 .f32)), { LS0 : List (View.Piece (Elt F) S3x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc5__pool_kernel i arg1 harg1 arg2 harg2 arg3 harg3 arg4 harg4 arg5 harg5 arg6 harg6) K } := by
  refine ⟨?_, ?_, fun E K => ?run⟩
  case run =>
    simp only [cc5__pool_kernel_eq_skeleton]; unfold cc5__pool_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.Hand

end
-- ==== Proof.KI_Pool5.lean ====
import proofs.«181750_j70806830841988_1_alg».proof.Proof.KI_Pool5RunC

-- membership of an index in a rectangle of the long row axis recurses once per coordinate
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The pooling call 5: what its buffers hold point by point, the proof data, the body obligation -/

/-- At the first block nothing is stored into output window 4 (the window is idle there and not written back): no pieces —
    a placeholder that nothing consults. -/
def out5_A_4 (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond5_0 i) (hc1 : ¬cond5_1 i)
    (x0 : Vec F S5000x64 .f32) (x1 : Vec F S5000x1 .f32) (x2 : Vec F S5000x1 .f32) (x3 : Vec F S5000x1 .f32) : Vec F S3x64 .f32 :=
  VO5_4.read (Elt F) (VO5_4.writes (Elt F) VO5_4.junk (kernelRun5_A c i arg1 harg1 arg2 harg2 arg3 harg3 arg4 harg4 arg5 harg5 arg6 harg6 hc0 hc1 x0 x1 x2 x3).1)

/-- The pieces the first block writes into the scratch cover it: among them is the store of the whole 3x64 block. -/
theorem scover5_A_0 (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond5_0 i) (hc1 : ¬cond5_1 i)
    (x0 : Vec F S5000x64 .f32) (x1 : Vec F S5000x1 .f32) (x2 : Vec F S5000x1 .f32) (x3 : Vec F S5000x1 .f32) (y : S3x64.Idx) :
    ∃ pc ∈ (kernelRun5_A c i arg1 harg1 arg2 harg2 arg3 harg3 arg4 harg4 arg5 harg5 arg6 harg6 hc0 hc1 x0 x1 x2 x3).2.1, y ∈ pc.1.set :=
  View.cover_of_tiledL (kernelRun5_A c i arg1 harg1 arg2 harg2 arg3 harg3 arg4 harg4 arg5 harg5 arg6 harg6 hc0 hc1 x0 x1 x2 x3).2.1 S3x64.size (by sl_kernel_rfl) y

/-- What the first block leaves in the scratch: its pieces read back over junk. -/
def sout5_A_0 (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond5_0 i) (hc1 : ¬cond5_1 i)
    (x0 : Vec F S5000x64 .f32) (x1 : Vec F S5000x1 .f32) (x2 : Vec F S5000x1 .f32) (x3 : Vec F S5000x1 .f32) : Vec F S3x64 .f32 :=
  VS5_0.read (Elt F) (VS5_0.writes (Elt F) VS5_0.junk (kernelRun5_A c i arg1 harg1 arg2 harg2 arg3 harg3 arg4 harg4 arg5 harg5 arg6 harg6 hc0 hc1 x0 x1 x2 x3).2.1)

/-- At a block between the first and the last nothing is stored into output window 4 (the window is idle there and not written back): no pieces —
    a placeholder that nothing consults. -/
def out5_B_4 (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : ¬cond5_1 i)
    (x0 : Vec F S5000x64 .f32) (x1 : Vec F S5000x1 .f32) (x2 : Vec F S5000x1 .f32) (x3 : Vec F S5000x1 .f32) (xs0 : Vec F S3x64 .f32) : Vec F S3x64 .f32 :=
  VO5_4.read (Elt F) (VO5_4.writes (Elt F) VO5_4.junk (kernelRun5_B c i arg1 harg1 arg2 harg2 arg3 harg3 arg4 harg4 arg5 harg5 arg6 harg6 hc0 hc1 x0 x1 x2 x3 xs0).1)

/-- The pieces a block between the first and the last writes into the scratch cover it: its three rows of 1x64 tile the 3x64 block. -/
theorem scover5_B_0 (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : ¬cond5_1 i)
    (x0 : Vec F S5000x64 .f32) (x1 : Vec F S5000x1 .f32) (x2 : Vec F S5000x1 .f32) (x3 : Vec F S5000x1 .f32) (xs0 : Vec F S3x64 .f32) (y : S3x64.Idx) :
    ∃ pc ∈ (kernelRun5_B c i arg1 harg1 arg2 harg2 arg3 harg3 arg4 harg4 arg5 harg5 arg6 harg6 hc0 hc1 x0 x1 x2 x3 xs0).2.1, y ∈ pc.1.set :=
  View.cover_of_tiledL (kernelRun5_B c i arg1 harg1 arg2 harg2 arg3 harg3 arg4 harg4 arg5 harg5 arg6 harg6 hc0 hc1 x0 x1 x2 x3 xs0).2.1 S1x64.size (by sl_kernel_rfl) y

/-- What a block between the first and the last leaves in the scratch: its pieces read back over junk. -/
def sout5_B_0 (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : ¬cond5_1 i)
    (x0 : Vec F S5000x64 .f32) (x1 : Vec F S5000x1 .f32) (x2 : Vec F S5000x1 .f32) (x3 : Vec F S5000x1 .f32) (xs0 : Vec F S3x64 .f32) : Vec F S3x64 .f32 :=
  VS5_0.read (Elt F) (VS5_0.writes (Elt F) VS5_0.junk (kernelRun5_B c i arg1 harg1 arg2 harg2 arg3 harg3 arg4 harg4 arg5 harg5 arg6 harg6 hc0 hc1 x0 x1 x2 x3 xs0).2.1)

/-- At the last block the one store into output window 4 covers its 3x64 block. -/
theorem cover5_C_4 (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : cond5_1 i)
    (x0 : Vec F S5000x64 .f32) (x1 : Vec F S5000x1 .f32) (x2 : Vec F S5000x1 .f32) (x3 : Vec F S5000x1 .f32) (xs0 : Vec F S3x64 .f32) (y : S3x64.Idx) :
    ∃ pc ∈ (kernelRun5_C c i arg1 harg1 arg2 harg2 arg3 harg3 arg4 harg4 arg5 harg5 arg6 harg6 hc0 hc1 x0 x1 x2 x3 xs0).1, y ∈ pc.1.set :=
  View.cover_of_tiledL (kernelRun5_C c i arg1 harg1 arg2 harg2 arg3 harg3 arg4 harg4 arg5 harg5 arg6 harg6 hc0 hc1 x0 x1 x2 x3 xs0).1 S3x64.size (by sl_kernel_rfl) y

/-- What the last block leaves in output window 4's staging buffer: its pieces read back over junk. -/
def out5_C_4 (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : cond5_1 i)
    (x0 : Vec F S5000x64 .f32) (x1 : Vec F S5000x1 .f32) (x2 : Vec F S5000x1 .f32) (x3 : Vec F S5000x1 .f32) (xs0 : Vec F S3x64 .f32) : Vec F S3x64 .f32 :=
  VO5_4.read (Elt F) (VO5_4.writes (Elt F) VO5_4.junk (kernelRun5_C c i arg1 harg1 arg2 harg2 arg3 harg3 arg4 harg4 arg5 harg5 arg6 harg6 hc0 hc1 x0 x1 x2 x3 xs0).1)

/-- The pieces the last block writes into the scratch cover it: its three rows of 1x64 tile the 3x64 block. -/
theorem scover5_C_0 (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : cond5_1 i)
    (x0 : Vec F S5000x64 .f32) (x1 : Vec F S5000x1 .f32) (x2 : Vec F S5000x1 .f32) (x3 : Vec F S5000x1 .f32) (xs0 : Vec F S3x64 .f32) (y : S3x64.Idx) :
    ∃ pc ∈ (kernelRun5_C c i arg1 harg1 arg2 harg2 arg3 harg3 arg4 harg4 arg5 harg5 arg6 harg6 hc0 hc1 x0 x1 x2 x3 xs0).2.1, y ∈ pc.1.set :=
  View.cover_of_tiledL (kernelRun5_C c i arg1 harg1 arg2 harg2 arg3 harg3 arg4 harg4 arg5 harg5 arg6 harg6 hc0 hc1 x0 x1 x2 x3 xs0).2.1 S1x64.size (by sl_kernel_rfl) y

/-- What the last block leaves in the scratch: its pieces read back over junk. -/
def sout5_C_0 (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : cond5_1 i)
    (x0 : Vec F S5000x64 .f32) (x1 : Vec F S5000x1 .f32) (x2 : Vec F S5000x1 .f32) (x3 : Vec F S5000x1 .f32) (xs0 : Vec F S3x64 .f32) : Vec F S3x64 .f32 :=
  VS5_0.read (Elt F) (VS5_0.writes (Elt F) VS5_0.junk (kernelRun5_C c i arg1 harg1 arg2 harg2 arg3 harg3 arg4 harg4 arg5 harg5 arg6 harg6 hc0 hc1 x0 x1 x2 x3 xs0).2.1)

section Entry
variable (V : (c : Dev nD) → (b : Ref sig .tc) → Buf (Elt F) ((c : Thread nD τ).loc b))

/-! ## What the output window and the scratch hold after each point -/

/-- THE ACCUMULATION. What output window 4's staging buffer and the scratch hold after the body at position `n`
    (the output's buffer, then the scratch): the case the closed forms select at `n`, run at the point's memrefs and
    input blocks, the scratch at what the point before left. An assignment of the conditions no point meets is no case. -/
def outsAt5 (c : Dev nD) : (n : ℕ) → n < cfg5.N → Vec F S3x64 .f32 × Vec F S3x64 .f32
  | 0, hn => (out5_A_4 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩))
  | n + 1, hn =>
    if h0 : (n + 1) % 20 = 0 then
      if h1 : (n + 1) % 20 = 19 then
        False.elim (by have hN : n + 1 < 20 := lt_of_lt_of_eq hn (show cfg5.N = 20 from N_5); omega)
      else
        (out5_A_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) ((hcond5_0 ⟨n + 1, hn⟩).mpr h0) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩))
    else
      if h1 : (n + 1) % 20 = 19 then
        (out5_C_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2)
      else
        (out5_B_4 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2, sout5_B_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) scM5_0 (Memref.isWhole_whole _) (fun h => h0 ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (outsAt5 c n (Nat.lt_of_succ_lt hn)).2)

/-- `outsAt5` at the first block: that case's contents. -/
theorem outsAt5_A (c : Dev nD) (t : Fin cfg5.N) (h0 : t.val % 20 = 0) (h1 : ¬t.val % 20 = 19) :
    outsAt5 V c t.val t.isLt = (out5_A_4 c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (fun h => h1 ((hcond5_1 t).mp h)) (iblk5 V c 0 t) (iblk5 V c 1 t) (iblk5 V c 2 t) (iblk5 V c 3 t), sout5_A_0 c (grid5.coords t) (ms5_0 t) (hs5_0 t) (ms5_1 t) (hs5_1 t) (ms5_2 t) (hs5_2 t) (ms5_3 t) (hs5_3 t) (ms5_4 t) (hs5_4 t) scM5_0 (Memref.isWhole_whole _) ((hcond5_0 t).mpr h0) (fun h => h1 ((hcond5_1 t).mp h)) (iblk5 V c 0 t) (iblk5 V c 1 t) (iblk5 V c 2 t) (iblk5 V c 3 t)) := by
  obtain ⟨n, hn⟩ := t
  cases n with
  | zero => exact rfl
  | succ n => exact (dif_pos h0).trans ((dif_neg h1).trans rfl)

/-- `outsAt5` at a block between the first and the last: that case's contents, over what the point before left. -/
theorem outsAt5_B (c : Dev nD) (t : Fin cfg5.N) (h0 : ¬t.val % 20 = 0) (h1 : ¬t.val % 20 = 19) :
    outsAt5 V c t.val t.isLt = (out5_B_4 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) (fun h => h1 ((hcond5_1 t).mp h)) (iblk5 V c 0 t) (iblk5 V c 1 t) (iblk5 V c 2 t) (iblk5 V c 3 t) (outsAt5 V c (t.val - 1) (Nat.lt_of_le_of_lt (Nat.sub_le _ _) t.isLt)).2, sout5_B_0 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) (fun h => h1 ((hcond5_1 t).mp h)) (iblk5 V c 0 t) (iblk5 V c 1 t) (iblk5 V c 2 t) (iblk5 V c 3 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt5` at the last block: that case's contents, over what the point before left. -/
theorem outsAt5_C (c : Dev nD) (t : Fin cfg5.N) (h0 : ¬t.val % 20 = 0) (h1 : t.val % 20 = 19) :
    outsAt5 V c t.val t.isLt = (out5_C_4 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h1) (iblk5 V c 0 t) (iblk5 V c 1 t) (iblk5 V c 2 t) (iblk5 V c 3 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) (ms5_4 t) (hs5_4 t) scM5_0 (Memref.isWhole_whole _) (fun h => h0 ((hcond5_0 t).mp h)) ((hcond5_1 t).mpr h1) (iblk5 V c 0 t) (iblk5 V c 1 t) (iblk5 V c 2 t) (iblk5 V c 3 t) (outsAt5 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The call's invariant before position `n`: before the first point the scoped rest with the scratch at anything;
    afterwards the scratch at the running sums the point before left, the core's other scoped buffers unopened, and the
    generator register at some state. -/
def PhiS5 (c : Dev nD) : (n : ℕ) → n ≤ cfg5.N → sProp 𝕄
  | 0, _ => Pipeline.ΦA spec5 c
  | n + 1, hn => iprop(iprop(iprop(owns (c : Thread nD τ) scM5_0 fullShare ((outsAt5 V c n hn).2)) ∗ rest5 (F := F) c) ∗ (∃ r, prngReg c r))

theorem PhiS5_zero (c : Dev nD) (n : ℕ) (h : n ≤ cfg5.N) (hz : n = 0) : PhiS5 V c n h = Pipeline.ΦA spec5 c := by
  subst hz; rfl

/-- After point `n` (before point `n + 1`): the scratch at that point's running sums. -/
theorem PhiS5_succ (c : Dev nD) (n : ℕ) (hn : n < cfg5.N) :
    PhiS5 V c (n + 1) hn = iprop(iprop(iprop(owns (c : Thread nD τ) scM5_0 fullShare ((outsAt5 V c n hn).2)) ∗ rest5 (F := F) c) ∗ (∃ r, prngReg c r)) := rfl

/-- Before a point that is not the first: the scratch at what the point before left. -/
theorem PhiS5_pos (c : Dev nD) (n : ℕ) (h : n ≤ cfg5.N) (hz : n ≠ 0) :
    PhiS5 V c n h = iprop(iprop(iprop(owns (c : Thread nD τ) scM5_0 fullShare ((outsAt5 V c (n - 1) (by omega)).2)) ∗ rest5 (F := F) c) ∗ (∃ r, prngReg c r)) := by
  cases n with
  | zero => exact absurd rfl hz
  | succ n => rfl

/-! ## The pipeline's proof data -/

/-- The proof data of this call's pipeline on core `c`: the arrays as the call finds them (`V`); after the body at
    point `t` each input's buffer at its block and the output's at `outsAt5`; the invariant `PhiS5`; nothing owed;
    full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => (outsAt5 V c t.val t.isLt).1
  Φ t := PhiS5 V c t.val (Nat.le_of_lt_succ t.isLt)
  q _ := fullShare
  owed _ := 0

/-- The proof data's arrays are the entry contents. -/
theorem A_eq5 (c : Dev nD) (w : Fin cfg5.W) : (dat5 V c).A w = V c (Pipeline.arrRef spec5 w) := by
  dsimp only [dat5]

/-- The invariant at a point's start, restated at `t.val`. -/
theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = (outsAt5 V c t.val t.isLt).1 := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t)

set_option maxHeartbeats 4800000 in
/-- The body at any point: the inputs' memrefs hold their blocks; the closed forms say which case the point is in; so
    that case's run applies. The invariant hands the body the scratch at what the point before left (at anything at the
    first point), the core's other scoped buffers and the generator register pass through unread, and the scratch is
    taken back at this point's running sums (the case's pieces cover it); the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).owesAt () t.succ = (dat5 V c).owesAt () t.castSucc from rfl]
  rw [show (dat5 V c).Φ t.succ = PhiS5 V c (t.val + 1) t.isLt from rfl, PhiS5_succ]
  have hN : t.val < 20 := lt_of_lt_of_eq t.isLt (show cfg5.N = 20 from N_5)
  by_cases h0 : t.val % 20 = 0
  · by_cases h1 : t.val % 20 = 19
    · exfalso; omega
    · rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [Dat.leavesExact_idle (dat5 V c) 4 t (idleAt5_4_A t ((hcond5_0 t).mpr h0) (fun h => h1 ((hcond5_1 t).mp h))) (noFlush5_4_A t ((hcond5_0 t).mpr h0) (fun h => h1 ((hcond5_1 t).mp h)))]
      rw [outsAt5_A V c t h0 h1]
      unfold sout5_A_0; (try dsimp only)
      by_cases hz : t.val = 0
      · rw [PhiS5_castSucc V c t, PhiS5_zero V c _ _ hz, PhiA5_eq]
        iintro ⟨⟨⟨HS0, Hr⟩, Hg⟩, Ho, ⟨%d0, H0⟩, ⟨%d1, H1⟩, ⟨%d2, H2⟩, ⟨%d3, H3⟩, ⟨%d4, H4⟩⟩
        iapply ((kernelRun5_A c (grid5.coords t) _ _ _ _ _ _ _ _ _ _ _ _ ((hcond5_0 t).mpr h0) (fun h => h1 ((hcond5_1 t).mp h)) (iblk5 V c 0 t) (iblk5 V c 1 t) (iblk5 V c 2 t) (iblk5 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover5_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS5_castSucc V c t, PhiS5_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun5_A c (grid5.coords t) _ _ _ _ _ _ _ _ _ _ _ _ ((hcond5_0 t).mpr h0) (fun h => h1 ((hcond5_1 t).mp h)) (iblk5 V c 0 t) (iblk5 V c 1 t) (iblk5 V c 2 t) (iblk5 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover5_A_0 c _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 20 = 19
    · rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [show (dat5 V c).leavesExact 4 t = owns (c : Thread nD τ) (ms5_4 t) fullShare ((dat5 V c).after 4 t) from by
        unfold Dat.leavesExact; rw [liveAt5_4_C t (fun h => h0 ((hcond5_0 t).mp h)) ((hcond5_1 t).mpr h1)], after5_4]
      rw [outsAt5_C V c t h0 h1]
      unfold out5_C_4 sout5_C_0; (try dsimp only)
      by_cases hz : t.val = 0
      · exfalso; omega
      · rw [PhiS5_castSucc V c t, PhiS5_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun5_C c (grid5.coords t) _ _ _ _ _ _ _ _ _ _ _ _ (fun h => h0 ((hcond5_0 t).mp h)) ((hcond5_1 t).mpr h1) (iblk5 V c 0 t) (iblk5 V c 1 t) (iblk5 V c 2 t) (iblk5 V c 3 t) _).2.2 Set.univ _)
        isplitl [H0]; · iexact H0
        isplitl [H1]; · iexact H1
        isplitl [H2]; · iexact H2
        isplitl [H3]; · iexact H3
        isplitl [H4]; · iexists _; iexact H4
        isplitl [HS0]; · iexact HS0
        iintro ⟨H0, H1, H2, H3, ⟨%e4, H4⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover5_C_0 c _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover5_C_4 c _ _ _ _ _ _ _ _ _ _ _ _ _ _ _ _ _ _ _ _)
    · rw [show (dat5 V c).leavesExact 0 t = owns (c : Thread nD τ) (ms5_0 t) fullShare ((dat5 V c).after 0 t) from by
        unfold Dat.leavesExact; rw [liveAt5_0 t], after5_0]
      rw [show (dat5 V c).leavesExact 1 t = owns (c : Thread nD τ) (ms5_1 t) fullShare ((dat5 V c).after 1 t) from by
        unfold Dat.leavesExact; rw [liveAt5_1 t], after5_1]
      rw [show (dat5 V c).leavesExact 2 t = owns (c : Thread nD τ) (ms5_2 t) fullShare ((dat5 V c).after 2 t) from by
        unfold Dat.leavesExact; rw [liveAt5_2 t], after5_2]
      rw [show (dat5 V c).leavesExact 3 t = owns (c : Thread nD τ) (ms5_3 t) fullShare ((dat5 V c).after 3 t) from by
        unfold Dat.leavesExact; rw [liveAt5_3 t], after5_3]
      rw [Dat.leavesExact_idle (dat5 V c) 4 t (idleAt5_4_B t (fun h => h0 ((hcond5_0 t).mp h)) (fun h => h1 ((hcond5_1 t).mp h))) (noFlush5_4_B t (fun h => h0 ((hcond5_0 t).mp h)) (fun h => h1 ((hcond5_1 t).mp h)))]
      rw [outsAt5_B V c t h0 h1]
      unfold sout5_B_0; (try dsimp only)
      by_cases hz : t.val = 0
      · exfalso; omega
      · rw [PhiS5_castSucc V c t, PhiS5_pos V c _ _ hz]
        iintro ⟨⟨⟨HS0, Hr⟩, Hg⟩, Ho, ⟨%d0, H0⟩, ⟨%d1, H1⟩, ⟨%d2, H2⟩, ⟨%d3, H3⟩, ⟨%d4, H4⟩⟩
        iapply ((kernelRun5_B c (grid5.coords t) _ _ _ _ _ _ _ _ _ _ _ _ (fun h => h0 ((hcond5_0 t).mp h)) (fun h => h1 ((hcond5_1 t).mp h)) (iblk5 V c 0 t) (iblk5 V c 1 t) (iblk5 V c 2 t) (iblk5 V c 3 t) _).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover5_B_0 c _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the call is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the launch's back: the scratch's named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨HS0, Hr⟩, Hg⟩
  isplitl [HS0 Hr]
  · isplitl [HS0]
    · iexists _; iexact HS0
    iexact Hr
  iexact Hg

/-- The same after the last point. -/
theorem hout5 (c : Dev nD) : (dat5 V c).Φ (Fin.last cfg5.N) ⊢ Pipeline.ΦA spec5 c :=
  Phi_out5 V c _ (by rw [Fin.val_last]; have : cfg5.N = 20 := N_5; omega)

end Entry

end Cert.KernelIdeal.Hand

end
-- ==== Proof.KI_Run.lean ====
/-
  The run of the program's @main as sixteen items — ten stretches of host operations and six kernel regions —
  with the contents of every unscoped buffer named at each boundary, on every core:
  the launch memory; after a stretch of host operations, the operations' results folded over what was there;
  after a kernel region, the region's arrays at what its pipeline leaves (an input array as it was, the output array at
  its blocks written back in grid order) and every other buffer untouched.  From the run: every argument array
  ends as launched (no host operation writes one, no region has one as its output), and the result buffer ends at the
  last boundary's contents.
-/
import proofs.«181750_j70806830841988_1_alg».proof.Proof.Gen.KernelIdeal.Launch
import proofs.«181750_j70806830841988_1_alg».proof.Proof.Gen.KernelIdeal.Skeleton
import proofs.«181750_j70806830841988_1_alg».proof.Proof.Gen.KernelIdeal.Points
import proofs.«181750_j70806830841988_1_alg».proof.Proof.Gen.KernelIdeal.Regions
import proofs.«181750_j70806830841988_1_alg».proof.Proof.KI_Mlp0
import proofs.«181750_j70806830841988_1_alg».proof.Proof.KI_Mlp2
import proofs.«181750_j70806830841988_1_alg».proof.Proof.KI_Mlp4
import proofs.«181750_j70806830841988_1_alg».proof.Proof.KI_Pool1
import proofs.«181750_j70806830841988_1_alg».proof.Proof.KI_Pool3
import proofs.«181750_j70806830841988_1_alg».proof.Proof.KI_Pool5
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s unscoped buffers at launch. -/
abbrev W0 : Dev nD → Valuation τ sig (Elt F) := fun c b => m (c, b)
/-- After the host stretch `hostOps0`. -/
abbrev W1 : Dev nD → Valuation τ sig (Elt F) := fun c => StableHlo.after hostOps0 (W0 m c)
/-- Region 0's entry contents read at the TensorCore's references. -/
abbrev En0 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (En0 m) c).arrAt w cfg0.N
theorem W2_arr (c : Dev nD) (w : Fin cfg0.W) :
    W2 m c (Proc.devRef .tc (Pipeline.arrRef spec0 w)) = (dat0 (En0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- Region 0's exit contents read at the TensorCore's references. -/
abbrev Ex0 : (c : Dev nD) → (b : Ref sig .tc) → Buf (Elt F) ((c : Thread nD τ).loc b) := fun c b => W2 m c b
theorem hF0 (c : Dev nD) (w : Fin cfg0.W) : (dat0 (En0 m) c).arrAt w cfg0.N = Ex0 m c (Pipeline.arrRef spec0 w) :=
  (W2_arr m c w).symm
theorem hrest0 (c : Dev nD) : ∀ b, b ∉ Finset.univ.image (Pipeline.arrRef spec0) → Ex0 m c b = En0 m c b :=
  fun b hb => W2_of_ne m c b fun w e => hb (Finset.mem_image.mpr ⟨w, Finset.mem_univ _, e⟩)
/-- A region changes only its output array: an input array is handed back as it was found. -/
theorem W2_keep (c : Dev nD) (b : Ref sig .tc) (hb : b ≠ main_v28) :
    W2 m c (Proc.devRef .tc b) = W1 m c (Proc.devRef .tc b) := by
  by_cases h : ∃ w, Pipeline.arrRef spec0 w = b
  · obtain ⟨w, rfl⟩ := h
    rw [W2_arr]
    fin_cases w
    · exact ((dat0 (En0 m) c).arrAt_in 0 rfl _).trans (A_eq0 (En0 m) c 0)
    · exact ((dat0 (En0 m) c).arrAt_in 1 rfl _).trans (A_eq0 (En0 m) c 1)
    · exact ((dat0 (En0 m) c).arrAt_in 2 rfl _).trans (A_eq0 (En0 m) c 2)
    · exact ((dat0 (En0 m) c).arrAt_in 3 rfl _).trans (A_eq0 (En0 m) c 3)
    · exact ((dat0 (En0 m) c).arrAt_in 4 rfl _).trans (A_eq0 (En0 m) c 4)
    · exact absurd rfl hb
  · exact W2_of_ne m c b (fun w e => h ⟨w, e⟩)
/-- Region 1's entry contents read at the TensorCore's references. -/
abbrev En1 : (c : Dev nD) → (b : Ref sig .tc) → Buf (Elt F) ((c : Thread nD τ).loc b) := fun c b => W2 m c b
/-- At region 1's exit: its arrays at what the pipeline leaves, every other buffer as entered. -/
def W3 (c : Dev nD) : Valuation τ sig (Elt F) :=
  Pipeline.withArrays spec1 c (W2 m c) fun w => (dat1 (En1 m) c).arrAt w cfg1.N
theorem W3_arr (c : Dev nD) (w : Fin cfg1.W) :
    W3 m c (Proc.devRef .tc (Pipeline.arrRef spec1 w)) = (dat1 (En1 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- Region 1's exit contents read at the TensorCore's references. -/
abbrev Ex1 : (c : Dev nD) → (b : Ref sig .tc) → Buf (Elt F) ((c : Thread nD τ).loc b) := fun c b => W3 m c b
theorem hF1 (c : Dev nD) (w : Fin cfg1.W) : (dat1 (En1 m) c).arrAt w cfg1.N = Ex1 m c (Pipeline.arrRef spec1 w) :=
  (W3_arr m c w).symm
theorem hrest1 (c : Dev nD) : ∀ b, b ∉ Finset.univ.image (Pipeline.arrRef spec1) → Ex1 m c b = En1 m c b :=
  fun b hb => W3_of_ne m c b fun w e => hb (Finset.mem_image.mpr ⟨w, Finset.mem_univ _, e⟩)
/-- A region changes only its output array: an input array is handed back as it was found. -/
theorem W3_keep (c : Dev nD) (b : Ref sig .tc) (hb : b ≠ main_v29) :
    W3 m c (Proc.devRef .tc b) = W2 m c (Proc.devRef .tc b) := by
  by_cases h : ∃ w, Pipeline.arrRef spec1 w = b
  · obtain ⟨w, rfl⟩ := h
    rw [W3_arr]
    fin_cases w
    · exact ((dat1 (En1 m) c).arrAt_in 0 rfl _).trans (A_eq1 (En1 m) c 0)
    · exact ((dat1 (En1 m) c).arrAt_in 1 rfl _).trans (A_eq1 (En1 m) c 1)
    · exact ((dat1 (En1 m) c).arrAt_in 2 rfl _).trans (A_eq1 (En1 m) c 2)
    · exact ((dat1 (En1 m) c).arrAt_in 3 rfl _).trans (A_eq1 (En1 m) c 3)
    · exact absurd rfl hb
  · exact W3_of_ne m c b (fun w e => h ⟨w, e⟩)
/-- After the host stretch `hostOps2`. -/
abbrev W4 : Dev nD → Valuation τ sig (Elt F) := fun c => StableHlo.after hostOps2 (W3 m c)
/-- After the host stretch `hostOps2_1`. -/
abbrev W5 : Dev nD → Valuation τ sig (Elt F) := fun c => StableHlo.after hostOps2_1 (W4 m c)
/-- After the host stretch `hostOps2_2`. -/
abbrev W6 : Dev nD → Valuation τ sig (Elt F) := fun c => StableHlo.after hostOps2_2 (W5 m c)
/-- Region 2's entry contents read at the TensorCore's references. -/
abbrev En2 : (c : Dev nD) → (b : Ref sig .tc) → Buf (Elt F) ((c : Thread nD τ).loc b) := fun c b => W6 m c b
/-- At region 2's exit: its arrays at what the pipeline leaves, every other buffer as entered. -/
def W7 (c : Dev nD) : Valuation τ sig (Elt F) :=
  Pipeline.withArrays spec2 c (W6 m c) fun w => (dat2 (En2 m) c).arrAt w cfg2.N
theorem W7_arr (c : Dev nD) (w : Fin cfg2.W) :
    W7 m c (Proc.devRef .tc (Pipeline.arrRef spec2 w)) = (dat2 (En2 m) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m c (Proc.devRef .tc b) = W6 m c (Proc.devRef .tc b) := by
  unfold W7; exact Pipeline.withArrays_of_ne spec2 c _ _ b hb
/-- Region 2's exit contents read at the TensorCore's references. -/
abbrev Ex2 : (c : Dev nD) → (b : Ref sig .tc) → Buf (Elt F) ((c : Thread nD τ).loc b) := fun c b => W7 m c b
theorem hF2 (c : Dev nD) (w : Fin cfg2.W) : (dat2 (En2 m) c).arrAt w cfg2.N = Ex2 m c (Pipeline.arrRef spec2 w) :=
  (W7_arr m c w).symm
theorem hrest2 (c : Dev nD) : ∀ b, b ∉ Finset.univ.image (Pipeline.arrRef spec2) → Ex2 m c b = En2 m c b :=
  fun b hb => W7_of_ne m c b fun w e => hb (Finset.mem_image.mpr ⟨w, Finset.mem_univ _, e⟩)
/-- A region changes only its output array: an input array is handed back as it was found. -/
theorem W7_keep (c : Dev nD) (b : Ref sig .tc) (hb : b ≠ main_v54) :
    W7 m c (Proc.devRef .tc b) = W6 m c (Proc.devRef .tc b) := by
  by_cases h : ∃ w, Pipeline.arrRef spec2 w = b
  · obtain ⟨w, rfl⟩ := h
    rw [W7_arr]
    fin_cases w
    · exact ((dat2 (En2 m) c).arrAt_in 0 rfl _).trans (A_eq2 (En2 m) c 0)
    · exact ((dat2 (En2 m) c).arrAt_in 1 rfl _).trans (A_eq2 (En2 m) c 1)
    · exact ((dat2 (En2 m) c).arrAt_in 2 rfl _).trans (A_eq2 (En2 m) c 2)
    · exact ((dat2 (En2 m) c).arrAt_in 3 rfl _).trans (A_eq2 (En2 m) c 3)
    · exact ((dat2 (En2 m) c).arrAt_in 4 rfl _).trans (A_eq2 (En2 m) c 4)
    · exact absurd rfl hb
  · exact W7_of_ne m c b (fun w e => h ⟨w, e⟩)
/-- Region 3's entry contents read at the TensorCore's references. -/
abbrev En3 : (c : Dev nD) → (b : Ref sig .tc) → Buf (Elt F) ((c : Thread nD τ).loc b) := fun c b => W7 m c b
/-- At region 3's exit: its arrays at what the pipeline leaves, every other buffer as entered. -/
def W8 (c : Dev nD) : Valuation τ sig (Elt F) :=
  Pipeline.withArrays spec3 c (W7 m c) fun w => (dat3 (En3 m) c).arrAt w cfg3.N
theorem W8_arr (c : Dev nD) (w : Fin cfg3.W) :
    W8 m c (Proc.devRef .tc (Pipeline.arrRef spec3 w)) = (dat3 (En3 m) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- Region 3's exit contents read at the TensorCore's references. -/
abbrev Ex3 : (c : Dev nD) → (b : Ref sig .tc) → Buf (Elt F) ((c : Thread nD τ).loc b) := fun c b => W8 m c b
theorem hF3 (c : Dev nD) (w : Fin cfg3.W) : (dat3 (En3 m) c).arrAt w cfg3.N = Ex3 m c (Pipeline.arrRef spec3 w) :=
  (W8_arr m c w).symm
theorem hrest3 (c : Dev nD) : ∀ b, b ∉ Finset.univ.image (Pipeline.arrRef spec3) → Ex3 m c b = En3 m c b :=
  fun b hb => W8_of_ne m c b fun w e => hb (Finset.mem_image.mpr ⟨w, Finset.mem_univ _, e⟩)
/-- A region changes only its output array: an input array is handed back as it was found. -/
theorem W8_keep (c : Dev nD) (b : Ref sig .tc) (hb : b ≠ main_v55) :
    W8 m c (Proc.devRef .tc b) = W7 m c (Proc.devRef .tc b) := by
  by_cases h : ∃ w, Pipeline.arrRef spec3 w = b
  · obtain ⟨w, rfl⟩ := h
    rw [W8_arr]
    fin_cases w
    · exact ((dat3 (En3 m) c).arrAt_in 0 rfl _).trans (A_eq3 (En3 m) c 0)
    · exact ((dat3 (En3 m) c).arrAt_in 1 rfl _).trans (A_eq3 (En3 m) c 1)
    · exact ((dat3 (En3 m) c).arrAt_in 2 rfl _).trans (A_eq3 (En3 m) c 2)
    · exact ((dat3 (En3 m) c).arrAt_in 3 rfl _).trans (A_eq3 (En3 m) c 3)
    · exact absurd rfl hb
  · exact W8_of_ne m c b (fun w e => h ⟨w, e⟩)
/-- After the host stretch `hostOps4`. -/
abbrev W9 : Dev nD → Valuation τ sig (Elt F) := fun c => StableHlo.after hostOps4 (W8 m c)
/-- After the host stretch `hostOps4_1`. -/
abbrev W10 : Dev nD → Valuation τ sig (Elt F) := fun c => StableHlo.after hostOps4_1 (W9 m c)
/-- After the host stretch `hostOps4_2`. -/
abbrev W11 : Dev nD → Valuation τ sig (Elt F) := fun c => StableHlo.after hostOps4_2 (W10 m c)
/-- Region 4's entry contents read at the TensorCore's references. -/
abbrev En4 : (c : Dev nD) → (b : Ref sig .tc) → Buf (Elt F) ((c : Thread nD τ).loc b) := fun c b => W11 m c b
/-- At region 4's exit: its arrays at what the pipeline leaves, every other buffer as entered. -/
def W12 (c : Dev nD) : Valuation τ sig (Elt F) :=
  Pipeline.withArrays spec4 c (W11 m c) fun w => (dat4 (En4 m) c).arrAt w cfg4.N
theorem W12_arr (c : Dev nD) (w : Fin cfg4.W) :
    W12 m c (Proc.devRef .tc (Pipeline.arrRef spec4 w)) = (dat4 (En4 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
/-- Region 4's exit contents read at the TensorCore's references. -/
abbrev Ex4 : (c : Dev nD) → (b : Ref sig .tc) → Buf (Elt F) ((c : Thread nD τ).loc b) := fun c b => W12 m c b
theorem hF4 (c : Dev nD) (w : Fin cfg4.W) : (dat4 (En4 m) c).arrAt w cfg4.N = Ex4 m c (Pipeline.arrRef spec4 w) :=
  (W12_arr m c w).symm
theorem hrest4 (c : Dev nD) : ∀ b, b ∉ Finset.univ.image (Pipeline.arrRef spec4) → Ex4 m c b = En4 m c b :=
  fun b hb => W12_of_ne m c b fun w e => hb (Finset.mem_image.mpr ⟨w, Finset.mem_univ _, e⟩)
/-- A region changes only its output array: an input array is handed back as it was found. -/
theorem W12_keep (c : Dev nD) (b : Ref sig .tc) (hb : b ≠ main_v80) :
    W12 m c (Proc.devRef .tc b) = W11 m c (Proc.devRef .tc b) := by
  by_cases h : ∃ w, Pipeline.arrRef spec4 w = b
  · obtain ⟨w, rfl⟩ := h
    rw [W12_arr]
    fin_cases w
    · exact ((dat4 (En4 m) c).arrAt_in 0 rfl _).trans (A_eq4 (En4 m) c 0)
    · exact ((dat4 (En4 m) c).arrAt_in 1 rfl _).trans (A_eq4 (En4 m) c 1)
    · exact ((dat4 (En4 m) c).arrAt_in 2 rfl _).trans (A_eq4 (En4 m) c 2)
    · exact ((dat4 (En4 m) c).arrAt_in 3 rfl _).trans (A_eq4 (En4 m) c 3)
    · exact ((dat4 (En4 m) c).arrAt_in 4 rfl _).trans (A_eq4 (En4 m) c 4)
    · exact absurd rfl hb
  · exact W12_of_ne m c b (fun w e => h ⟨w, e⟩)
/-- Region 5's entry contents read at the TensorCore's references. -/
abbrev En5 : (c : Dev nD) → (b : Ref sig .tc) → Buf (Elt F) ((c : Thread nD τ).loc b) := fun c b => W12 m c b
/-- At region 5's exit: its arrays at what the pipeline leaves, every other buffer as entered. -/
def W13 (c : Dev nD) : Valuation τ sig (Elt F) :=
  Pipeline.withArrays spec5 c (W12 m c) fun w => (dat5 (En5 m) c).arrAt w cfg5.N
theorem W13_arr (c : Dev nD) (w : Fin cfg5.W) :
    W13 m c (Proc.devRef .tc (Pipeline.arrRef spec5 w)) = (dat5 (En5 m) c).arrAt w cfg5.N := by
  unfold W13; exact Pipeline.withArrays_arr spec5 launch5.win.arr_inj c _ _ w
theorem W13_of_ne (c : Dev nD) (b : Ref sig .tc) (hb : ∀ w, Pipeline.arrRef spec5 w ≠ b) :
    W13 m c (Proc.devRef .tc b) = W12 m c (Proc.devRef .tc b) := by
  unfold W13; exact Pipeline.withArrays_of_ne spec5 c _ _ b hb
/-- Region 5's exit contents read at the TensorCore's references. -/
abbrev Ex5 : (c : Dev nD) → (b : Ref sig .tc) → Buf (Elt F) ((c : Thread nD τ).loc b) := fun c b => W13 m c b
theorem hF5 (c : Dev nD) (w : Fin cfg5.W) : (dat5 (En5 m) c).arrAt w cfg5.N = Ex5 m c (Pipeline.arrRef spec5 w) :=
  (W13_arr m c w).symm
theorem hrest5 (c : Dev nD) : ∀ b, b ∉ Finset.univ.image (Pipeline.arrRef spec5) → Ex5 m c b = En5 m c b :=
  fun b hb => W13_of_ne m c b fun w e => hb (Finset.mem_image.mpr ⟨w, Finset.mem_univ _, e⟩)
/-- A region changes only its output array: an input array is handed back as it was found. -/
theorem W13_keep (c : Dev nD) (b : Ref sig .tc) (hb : b ≠ main_v81) :
    W13 m c (Proc.devRef .tc b) = W12 m c (Proc.devRef .tc b) := by
  by_cases h : ∃ w, Pipeline.arrRef spec5 w = b
  · obtain ⟨w, rfl⟩ := h
    rw [W13_arr]
    fin_cases w
    · exact ((dat5 (En5 m) c).arrAt_in 0 rfl _).trans (A_eq5 (En5 m) c 0)
    · exact ((dat5 (En5 m) c).arrAt_in 1 rfl _).trans (A_eq5 (En5 m) c 1)
    · exact ((dat5 (En5 m) c).arrAt_in 2 rfl _).trans (A_eq5 (En5 m) c 2)
    · exact ((dat5 (En5 m) c).arrAt_in 3 rfl _).trans (A_eq5 (En5 m) c 3)
    · exact absurd rfl hb
  · exact W13_of_ne m c b (fun w e => h ⟨w, e⟩)
/-- After the host stretch `hostOps6`. -/
abbrev W14 : Dev nD → Valuation τ sig (Elt F) := fun c => StableHlo.after hostOps6 (W13 m c)
/-- After the host stretch `hostOps6_1`. -/
abbrev W15 : Dev nD → Valuation τ sig (Elt F) := fun c => StableHlo.after hostOps6_1 (W14 m c)
/-- After the host stretch `hostOps6_2`. -/
abbrev W16 : Dev nD → Valuation τ sig (Elt F) := fun c => StableHlo.after hostOps6_2 (W15 m c)

/-- A buffer that no host operation writes and that is no region's output array ends as launched. -/
theorem W16_keep (c : Dev nD) (b : Ref sig .tc) (h0 : b ∉ hostOps0_W) (h3 : b ∉ hostOps2_W) (h4 : b ∉ hostOps2_1_W) (h5 : b ∉ hostOps2_2_W) (h8 : b ∉ hostOps4_W) (h9 : b ∉ hostOps4_1_W) (h10 : b ∉ hostOps4_2_W) (h13 : b ∉ hostOps6_W) (h14 : b ∉ hostOps6_1_W) (h15 : b ∉ hostOps6_2_W)
    (hv : b ∉ ([main_v28, main_v29, main_v54, main_v55, main_v80, main_v81] : List (Ref sig .tc))) :
    W16 m c (Proc.devRef .tc b) = m ((c : Thread nD τ).loc b) := by
  have e28 : b ≠ main_v28 := fun e => hv (by subst e; decide)
  have e29 : b ≠ main_v29 := fun e => hv (by subst e; decide)
  have e54 : b ≠ main_v54 := fun e => hv (by subst e; decide)
  have e55 : b ≠ main_v55 := fun e => hv (by subst e; decide)
  have e80 : b ≠ main_v80 := fun e => hv (by subst e; decide)
  have e81 : b ≠ main_v81 := fun e => hv (by subst e; decide)
  calc W16 m c (Proc.devRef .tc b)
    _ = W15 m c (Proc.devRef .tc b) := StableHlo.after_of_writes_sub hostOps6_2 _ hostOps6_2_writes h15
    _ = W14 m c (Proc.devRef .tc b) := StableHlo.after_of_writes_sub hostOps6_1 _ hostOps6_1_writes h14
    _ = W13 m c (Proc.devRef .tc b) := StableHlo.after_of_writes_sub hostOps6 _ hostOps6_writes h13
    _ = W12 m c (Proc.devRef .tc b) := W13_keep m c b e81
    _ = W11 m c (Proc.devRef .tc b) := W12_keep m c b e80
    _ = W10 m c (Proc.devRef .tc b) := StableHlo.after_of_writes_sub hostOps4_2 _ hostOps4_2_writes h10
    _ = W9 m c (Proc.devRef .tc b) := StableHlo.after_of_writes_sub hostOps4_1 _ hostOps4_1_writes h9
    _ = W8 m c (Proc.devRef .tc b) := StableHlo.after_of_writes_sub hostOps4 _ hostOps4_writes h8
    _ = W7 m c (Proc.devRef .tc b) := W8_keep m c b e55
    _ = W6 m c (Proc.devRef .tc b) := W7_keep m c b e54
    _ = W5 m c (Proc.devRef .tc b) := StableHlo.after_of_writes_sub hostOps2_2 _ hostOps2_2_writes h5
    _ = W4 m c (Proc.devRef .tc b) := StableHlo.after_of_writes_sub hostOps2_1 _ hostOps2_1_writes h4
    _ = W3 m c (Proc.devRef .tc b) := StableHlo.after_of_writes_sub hostOps2 _ hostOps2_writes h3
    _ = W2 m c (Proc.devRef .tc b) := W3_keep m c b e29
    _ = W1 m c (Proc.devRef .tc b) := W2_keep m c b e28
    _ = W0 m c (Proc.devRef .tc b) := StableHlo.after_of_writes_sub hostOps0 _ hostOps0_writes h0
    _ = m ((c : Thread nD τ).loc b) := rfl

/-! ## The proof data family and the thread state -/

/-- Every pipeline's proof data, each at its region's entry contents. -/
def hdats : (p : Fin 6) → (c : Dev nD) → Dat τ (Elt F) Unit ℕ (UR sig nD τ) ℕ (Pipeline.pin (pcfgs (F := F)) adm p) c
  | ⟨0, _⟩ => fun c => dat0 (En0 m) c
  | ⟨1, _⟩ => fun c => dat1 (En1 m) c
  | ⟨2, _⟩ => fun c => dat2 (En2 m) c
  | ⟨3, _⟩ => fun c => dat3 (En3 m) c
  | ⟨4, _⟩ => fun c => dat4 (En4 m) c
  | ⟨5, _⟩ => fun c => dat5 (En5 m) c
abbrev hV : Variants := Variants.none
/-- No core owes another anything: no level is assigned. -/
abbrev hL : GSem nD τ sig → Finset Unit := fun _ => ∅
abbrev hlv : GSem nD τ sig → Unit → ℕ := fun _ _ => 0
/-- What rides beside the buffers through every item: the core's generator register at some state and its dues, at nothing. -/
abbrev Ride (c : Dev nD) : sProp 𝕄 := iprop((∃ r, prngReg c r) ∗ ∃ W, owes (c : Thread nD τ) (0 : CellTallies nD τ sig Unit) W)
/-- A host stretch as an item: the unscoped buffers from the contents `W` to the operations' fold over them. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ hV hL hlv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Ride
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tend (c : Dev nD) : sProp 𝕄 := iprop(StableHlo.held (c : Thread nD τ) (Pipeline.ucRefs τ sig) (W16 m c) ∗ ∃ r, prngReg c r)

/-- The last item's thread state, regrouped: the dues stand apart. -/
theorem tail_ent (c : Dev nD) : iprop(StableHlo.held (c : Thread nD τ) (Pipeline.ucRefs τ sig) (W16 m c) ∗ Ride c)
    ⊢ (iprop(Tend m c ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The regions as items -/

set_option backward.isDefEq.respectTransparency.types false in
/-- Region 0 over the thread state: entered from every unscoped buffer at `W1`, left at `W2`; its arrays split out
    of the unscoped buffers and put back at the exit contents; the generator register into the region's invariant and out;
    nothing owed; no semaphore of the kernel's own. -/
def hreg0 : Pipeline.RegionSeg (pcfgs (F := F)) adm (hdats m) () defs₀ hV hL hlv 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ hL hlv 0 fun _ _ => rfl
  pre c := iprop(StableHlo.held (c : Thread nD τ) (Pipeline.ucRefs τ sig) (W1 m c) ∗ Ride c)
  post c := iprop(StableHlo.held (c : Thread nD τ) (Pipeline.ucRefs τ sig) (W2 m c) ∗ Ride c)
  X c := iprop(∃ r, prngReg c r)
  Y c := iprop(∃ r, prngReg c r)
  Z c := Pipeline.unscopedRest (Ix := Unit) (Name := ℕ) (U := UR sig nD τ) (Lvl := ℕ) spec0 c (En0 m c)
  hentry c := by
    rw [Pipeline.ownSems0_none]
    have hsplit := Pipeline.arrays_of_unscopedBufs (p := 0) (pcfgs (F := F)) adm (hdats m) launch0.win launch0.arr_whole c
      ((hdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (hdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (hdats m) ((hdats m 0 c).share_full fun _ => rfl)
      (En0 m c) (Ex0 m c) ((hdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`; its arrays split out
    of the unscoped buffers and put back at the exit contents; the generator register into the region's invariant and out;
    nothing owed; no semaphore of the kernel's own. -/
def hreg1 : Pipeline.RegionSeg (pcfgs (F := F)) adm (hdats m) () defs₀ hV hL hlv 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ hL hlv 1 fun _ _ => rfl
  pre c := iprop(StableHlo.held (c : Thread nD τ) (Pipeline.ucRefs τ sig) (W2 m c) ∗ Ride c)
  post c := iprop(StableHlo.held (c : Thread nD τ) (Pipeline.ucRefs τ sig) (W3 m c) ∗ Ride c)
  X c := iprop(∃ r, prngReg c r)
  Y c := iprop(∃ r, prngReg c r)
  Z c := Pipeline.unscopedRest (Ix := Unit) (Name := ℕ) (U := UR sig nD τ) (Lvl := ℕ) spec1 c (En1 m c)
  hentry c := by
    rw [Pipeline.ownSems0_none]
    have hsplit := Pipeline.arrays_of_unscopedBufs (p := 1) (pcfgs (F := F)) adm (hdats m) launch1.win launch1.arr_whole c
      ((hdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 1 c).Φ 0 = (dat1 (En1 m) c).Φ 0 from rfl]
    refine BI.Entails.trans (?_ : _ ⊢ (Pipeline.ΦA spec1 c : sProp 𝕄)) (hin1 (En1 m) c)
    unfold Pipeline.ΦA
    iintro ⟨Hp, -, Hr⟩
    isplitl [Hr]; · iexact Hr
    iexact Hp
  hout c := by
    rw [Pipeline.ownSems0_none, show (hdats m 1 c).Φ (Fin.last _) = (dat1 (En1 m) c).Φ (Fin.last cfg1.N) from rfl]
    refine BI.Entails.trans (hout1 (En1 m) c) (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (hdats m) ((hdats m 1 c).share_full fun _ => rfl)
      (En1 m c) (Ex1 m c) ((hdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W6`, left at `W7`; its arrays split out
    of the unscoped buffers and put back at the exit contents; the generator register into the region's invariant and out;
    nothing owed; no semaphore of the kernel's own. -/
def hreg2 : Pipeline.RegionSeg (pcfgs (F := F)) adm (hdats m) () defs₀ hV hL hlv 2 where
  win := launch2.win.to₀
  block_pos := launch2.block_pos
  stage_whole := launch2.stage_whole
  K := PEmpty
  osem k := k.elim
  ho := Pipeline.OwnSemFacts.none _
  hbody c := (body_obligation2 (En2 m) c).loose
  hwaits := Pipeline.hwaits_of_owed_zero _ _ _ _ hL hlv 2 fun _ _ => rfl
  pre c := iprop(StableHlo.held (c : Thread nD τ) (Pipeline.ucRefs τ sig) (W6 m c) ∗ Ride c)
  post c := iprop(StableHlo.held (c : Thread nD τ) (Pipeline.ucRefs τ sig) (W7 m c) ∗ Ride c)
  X c := iprop(∃ r, prngReg c r)
  Y c := iprop(∃ r, prngReg c r)
  Z c := Pipeline.unscopedRest (Ix := Unit) (Name := ℕ) (U := UR sig nD τ) (Lvl := ℕ) spec2 c (En2 m c)
  hentry c := by
    rw [Pipeline.ownSems0_none]
    have hsplit := Pipeline.arrays_of_unscopedBufs (p := 2) (pcfgs (F := F)) adm (hdats m) launch2.win launch2.arr_whole c
      ((hdats m 2 c).share_full fun _ => rfl) (En2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (hdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (hdats m) ((hdats m 2 c).share_full fun _ => rfl)
      (En2 m c) (Ex2 m c) ((hdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W7`, left at `W8`; its arrays split out
    of the unscoped buffers and put back at the exit contents; the generator register into the region's invariant and out;
    nothing owed; no semaphore of the kernel's own. -/
def hreg3 : Pipeline.RegionSeg (pcfgs (F := F)) adm (hdats m) () defs₀ hV hL hlv 3 where
  win := launch3.win.to₀
  block_pos := launch3.block_pos
  stage_whole := launch3.stage_whole
  K := PEmpty
  osem k := k.elim
  ho := Pipeline.OwnSemFacts.none _
  hbody c := (body_obligation3 (En3 m) c).loose
  hwaits := Pipeline.hwaits_of_owed_zero _ _ _ _ hL hlv 3 fun _ _ => rfl
  pre c := iprop(StableHlo.held (c : Thread nD τ) (Pipeline.ucRefs τ sig) (W7 m c) ∗ Ride c)
  post c := iprop(StableHlo.held (c : Thread nD τ) (Pipeline.ucRefs τ sig) (W8 m c) ∗ Ride c)
  X c := iprop(∃ r, prngReg c r)
  Y c := iprop(∃ r, prngReg c r)
  Z c := Pipeline.unscopedRest (Ix := Unit) (Name := ℕ) (U := UR sig nD τ) (Lvl := ℕ) spec3 c (En3 m c)
  hentry c := by
    rw [Pipeline.ownSems0_none]
    have hsplit := Pipeline.arrays_of_unscopedBufs (p := 3) (pcfgs (F := F)) adm (hdats m) launch3.win launch3.arr_whole c
      ((hdats m 3 c).share_full fun _ => rfl) (En3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 3 c).Φ 0 = (dat3 (En3 m) c).Φ 0 from rfl]
    refine BI.Entails.trans (?_ : _ ⊢ (Pipeline.ΦA spec3 c : sProp 𝕄)) (hin3 (En3 m) c)
    unfold Pipeline.ΦA
    iintro ⟨Hp, -, Hr⟩
    isplitl [Hr]; · iexact Hr
    iexact Hp
  hout c := by
    rw [Pipeline.ownSems0_none, show (hdats m 3 c).Φ (Fin.last _) = (dat3 (En3 m) c).Φ (Fin.last cfg3.N) from rfl]
    refine BI.Entails.trans (hout3 (En3 m) c) (?_ : (Pipeline.ΦA spec3 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (hdats m) ((hdats m 3 c).share_full fun _ => rfl)
      (En3 m c) (Ex3 m c) ((hdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W11`, left at `W12`; its arrays split out
    of the unscoped buffers and put back at the exit contents; the generator register into the region's invariant and out;
    nothing owed; no semaphore of the kernel's own. -/
def hreg4 : Pipeline.RegionSeg (pcfgs (F := F)) adm (hdats m) () defs₀ hV hL hlv 4 where
  win := launch4.win.to₀
  block_pos := launch4.block_pos
  stage_whole := launch4.stage_whole
  K := PEmpty
  osem k := k.elim
  ho := Pipeline.OwnSemFacts.none _
  hbody c := (body_obligation4 (En4 m) c).loose
  hwaits := Pipeline.hwaits_of_owed_zero _ _ _ _ hL hlv 4 fun _ _ => rfl
  pre c := iprop(StableHlo.held (c : Thread nD τ) (Pipeline.ucRefs τ sig) (W11 m c) ∗ Ride c)
  post c := iprop(StableHlo.held (c : Thread nD τ) (Pipeline.ucRefs τ sig) (W12 m c) ∗ Ride c)
  X c := iprop(∃ r, prngReg c r)
  Y c := iprop(∃ r, prngReg c r)
  Z c := Pipeline.unscopedRest (Ix := Unit) (Name := ℕ) (U := UR sig nD τ) (Lvl := ℕ) spec4 c (En4 m c)
  hentry c := by
    rw [Pipeline.ownSems0_none]
    have hsplit := Pipeline.arrays_of_unscopedBufs (p := 4) (pcfgs (F := F)) adm (hdats m) launch4.win launch4.arr_whole c
      ((hdats m 4 c).share_full fun _ => rfl) (En4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (hdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (hdats m) ((hdats m 4 c).share_full fun _ => rfl)
      (En4 m c) (Ex4 m c) ((hdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `W12`, left at `W13`; its arrays split out
    of the unscoped buffers and put back at the exit contents; the generator register into the region's invariant and out;
    nothing owed; no semaphore of the kernel's own. -/
def hreg5 : Pipeline.RegionSeg (pcfgs (F := F)) adm (hdats m) () defs₀ hV hL hlv 5 where
  win := launch5.win.to₀
  block_pos := launch5.block_pos
  stage_whole := launch5.stage_whole
  K := PEmpty
  osem k := k.elim
  ho := Pipeline.OwnSemFacts.none _
  hbody c := (body_obligation5 (En5 m) c).loose
  hwaits := Pipeline.hwaits_of_owed_zero _ _ _ _ hL hlv 5 fun _ _ => rfl
  pre c := iprop(StableHlo.held (c : Thread nD τ) (Pipeline.ucRefs τ sig) (W12 m c) ∗ Ride c)
  post c := iprop(StableHlo.held (c : Thread nD τ) (Pipeline.ucRefs τ sig) (W13 m c) ∗ Ride c)
  X c := iprop(∃ r, prngReg c r)
  Y c := iprop(∃ r, prngReg c r)
  Z c := Pipeline.unscopedRest (Ix := Unit) (Name := ℕ) (U := UR sig nD τ) (Lvl := ℕ) spec5 c (En5 m c)
  hentry c := by
    rw [Pipeline.ownSems0_none]
    have hsplit := Pipeline.arrays_of_unscopedBufs (p := 5) (pcfgs (F := F)) adm (hdats m) launch5.win launch5.arr_whole c
      ((hdats m 5 c).share_full fun _ => rfl) (En5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (hdats m 5 c).Φ 0 = (dat5 (En5 m) c).Φ 0 from rfl]
    refine BI.Entails.trans (?_ : _ ⊢ (Pipeline.ΦA spec5 c : sProp 𝕄)) (hin5 (En5 m) c)
    unfold Pipeline.ΦA
    iintro ⟨Hp, -, Hr⟩
    isplitl [Hr]; · iexact Hr
    iexact Hp
  hout c := by
    rw [Pipeline.ownSems0_none, show (hdats m 5 c).Φ (Fin.last _) = (dat5 (En5 m) c).Φ (Fin.last cfg5.N) from rfl]
    refine BI.Entails.trans (hout5 (En5 m) c) (?_ : (Pipeline.ΦA spec5 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (hdats m) ((hdats m 5 c).share_full fun _ => rfl)
      (En5 m c) (Ex5 m c) ((hdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's sixteen items in order. -/
abbrev hsegs : List (Pipeline.Seg (pcfgs (F := F)) adm (hdats m) () defs₀ hV hL hlv) :=
  [ .host (hseg hostOps0 hostOps0_sub hostOps0_fresh (W0 m)),
    .region (hreg0 m),
    .region (hreg1 m),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)),
    .region (hreg2 m),
    .region (hreg3 m),
    .host (hseg hostOps4 hostOps4_sub hostOps4_fresh (W8 m)),
    .host (hseg hostOps4_1 hostOps4_1_sub hostOps4_1_fresh (W9 m)),
    .host (hseg hostOps4_2 hostOps4_2_sub hostOps4_2_fresh (W10 m)),
    .region (hreg4 m),
    .region (hreg5 m),
    .host (hseg hostOps6 hostOps6_sub hostOps6_fresh (W13 m)),
    .host (hseg hostOps6_1 hostOps6_1_sub hostOps6_1_fresh (W14 m)),
    .host (hseg hostOps6_2 hostOps6_2_sub hostOps6_2_fresh (W15 m)) ]

set_option backward.isDefEq.respectTransparency.types false in
/-- THE RUN. From any memory with zero counters, every weakly fair execution of @main on the TensorCores terminates,
    nothing faulting, and every final state has every unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W16 m c b) := by
  refine Pipeline.θ_run_regions_kit_dev (pcfgs (F := F)) adm (hdats m) () cellOf_inj emb₁ defs₀ hV hL hlv m ρ main
    (fun _ => hsegs m)
    (fun c Q => by
      rewrite [main_chain c, Seg.run_eq_chain,
        show (hsegs m).map Seg.prog = [
          StableHlo.seq hostOps0,
          Prog.lift (.customCall (Pipeline.entry 0) ()),
          Prog.lift (.customCall (Pipeline.entry 1) ()),
          StableHlo.seq hostOps2,
          StableHlo.seq hostOps2_1,
          StableHlo.seq hostOps2_2,
          Prog.lift (.customCall (Pipeline.entry 2) ()),
          Prog.lift (.customCall (Pipeline.entry 3) ()),
          StableHlo.seq hostOps4,
          StableHlo.seq hostOps4_1,
          StableHlo.seq hostOps4_2,
          Prog.lift (.customCall (Pipeline.entry 4) ()),
          Prog.lift (.customCall (Pipeline.entry 5) ()),
          StableHlo.seq hostOps6,
          StableHlo.seq hostOps6_1,
          StableHlo.seq hostOps6_2 ] from rfl]
      exact .rfl)
    (fun c => by simp only [hsegs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Ride c)) (Tₙ := Tend m)
    (hch := fun c => ⟨.rfl, .rfl, .rfl, .rfl, .rfl, .rfl, .rfl, .rfl, .rfl, .rfl, .rfl, .rfl, .rfl, .rfl, .rfl, .rfl, tail_ent m c⟩)
    (hinit := by
      refine Pipeline.initEach hL hlv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m c b)
    (hfin := fun c s' => by
      iintro ⟨⟨Hh, -⟩, HSI⟩
      unfold StableHlo.held
      imodintro
      iapply (pointsTo_read_all (Pipeline.ucRefs τ sig) (fun b => (((c : Thread nD τ)).1, b)) (W16 m c) s')
      isplitl [Hh] <;> iassumption)
    (hQ := fun s h => h)

/-- An argument array is written by no host operation and is no region's output. -/
theorem W16_arg (c : Dev nD) (b : Ref sig .tc)
    (h : b ∈ ([main_arg0, main_arg1, main_arg2, main_arg3, main_arg4, main_arg5, main_arg6, main_arg7, main_arg8, main_arg9, main_arg10, main_arg11, main_arg12, main_arg13, main_arg14, main_arg15, main_arg16] : List (Ref sig .tc))) :
    W16 m c (Proc.devRef .tc b) = m ((c : Thread nD τ).loc b) := by
  simp only [List.mem_cons, List.mem_nil_iff, or_false] at h
  rcases h with rfl | rfl | rfl | rfl | rfl | rfl | rfl | rfl | rfl | rfl | rfl | rfl | rfl | rfl | rfl | rfl | rfl <;>
    exact W16_keep m c _ (by decide) (by decide) (by decide) (by decide) (by decide) (by decide) (by decide) (by decide) (by decide) (by decide) (by decide)

/-- THE FRAME: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_arg0 (by decide))).trans (W16_arg m c main_arg0 (by decide)),
    (h c _ (mem_uc main_arg1 (by decide))).trans (W16_arg m c main_arg1 (by decide)),
    (h c _ (mem_uc main_arg2 (by decide))).trans (W16_arg m c main_arg2 (by decide)),
    (h c _ (mem_uc main_arg3 (by decide))).trans (W16_arg m c main_arg3 (by decide)),
    (h c _ (mem_uc main_arg4 (by decide))).trans (W16_arg m c main_arg4 (by decide)),
    (h c _ (mem_uc main_arg5 (by decide))).trans (W16_arg m c main_arg5 (by decide)),
    (h c _ (mem_uc main_arg6 (by decide))).trans (W16_arg m c main_arg6 (by decide)),
    (h c _ (mem_uc main_arg7 (by decide))).trans (W16_arg m c main_arg7 (by decide)),
    (h c _ (mem_uc main_arg8 (by decide))).trans (W16_arg m c main_arg8 (by decide)),
    (h c _ (mem_uc main_arg9 (by decide))).trans (W16_arg m c main_arg9 (by decide)),
    (h c _ (mem_uc main_arg10 (by decide))).trans (W16_arg m c main_arg10 (by decide)),
    (h c _ (mem_uc main_arg11 (by decide))).trans (W16_arg m c main_arg11 (by decide)),
    (h c _ (mem_uc main_arg12 (by decide))).trans (W16_arg m c main_arg12 (by decide)),
    (h c _ (mem_uc main_arg13 (by decide))).trans (W16_arg m c main_arg13 (by decide)),
    (h c _ (mem_uc main_arg14 (by decide))).trans (W16_arg m c main_arg14 (by decide)),
    (h c _ (mem_uc main_arg15 (by decide))).trans (W16_arg m c main_arg15 (by decide)),
    (h c _ (mem_uc main_arg16 (by decide))).trans (W16_arg m c main_arg16 (by decide))⟩) (run_all m ρ)

end Cert.KernelIdeal.Hand

end
-- ==== Proof.KI_HostDefs.lean ====
import proofs.«181750_j70806830841988_1_alg».proof.KernelIdeal
import Idealize.ShloMosaic.PureOps.Ideal

/-!
# The host-side functions of the three layers, over the extended reals

Between its pipelines the program computes, on whole arrays: the three row masks as 0/1 columns and the three
group sizes; before each layer, one round of neighbour aggregation along the edge list; after each layer, the
three group means flattened to 192 numbers. Each is named here once, as a function of the arrays it reads, with
every float operation read over the extended reals.
-/

noncomputable section

namespace Cert.KernelIdeal.HandValue

open Cert.KernelIdeal
open Idealize.ShloMosaic

/-! ## Facts about the shapes involved, each decided by evaluation -/

namespace Shapes

theorem shapeCasts_S100000_S100000x1 : S100000.ShapeCasts S100000x1 := by decide
theorem reducesTo_S100000x1_S_d0_1 : S100000x1.ReducesTo [0, 1] S_ := by decide
theorem h_S_ : 0 < S_.numel := by decide
theorem bcast_S_S1 : S_.BroadcastsInDim S1 (![] : Fin 0 → Fin S1.rank) := by decide
theorem concatenates_S1_S1_S1_S3_d0 : Shape.Concatenates [S1, S1, S1] S3 0 := by decide
theorem bcast_S_S3200000 : S_.BroadcastsInDim S3200000 (![] : Fin 0 → Fin S3200000.rank) := by decide
theorem bcast_S3200000_S3200000x1_0 : S3200000.BroadcastsInDim S3200000x1 (![0] : Fin 1 → Fin S3200000x1.rank) := by decide
theorem bcast_S_S100000x2 : S_.BroadcastsInDim S100000x2 (![] : Fin 0 → Fin S100000x2.rank) := by decide
theorem bcast_S_S100000x64 : S_.BroadcastsInDim S100000x64 (![] : Fin 0 → Fin S100000x64.rank) := by decide
theorem bcast_S3x1_S3x64_0_1 : S3x1.BroadcastsInDim S3x64 (![0, 1] : Fin 2 → Fin S3x64.rank) := by decide
theorem bcast_S3_S3x1_0 : S3.BroadcastsInDim S3x1 (![0] : Fin 1 → Fin S3x1.rank) := by decide
theorem bcast_S_S3x1 : S_.BroadcastsInDim S3x1 (![] : Fin 0 → Fin S3x1.rank) := by decide
theorem bcast_S_S3 : S_.BroadcastsInDim S3 (![] : Fin 0 → Fin S3.rank) := by decide
theorem bcast_S_S3x64 : S_.BroadcastsInDim S3x64 (![] : Fin 0 → Fin S3x64.rank) := by decide
theorem shapeCasts_S3x64_S192 : S3x64.ShapeCasts S192 := by decide

end Shapes

open Shapes

/-! ## The gather and the scatter of one aggregation round

Edge `e` reads row `src e` of the features (one whole row: a slice of one row and all columns) and adds it into
row `dst e` of an array of zeros. The same four records as the program's own, restated so that nothing here
depends on the program's bundle of side facts. -/

def aggGather2 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := by decide

def aggScatter2 : ScatterDims S100000x2 S3200000x1 S3200000x2 where
  updateWindowDims := [1]
  insertedWindowDims := [0]
  scatterDimsToOperandDims := [0]
  indexVectorDim := 1
  wf := by decide

def aggGather64 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := by decide

def aggScatter64 : ScatterDims S100000x64 S3200000x1 S3200000x64 where
  updateWindowDims := [1]
  insertedWindowDims := [0]
  scatterDimsToOperandDims := [0]
  indexVectorDim := 1
  wf := by decide

/-- A 0/1 mask over the 100000 rows as a column of reals: each bit read as 0 or 1. -/
def colOf (x : (⟨S100000, .i1⟩ : BufTy).Contents (Elt Ideal)) : FVec Ideal S100000x1 .f32 :=
  shapeCast _ (uitofp (F := Ideal) .f32 x) shapeCasts_S100000_S100000x1

/-- The three group sizes: how many rows carry the first mask, the second mask, and neither. -/
def cntOf (u v : (⟨S100000, .i1⟩ : BufTy).Contents (Elt Ideal)) : FVec Ideal S3 .f32 :=
  concatenate S3 0
    [⟨S1, broadcastInDim S1 ![] bcast_S_S1 (Host.reduceAdd (F := Ideal) (colOf u) (constant (F := Ideal) S_ .f32 0x00000000#32) reducesTo_S100000x1_S_d0_1 h_S_)⟩,
     ⟨S1, broadcastInDim S1 ![] bcast_S_S1 (Host.reduceAdd (F := Ideal) (colOf v) (constant (F := Ideal) S_ .f32 0x00000000#32) reducesTo_S100000x1_S_d0_1 h_S_)⟩,
     ⟨S1, broadcastInDim S1 ![] bcast_S_S1 (Host.reduceAdd (F := Ideal) (colOf (noti (ori u v))) (constant (F := Ideal) S_ .f32 0x00000000#32) reducesTo_S100000x1_S_d0_1 h_S_)⟩]
    concatenates_S1_S1_S1_S3_d0

/-- One round of neighbour aggregation on two-column features: each row plus the sum, over the edges that end
    at it, of the source rows' features (a negative source index counts from the end). -/
def agg2 (h : FVec Ideal S100000x2 .f32) (src dst : (⟨S3200000, .i32⟩ : BufTy).Contents (Elt Ideal)) : FVec Ideal S100000x2 .f32 :=
  addf h (Host.scatterAdd (F := Ideal) aggScatter2
    (broadcastInDim S100000x2 ![] bcast_S_S100000x2 (constant (F := Ideal) S_ .f32 0x00000000#32))
    (broadcastInDim S3200000x1 ![0] bcast_S3200000_S3200000x1_0 dst)
    (Host.gather aggGather2 h
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32))) src))))

/-- One round of neighbour aggregation on 64-column features: each row plus the sum, over the edges that end at
    it, of the source rows' features (a negative source index counts from the end). -/
def agg64 (h : FVec Ideal S100000x64 .f32) (src dst : (⟨S3200000, .i32⟩ : BufTy).Contents (Elt Ideal)) : FVec Ideal S100000x64 .f32 :=
  addf h (Host.scatterAdd (F := Ideal) aggScatter64
    (broadcastInDim S100000x64 ![] bcast_S_S100000x64 (constant (F := Ideal) S_ .f32 0x00000000#32))
    (broadcastInDim S3200000x1 ![0] bcast_S3200000_S3200000x1_0 dst)
    (Host.gather aggGather64 h
      (broadcastInDim S3200000x1 ![0] bcast_S3200000_S3200000x1_0
        (select (cmpi .slt src (broadcastInDim S3200000 ![] bcast_S_S3200000 (constantI S_ 32 0#32)))
          (addi src (broadcastInDim S3200000 ![] bcast_S_S3200000 (constantI S_ 32 100000#32))) src))))

/-- The three group means of one layer, flattened to 192 numbers: each group's 64 pooled sums divided by the
    group's size, the size taken as at least 1, and a group of size 0 given the mean 0. -/
def tailOf (pool : FVec Ideal S3x64 .f32) (cnt : FVec Ideal S3 .f32) : FVec Ideal S192 .f32 :=
  shapeCast _
    (select
      (broadcastInDim S3x64 ![0, 1] bcast_S3x1_S3x64_0_1
        (cmpf .ogt (broadcastInDim S3x1 ![0] bcast_S3_S3x1_0 cnt)
          (broadcastInDim S3x1 ![] bcast_S_S3x1 (constant (F := Ideal) S_ .f32 0x00000000#32))))
      (Host.divf (F := Ideal) pool
        (broadcastInDim S3x64 ![0, 1] bcast_S3x1_S3x64_0_1
          (broadcastInDim S3x1 ![0] bcast_S3_S3x1_0
            (maximumf cnt (broadcastInDim S3 ![] bcast_S_S3 (constant (F := Ideal) S_ .f32 0x3F800000#32))))))
      (broadcastInDim S3x64 ![] bcast_S_S3x64 (constant (F := Ideal) S_ .f32 0x00000000#32)))
    shapeCasts_S3x64_S192

end Cert.KernelIdeal.HandValue

end
-- ==== Proof.KI_HostStages.lean ====
import proofs.«181750_j70806830841988_1_alg».proof.Proof.Gen.KernelIdeal.Launch
import proofs.«181750_j70806830841988_1_alg».proof.Proof.KI_HostDefs
import Idealize.ShloMosaic.Lib.StableHlo.Run

/-!
# What each stretch of host operations leaves, over the extended reals

The program alternates stretches of whole-array host operations with its six pipelines. For an arbitrary
assignment `X` of contents to the core's buffers, each statement below says what one stretch, run from `X`, leaves
in one buffer that a later pipeline or stretch reads: the composition of the stretch's operations, in their
order, applied to `X` at the buffers the stretch reads. The compositions are the functions of `KI_HostDefs`.
-/

noncomputable section

namespace Cert.KernelIdeal.HandValue

open Cert.KernelIdeal Cert.KernelIdeal.Gen
open Idealize.ShloMosaic Idealize.ShloMosaic.TcCoe Idealize.SL.Sem Idealize.ShloMosaic.StableHlo

/-- A concatenation of three pieces depends only on the pieces. -/
theorem concatenate3_congr {α : Type} {t s0 s1 s2 : Shape} {ax : Fin t.rank}
    (h : Shape.Concatenates [s0, s1, s2] t ax)
    {a a' : s0.Idx → α} {b b' : s1.Idx → α} {c c' : s2.Idx → α} (ha : a = a') (hb : b = b') (hc : c = c') :
    concatenate t ax [⟨s0, a⟩, ⟨s1, b⟩, ⟨s2, c⟩] h = concatenate t ax [⟨s0, a'⟩, ⟨s1, b'⟩, ⟨s2, c'⟩] h := by
  subst ha hb hc; rfl

variable (X : Valuation τ sig (Elt Ideal))

/-! ## The stretch before the first pipeline -/

set_option maxRecDepth 8192 in
set_option maxHeartbeats 4000000 in
theorem host0_v25 : StableHlo.after (hostOps0 (F := Ideal)) X (Proc.devRef .tc main_v25)
    = agg2 (X (Proc.devRef .tc main_arg0)) (X (Proc.devRef .tc main_arg1)) (X (Proc.devRef .tc main_arg2)) := by
  after_results_simp <;> rfl

set_option maxRecDepth 8192 in
set_option maxHeartbeats 4000000 in
theorem host0_v26 : StableHlo.after (hostOps0 (F := Ideal)) X (Proc.devRef .tc main_v26)
    = shapeCast _ (X (Proc.devRef .tc main_arg6)) shapeCasts_S64_S1x64 := by
  after_results_simp <;> rfl

set_option maxRecDepth 8192 in
set_option maxHeartbeats 4000000 in
theorem host0_v27 : StableHlo.after (hostOps0 (F := Ideal)) X (Proc.devRef .tc main_v27)
    = shapeCast _ (X (Proc.devRef .tc main_arg8)) shapeCasts_S64_S1x64 := by
  after_results_simp <;> rfl

set_option maxRecDepth 8192 in
set_option maxHeartbeats 4000000 in
theorem host0_v3 : StableHlo.after (hostOps0 (F := Ideal)) X (Proc.devRef .tc main_v3)
    = colOf (X (Proc.devRef .tc main_arg3)) := by
  after_results_simp <;> rfl

set_option maxRecDepth 8192 in
set_option maxHeartbeats 4000000 in
theorem host0_v5 : StableHlo.after (hostOps0 (F := Ideal)) X (Proc.devRef .tc main_v5)
    = colOf (X (Proc.devRef .tc main_arg4)) := by
  after_results_simp <;> rfl

set_option maxRecDepth 8192 in
set_option maxHeartbeats 4000000 in
theorem host0_v7 : StableHlo.after (hostOps0 (F := Ideal)) X (Proc.devRef .tc main_v7)
    = colOf (noti (ori (X (Proc.devRef .tc main_arg3)) (X (Proc.devRef .tc main_arg4)))) := by
  after_results_simp <;> rfl

set_option maxRecDepth 8192 in
set_option maxHeartbeats 4000000 in
/-- The group sizes: the concatenation's three pieces are each one mask's column summed, so the statement splits
    into one equation per piece. -/
theorem host0_v14 : StableHlo.after (hostOps0 (F := Ideal)) X (Proc.devRef .tc main_v14)
    = cntOf (X (Proc.devRef .tc main_arg3)) (X (Proc.devRef .tc main_arg4)) := by
  after_results_simp
  dsimp only [Matrix.cons_val]
  unfold cntOf
  refine concatenate3_congr _ ?_ ?_ ?_ <;> (after_results_simp <;> rfl)

/-! ## The stretches between the first layer's pooling and the second layer's pipeline -/

set_option maxRecDepth 8192 in
set_option maxHeartbeats 4000000 in
theorem host2_v40 : StableHlo.after (hostOps2_2 (F := Ideal)) (StableHlo.after (hostOps2_1 (F := Ideal)) (StableHlo.after (hostOps2 (F := Ideal)) X)) (Proc.devRef .tc main_v40)
    = tailOf (X (Proc.devRef .tc main_v29)) (X (Proc.devRef .tc main_v14)) := by
  after_results_simp <;> rfl

set_option maxRecDepth 8192 in
set_option maxHeartbeats 4000000 in
theorem host2_v51 : StableHlo.after (hostOps2_2 (F := Ideal)) (StableHlo.after (hostOps2_1 (F := Ideal)) (StableHlo.after (hostOps2 (F := Ideal)) X)) (Proc.devRef .tc main_v51)
    = agg64 (X (Proc.devRef .tc main_v28)) (X (Proc.devRef .tc main_arg1)) (X (Proc.devRef .tc main_arg2)) := by
  after_results_simp <;> rfl

set_option maxRecDepth 8192 in
set_option maxHeartbeats 4000000 in
theorem host2_v52 : StableHlo.after (hostOps2_2 (F := Ideal)) (StableHlo.after (hostOps2_1 (F := Ideal)) (StableHlo.after (hostOps2 (F := Ideal)) X)) (Proc.devRef .tc main_v52)
    = shapeCast _ (X (Proc.devRef .tc main_arg10)) shapeCasts_S64_S1x64 := by
  after_results_simp <;> rfl

set_option maxRecDepth 8192 in
set_option maxHeartbeats 4000000 in
theorem host2_v53 : StableHlo.after (hostOps2_2 (F := Ideal)) (StableHlo.after (hostOps2_1 (F := Ideal)) (StableHlo.after (hostOps2 (F := Ideal)) X)) (Proc.devRef .tc main_v53)
    = shapeCast _ (X (Proc.devRef .tc main_arg12)) shapeCasts_S64_S1x64 := by
  after_results_simp <;> rfl

/-! ## The stretches between the second layer's pooling and the third layer's pipeline -/

set_option maxRecDepth 8192 in
set_option maxHeartbeats 4000000 in
theorem host4_v66 : StableHlo.after (hostOps4_2 (F := Ideal)) (StableHlo.after (hostOps4_1 (F := Ideal)) (StableHlo.after (hostOps4 (F := Ideal)) X)) (Proc.devRef .tc main_v66)
    = tailOf (X (Proc.devRef .tc main_v55)) (X (Proc.devRef .tc main_v14)) := by
  after_results_simp <;> rfl

set_option maxRecDepth 8192 in
set_option maxHeartbeats 4000000 in
theorem host4_v77 : StableHlo.after (hostOps4_2 (F := Ideal)) (StableHlo.after (hostOps4_1 (F := Ideal)) (StableHlo.after (hostOps4 (F := Ideal)) X)) (Proc.devRef .tc main_v77)
    = agg64 (X (Proc.devRef .tc main_v54)) (X (Proc.devRef .tc main_arg1)) (X (Proc.devRef .tc main_arg2)) := by
  after_results_simp <;> rfl

set_option maxRecDepth 8192 in
set_option maxHeartbeats 4000000 in
theorem host4_v78 : StableHlo.after (hostOps4_2 (F := Ideal)) (StableHlo.after (hostOps4_1 (F := Ideal)) (StableHlo.after (hostOps4 (F := Ideal)) X)) (Proc.devRef .tc main_v78)
    = shapeCast _ (X (Proc.devRef .tc main_arg14)) shapeCasts_S64_S1x64 := by
  after_results_simp <;> rfl

set_option maxRecDepth 8192 in
set_option maxHeartbeats 4000000 in
theorem host4_v79 : StableHlo.after (hostOps4_2 (F := Ideal)) (StableHlo.after (hostOps4_1 (F := Ideal)) (StableHlo.after (hostOps4 (F := Ideal)) X)) (Proc.devRef .tc main_v79)
    = shapeCast _ (X (Proc.devRef .tc main_arg16)) shapeCasts_S64_S1x64 := by
  after_results_simp <;> rfl

/-! ## The stretches after the third layer's pooling: the result -/

set_option maxRecDepth 8192 in
set_option maxHeartbeats 4000000 in
/-- The result is the three layers' flattened group means side by side: the first two were left in their buffers by
    the earlier stretches, which these operations do not write; the third is formed here. -/
theorem host6_v93 : StableHlo.after (hostOps6_2 (F := Ideal)) (StableHlo.after (hostOps6_1 (F := Ideal)) (StableHlo.after (hostOps6 (F := Ideal)) X)) (Proc.devRef .tc main_v93)
    = concatenate S576 0 [⟨S192, (X (Proc.devRef .tc main_v40))⟩, ⟨S192, (X (Proc.devRef .tc main_v66))⟩, ⟨S192, tailOf (X (Proc.devRef .tc main_v81)) (X (Proc.devRef .tc main_v14))⟩] concatenates_S192_S192_S192_S576_d0 := by
  after_results_simp
  dsimp only [Matrix.cons_val]
  refine concatenate3_congr _ ?_ ?_ ?_ <;> (after_results_simp <;> rfl)

end Cert.KernelIdeal.HandValue

end
-- ==== Proof.Spec.lean ====
/-
  The mathematics both programs compute, stated once over the extended reals, index by index.

  One layer's dense part: for a row `p` of the layer's input `z` (width `d`) and an output column `q`,
      mlpAt z w1 b1 w2 b2 p q = max (Σ_k max (Σ_j z[p,j]·w1[j,k] + b1[k]) 0 · w2[k,q] + b2[q]) 0 .
  The masked sums: for a mask row `r` (first set, second set, neither) and a column `q`,
      poolAt h c0 c1 c2 r q = Σ_i c_r[i] · h[i,q] ,
  and the masks' sizes  countAt c0 c1 c2 r = Σ_i c_r[i].
  Addition and multiplication of extended reals are commutative and associative, so a sum may be taken in any grouping:
  that is all the two programs' agreement uses.
-/
import Idealize.ShloMosaic.PureOps.Ideal
import Idealize.ShloMosaic.Lib.ValueIdx

noncomputable section

namespace Cert.Spec

open Idealize.ShloMosaic Idealize.ShloMosaic.ValueIdx

/-- A rank-two array of extended reals. -/
abbrev A2 (a b : ℕ) : Type := (⟨2, ![a, b]⟩ : Shape).Idx → EReal
/-- A rank-one array of extended reals. -/
abbrev A1 (a : ℕ) : Type := (⟨1, ![a]⟩ : Shape).Idx → EReal

/-- Row `r` of three stacked things. -/
def sel3 {α : Type} (r : Fin 3) (x0 x1 x2 : α) : α :=
  match r with
  | ⟨0, _⟩ => x0
  | ⟨1, _⟩ => x1
  | ⟨2, _⟩ => x2

/-- The hidden activation of row `p` at unit `k`: max (Σ_j z[p,j]·w1[j,k] + b1[k]) 0. -/
def hidAt {n d : ℕ} (z : A2 n d) (w1 : A2 d 64) (b1 : A1 64) (p : Fin n) (k : Fin 64) : EReal :=
  max ((∑ j : Fin d, z (ix2 p j) * w1 (ix2 j k)) + b1 (ix1 k)) 0

/-- One layer's dense part at row `p`, column `q`. -/
def mlpAt {n d : ℕ} (z : A2 n d) (w1 : A2 d 64) (b1 : A1 64) (w2 : A2 64 64) (b2 : A1 64) (p : Fin n) (q : Fin 64) : EReal :=
  max ((∑ k : Fin 64, hidAt z w1 b1 p k * w2 (ix2 k q)) + b2 (ix1 q)) 0

/-- The layer's dense part as a whole array. -/
def mlp {n d : ℕ} (z : A2 n d) (w1 : A2 d 64) (b1 : A1 64) (w2 : A2 64 64) (b2 : A1 64) : A2 n 64 :=
  fun i => mlpAt z w1 b1 w2 b2 (i 0) (i 1)

/-- The masked sum of column `q` under mask row `r`. -/
def poolAt {n : ℕ} (h : A2 n 64) (c0 c1 c2 : A1 n) (r : Fin 3) (q : Fin 64) : EReal :=
  ∑ i : Fin n, sel3 r c0 c1 c2 (ix1 i) * h (ix2 i q)

/-- The three masked sums as a [3, 64] array. -/
def pool {n : ℕ} (h : A2 n 64) (c0 c1 c2 : A1 n) : A2 3 64 :=
  fun i => poolAt h c0 c1 c2 (i 0) (i 1)

/-- The size of mask row `r`. -/
def countAt {n : ℕ} (c0 c1 c2 : A1 n) (r : Fin 3) : EReal :=
  ∑ i : Fin n, sel3 r c0 c1 c2 (ix1 i)

/-- The three sizes as a [3] array. -/
def counts {n : ℕ} (c0 c1 c2 : A1 n) : A1 3 :=
  fun i => countAt c0 c1 c2 (i 0)

theorem mlp_apply {n d : ℕ} (z : A2 n d) (w1 : A2 d 64) (b1 : A1 64) (w2 : A2 64 64) (b2 : A1 64) (p : Fin n) (q : Fin 64) :
    mlp z w1 b1 w2 b2 (ix2 p q) = mlpAt z w1 b1 w2 b2 p q := rfl

theorem pool_apply {n : ℕ} (h : A2 n 64) (c0 c1 c2 : A1 n) (r : Fin 3) (q : Fin 64) :
    pool h c0 c1 c2 (ix2 r q) = poolAt h c0 c1 c2 r q := rfl

theorem counts_apply {n : ℕ} (c0 c1 c2 : A1 n) (r : Fin 3) :
    counts c0 c1 c2 (ix1 r) = countAt c0 c1 c2 r := rfl

end Cert.Spec

end
-- ==== Proof.LibColumnLayout.lean ====
/-
  Two layout operations read at an index given by coordinates, for arrays that keep a reduced axis as a unit LAST axis
  (a row statistic kept as a column): a vector cast to a column, and a column broadcast over the lanes. They complete
  the leading-unit-axis casts and the row broadcast of the library's Lib/ValueLayout.lean, in the same style, and depend
  on nothing but the library: any certificate whose body takes a row sum with the reduced axis kept can use them.
-/
import Idealize.ShloMosaic.Lib.ValueLayout
import Idealize.ShloMosaic.Lib.ValueIdx

namespace Cert.LibColumnLayout

open Idealize.ShloMosaic Idealize.ShloMosaic.ValueIdx

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry in row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumnLayout
-- ==== Proof.KI_Payloads.lean ====
/-
  The values the six kernel bodies write, read at one entry, over the extended reals.

  A dense body forms, from a block of rows z (10000 rows), two weight matrices and two bias rows, the block
      max (max (z·W1 + b1) 0 · W2 + b2) 0 ,
  each product a sum over the contracted axis into a zero accumulator, each bias row repeated over the rows, the
  changes of number format the identity on extended reals. Read at row p, column q this is the specification's
  `mlpAt` of the same operands.

  A pooling body forms, for each of three mask columns m (5000 rows, one lane) and the block h of activations
  (5000 rows, 64 lanes), the lane-wise sum  Σ_r m[r]·h[r,q]  over the block's rows, and adds it to the running row it
  read from the accumulator (the third row is added the other way round: running row first). At the first grid point
  the accumulator is set to zero.
-/
import proofs.«181750_j70806830841988_1_alg».proof.Proof.Gen.KernelIdeal.Skeleton
import proofs.«181750_j70806830841988_1_alg».proof.Proof.Spec
import proofs.«181750_j70806830841988_1_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandValue

open Cert.KernelIdeal Cert.KernelIdeal.Gen Idealize.ShloMosaic Idealize.ShloMosaic.ValueIdx

/-! ## The dense bodies -/

/-! ### The product of a [10000, 64] block with a [64, 64] matrix into the zero accumulator -/

/-- The left operand is read in the output's row … -/
theorem lhs64_0 (i : S10000x64.Idx) (c : dot_S10000x64_S64x64_S10000x64_1_0_0_1_n_n.contr.Idx) :
    (dot_S10000x64_S64x64_S10000x64_1_0_0_1_n_n.lhsIdx i c 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … at the contracted coordinate. -/
theorem lhs64_1 (i : S10000x64.Idx) (c : dot_S10000x64_S64x64_S10000x64_1_0_0_1_n_n.contr.Idx) :
    (dot_S10000x64_S64x64_S10000x64_1_0_0_1_n_n.lhsIdx i c 1).val = (c ⟨0, by decide⟩).val :=
  dot_S10000x64_S64x64_S10000x64_1_0_0_1_n_n.lhsIdx_val_of_single rfl i c
/-- The right operand is read at the contracted coordinate … -/
theorem rhs64_0 (i : S10000x64.Idx) (c : dot_S10000x64_S64x64_S10000x64_1_0_0_1_n_n.contr.Idx) :
    (dot_S10000x64_S64x64_S10000x64_1_0_0_1_n_n.rhsIdx i c 0).val = (c ⟨0, by decide⟩).val :=
  dot_S10000x64_S64x64_S10000x64_1_0_0_1_n_n.rhsIdx_val_of_single rfl i c
/-- … in the output's column. -/
theorem rhs64_1 (i : S10000x64.Idx) (c : dot_S10000x64_S64x64_S10000x64_1_0_0_1_n_n.contr.Idx) :
    (dot_S10000x64_S64x64_S10000x64_1_0_0_1_n_n.rhsIdx i c 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Entry (p, q) of the product is Σ_k a[p,k]·b[k,q]. -/
theorem matmul64_apply {φ₁ φ₂ : FTy} (a : FVec Ideal S10000x64 φ₁) (b : FVec Ideal S64x64 φ₂) (p : Fin 10000) (q : Fin 64) :
    matmul dot_S10000x64_S64x64_S10000x64_1_0_0_1_n_n none a b (constant S10000x64 .f32 0x00000000#32) (ix2 p q)
      = ∑ k : Fin 64, a (ix2 p k) * b (ix2 k q) := by
  refine (Ideal.matmul_constant_zero_apply dot_S10000x64_S64x64_S10000x64_1_0_0_1_n_n none a b (ix2 p q)).trans ?_
  rw [← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k := funext fun x => Fin.ext (by
    match x with
    | ⟨0, _⟩ => exact lhs64_0 _ _
    | ⟨1, _⟩ => exact (lhs64_1 _ _).trans hk)
  have er : dot_S10000x64_S64x64_S10000x64_1_0_0_1_n_n.rhsIdx (ix2 p q) ((contrEquiv1 dot_S10000x64_S64x64_S10000x64_1_0_0_1_n_n 64 rfl rfl).symm k) = ix2 k q := funext fun x => Fin.ext (by
    match x with
    | ⟨0, _⟩ => exact (rhs64_0 _ _).trans hk
    | ⟨1, _⟩ => exact rhs64_1 _ _)
  rw [el, er]

/-! ### The product of a [10000, 2] block with a [2, 64] matrix into the zero accumulator -/

/-- The left operand is read in the output's row … -/
theorem lhs2_0 (i : S10000x64.Idx) (c : dot_S10000x2_S2x64_S10000x64_1_0_0_1_n_n.contr.Idx) :
    (dot_S10000x2_S2x64_S10000x64_1_0_0_1_n_n.lhsIdx i c 0).val = (i 0).val := by
  unfold DotDims.lhsIdx
  rw [dif_neg (show ¬(0 : Fin S10000x2.rank) ∈ dot_S10000x2_S2x64_S10000x64_1_0_0_1_n_n.lhsBatch by decide), dif_pos (show (0 : Fin S10000x2.rank) ∈ dot_S10000x2_S2x64_S10000x64_1_0_0_1_n_n.lhsNonContracting by decide)]
  rfl
/-- … at the contracted coordinate. -/
theorem lhs2_1 (i : S10000x64.Idx) (c : dot_S10000x2_S2x64_S10000x64_1_0_0_1_n_n.contr.Idx) :
    (dot_S10000x2_S2x64_S10000x64_1_0_0_1_n_n.lhsIdx i c 1).val = (c ⟨0, by decide⟩).val :=
  dot_S10000x2_S2x64_S10000x64_1_0_0_1_n_n.lhsIdx_val_of_single rfl i c
/-- The right operand is read at the contracted coordinate … -/
theorem rhs2_0 (i : S10000x64.Idx) (c : dot_S10000x2_S2x64_S10000x64_1_0_0_1_n_n.contr.Idx) :
    (dot_S10000x2_S2x64_S10000x64_1_0_0_1_n_n.rhsIdx i c 0).val = (c ⟨0, by decide⟩).val :=
  dot_S10000x2_S2x64_S10000x64_1_0_0_1_n_n.rhsIdx_val_of_single rfl i c
/-- … in the output's column. -/
theorem rhs2_1 (i : S10000x64.Idx) (c : dot_S10000x2_S2x64_S10000x64_1_0_0_1_n_n.contr.Idx) :
    (dot_S10000x2_S2x64_S10000x64_1_0_0_1_n_n.rhsIdx i c 1).val = (i 1).val := by
  unfold DotDims.rhsIdx
  rw [dif_neg (show ¬(1 : Fin S2x64.rank) ∈ dot_S10000x2_S2x64_S10000x64_1_0_0_1_n_n.rhsBatch by decide), dif_pos (show (1 : Fin S2x64.rank) ∈ dot_S10000x2_S2x64_S10000x64_1_0_0_1_n_n.rhsNonContracting by decide)]
  rfl

/-- Entry (p, q) of the product is Σ_k a[p,k]·b[k,q]. -/
theorem matmul2_apply {φ₁ φ₂ : FTy} (a : FVec Ideal S10000x2 φ₁) (b : FVec Ideal S2x64 φ₂) (p : Fin 10000) (q : Fin 64) :
    matmul dot_S10000x2_S2x64_S10000x64_1_0_0_1_n_n none a b (constant S10000x64 .f32 0x00000000#32) (ix2 p q)
      = ∑ k : Fin 2, a (ix2 p k) * b (ix2 k q) := by
  refine (Ideal.matmul_constant_zero_apply dot_S10000x2_S2x64_S10000x64_1_0_0_1_n_n none a b (ix2 p q)).trans ?_
  rw [← Equiv.sum_comp (contrEquiv1 dot_S10000x2_S2x64_S10000x64_1_0_0_1_n_n 2 rfl rfl).symm]
  refine Finset.sum_congr rfl fun k _ => ?_
  have hk := contrEquiv1_symm_val dot_S10000x2_S2x64_S10000x64_1_0_0_1_n_n 2 rfl rfl k
  have el : dot_S10000x2_S2x64_S10000x64_1_0_0_1_n_n.lhsIdx (ix2 p q) ((contrEquiv1 dot_S10000x2_S2x64_S10000x64_1_0_0_1_n_n 2 rfl rfl).symm k) = ix2 p k := funext fun x => Fin.ext (by
    match x with
    | ⟨0, _⟩ => exact lhs2_0 _ _
    | ⟨1, _⟩ => exact (lhs2_1 _ _).trans hk)
  have er : dot_S10000x2_S2x64_S10000x64_1_0_0_1_n_n.rhsIdx (ix2 p q) ((contrEquiv1 dot_S10000x2_S2x64_S10000x64_1_0_0_1_n_n 2 rfl rfl).symm k) = ix2 k q := funext fun x => Fin.ext (by
    match x with
    | ⟨0, _⟩ => exact (rhs2_0 _ _).trans hk
    | ⟨1, _⟩ => exact rhs2_1 _ _)
  rw [el, er]

/-! ### A bias row repeated over the rows -/

/-- A [1, 64] row, cast to its own shape and repeated over 10000 rows, reads at (p, q) the row's entry q. -/
theorem biasRow_apply (b : Vec Ideal S1x64 .f32) (hc : S1x64.ShapeCasts S1x64) (hb : S1x64.Broadcasts S10000x64)
    (p : Fin 10000) (q : Fin 64) :
    broadcastTo S10000x64 (shapeCast S1x64 b hc) hb (ix2 p q) = b (ix2 0 q) :=
  (broadcastTo_1b_ab_apply (shapeCast S1x64 b hc) hb p q).trans (congrFun (shapeCast_self b hc) (ix2 0 q))

/-- One dense step with rectification, a [10000, 64] block H against a [64, 64] matrix w and a bias row b, read at
    (p, q): max (Σ_k H[p,k]·w[k,q] + b[q]) 0. -/
theorem dense64_apply (H : FVec Ideal S10000x64 .f32) (w : Vec Ideal S64x64 .f32) (b : Vec Ideal S1x64 .f32)
    (ht : FTy.bits .bf16 < FTy.bits .f32) (hc : S1x64.ShapeCasts S1x64) (hb : S1x64.Broadcasts S10000x64)
    (p : Fin 10000) (q : Fin 64) :
    maximumf (addf (matmul dot_S10000x64_S64x64_S10000x64_1_0_0_1_n_n none (truncf .bf16 H ht) (truncf .bf16 w ht) (constant S10000x64 .f32 0x00000000#32))
        (broadcastTo S10000x64 (shapeCast S1x64 b hc) hb)) (broadcast S10000x64 (Scalar.ofBits .f32 0x00000000#32)) (ix2 p q)
      = max ((∑ k : Fin 64, H (ix2 p k) * w (ix2 k q)) + b (ix2 0 q)) 0 := by
  refine (maximumf_apply _ _ _).trans ?_
  refine congrArg₂ max ?_ Ideal.ofBits_zero_f32
  refine (addf_apply _ _ _).trans ?_
  exact congrArg₂ (· + ·) (matmul64_apply (truncf .bf16 H ht) (truncf .bf16 w ht) p q) (biasRow_apply b hc hb p q)

/-- One dense step with rectification, a [10000, 2] block H against a [2, 64] matrix w and a bias row b, read at
    (p, q): max (Σ_k H[p,k]·w[k,q] + b[q]) 0. -/
theorem dense2_apply (H : FVec Ideal S10000x2 .f32) (w : Vec Ideal S2x64 .f32) (b : Vec Ideal S1x64 .f32)
    (ht : FTy.bits .bf16 < FTy.bits .f32) (hc : S1x64.ShapeCasts S1x64) (hb : S1x64.Broadcasts S10000x64)
    (p : Fin 10000) (q : Fin 64) :
    maximumf (addf (matmul dot_S10000x2_S2x64_S10000x64_1_0_0_1_n_n none (truncf .bf16 H ht) (truncf .bf16 w ht) (constant S10000x64 .f32 0x00000000#32))
        (broadcastTo S10000x64 (shapeCast S1x64 b hc) hb)) (broadcast S10000x64 (Scalar.ofBits .f32 0x00000000#32)) (ix2 p q)
      = max ((∑ k : Fin 2, H (ix2 p k) * w (ix2 k q)) + b (ix2 0 q)) 0 := by
  refine (maximumf_apply _ _ _).trans ?_
  refine congrArg₂ max ?_ Ideal.ofBits_zero_f32
  refine (addf_apply _ _ _).trans ?_
  exact congrArg₂ (· + ·) (matmul2_apply (truncf .bf16 H ht) (truncf .bf16 w ht) p q) (biasRow_apply b hc hb p q)

/-- The dense body of region 0 at row p, column q is the specification's layer of the same operands. -/
theorem pay0_mlp (v0 : Vec Ideal S10000x2 .f32) (v3 : Vec Ideal S2x64 .f32) (v6 : Vec Ideal S1x64 .f32)
    (v12 : Vec Ideal S64x64 .f32) (v16 : Vec Ideal S1x64 .f32) (p : Fin 10000) (q : Fin 64) :
    k0_pay1 (F := Ideal) v0 v3 v6 v12 v16 (ix2 p q)
      = Cert.Spec.mlpAt v0 v3 (fun i => v6 (ix2 0 (i 0))) v12 (fun i => v16 (ix2 0 (i 0))) p q := by
  unfold k0_pay1
  refine (dense64_apply _ v12 v16 _ _ _ p q).trans ?_
  unfold Cert.Spec.mlpAt
  refine congrArg (fun s => max (s + v16 (ix2 0 q)) 0) (Finset.sum_congr rfl fun k _ => ?_)
  refine congrArg (· * v12 (ix2 k q)) ?_
  refine (dense2_apply _ v3 v6 _ _ _ p k).trans ?_
  unfold Cert.Spec.hidAt
  refine congrArg (fun s => max (s + v6 (ix2 0 k)) 0) (Finset.sum_congr rfl fun j _ => ?_)
  exact congrArg (· * v3 (ix2 j k)) (congrFun (shapeCast_self v0 _) (ix2 p j))

/-- The dense body of region 2 at row p, column q is the specification's layer of the same operands. -/
theorem pay2_mlp (v0 : Vec Ideal S10000x64 .f32) (v3 : Vec Ideal S64x64 .f32) (v6 : Vec Ideal S1x64 .f32)
    (v12 : Vec Ideal S64x64 .f32) (v16 : Vec Ideal S1x64 .f32) (p : Fin 10000) (q : Fin 64) :
    k2_pay1 (F := Ideal) v0 v3 v6 v12 v16 (ix2 p q)
      = Cert.Spec.mlpAt v0 v3 (fun i => v6 (ix2 0 (i 0))) v12 (fun i => v16 (ix2 0 (i 0))) p q := by
  unfold k2_pay1
  refine (dense64_apply _ v12 v16 _ _ _ p q).trans ?_
  unfold Cert.Spec.mlpAt
  refine congrArg (fun s => max (s + v16 (ix2 0 q)) 0) (Finset.sum_congr rfl fun k _ => ?_)
  refine congrArg (· * v12 (ix2 k q)) ?_
  refine (dense64_apply _ v3 v6 _ _ _ p k).trans ?_
  unfold Cert.Spec.hidAt
  refine congrArg (fun s => max (s + v6 (ix2 0 k)) 0) (Finset.sum_congr rfl fun j _ => ?_)
  exact congrArg (· * v3 (ix2 j k)) (congrFun (shapeCast_self v0 _) (ix2 p j))

/-- The dense body of region 4 at row p, column q is the specification's layer of the same operands. -/
theorem pay4_mlp (v0 : Vec Ideal S10000x64 .f32) (v3 : Vec Ideal S64x64 .f32) (v6 : Vec Ideal S1x64 .f32)
    (v12 : Vec Ideal S64x64 .f32) (v16 : Vec Ideal S1x64 .f32) (p : Fin 10000) (q : Fin 64) :
    k4_pay1 (F := Ideal) v0 v3 v6 v12 v16 (ix2 p q)
      = Cert.Spec.mlpAt v0 v3 (fun i => v6 (ix2 0 (i 0))) v12 (fun i => v16 (ix2 0 (i 0))) p q := by
  unfold k4_pay1
  refine (dense64_apply _ v12 v16 _ _ _ p q).trans ?_
  unfold Cert.Spec.mlpAt
  refine congrArg (fun s => max (s + v16 (ix2 0 q)) 0) (Finset.sum_congr rfl fun k _ => ?_)
  refine congrArg (· * v12 (ix2 k q)) ?_
  refine (dense64_apply _ v3 v6 _ _ _ p k).trans ?_
  unfold Cert.Spec.hidAt
  refine congrArg (fun s => max (s + v6 (ix2 0 k)) 0) (Finset.sum_congr rfl fun j _ => ?_)
  exact congrArg (· * v3 (ix2 j k)) (congrFun (shapeCast_self v0 _) (ix2 p j))

/-! ## The pooling bodies -/

/-- The lane-wise sum over a block's 5000 rows of a mask column times the activations: Σ_r m[r]·h[r,q]. -/
def colsum (mk : Vec Ideal S5000x1 .f32) (h : Vec Ideal S5000x64 .f32) (q : Fin 64) : EReal :=
  ∑ r : Fin 5000, (mk (ix2 r 0) : EReal) * (h (ix2 r q) : EReal)

/-- A sum over the rows of a [5000, 64] block into the zero accumulator, read at lane q, is Σ_r src[r,q]. -/
theorem rowsum_apply (src : FVec Ideal S5000x64 .f32) (h : S5000x64.Reduces [0] S64)
    (hacc : (0x00000000#32 : BitVec 32) = 0x00000000#32) (q : Fin 64) :
    multiReduction .add [0] S64 src 0x00000000#32 h (.inl rfl) hacc (ix1 q) = ∑ r : Fin 5000, src (ix2 r q) := by
  refine (Ideal.multiReduction_add_single src 0x00000000#32 h (.inl rfl) hacc (ix1 q)).trans ?_
  exact Finset.sum_congr rfl fun r _ => congrArg src (funext fun a => Fin.ext (by
    match a with
    | ⟨0, _⟩ => rfl
    | ⟨1, _⟩ => rfl))

/-- A mask column repeated over the 64 lanes, times a block x, summed over the rows and kept as one [1, 64] row, reads
    at lane q the masked sum of x's column q. -/
theorem maskedRow_apply (mk : Vec Ideal S5000x1 .f32) (x : FVec Ideal S5000x64 .f32)
    (hm : S5000x1.ShapeCasts S5000x1) (hb : S5000x1.Broadcasts S5000x64)
    (hr : S5000x64.Reduces [0] S64) (hacc : (0x00000000#32 : BitVec 32) = 0x00000000#32) (hc : S64.ShapeCasts S1x64)
    (q : Fin 64) :
    shapeCast S1x64 (multiReduction .add [0] S64 (mulf (broadcastTo S5000x64 (shapeCast S5000x1 mk hm) hb) x)
        0x00000000#32 hr (.inl rfl) hacc) hc (ix2 0 q)
      = colsum mk x q := by
  refine (shapeCast_a_1a_apply _ hc 0 q).trans ?_
  refine (rowsum_apply _ hr hacc q).trans ?_
  unfold colsum
  refine Finset.sum_congr rfl fun r _ => ?_
  refine (mulf_apply _ _ _).trans ?_
  exact congrArg (· * x (ix2 r q))
    ((Cert.LibColumnLayout.broadcastTo_a1_ab_apply _ hb r q).trans (congrFun (shapeCast_self mk hm) (ix2 r 0)))

/-! ### Region 1 -/

/-- The block of activations is read as it is. -/
theorem pay1_block (v3 : Vec Ideal S5000x64 .f32) : k1_pay3 (F := Ideal) v3 = v3 := by
  unfold k1_pay3
  exact shapeCast_self v3 _

/-- The first accumulator row after a block: the running row plus the first mask's sum over the block. -/
theorem pay1_row0 (v3 : Vec Ideal S5000x64 .f32) (v5 : Vec Ideal S5000x1 .f32) (v23 : Vec Ideal S1x64 .f32) (q : Fin 64) :
    k1_pay5 (F := Ideal) v3 v5 v23 (ix2 0 q) = (v23 (ix2 0 q) : EReal) + colsum v5 v3 q := by
  unfold k1_pay5
  refine (congrFun (shapeCast_self _ _) (ix2 0 q)).trans ?_
  refine (addf_apply _ _ _).trans ?_
  refine congrArg ((v23 (ix2 0 q) : EReal) + ·) ?_
  refine (maskedRow_apply v5 (k1_pay3 v3) _ _ _ _ _ q).trans ?_
  exact congrArg (fun h => colsum v5 h q) (pay1_block v3)

/-- The second accumulator row after a block: the running row plus the second mask's sum over the block. -/
theorem pay1_row1 (v3 : Vec Ideal S5000x64 .f32) (v7 : Vec Ideal S5000x1 .f32) (v28 : Vec Ideal S1x64 .f32) (q : Fin 64) :
    k1_pay6 (F := Ideal) v3 v7 v28 (ix2 0 q) = (v28 (ix2 0 q) : EReal) + colsum v7 v3 q := by
  unfold k1_pay6
  refine (congrFun (shapeCast_self _ _) (ix2 0 q)).trans ?_
  refine (addf_apply _ _ _).trans ?_
  refine congrArg ((v28 (ix2 0 q) : EReal) + ·) ?_
  refine (maskedRow_apply v7 (k1_pay3 v3) _ _ _ _ _ q).trans ?_
  exact congrArg (fun h => colsum v7 h q) (pay1_block v3)

/-- The third mask's sum over the block … -/
theorem pay1_row2a (v3 : Vec Ideal S5000x64 .f32) (v9 : Vec Ideal S5000x1 .f32) (q : Fin 64) :
    k1_pay4 (F := Ideal) v3 v9 (ix2 0 q) = colsum v9 v3 q := by
  unfold k1_pay4
  refine (maskedRow_apply v9 (k1_pay3 v3) _ _ _ _ _ q).trans ?_
  exact congrArg (fun h => colsum v9 h q) (pay1_block v3)

/-- … is added to the third running row (running row first). -/
theorem pay1_row2b (v22 : FVec Ideal S1x64 .f32) (v33 : Vec Ideal S1x64 .f32) (q : Fin 64) :
    k1_pay1 (F := Ideal) v22 v33 (ix2 0 q) = (v33 (ix2 0 q) : EReal) + v22 (ix2 0 q) := by
  unfold k1_pay1
  refine (congrFun (shapeCast_self _ _) (ix2 0 q)).trans ?_
  exact addf_apply _ _ _

/-- At the first grid point the accumulator is set to zero everywhere. -/
theorem pay1_zero (i : S3x64.Idx) : k1_pay2 (F := Ideal) i = 0 := by
  unfold k1_pay2
  refine (congrFun (shapeCast_self _ _) i).trans ?_
  exact Ideal.ofBits_zero_f32

/-! ### Region 3 -/

/-- The block of activations is read as it is. -/
theorem pay3_block (v3 : Vec Ideal S5000x64 .f32) : k3_pay3 (F := Ideal) v3 = v3 := by
  unfold k3_pay3
  exact shapeCast_self v3 _

/-- The first accumulator row after a block: the running row plus the first mask's sum over the block. -/
theorem pay3_row0 (v3 : Vec Ideal S5000x64 .f32) (v5 : Vec Ideal S5000x1 .f32) (v23 : Vec Ideal S1x64 .f32) (q : Fin 64) :
    k3_pay5 (F := Ideal) v3 v5 v23 (ix2 0 q) = (v23 (ix2 0 q) : EReal) + colsum v5 v3 q := by
  unfold k3_pay5
  refine (congrFun (shapeCast_self _ _) (ix2 0 q)).trans ?_
  refine (addf_apply _ _ _).trans ?_
  refine congrArg ((v23 (ix2 0 q) : EReal) + ·) ?_
  refine (maskedRow_apply v5 (k3_pay3 v3) _ _ _ _ _ q).trans ?_
  exact congrArg (fun h => colsum v5 h q) (pay3_block v3)

/-- The second accumulator row after a block: the running row plus the second mask's sum over the block. -/
theorem pay3_row1 (v3 : Vec Ideal S5000x64 .f32) (v7 : Vec Ideal S5000x1 .f32) (v28 : Vec Ideal S1x64 .f32) (q : Fin 64) :
    k3_pay6 (F := Ideal) v3 v7 v28 (ix2 0 q) = (v28 (ix2 0 q) : EReal) + colsum v7 v3 q := by
  unfold k3_pay6
  refine (congrFun (shapeCast_self _ _) (ix2 0 q)).trans ?_
  refine (addf_apply _ _ _).trans ?_
  refine congrArg ((v28 (ix2 0 q) : EReal) + ·) ?_
  refine (maskedRow_apply v7 (k3_pay3 v3) _ _ _ _ _ q).trans ?_
  exact congrArg (fun h => colsum v7 h q) (pay3_block v3)

/-- The third mask's sum over the block … -/
theorem pay3_row2a (v3 : Vec Ideal S5000x64 .f32) (v9 : Vec Ideal S5000x1 .f32) (q : Fin 64) :
    k3_pay4 (F := Ideal) v3 v9 (ix2 0 q) = colsum v9 v3 q := by
  unfold k3_pay4
  refine (maskedRow_apply v9 (k3_pay3 v3) _ _ _ _ _ q).trans ?_
  exact congrArg (fun h => colsum v9 h q) (pay3_block v3)

/-- … is added to the third running row (running row first). -/
theorem pay3_row2b (v22 : FVec Ideal S1x64 .f32) (v33 : Vec Ideal S1x64 .f32) (q : Fin 64) :
    k3_pay1 (F := Ideal) v22 v33 (ix2 0 q) = (v33 (ix2 0 q) : EReal) + v22 (ix2 0 q) := by
  unfold k3_pay1
  refine (congrFun (shapeCast_self _ _) (ix2 0 q)).trans ?_
  exact addf_apply _ _ _

/-- At the first grid point the accumulator is set to zero everywhere. -/
theorem pay3_zero (i : S3x64.Idx) : k3_pay2 (F := Ideal) i = 0 := by
  unfold k3_pay2
  refine (congrFun (shapeCast_self _ _) i).trans ?_
  exact Ideal.ofBits_zero_f32

/-! ### Region 5 -/

/-- The block of activations is read as it is. -/
theorem pay5_block (v3 : Vec Ideal S5000x64 .f32) : k5_pay3 (F := Ideal) v3 = v3 := by
  unfold k5_pay3
  exact shapeCast_self v3 _

/-- The first accumulator row after a block: the running row plus the first mask's sum over the block. -/
theorem pay5_row0 (v3 : Vec Ideal S5000x64 .f32) (v5 : Vec Ideal S5000x1 .f32) (v23 : Vec Ideal S1x64 .f32) (q : Fin 64) :
    k5_pay5 (F := Ideal) v3 v5 v23 (ix2 0 q) = (v23 (ix2 0 q) : EReal) + colsum v5 v3 q := by
  unfold k5_pay5
  refine (congrFun (shapeCast_self _ _) (ix2 0 q)).trans ?_
  refine (addf_apply _ _ _).trans ?_
  refine congrArg ((v23 (ix2 0 q) : EReal) + ·) ?_
  refine (maskedRow_apply v5 (k5_pay3 v3) _ _ _ _ _ q).trans ?_
  exact congrArg (fun h => colsum v5 h q) (pay5_block v3)

/-- The second accumulator row after a block: the running row plus the second mask's sum over the block. -/
theorem pay5_row1 (v3 : Vec Ideal S5000x64 .f32) (v7 : Vec Ideal S5000x1 .f32) (v28 : Vec Ideal S1x64 .f32) (q : Fin 64) :
    k5_pay6 (F := Ideal) v3 v7 v28 (ix2 0 q) = (v28 (ix2 0 q) : EReal) + colsum v7 v3 q := by
  unfold k5_pay6
  refine (congrFun (shapeCast_self _ _) (ix2 0 q)).trans ?_
  refine (addf_apply _ _ _).trans ?_
  refine congrArg ((v28 (ix2 0 q) : EReal) + ·) ?_
  refine (maskedRow_apply v7 (k5_pay3 v3) _ _ _ _ _ q).trans ?_
  exact congrArg (fun h => colsum v7 h q) (pay5_block v3)

/-- The third mask's sum over the block … -/
theorem pay5_row2a (v3 : Vec Ideal S5000x64 .f32) (v9 : Vec Ideal S5000x1 .f32) (q : Fin 64) :
    k5_pay4 (F := Ideal) v3 v9 (ix2 0 q) = colsum v9 v3 q := by
  unfold k5_pay4
  refine (maskedRow_apply v9 (k5_pay3 v3) _ _ _ _ _ q).trans ?_
  exact congrArg (fun h => colsum v9 h q) (pay5_block v3)

/-- … is added to the third running row (running row first). -/
theorem pay5_row2b (v22 : FVec Ideal S1x64 .f32) (v33 : Vec Ideal S1x64 .f32) (q : Fin 64) :
    k5_pay1 (F := Ideal) v22 v33 (ix2 0 q) = (v33 (ix2 0 q) : EReal) + v22 (ix2 0 q) := by
  unfold k5_pay1
  refine (congrFun (shapeCast_self _ _) (ix2 0 q)).trans ?_
  exact addf_apply _ _ _

/-- At the first grid point the accumulator is set to zero everywhere. -/
theorem pay5_zero (i : S3x64.Idx) : k5_pay2 (F := Ideal) i = 0 := by
  unfold k5_pay2
  refine (congrFun (shapeCast_self _ _) i).trans ?_
  exact Ideal.ofBits_zero_f32

end Cert.KernelIdeal.HandValue

end
-- ==== Proof.KI_MlpArray0.lean ====
import proofs.«181750_j70806830841988_1_alg».proof.Proof.KI_Mlp0
import proofs.«181750_j70806830841988_1_alg».proof.Proof.KI_Payloads
import proofs.«181750_j70806830841988_1_alg».proof.Proof.Spec
import Idealize.ShloMosaic.Lib.Pipeline.Value
import Idealize.ShloMosaic.Lib.ValueIdx

/-!
# The dense layer of pipeline 0: the array it leaves

Pipeline 0 walks ten row blocks of 10000 rows of a 100000-row activation array and writes back, at every block, the
block of output rows its body formed. Row `r` of the output array is therefore written by block `r / 10000`, from rows
`10000 (r / 10000) … + 9999` of the activation array and from the two weight matrices and the two bias rows, which
every block reads whole. The body's value at a row of the block is the layer function of that row alone, so the value
written at row `10000 t + p` is the layer function of the whole arrays at that row: block `t` of what is written back
is block `t` of ONE function of the five input arrays, and the ten blocks cover the output array. Hence the array the
pipeline leaves is that function.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

-- the contents of the core's buffers when the pipeline starts
variable (V : (c : Dev nD) → (b : Ref sig .tc) → Buf (Elt Ideal) ((c : Thread nD τ).loc b))

/-- The zero offsets of a whole-buffer rectangle, as the constant function. -/
theorem zero_offsets0 : (![0, 0] : Fin 2 → Nat) = fun _ => 0 := funext fun a => by fin_cases a <;> rfl

/-- The layer function of the five input arrays as the pipeline finds them: the array the pipeline is to leave. -/
abbrev layer0 (c : Dev nD) : S100000x64.Idx → EReal :=
  Cert.Spec.mlp (V c main_v25) (V c main_arg5) (fun i => V c main_v26 (ix2 0 (i 0))) (V c main_arg7) (fun i => V c main_v27 (ix2 0 (i 0)))

/-! ## Where each window's block sits -/

/-- The block indices, decided over the ten points: the activation window and the output window are at row block `t`,
    column block 0; the weights and biases are at block (0, 0), that is, whole. -/
theorem block_indices0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- There are ten points. -/
theorem point_lt0 (t : Fin cfg0.N) : t.val < 10 := lt_of_lt_of_eq t.isLt (N_0 : cfg0.N = 10)

/-- Row `p` of the activation block at point `t` is row `10000 t + p` of the activation array. -/
theorem rows_block0 (c : Dev nD) (t : Fin cfg0.N) (ht : t.val < 10) (p : Fin 10000) (k : Fin 2) :
    (iblk0 V c 0 t : Vec Ideal S10000x2 .f32) (ix2 p k)
      = (V c main_v25 : S100000x2.Idx → EReal) (ix2 ⟨t.val * 10000 + p.val, by omega⟩ k) := by
  obtain ⟨e0, e1, -⟩ := block_indices0 t
  unfold iblk0
  rw [View.read_apply]
  show V c main_v25 _ = V c main_v25 _
  congr 1
  funext a
  apply Fin.ext
  match a with
  | ⟨0, _⟩ => show win0_0.index t (0 : Fin 2) * 10000 + 1 * p.val = t.val * 10000 + p.val; rw [e0]; omega
  | ⟨1, _⟩ => show win0_0.index t (1 : Fin 2) * 2 + 1 * k.val = k.val; rw [e1]; omega

/-- The first weight matrix's block is the whole matrix at every point, -/
theorem whole_block0_1 (c : Dev nD) (t : Fin cfg0.N) : (iblk0 V c 1 t : Vec Ideal S2x64 .f32) = V c main_arg5 := by
  obtain ⟨-, -, e0, e1, -⟩ := block_indices0 t
  funext y
  unfold iblk0
  rw [View.read_apply]
  show V c main_arg5 _ = V c main_arg5 y
  congr 1
  funext a
  apply Fin.ext
  match a with
  | ⟨0, _⟩ => show win0_1.index t (0 : Fin 2) * 2 + 1 * (y 0).val = (y 0).val; rw [e0]; omega
  | ⟨1, _⟩ => show win0_1.index t (1 : Fin 2) * 64 + 1 * (y 1).val = (y 1).val; rw [e1]; omega

/-- the first bias row's the whole row, -/
theorem whole_block0_2 (c : Dev nD) (t : Fin cfg0.N) : (iblk0 V c 2 t : Vec Ideal S1x64 .f32) = V c main_v26 := by
  obtain ⟨-, -, -, -, e0, e1, -⟩ := block_indices0 t
  funext y
  unfold iblk0
  rw [View.read_apply]
  show V c main_v26 _ = V c main_v26 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 64 + 1 * (y 1).val = (y 1).val; rw [e1]; omega

/-- the second weight matrix's the whole matrix, -/
theorem whole_block0_3 (c : Dev nD) (t : Fin cfg0.N) : (iblk0 V c 3 t : Vec Ideal S64x64 .f32) = V c main_arg7 := by
  obtain ⟨-, -, -, -, -, -, e0, e1, -⟩ := block_indices0 t
  funext y
  unfold iblk0
  rw [View.read_apply]
  show V c main_arg7 _ = V c main_arg7 y
  congr 1
  funext a
  apply Fin.ext
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-- and the second bias row's the whole row. -/
theorem whole_block0_4 (c : Dev nD) (t : Fin cfg0.N) : (iblk0 V c 4 t : Vec Ideal S1x64 .f32) = V c main_v27 := by
  obtain ⟨-, -, -, -, -, -, -, -, e0, e1, -⟩ := block_indices0 t
  funext y
  unfold iblk0
  rw [View.read_apply]
  show V c main_v27 _ = V c main_v27 y
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- Element `(p, q)` of the output block at point `t` sits at `(10000 t + p, q)` of the output array. -/
theorem out_block_emb0 (t : Fin cfg0.N) (ht : t.val < 10) (p : Fin 10000) (q : Fin 64) :
    ((cfg0.win 5).blk t).view.emb (ix2 p q) = (ix2 ⟨t.val * 10000 + p.val, by omega⟩ q : S100000x64.Idx) := by
  obtain ⟨-, -, -, -, -, -, -, -, -, -, e0, e1⟩ := block_indices0 t
  funext a
  apply Fin.ext
  match a with
  | ⟨0, _⟩ => show win0_5.index t (0 : Fin 2) * 10000 + 1 * p.val = t.val * 10000 + p.val; rw [e0]; omega
  | ⟨1, _⟩ => show win0_5.index t (1 : Fin 2) * 64 + 1 * q.val = q.val; rw [e1]; omega

/-! ## What one point writes back -/

/-- The body's value at row `p` of a block whose rows are rows `10000 n + p` of an array `A` is the layer function of
    `A` at row `10000 n + p`: the layer function at a row reads that row of the activations only. -/
theorem layer_of_rows0 (A : S100000x2.Idx → EReal) (x0 : Vec Ideal S10000x2 .f32) (x1 : Vec Ideal S2x64 .f32) (x2 : Vec Ideal S1x64 .f32)
    (x3 : Vec Ideal S64x64 .f32) (x4 : Vec Ideal S1x64 .f32) (n : Nat) (hn : n < 10)
    (h0 : ∀ (p : Fin 10000) (k : Fin 2), x0 (ix2 p k) = A (ix2 ⟨n * 10000 + p.val, by omega⟩ k))
    (p : Fin 10000) (q : Fin 64) :
    k0_pay1 (F := Ideal) x0 x1 x2 x3 x4 (ix2 p q)
      = Cert.Spec.mlp A x1 (fun i => x2 (ix2 0 (i 0))) x3 (fun i => x4 (ix2 0 (i 0))) (ix2 ⟨n * 10000 + p.val, by omega⟩ q) := by
  rw [pay0_mlp, Cert.Spec.mlp_apply]
  unfold Cert.Spec.mlpAt Cert.Spec.hidAt
  simp only [h0]

/-- What the body leaves at an index of the output block at point `t` is the layer function of the input arrays at the
    index's place in the output array. -/
theorem flushed_at0 (c : Dev nD) (t : Fin cfg0.N) (j : S10000x64.Idx) :
    k0_pay1 (F := Ideal) (iblk0 V c 0 t) (iblk0 V c 1 t) (iblk0 V c 2 t) (iblk0 V c 3 t) (iblk0 V c 4 t) j
      = layer0 V c (((cfg0.win 5).blk t).view.emb j) := by
  have ht : t.val < 10 := point_lt0 t
  obtain ⟨p, q, rfl⟩ : ∃ (p : Fin 10000) (q : Fin 64), j = ix2 p q := ⟨j 0, j 1, eq_ix2 j⟩
  rw [out_block_emb0 t ht p q]
  refine (layer_of_rows0 (V c main_v25) _ _ _ _ _ t.val ht (rows_block0 V c t ht) p q).trans ?_
  rw [whole_block0_1, whole_block0_2, whole_block0_3, whole_block0_4]

/-- WHAT POINT `t` WRITES BACK is block `t` of the layer function of the input arrays. -/
theorem flushed0_eq (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero zero_offsets0]
  simp only [View.ld_unit_zero (S := S10000x2) zero_offsets0, View.ld_unit_zero (S := S64x64) zero_offsets0,
    View.ld_unit_zero (S := S2x64) zero_offsets0, View.ld_unit_zero (S := S1x64) zero_offsets0]
  funext j
  exact flushed_at0 V c t j

/-! ## The ten blocks cover the output array -/

/-- An index of the output array is in point `t`'s block iff each coordinate is in the block's range on its axis. -/
theorem mem_block0 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v28).slice (win0_5.rect t)).set ↔ _
  rw [View.set_slice_whole, Rect.mem_set_unit]
  exact Iff.rfl

/-- Row `r` of the output array is in the block of point `r / 10000`, and every point writes its block back. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ : ∃ t : Fin cfg0.N, t.val = (i 0).val / 10000 :=
    ⟨⟨(i 0).val / 10000, lt_of_lt_of_eq (by omega : (i 0).val / 10000 < 10) (N_0 : cfg0.N = 10).symm⟩, rfl⟩
  obtain ⟨-, -, -, -, -, -, -, -, -, -, e0, e1⟩ := block_indices0 t
  refine ⟨t, flush0_5 t, ?_⟩
  rw [mem_block0]
  intro a
  match a with
  | ⟨0, _⟩ => show win0_5.index t (0 : Fin 2) * 10000 ≤ (i 0).val ∧ (i 0).val < win0_5.index t (0 : Fin 2) * 10000 + 10000; rw [e0, ht]; omega
  | ⟨1, _⟩ => show win0_5.index t (1 : Fin 2) * 64 ≤ (i 1).val ∧ (i 1).val < win0_5.index t (1 : Fin 2) * 64 + 64; rw [e1]; omega

/-! ## The array after the pipeline -/

/-- THE OUTPUT ARRAY after the ten points is the layer function of the five input arrays as the pipeline found them. -/
theorem mlp0_array (c : Dev nD) : (dat0 V c).arrAt 5 cfg0.N
    = (Cert.Spec.mlp (V c main_v25) (V c main_arg5) (fun i => V c main_v26 (ix2 0 (i 0))) (V c main_arg7) (fun i => V c main_v27 (ix2 0 (i 0))) : S100000x64.Idx → EReal) :=
  (dat0 V c).arrAt_eq_of_cover 5 (layer0 V c) (fun t _ => flushed0_eq V c t) cover0

end Cert.KernelIdeal.HandValue

end
-- ==== Proof.KI_MlpArray2.lean ====
import proofs.«181750_j70806830841988_1_alg».proof.Proof.KI_Mlp2
import proofs.«181750_j70806830841988_1_alg».proof.Proof.KI_Payloads
import proofs.«181750_j70806830841988_1_alg».proof.Proof.Spec
import Idealize.ShloMosaic.Lib.Pipeline.Value
import Idealize.ShloMosaic.Lib.ValueIdx

/-!
# The dense layer of pipeline 2: the array it leaves

Pipeline 2 walks ten row blocks of 10000 rows of a 100000-row activation array and writes back, at every block, the
block of output rows its body formed. Row `r` of the output array is therefore written by block `r / 10000`, from rows
`10000 (r / 10000) … + 9999` of the activation array and from the two weight matrices and the two bias rows, which
every block reads whole. The body's value at a row of the block is the layer function of that row alone, so the value
written at row `10000 t + p` is the layer function of the whole arrays at that row: block `t` of what is written back
is block `t` of ONE function of the five input arrays, and the ten blocks cover the output array. Hence the array the
pipeline leaves is that function.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

-- the contents of the core's buffers when the pipeline starts
variable (V : (c : Dev nD) → (b : Ref sig .tc) → Buf (Elt Ideal) ((c : Thread nD τ).loc b))

/-- The zero offsets of a whole-buffer rectangle, as the constant function. -/
theorem zero_offsets2 : (![0, 0] : Fin 2 → Nat) = fun _ => 0 := funext fun a => by fin_cases a <;> rfl

/-- The layer function of the five input arrays as the pipeline finds them: the array the pipeline is to leave. -/
abbrev layer2 (c : Dev nD) : S100000x64.Idx → EReal :=
  Cert.Spec.mlp (V c main_v51) (V c main_arg9) (fun i => V c main_v52 (ix2 0 (i 0))) (V c main_arg11) (fun i => V c main_v53 (ix2 0 (i 0)))

/-! ## Where each window's block sits -/

/-- The block indices, decided over the ten points: the activation window and the output window are at row block `t`,
    column block 0; the weights and biases are at block (0, 0), that is, whole. -/
theorem block_indices2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- There are ten points. -/
theorem point_lt2 (t : Fin cfg2.N) : t.val < 10 := lt_of_lt_of_eq t.isLt (N_2 : cfg2.N = 10)

/-- Row `p` of the activation block at point `t` is row `10000 t + p` of the activation array. -/
theorem rows_block2 (c : Dev nD) (t : Fin cfg2.N) (ht : t.val < 10) (p : Fin 10000) (k : Fin 64) :
    (iblk2 V c 0 t : Vec Ideal S10000x64 .f32) (ix2 p k)
      = (V c main_v51 : S100000x64.Idx → EReal) (ix2 ⟨t.val * 10000 + p.val, by omega⟩ k) := by
  obtain ⟨e0, e1, -⟩ := block_indices2 t
  unfold iblk2
  rw [View.read_apply]
  show V c main_v51 _ = V c main_v51 _
  congr 1
  funext a
  apply Fin.ext
  match a with
  | ⟨0, _⟩ => show win2_0.index t (0 : Fin 2) * 10000 + 1 * p.val = t.val * 10000 + p.val; rw [e0]; omega
  | ⟨1, _⟩ => show win2_0.index t (1 : Fin 2) * 64 + 1 * k.val = k.val; rw [e1]; omega

/-- The first weight matrix's block is the whole matrix at every point, -/
theorem whole_block2_1 (c : Dev nD) (t : Fin cfg2.N) : (iblk2 V c 1 t : Vec Ideal S64x64 .f32) = V c main_arg9 := by
  obtain ⟨-, -, e0, e1, -⟩ := block_indices2 t
  funext y
  unfold iblk2
  rw [View.read_apply]
  show V c main_arg9 _ = V c main_arg9 y
  congr 1
  funext a
  apply Fin.ext
  match a with
  | ⟨0, _⟩ => show win2_1.index t (0 : Fin 2) * 64 + 1 * (y 0).val = (y 0).val; rw [e0]; omega
  | ⟨1, _⟩ => show win2_1.index t (1 : Fin 2) * 64 + 1 * (y 1).val = (y 1).val; rw [e1]; omega

/-- the first bias row's the whole row, -/
theorem whole_block2_2 (c : Dev nD) (t : Fin cfg2.N) : (iblk2 V c 2 t : Vec Ideal S1x64 .f32) = V c main_v52 := by
  obtain ⟨-, -, -, -, e0, e1, -⟩ := block_indices2 t
  funext y
  unfold iblk2
  rw [View.read_apply]
  show V c main_v52 _ = V c main_v52 y
  congr 1
  funext a
  apply Fin.ext
  match a with
  | ⟨0, _⟩ => show win2_2.index t (0 : Fin 2) * 1 + 1 * (y 0).val = (y 0).val; rw [e0]; omega
  | ⟨1, _⟩ => show win2_2.index t (1 : Fin 2) * 64 + 1 * (y 1).val = (y 1).val; rw [e1]; omega

/-- the second weight matrix's the whole matrix, -/
theorem whole_block2_3 (c : Dev nD) (t : Fin cfg2.N) : (iblk2 V c 3 t : Vec Ideal S64x64 .f32) = V c main_arg11 := by
  obtain ⟨-, -, -, -, -, -, e0, e1, -⟩ := block_indices2 t
  funext y
  unfold iblk2
  rw [View.read_apply]
  show V c main_arg11 _ = V c main_arg11 y
  congr 1
  funext a
  apply Fin.ext
  match a with
  | ⟨0, _⟩ => show win2_3.index t (0 : Fin 2) * 64 + 1 * (y 0).val = (y 0).val; rw [e0]; omega
  | ⟨1, _⟩ => show win2_3.index t (1 : Fin 2) * 64 + 1 * (y 1).val = (y 1).val; rw [e1]; omega

/-- and the second bias row's the whole row. -/
theorem whole_block2_4 (c : Dev nD) (t : Fin cfg2.N) : (iblk2 V c 4 t : Vec Ideal S1x64 .f32) = V c main_v53 := by
  obtain ⟨-, -, -, -, -, -, -, -, e0, e1, -⟩ := block_indices2 t
  funext y
  unfold iblk2
  rw [View.read_apply]
  show V c main_v53 _ = V c main_v53 y
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 64 + 1 * (y 1).val = (y 1).val; rw [e1]; omega

/-- Element `(p, q)` of the output block at point `t` sits at `(10000 t + p, q)` of the output array. -/
theorem out_block_emb2 (t : Fin cfg2.N) (ht : t.val < 10) (p : Fin 10000) (q : Fin 64) :
    ((cfg2.win 5).blk t).view.emb (ix2 p q) = (ix2 ⟨t.val * 10000 + p.val, by omega⟩ q : S100000x64.Idx) := by
  obtain ⟨-, -, -, -, -, -, -, -, -, -, e0, e1⟩ := block_indices2 t
  funext a
  apply Fin.ext
  match a with
  | ⟨0, _⟩ => show win2_5.index t (0 : Fin 2) * 10000 + 1 * p.val = t.val * 10000 + p.val; rw [e0]; omega
  | ⟨1, _⟩ => show win2_5.index t (1 : Fin 2) * 64 + 1 * q.val = q.val; rw [e1]; omega

/-! ## What one point writes back -/

/-- The body's value at row `p` of a block whose rows are rows `10000 n + p` of an array `A` is the layer function of
    `A` at row `10000 n + p`: the layer function at a row reads that row of the activations only. -/
theorem layer_of_rows2 (A : S100000x64.Idx → EReal) (x0 : Vec Ideal S10000x64 .f32) (x1 : Vec Ideal S64x64 .f32) (x2 : Vec Ideal S1x64 .f32)
    (x3 : Vec Ideal S64x64 .f32) (x4 : Vec Ideal S1x64 .f32) (n : Nat) (hn : n < 10)
    (h0 : ∀ (p : Fin 10000) (k : Fin 64), x0 (ix2 p k) = A (ix2 ⟨n * 10000 + p.val, by omega⟩ k))
    (p : Fin 10000) (q : Fin 64) :
    k2_pay1 (F := Ideal) x0 x1 x2 x3 x4 (ix2 p q)
      = Cert.Spec.mlp A x1 (fun i => x2 (ix2 0 (i 0))) x3 (fun i => x4 (ix2 0 (i 0))) (ix2 ⟨n * 10000 + p.val, by omega⟩ q) := by
  rw [pay2_mlp, Cert.Spec.mlp_apply]
  unfold Cert.Spec.mlpAt Cert.Spec.hidAt
  simp only [h0]

/-- What the body leaves at an index of the output block at point `t` is the layer function of the input arrays at the
    index's place in the output array. -/
theorem flushed_at2 (c : Dev nD) (t : Fin cfg2.N) (j : S10000x64.Idx) :
    k2_pay1 (F := Ideal) (iblk2 V c 0 t) (iblk2 V c 1 t) (iblk2 V c 2 t) (iblk2 V c 3 t) (iblk2 V c 4 t) j
      = layer2 V c (((cfg2.win 5).blk t).view.emb j) := by
  have ht : t.val < 10 := point_lt2 t
  obtain ⟨p, q, rfl⟩ : ∃ (p : Fin 10000) (q : Fin 64), j = ix2 p q := ⟨j 0, j 1, eq_ix2 j⟩
  rw [out_block_emb2 t ht p q]
  refine (layer_of_rows2 (V c main_v51) _ _ _ _ _ t.val ht (rows_block2 V c t ht) p q).trans ?_
  rw [whole_block2_1, whole_block2_2, whole_block2_3, whole_block2_4]

/-- WHAT POINT `t` WRITES BACK is block `t` of the layer function of the input arrays. -/
theorem flushed2_eq (c : Dev nD) (t : Fin cfg2.N) :
    (dat2 V c).flushed 5 t = ((cfg2.win 5).blk t).view.read (Elt Ideal) (layer2 V c) := by
  show (cfg2.win 5).cut (grid2.coords t) ((dat2 V c).after 5 t) = _
  rw [after2_5]
  unfold out2_5
  rw [View.canon_unit_zero zero_offsets2]
  simp only [View.ld_unit_zero (S := S10000x64) zero_offsets2, View.ld_unit_zero (S := S64x64) zero_offsets2,
    View.ld_unit_zero (S := S64x64) zero_offsets2, View.ld_unit_zero (S := S1x64) zero_offsets2]
  funext j
  exact flushed_at2 V c t j

/-! ## The ten blocks cover the output array -/

/-- An index of the output array is in point `t`'s block iff each coordinate is in the block's range on its axis. -/
theorem mem_block2 (t : Fin cfg2.N) (i : S100000x64.Idx) :
    i ∈ ((cfg2.win 5).blk t).view.set ↔ ∀ a : Fin 2, win2_5.index t a * S10000x64.size a ≤ (i a).val ∧ (i a).val < win2_5.index t a * S10000x64.size a + S10000x64.size a := by
  show i ∈ ((View.whole main_v54).slice (win2_5.rect t)).set ↔ _
  rw [View.set_slice_whole, Rect.mem_set_unit]
  exact Iff.rfl

/-- Row `r` of the output array is in the block of point `r / 10000`, and every point writes its block back. -/
theorem cover2 (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ : ∃ t : Fin cfg2.N, t.val = (i 0).val / 10000 :=
    ⟨⟨(i 0).val / 10000, lt_of_lt_of_eq (by omega : (i 0).val / 10000 < 10) (N_2 : cfg2.N = 10).symm⟩, rfl⟩
  obtain ⟨-, -, -, -, -, -, -, -, -, -, e0, e1⟩ := block_indices2 t
  refine ⟨t, flush2_5 t, ?_⟩
  rw [mem_block2]
  intro a
  match a with
  | ⟨0, _⟩ => show win2_5.index t (0 : Fin 2) * 10000 ≤ (i 0).val ∧ (i 0).val < win2_5.index t (0 : Fin 2) * 10000 + 10000; rw [e0, ht]; omega
  | ⟨1, _⟩ => show win2_5.index t (1 : Fin 2) * 64 ≤ (i 1).val ∧ (i 1).val < win2_5.index t (1 : Fin 2) * 64 + 64; rw [e1]; omega

/-! ## The array after the pipeline -/

/-- THE OUTPUT ARRAY after the ten points is the layer function of the five input arrays as the pipeline found them. -/
theorem mlp2_array (c : Dev nD) : (dat2 V c).arrAt 5 cfg2.N
    = (Cert.Spec.mlp (V c main_v51) (V c main_arg9) (fun i => V c main_v52 (ix2 0 (i 0))) (V c main_arg11) (fun i => V c main_v53 (ix2 0 (i 0))) : S100000x64.Idx → EReal) :=
  (dat2 V c).arrAt_eq_of_cover 5 (layer2 V c) (fun t _ => flushed2_eq V c t) cover2

end Cert.KernelIdeal.HandValue

end
-- ==== Proof.KI_MlpArray4.lean ====
import proofs.«181750_j70806830841988_1_alg».proof.Proof.KI_Mlp4
import proofs.«181750_j70806830841988_1_alg».proof.Proof.KI_Payloads
import proofs.«181750_j70806830841988_1_alg».proof.Proof.Spec
import Idealize.ShloMosaic.Lib.Pipeline.Value
import Idealize.ShloMosaic.Lib.ValueIdx

/-!
# The dense layer of pipeline 4: the array it leaves

Pipeline 4 walks ten row blocks of 10000 rows of a 100000-row activation array and writes back, at every block, the
block of output rows its body formed. Row `r` of the output array is therefore written by block `r / 10000`, from rows
`10000 (r / 10000) … + 9999` of the activation array and from the two weight matrices and the two bias rows, which
every block reads whole. The body's value at a row of the block is the layer function of that row alone, so the value
written at row `10000 t + p` is the layer function of the whole arrays at that row: block `t` of what is written back
is block `t` of ONE function of the five input arrays, and the ten blocks cover the output array. Hence the array the
pipeline leaves is that function.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

-- the contents of the core's buffers when the pipeline starts
variable (V : (c : Dev nD) → (b : Ref sig .tc) → Buf (Elt Ideal) ((c : Thread nD τ).loc b))

/-- The zero offsets of a whole-buffer rectangle, as the constant function. -/
theorem zero_offsets4 : (![0, 0] : Fin 2 → Nat) = fun _ => 0 := funext fun a => by fin_cases a <;> rfl

/-- The layer function of the five input arrays as the pipeline finds them: the array the pipeline is to leave. -/
abbrev layer4 (c : Dev nD) : S100000x64.Idx → EReal :=
  Cert.Spec.mlp (V c main_v77) (V c main_arg13) (fun i => V c main_v78 (ix2 0 (i 0))) (V c main_arg15) (fun i => V c main_v79 (ix2 0 (i 0)))

/-! ## Where each window's block sits -/

/-- The block indices, decided over the ten points: the activation window and the output window are at row block `t`,
    column block 0; the weights and biases are at block (0, 0), that is, whole. -/
theorem block_indices4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- There are ten points. -/
theorem point_lt4 (t : Fin cfg4.N) : t.val < 10 := lt_of_lt_of_eq t.isLt (N_4 : cfg4.N = 10)

/-- Row `p` of the activation block at point `t` is row `10000 t + p` of the activation array. -/
theorem rows_block4 (c : Dev nD) (t : Fin cfg4.N) (ht : t.val < 10) (p : Fin 10000) (k : Fin 64) :
    (iblk4 V c 0 t : Vec Ideal S10000x64 .f32) (ix2 p k)
      = (V c main_v77 : S100000x64.Idx → EReal) (ix2 ⟨t.val * 10000 + p.val, by omega⟩ k) := by
  obtain ⟨e0, e1, -⟩ := block_indices4 t
  unfold iblk4
  rw [View.read_apply]
  show V c main_v77 _ = V c main_v77 _
  congr 1
  funext a
  apply Fin.ext
  match a with
  | ⟨0, _⟩ => show win4_0.index t (0 : Fin 2) * 10000 + 1 * p.val = t.val * 10000 + p.val; rw [e0]; omega
  | ⟨1, _⟩ => show win4_0.index t (1 : Fin 2) * 64 + 1 * k.val = k.val; rw [e1]; omega

/-- The first weight matrix's block is the whole matrix at every point, -/
theorem whole_block4_1 (c : Dev nD) (t : Fin cfg4.N) : (iblk4 V c 1 t : Vec Ideal S64x64 .f32) = V c main_arg13 := by
  obtain ⟨-, -, e0, e1, -⟩ := block_indices4 t
  funext y
  unfold iblk4
  rw [View.read_apply]
  show V c main_arg13 _ = V c main_arg13 y
  congr 1
  funext a
  apply Fin.ext
  match a with
  | ⟨0, _⟩ => show win4_1.index t (0 : Fin 2) * 64 + 1 * (y 0).val = (y 0).val; rw [e0]; omega
  | ⟨1, _⟩ => show win4_1.index t (1 : Fin 2) * 64 + 1 * (y 1).val = (y 1).val; rw [e1]; omega

/-- the first bias row's the whole row, -/
theorem whole_block4_2 (c : Dev nD) (t : Fin cfg4.N) : (iblk4 V c 2 t : Vec Ideal S1x64 .f32) = V c main_v78 := by
  obtain ⟨-, -, -, -, e0, e1, -⟩ := block_indices4 t
  funext y
  unfold iblk4
  rw [View.read_apply]
  show V c main_v78 _ = V c main_v78 y
  congr 1
  funext a
  apply Fin.ext
  match a with
  | ⟨0, _⟩ => show win4_2.index t (0 : Fin 2) * 1 + 1 * (y 0).val = (y 0).val; rw [e0]; omega
  | ⟨1, _⟩ => show win4_2.index t (1 : Fin 2) * 64 + 1 * (y 1).val = (y 1).val; rw [e1]; omega

/-- the second weight matrix's the whole matrix, -/
theorem whole_block4_3 (c : Dev nD) (t : Fin cfg4.N) : (iblk4 V c 3 t : Vec Ideal S64x64 .f32) = V c main_arg15 := by
  obtain ⟨-, -, -, -, -, -, e0, e1, -⟩ := block_indices4 t
  funext y
  unfold iblk4
  rw [View.read_apply]
  show V c main_arg15 _ = V c main_arg15 y
  congr 1
  funext a
  apply Fin.ext
  match a with
  | ⟨0, _⟩ => show win4_3.index t (0 : Fin 2) * 64 + 1 * (y 0).val = (y 0).val; rw [e0]; omega
  | ⟨1, _⟩ => show win4_3.index t (1 : Fin 2) * 64 + 1 * (y 1).val = (y 1).val; rw [e1]; omega

/-- and the second bias row's the whole row. -/
theorem whole_block4_4 (c : Dev nD) (t : Fin cfg4.N) : (iblk4 V c 4 t : Vec Ideal S1x64 .f32) = V c main_v79 := by
  obtain ⟨-, -, -, -, -, -, -, -, e0, e1, -⟩ := block_indices4 t
  funext y
  unfold iblk4
  rw [View.read_apply]
  show V c main_v79 _ = V c main_v79 y
  congr 1
  funext a
  apply Fin.ext
  match a with
  | ⟨0, _⟩ => show win4_4.index t (0 : Fin 2) * 1 + 1 * (y 0).val = (y 0).val; rw [e0]; omega
  | ⟨1, _⟩ => show win4_4.index t (1 : Fin 2) * 64 + 1 * (y 1).val = (y 1).val; rw [e1]; omega

/-- Element `(p, q)` of the output block at point `t` sits at `(10000 t + p, q)` of the output array. -/
theorem out_block_emb4 (t : Fin cfg4.N) (ht : t.val < 10) (p : Fin 10000) (q : Fin 64) :
    ((cfg4.win 5).blk t).view.emb (ix2 p q) = (ix2 ⟨t.val * 10000 + p.val, by omega⟩ q : S100000x64.Idx) := by
  obtain ⟨-, -, -, -, -, -, -, -, -, -, e0, e1⟩ := block_indices4 t
  funext a
  apply Fin.ext
  match a with
  | ⟨0, _⟩ => show win4_5.index t (0 : Fin 2) * 10000 + 1 * p.val = t.val * 10000 + p.val; rw [e0]; omega
  | ⟨1, _⟩ => show win4_5.index t (1 : Fin 2) * 64 + 1 * q.val = q.val; rw [e1]; omega

/-! ## What one point writes back -/

/-- The body's value at row `p` of a block whose rows are rows `10000 n + p` of an array `A` is the layer function of
    `A` at row `10000 n + p`: the layer function at a row reads that row of the activations only. -/
theorem layer_of_rows4 (A : S100000x64.Idx → EReal) (x0 : Vec Ideal S10000x64 .f32) (x1 : Vec Ideal S64x64 .f32) (x2 : Vec Ideal S1x64 .f32)
    (x3 : Vec Ideal S64x64 .f32) (x4 : Vec Ideal S1x64 .f32) (n : Nat) (hn : n < 10)
    (h0 : ∀ (p : Fin 10000) (k : Fin 64), x0 (ix2 p k) = A (ix2 ⟨n * 10000 + p.val, by omega⟩ k))
    (p : Fin 10000) (q : Fin 64) :
    k4_pay1 (F := Ideal) x0 x1 x2 x3 x4 (ix2 p q)
      = Cert.Spec.mlp A x1 (fun i => x2 (ix2 0 (i 0))) x3 (fun i => x4 (ix2 0 (i 0))) (ix2 ⟨n * 10000 + p.val, by omega⟩ q) := by
  rw [pay4_mlp, Cert.Spec.mlp_apply]
  unfold Cert.Spec.mlpAt Cert.Spec.hidAt
  simp only [h0]

/-- What the body leaves at an index of the output block at point `t` is the layer function of the input arrays at the
    index's place in the output array. -/
theorem flushed_at4 (c : Dev nD) (t : Fin cfg4.N) (j : S10000x64.Idx) :
    k4_pay1 (F := Ideal) (iblk4 V c 0 t) (iblk4 V c 1 t) (iblk4 V c 2 t) (iblk4 V c 3 t) (iblk4 V c 4 t) j
      = layer4 V c (((cfg4.win 5).blk t).view.emb j) := by
  have ht : t.val < 10 := point_lt4 t
  obtain ⟨p, q, rfl⟩ : ∃ (p : Fin 10000) (q : Fin 64), j = ix2 p q := ⟨j 0, j 1, eq_ix2 j⟩
  rw [out_block_emb4 t ht p q]
  refine (layer_of_rows4 (V c main_v77) _ _ _ _ _ t.val ht (rows_block4 V c t ht) p q).trans ?_
  rw [whole_block4_1, whole_block4_2, whole_block4_3, whole_block4_4]

/-- WHAT POINT `t` WRITES BACK is block `t` of the layer function of the input arrays. -/
theorem flushed4_eq (c : Dev nD) (t : Fin cfg4.N) :
    (dat4 V c).flushed 5 t = ((cfg4.win 5).blk t).view.read (Elt Ideal) (layer4 V c) := by
  show (cfg4.win 5).cut (grid4.coords t) ((dat4 V c).after 5 t) = _
  rw [after4_5]
  unfold out4_5
  rw [View.canon_unit_zero zero_offsets4]
  simp only [View.ld_unit_zero (S := S10000x64) zero_offsets4, View.ld_unit_zero (S := S64x64) zero_offsets4,
    View.ld_unit_zero (S := S64x64) zero_offsets4, View.ld_unit_zero (S := S1x64) zero_offsets4]
  funext j
  exact flushed_at4 V c t j

/-! ## The ten blocks cover the output array -/

/-- An index of the output array is in point `t`'s block iff each coordinate is in the block's range on its axis. -/
theorem mem_block4 (t : Fin cfg4.N) (i : S100000x64.Idx) :
    i ∈ ((cfg4.win 5).blk t).view.set ↔ ∀ a : Fin 2, win4_5.index t a * S10000x64.size a ≤ (i a).val ∧ (i a).val < win4_5.index t a * S10000x64.size a + S10000x64.size a := by
  show i ∈ ((View.whole main_v80).slice (win4_5.rect t)).set ↔ _
  rw [View.set_slice_whole, Rect.mem_set_unit]
  exact Iff.rfl

/-- Row `r` of the output array is in the block of point `r / 10000`, and every point writes its block back. -/
theorem cover4 (i : S100000x64.Idx) : ∃ t : Fin cfg4.N, (cfg4.win 5).flush t = true ∧ i ∈ ((cfg4.win 5).blk t).view.set := by
  have hi0 : (i 0).val < 100000 := (i 0).isLt
  have hi1 : (i 1).val < 64 := (i 1).isLt
  obtain ⟨t, ht⟩ : ∃ t : Fin cfg4.N, t.val = (i 0).val / 10000 :=
    ⟨⟨(i 0).val / 10000, lt_of_lt_of_eq (by omega : (i 0).val / 10000 < 10) (N_4 : cfg4.N = 10).symm⟩, rfl⟩
  obtain ⟨-, -, -, -, -, -, -, -, -, -, e0, e1⟩ := block_indices4 t
  refine ⟨t, flush4_5 t, ?_⟩
  rw [mem_block4]
  intro a
  match a with
  | ⟨0, _⟩ => show win4_5.index t (0 : Fin 2) * 10000 ≤ (i 0).val ∧ (i 0).val < win4_5.index t (0 : Fin 2) * 10000 + 10000; rw [e0, ht]; omega
  | ⟨1, _⟩ => show win4_5.index t (1 : Fin 2) * 64 ≤ (i 1).val ∧ (i 1).val < win4_5.index t (1 : Fin 2) * 64 + 64; rw [e1]; omega

/-! ## The array after the pipeline -/

/-- THE OUTPUT ARRAY after the ten points is the layer function of the five input arrays as the pipeline found them. -/
theorem mlp4_array (c : Dev nD) : (dat4 V c).arrAt 5 cfg4.N
    = (Cert.Spec.mlp (V c main_v77) (V c main_arg13) (fun i => V c main_v78 (ix2 0 (i 0))) (V c main_arg15) (fun i => V c main_v79 (ix2 0 (i 0))) : S100000x64.Idx → EReal) :=
  (dat4 V c).arrAt_eq_of_cover 5 (layer4 V c) (fun t _ => flushed4_eq V c t) cover4

end Cert.KernelIdeal.HandValue

end
-- ==== Proof.LibERealMatmul.lean ====
import Mathlib.Data.EReal.Basic
import Mathlib.Data.EReal.Operations
import Mathlib.Algebra.BigOperators.Fin
import Mathlib.Data.Fintype.BigOperators
import Mathlib.Logic.Equiv.Fin.Basic

/-!
# Finite extended reals, reassociation of a triple matrix product, blocked sums

Multiplication does not distribute over addition on all of `EReal` (for instance
`(1 + -1) * ⊤ = 0` while `1 * ⊤ + -1 * ⊤ = ⊤ + ⊥ = ⊥`), so the identity
`a · (h · w) = (a · h) · w` for matrices over `EReal` needs every entry to be finite.
Addition alone is commutative and associative on `EReal`, so splitting a sum over an
index range into consecutive blocks needs no hypothesis.
-/

namespace Cert.LibERealMatmul

open Finset

/-- The coercion `ℝ → EReal` commutes with finite sums. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih =>
    rw [Finset.sum_insert ha, Finset.sum_insert ha, EReal.coe_add, ih]

/-- An extended real is finite when it is the coercion of a real number. -/
def IsFin (x : EReal) : Prop := ∃ r : ℝ, x = (r : EReal)

/-- Finite means different from both infinities. -/
theorem isFin_iff (x : EReal) : IsFin x ↔ x ≠ ⊤ ∧ x ≠ ⊥ := by
  constructor
  · rintro ⟨r, rfl⟩
    exact ⟨EReal.coe_ne_top r, EReal.coe_ne_bot r⟩
  · rintro ⟨h1, h2⟩
    exact ⟨x.toReal, (EReal.coe_toReal h1 h2).symm⟩

/-- Zero is finite. -/
theorem isFin_zero : IsFin 0 := ⟨0, EReal.coe_zero.symm⟩

/-- One is finite. -/
theorem isFin_one : IsFin 1 := ⟨1, rfl⟩

/-- The coercion of a real number is finite. -/
theorem isFin_coe (r : ℝ) : IsFin (r : EReal) := ⟨r, rfl⟩

/-- The sum of two finite extended reals is finite. -/
theorem IsFin.add {x y : EReal} (hx : IsFin x) (hy : IsFin y) : IsFin (x + y) := by
  obtain ⟨a, rfl⟩ := hx
  obtain ⟨b, rfl⟩ := hy
  exact ⟨a + b, (EReal.coe_add a b).symm⟩

/-- The product of two finite extended reals is finite. -/
theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- The negation of a finite extended real is finite. -/
theorem IsFin.neg {x : EReal} (hx : IsFin x) : IsFin (-x) := by
  obtain ⟨a, rfl⟩ := hx
  exact ⟨-a, (EReal.coe_neg a).symm⟩

/-- The difference of two finite extended reals is finite. -/
theorem IsFin.sub {x y : EReal} (hx : IsFin x) (hy : IsFin y) : IsFin (x - y) := by
  obtain ⟨a, rfl⟩ := hx
  obtain ⟨b, rfl⟩ := hy
  exact ⟨a - b, (EReal.coe_sub a b).symm⟩

/-- The maximum of two finite extended reals is finite. -/
theorem IsFin.max {x y : EReal} (hx : IsFin x) (hy : IsFin y) : IsFin (x ⊔ y) := by
  obtain ⟨a, rfl⟩ := hx
  obtain ⟨b, rfl⟩ := hy
  exact ⟨a ⊔ b, (EReal.coe_strictMono.monotone.map_max).symm⟩

/-- The minimum of two finite extended reals is finite. -/
theorem IsFin.min {x y : EReal} (hx : IsFin x) (hy : IsFin y) : IsFin (x ⊓ y) := by
  obtain ⟨a, rfl⟩ := hx
  obtain ⟨b, rfl⟩ := hy
  exact ⟨a ⊓ b, (EReal.coe_strictMono.monotone.map_min).symm⟩

/-- A finite sum of finite extended reals is finite. -/
theorem IsFin.sum {ι : Type*} (s : Finset ι) (f : ι → EReal) (hf : ∀ i ∈ s, IsFin (f i)) :
    IsFin (∑ i ∈ s, f i) := by
  classical
  induction s using Finset.induction_on with
  | empty => simpa using isFin_zero
  | insert a s ha ih =>
    rw [Finset.sum_insert ha]
    exact (hf a (Finset.mem_insert_self a s)).add
      (ih fun i hi => hf i (Finset.mem_insert_of_mem hi))

/-- A sum over a whole finite type of finite extended reals is finite. -/
theorem IsFin.sum_univ {ι : Type*} [Fintype ι] (f : ι → EReal) (hf : ∀ i, IsFin (f i)) :
    IsFin (∑ i, f i) :=
  IsFin.sum Finset.univ f fun i _ => hf i

/-- Reassociation of a vector–matrix–vector product over finite extended reals:
`∑ i, a i * (∑ j, h i j * w j) = ∑ j, (∑ i, a i * h i j) * w j` when every `a i`,
`h i j` and `w j` is finite.  (Read with `a` a fixed row of the left matrix and `w` a
fixed column of the right matrix, this is `A · (H · W) = (A · H) · W` entry by entry.) -/
theorem matmul_assoc {ι κ : Type*} [Fintype ι] [Fintype κ]
    (a : ι → EReal) (h : ι → κ → EReal) (w : κ → EReal)
    (ha : ∀ i, IsFin (a i)) (hh : ∀ i j, IsFin (h i j)) (hw : ∀ j, IsFin (w j)) :
    ∑ i, a i * (∑ j, h i j * w j) = ∑ j, (∑ i, a i * h i j) * w j := by
  choose a' ha' using ha
  choose h' hh' using hh
  choose w' hw' using hw
  obtain rfl : a = fun i => ((a' i : ℝ) : EReal) := funext ha'
  obtain rfl : h = fun i j => ((h' i j : ℝ) : EReal) := funext fun i => funext (hh' i)
  obtain rfl : w = fun j => ((w' j : ℝ) : EReal) := funext hw'
  simp only [← EReal.coe_mul, ← coe_sum]
  congr 1
  simp only [Finset.mul_sum, Finset.sum_mul]
  rw [Finset.sum_comm]
  simp only [mul_assoc]

/-- One block: adding a sum to a zero accumulator gives the sum. -/
theorem blocked_sum1 {n : ℕ} (f : Fin n → EReal) : 0 + ∑ k, f k = ∑ k, f k :=
  zero_add _

/-- Three blocks: accumulating the three block sums `∑ k, f 0 k`, `∑ k, f 1 k`, `∑ k, f 2 k`
one after the other onto a zero accumulator gives the sum over all pairs
`(block, position in block)`. -/
theorem blocked_sum3 (n : ℕ) (f : Fin 3 → Fin n → EReal) :
    ((0 + ∑ k, f 0 k) + ∑ k, f 1 k) + ∑ k, f 2 k = ∑ p : Fin 3 × Fin n, f p.1 p.2 := by
  rw [Fintype.sum_prod_type', Fin.sum_univ_three, zero_add]

/-- Any number `m` of blocks of length `n`: the sum over `Fin (m * n)` is the sum over blocks
`i : Fin m` of the sum over positions `k : Fin n`, where block `i`, position `k` is the flat
index `i * n + k`. -/
theorem blocked_sum_fin (m n : ℕ) (g : Fin (m * n) → EReal)
    (hlt : ∀ (i : Fin m) (k : Fin n), (i : ℕ) * n + (k : ℕ) < m * n) :
    ∑ i : Fin m, ∑ k : Fin n, g ⟨(i : ℕ) * n + (k : ℕ), hlt i k⟩ = ∑ j : Fin (m * n), g j := by
  rw [← (finProdFinEquiv (m := m) (n := n)).sum_comp g, Fintype.sum_prod_type]
  refine Finset.sum_congr rfl fun i _ => Finset.sum_congr rfl fun k _ => ?_
  congr 1
  apply Fin.ext
  simp [finProdFinEquiv, Nat.mul_comm, Nat.add_comm]

/-- Three blocks of length `n` over the flat index range `Fin (3 * n)`: block `b`
(`b = 0, 1, 2`), position `k : Fin n` is the flat index `b * n + k`, written literally as
`0 * n + k`, `1 * n + k`, `2 * n + k`.  Accumulating the three block sums one after the other
onto a zero accumulator gives the sum over the whole range. -/
theorem blocked_sum3_fin (n : ℕ) (g : Fin (3 * n) → EReal) :
    ((0 + ∑ k : Fin n, g ⟨0 * n + (k : ℕ), by omega⟩)
        + ∑ k : Fin n, g ⟨1 * n + (k : ℕ), by omega⟩)
        + ∑ k : Fin n, g ⟨2 * n + (k : ℕ), by omega⟩ = ∑ j : Fin (3 * n), g j := by
  have hlt : ∀ (i : Fin 3) (k : Fin n), (i : ℕ) * n + (k : ℕ) < 3 * n := by
    intro i k
    have hi : (i : ℕ) ≤ 2 := by omega
    have := Nat.mul_le_mul_right n hi
    omega
  rw [← blocked_sum_fin 3 n g hlt, Fin.sum_univ_three, zero_add]
  rfl

end Cert.LibERealMatmul
-- ==== Proof.KI_PoolRows.lean ====
import proofs.«181750_j70806830841988_1_alg».proof.Proof.Gen.KernelIdeal
import proofs.«181750_j70806830841988_1_alg».proof.Proof.KI_Payloads
import proofs.«181750_j70806830841988_1_alg».proof.Proof.Spec
import proofs.«181750_j70806830841988_1_alg».proof.Proof.LibERealMatmul
import Idealize.ShloMosaic.Lib.Pipeline.Value
import Idealize.ShloMosaic.Lib.ValueIdx
import Idealize.ShloMosaic.Lib.Ring
import Idealize.ShloMosaic.Lib.Tactic

/-!
# Three rows of a 3x64 accumulator; a sum over 100000 rows as 20 blocks of 5000

A pooling body keeps three running rows in a 3x64 buffer and rewrites it one 1x64 row at a time. What a list of row
writes leaves at entry (r, q) is the payload of row r at lane q, whatever was written before them. A sum over the
100000 rows of an array is the sum, over the 20 blocks of 5000 consecutive rows, of the blocks' sums: addition of
extended reals is commutative and associative, so no hypothesis is needed.
-/

noncomputable section

namespace Cert.KernelIdeal.HandValue

open Cert.KernelIdeal Cert.KernelIdeal.Gen Cert.Spec
open Idealize.ShloMosaic Idealize.ShloMosaic.ValueIdx

variable {F : FTy → Type} [FloatOps F]

/-- The zero offsets of a whole-buffer rectangle, as the constant function. -/
theorem pool_zero_offsets : (![0, 0] : Fin 2 → Nat) = fun _ => 0 := funext fun a => by fin_cases a <;> rfl

/-! ## The rows of the accumulator as rectangles -/

/-- The whole 3x64 buffer. -/
abbrev accWhole : Rect S3x64 := Rect.unit (s := S3x64) ![0, 0] ![3, 64] inb_S3x64_S3x64_0_0
/-- Row 0 of the 3x64 buffer, a 1x64 rectangle; -/
abbrev accRow0 : Rect S3x64 := Rect.unit (s := S3x64) ![0, 0] ![1, 64] inb_S3x64_S1x64_0_0
/-- row 1; -/
abbrev accRow1 : Rect S3x64 := Rect.unit (s := S3x64) ![1, 0] ![1, 64] inb_S3x64_S1x64_1_0
/-- row 2. -/
abbrev accRow2 : Rect S3x64 := Rect.unit (s := S3x64) ![2, 0] ![1, 64] inb_S3x64_S1x64_2_0

/-- Lane q of row 0 sits at (0, q); -/
theorem accRow0_emb (q : Fin 64) : accRow0.emb (ix2 (0 : Fin 1) q : S1x64.Idx) = (ix2 (0 : Fin 3) q : S3x64.Idx) :=
  funext fun a => Fin.ext (by
    match a with
    | ⟨0, _⟩ => rfl
    | ⟨1, _⟩ => show 0 + 1 * q.val = q.val; omega)
/-- of row 1 at (1, q); -/
theorem accRow1_emb (q : Fin 64) : accRow1.emb (ix2 (0 : Fin 1) q : S1x64.Idx) = (ix2 (1 : Fin 3) q : S3x64.Idx) :=
  funext fun a => Fin.ext (by
    match a with
    | ⟨0, _⟩ => rfl
    | ⟨1, _⟩ => show 0 + 1 * q.val = q.val; omega)
/-- of row 2 at (2, q). -/
theorem accRow2_emb (q : Fin 64) : accRow2.emb (ix2 (0 : Fin 1) q : S1x64.Idx) = (ix2 (2 : Fin 3) q : S3x64.Idx) :=
  funext fun a => Fin.ext (by
    match a with
    | ⟨0, _⟩ => rfl
    | ⟨1, _⟩ => show 0 + 1 * q.val = q.val; omega)

/-- An entry above row 1 is not in row 1; -/
theorem not_mem_accRow1 (r : Fin 3) (q : Fin 64) (h : r.val < 1) : (ix2 r q : S3x64.Idx) ∉ accRow1.set := by
  rw [Rect.mem_set_unit]
  intro hm
  have h1 : 1 ≤ r.val := (hm (0 : Fin 2)).1
  omega
/-- an entry above row 2 is not in row 2; -/
theorem not_mem_accRow2 (r : Fin 3) (q : Fin 64) (h : r.val < 2) : (ix2 r q : S3x64.Idx) ∉ accRow2.set := by
  rw [Rect.mem_set_unit]
  intro hm
  have h1 : 2 ≤ r.val := (hm (0 : Fin 2)).1
  omega
/-- an entry below row 0 is not in row 0. -/
theorem not_mem_accRow0 (r : Fin 3) (q : Fin 64) (h : 0 < r.val) : (ix2 r q : S3x64.Idx) ∉ accRow0.set := by
  rw [Rect.mem_set_unit]
  intro hm
  have h1 : r.val < 0 + 1 := (hm (0 : Fin 2)).2
  omega

/-- an entry below row 1 is not in row 1. -/
theorem not_mem_accRow1_of_gt (r : Fin 3) (q : Fin 64) (h : 1 < r.val) : (ix2 r q : S3x64.Idx) ∉ accRow1.set := by
  rw [Rect.mem_set_unit]
  intro hm
  have h1 : r.val < 1 + 1 := (hm (0 : Fin 2)).2
  omega

/-- Every entry is in the whole buffer. -/
theorem mem_accWhole (y : S3x64.Idx) : y ∈ accWhole.set := View.mem_set_unit_zero pool_zero_offsets _ y

/-- Read through a row, contents X give the row's lanes. -/
theorem ld_accRow0 (X : S3x64.Idx → Elt F .f32) (q : Fin 64) : View.ld X accRow0 (ix2 (0 : Fin 1) q) = X (ix2 0 q) :=
  congrArg X (accRow0_emb q)
theorem ld_accRow1 (X : S3x64.Idx → Elt F .f32) (q : Fin 64) : View.ld X accRow1 (ix2 (0 : Fin 1) q) = X (ix2 1 q) :=
  congrArg X (accRow1_emb q)
theorem ld_accRow2 (X : S3x64.Idx → Elt F .f32) (q : Fin 64) : View.ld X accRow2 (ix2 (0 : Fin 1) q) = X (ix2 2 q) :=
  congrArg X (accRow2_emb q)

/-! ## What three row writes leave -/

/-- After writes of rows 0, 1, 2 (in this order; earlier writes `L` underneath), entry (0, q) holds lane q of the
    payload written to row 0; -/
theorem canon_rows_row0 (p0 p1 p2 : S1x64.Idx → Elt F .f32) (L : List (View.Piece (Elt F) S3x64 .f32)) (q : Fin 64) :
    View.canon ((⟨accRow2, p2⟩ : View.Piece (Elt F) S3x64 .f32) :: ⟨accRow1, p1⟩ :: ⟨accRow0, p0⟩ :: L) (ix2 (0 : Fin 3) q)
      = p0 (ix2 (0 : Fin 1) q) := by
  rw [View.canon_cons_of_not_mem ⟨accRow2, p2⟩ _ (not_mem_accRow2 0 q (by decide)),
    View.canon_cons_of_not_mem ⟨accRow1, p1⟩ _ (not_mem_accRow1 0 q (by decide)), ← accRow0_emb q]
  exact View.canon_cons_emb accRow0 p0 L _
/-- entry (1, q) of the payload written to row 1; -/
theorem canon_rows_row1 (p0 p1 p2 : S1x64.Idx → Elt F .f32) (L : List (View.Piece (Elt F) S3x64 .f32)) (q : Fin 64) :
    View.canon ((⟨accRow2, p2⟩ : View.Piece (Elt F) S3x64 .f32) :: ⟨accRow1, p1⟩ :: ⟨accRow0, p0⟩ :: L) (ix2 (1 : Fin 3) q)
      = p1 (ix2 (0 : Fin 1) q) := by
  rw [View.canon_cons_of_not_mem ⟨accRow2, p2⟩ _ (not_mem_accRow2 1 q (by decide)), ← accRow1_emb q]
  exact View.canon_cons_emb accRow1 p1 _ _
/-- entry (2, q) of the payload written to row 2. -/
theorem canon_rows_row2 (p0 p1 p2 : S1x64.Idx → Elt F .f32) (L : List (View.Piece (Elt F) S3x64 .f32)) (q : Fin 64) :
    View.canon ((⟨accRow2, p2⟩ : View.Piece (Elt F) S3x64 .f32) :: ⟨accRow1, p1⟩ :: ⟨accRow0, p0⟩ :: L) (ix2 (2 : Fin 3) q)
      = p2 (ix2 (0 : Fin 1) q) := by
  rw [← accRow2_emb q]
  exact View.canon_cons_emb accRow2 p2 _ _

/-- The three together: entry (r, q) holds lane q of the payload written to row r. -/
theorem canon_rows_apply (p0 p1 p2 : S1x64.Idx → Elt F .f32) (L : List (View.Piece (Elt F) S3x64 .f32)) (r : Fin 3) (q : Fin 64) :
    View.canon ((⟨accRow2, p2⟩ : View.Piece (Elt F) S3x64 .f32) :: ⟨accRow1, p1⟩ :: ⟨accRow0, p0⟩ :: L) (ix2 r q)
      = sel3 r (p0 (ix2 (0 : Fin 1) q)) (p1 (ix2 (0 : Fin 1) q)) (p2 (ix2 (0 : Fin 1) q)) := by
  match r with
  | ⟨0, _⟩ => exact canon_rows_row0 p0 p1 p2 L q
  | ⟨1, _⟩ => exact canon_rows_row1 p0 p1 p2 L q
  | ⟨2, _⟩ => exact canon_rows_row2 p0 p1 p2 L q

/-- Three row writes tile the buffer, so they cover it. -/
theorem rows_cover (p0 p1 p2 : S1x64.Idx → Elt F .f32) (y : S3x64.Idx) :
    ∃ pc ∈ ([⟨accRow2, p2⟩, ⟨accRow1, p1⟩, ⟨accRow0, p0⟩] : List (View.Piece (Elt F) S3x64 .f32)), y ∈ pc.1.set :=
  View.cover_of_tiledL ([⟨accRow2, p2⟩, ⟨accRow1, p1⟩, ⟨accRow0, p0⟩] : List (View.Piece (Elt F) S3x64 .f32)) ![1, 64] (by sl_kernel_rfl) y

/-- Earlier writes ending with a write of the whole buffer cover it. -/
theorem whole_cover (w : S3x64.Idx → Elt F .f32) (y : S3x64.Idx) :
    ∃ pc ∈ ([⟨accWhole, w⟩] : List (View.Piece (Elt F) S3x64 .f32)), y ∈ pc.1.set :=
  ⟨_, List.mem_singleton_self _, mem_accWhole y⟩

/-! ## A row read back after the zero fill

At the first block the accumulator is filled whole with a value Z, and then each row is read and rewritten in turn. A row
read after the fill — and after rewrites of the rows before it, which do not touch it — reads Z's row. -/

/-- No entry of row 1 is in row 0; -/
theorem row1_not_mem_row0 (x : accRow1.shape.Idx) : accRow1.idx x ∉ accRow0.set := by
  rw [Rect.mem_set_unit]
  intro hm
  have h1 : 1 + 1 * (x (0 : Fin 2)).val < 0 + 1 := (hm (0 : Fin 2)).2
  omega
/-- no entry of row 2 is in row 0, -/
theorem row2_not_mem_row0 (x : accRow2.shape.Idx) : accRow2.idx x ∉ accRow0.set := by
  rw [Rect.mem_set_unit]
  intro hm
  have h1 : 2 + 1 * (x (0 : Fin 2)).val < 0 + 1 := (hm (0 : Fin 2)).2
  omega
/-- nor in row 1. -/
theorem row2_not_mem_row1 (x : accRow2.shape.Idx) : accRow2.idx x ∉ accRow1.set := by
  rw [Rect.mem_set_unit]
  intro hm
  have h1 : 2 + 1 * (x (0 : Fin 2)).val < 1 + 1 := (hm (0 : Fin 2)).2
  omega

/-- Row 0 read right after the fill; -/
theorem readCov_row0_after_fill {sig : RefSig} {κ : Kind} {sp : Space} (v : View sig κ sp S3x64 .f32) (Z : S3x64.Idx → Elt F .f32) :
    v.readCov ([⟨accWhole, Z⟩] : List (View.Piece (Elt F) S3x64 .f32)) accRow0.toLoadRect = View.ld Z accRow0 := by
  rw [View.readCov_eq_canon_ld v _ accRow0 (whole_cover Z), View.canon_unit_zero pool_zero_offsets]
/-- row 1 read after the fill and a rewrite of row 0; -/
theorem readCov_row1_after_fill {sig : RefSig} {κ : Kind} {sp : Space} (v : View sig κ sp S3x64 .f32) (Z : S3x64.Idx → Elt F .f32)
    (P0 : accRow0.shape.Idx → Elt F .f32) :
    v.readCov ([⟨accRow0, P0⟩, ⟨accWhole, Z⟩] : List (View.Piece (Elt F) S3x64 .f32)) accRow1.toLoadRect = View.ld Z accRow1 := by
  rw [View.readCov_eq_canon_ld v _ accRow1 (fun y => ⟨⟨accWhole, Z⟩, List.mem_cons_of_mem _ (List.mem_singleton_self _), mem_accWhole y⟩)]
  funext x
  show View.canon _ (accRow1.idx x) = Z (accRow1.idx x)
  rw [View.canon_cons_of_not_mem ⟨accRow0, P0⟩ _ (row1_not_mem_row0 x), View.canon_unit_zero pool_zero_offsets]
/-- row 2 read after the fill and rewrites of rows 0 and 1. -/
theorem readCov_row2_after_fill {sig : RefSig} {κ : Kind} {sp : Space} (v : View sig κ sp S3x64 .f32) (Z : S3x64.Idx → Elt F .f32)
    (P0 : accRow0.shape.Idx → Elt F .f32) (P1 : accRow1.shape.Idx → Elt F .f32) :
    v.readCov ([⟨accRow1, P1⟩, ⟨accRow0, P0⟩, ⟨accWhole, Z⟩] : List (View.Piece (Elt F) S3x64 .f32)) accRow2.toLoadRect = View.ld Z accRow2 := by
  rw [View.readCov_eq_canon_ld v _ accRow2 (fun y => ⟨⟨accWhole, Z⟩, List.mem_cons_of_mem _ (List.mem_cons_of_mem _ (List.mem_singleton_self _)), mem_accWhole y⟩)]
  funext x
  show View.canon _ (accRow2.idx x) = Z (accRow2.idx x)
  rw [View.canon_cons_of_not_mem ⟨accRow1, P1⟩ _ (row2_not_mem_row1 x), View.canon_cons_of_not_mem ⟨accRow0, P0⟩ _ (row2_not_mem_row0 x),
    View.canon_unit_zero pool_zero_offsets]

/-- The row r of three stacked columns, read at a row p: the entry of column r. -/
theorem sel3_apply {ι α : Type} (r : Fin 3) (f0 f1 f2 : ι → α) (j : ι) : sel3 r f0 f1 f2 j = sel3 r (f0 j) (f1 j) (f2 j) := by
  match r with
  | ⟨0, _⟩ => rfl
  | ⟨1, _⟩ => rfl
  | ⟨2, _⟩ => rfl

/-! ## A sum over 100000 rows as twenty blocks of 5000 -/

/-- Row p of block t is a row of the array. -/
theorem block_row_lt (t : ℕ) (ht : t < 20) (p : Fin 5000) : t * 5000 + p.val < 100000 := by
  have := p.isLt; omega

/-- The sum over the 100000 rows is the sum over the 20 blocks of the sums over each block's 5000 rows. -/
theorem sum_twenty_blocks (g : Fin 100000 → EReal) :
    ∑ t ∈ Finset.range 20, (if h : t < 20 then ∑ p : Fin 5000, g ⟨t * 5000 + p.val, block_row_lt t h p⟩ else 0)
      = ∑ j : Fin 100000, g j := by
  rw [Finset.sum_range]
  have hlt : ∀ (i : Fin 20) (k : Fin 5000), (i : ℕ) * 5000 + (k : ℕ) < 20 * 5000 := fun i k => block_row_lt i.val i.isLt k
  refine Eq.trans (Finset.sum_congr rfl fun i _ => ?_) (Cert.LibERealMatmul.blocked_sum_fin 20 5000 g hlt)
  rw [dif_pos i.isLt]

end Cert.KernelIdeal.HandValue

end
-- ==== Proof.KI_PoolBlocks.lean ====
import proofs.«181750_j70806830841988_1_alg».proof.Proof.KI_Pool1
import proofs.«181750_j70806830841988_1_alg».proof.Proof.KI_Payloads
import proofs.«181750_j70806830841988_1_alg».proof.Proof.Spec
import proofs.«181750_j70806830841988_1_alg».proof.Proof.LibERealMatmul
import Idealize.ShloMosaic.Lib.Pipeline.Value
import Idealize.ShloMosaic.Lib.ValueIdx

/-!
# The pooling pipeline 1: its input blocks as rows of the arrays

Pipeline 1 walks twenty row blocks of 5000 rows. At block `t` it holds rows `5000 t … 5000 t + 4999` of the
100000 x 64 activation array and the same rows of three 100000 x 1 mask columns. So row `p` of a block is row
`5000 t + p` of its array, and the lane-wise masked sum the body forms over a block is the part of the masked sum over
all 100000 rows that the block's rows contribute. The twenty blocks' parts add up to the whole sum, whatever the grouping:
addition of extended reals is commutative and associative.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

/-! ## The 100000 rows as twenty blocks of 5000 -/

/-- The sum of `f` over the rows of the first `n` blocks of 5000 consecutive rows. -/
def rowsBelow (f : Fin 100000 → EReal) (n : ℕ) (hn : n ≤ 20) : EReal :=
  ∑ t : Fin n, ∑ p : Fin 5000, f ⟨5000 * t.val + p.val, by have := t.isLt; have := p.isLt; omega⟩

/-- Over no block it is zero; -/
theorem rowsBelow_zero (f : Fin 100000 → EReal) (hn : 0 ≤ 20) : rowsBelow f 0 hn = 0 := by
  unfold rowsBelow
  exact Fin.sum_univ_zero _

/-- one block more adds that block's rows; -/
theorem rowsBelow_succ (f : Fin 100000 → EReal) (n : ℕ) (hn : n + 1 ≤ 20) :
    rowsBelow f (n + 1) hn = rowsBelow f n (by omega) + ∑ p : Fin 5000, f ⟨5000 * n + p.val, by have := p.isLt; omega⟩ := by
  unfold rowsBelow
  rw [Fin.sum_univ_castSucc]
  rfl

/-- and over all twenty blocks it is the sum over all 100000 rows: addition of extended reals is commutative and
    associative, so the rows may be grouped into consecutive blocks. -/
theorem rowsBelow_all (f : Fin 100000 → EReal) : rowsBelow f 20 le_rfl = ∑ i : Fin 100000, f i := by
  unfold rowsBelow
  have hlt : ∀ (i : Fin 20) (k : Fin 5000), (i : ℕ) * 5000 + (k : ℕ) < 20 * 5000 := fun i k => by
    have := i.isLt; have := k.isLt; omega
  refine Eq.trans (Finset.sum_congr rfl fun t _ => Finset.sum_congr rfl fun p _ => ?_)
    (Cert.LibERealMatmul.blocked_sum_fin 20 5000 f hlt)
  exact congrArg f (Fin.ext (by show 5000 * t.val + p.val = t.val * 5000 + p.val; omega))

/-! ## The summand of a masked sum -/

/-- Row `i`'s contribution to the masked sum of column `q`: the mask column `M` at row `i` times the activations `H` at
    `(i, q)`. -/
abbrev maskedTerm (M : S100000x1.Idx → EReal) (H : S100000x64.Idx → EReal) (q : Fin 64) : Fin 100000 → EReal :=
  fun i => M (ix2 i 0) * H (ix2 i q)

/-- The contribution under the mask picked by `r` among three is the one picked by `r` among the three contributions. -/
theorem maskedTerm_sel3 (r : Fin 3) (M0 M1 M2 : S100000x1.Idx → EReal) (H : S100000x64.Idx → EReal) (q : Fin 64) :
    maskedTerm (Cert.Spec.sel3 r M0 M1 M2) H q
      = Cert.Spec.sel3 r (maskedTerm M0 H q) (maskedTerm M1 H q) (maskedTerm M2 H q) := by
  match r with
  | ⟨0, _⟩ => rfl
  | ⟨1, _⟩ => rfl
  | ⟨2, _⟩ => rfl

/-- Summed over all rows, the contributions under mask `r` are the specification's masked sum of column `q` under mask row `r`. -/
theorem maskedTerm_sum_eq_poolAt (r : Fin 3) (M0 M1 M2 : S100000x1.Idx → EReal) (H : S100000x64.Idx → EReal) (q : Fin 64) :
    ∑ i : Fin 100000, maskedTerm (Cert.Spec.sel3 r M0 M1 M2) H q i
      = Cert.Spec.poolAt H (fun i => M0 (ix2 (i 0) 0)) (fun i => M1 (ix2 (i 0) 0)) (fun i => M2 (ix2 (i 0) 0)) r q := by
  unfold Cert.Spec.poolAt
  refine Finset.sum_congr rfl fun i _ => ?_
  match r with
  | ⟨0, _⟩ => rfl
  | ⟨1, _⟩ => rfl
  | ⟨2, _⟩ => rfl

/-- The masked sum over a block of 5000 rows, when the mask's rows and the activations' rows are rows
    `5000 n … 5000 n + 4999` of a mask column `M` and an activation array `H`, is the sum of those rows' contributions. -/
theorem colsum_of_rows (M : S100000x1.Idx → EReal) (H : S100000x64.Idx → EReal) (mk : Vec Ideal S5000x1 .f32) (h : Vec Ideal S5000x64 .f32)
    (n : ℕ) (hn : n < 20)
    (hm : ∀ p : Fin 5000, mk (ix2 p 0) = M (ix2 ⟨5000 * n + p.val, by omega⟩ 0))
    (hh : ∀ (p : Fin 5000) (q : Fin 64), h (ix2 p q) = H (ix2 ⟨5000 * n + p.val, by omega⟩ q)) (q : Fin 64) :
    colsum mk h q = ∑ p : Fin 5000, maskedTerm M H q ⟨5000 * n + p.val, by omega⟩ := by
  unfold colsum
  exact Finset.sum_congr rfl fun p _ => congrArg₂ (· * ·) (hm p) (hh p q)

-- the contents of the core's buffers when the pipeline starts
variable (V : (c : Dev nD) → (b : Ref sig .tc) → Buf (Elt Ideal) ((c : Thread nD τ).loc b))

/-! ## Where each input window's block sits -/

/-- The block indices, decided over the twenty points: the activation window and the three mask windows are at row
    block `t`, column block 0. -/
theorem pool_block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- There are twenty points. -/
theorem pool_point_lt1 (t : Fin cfg1.N) : t.val < 20 := lt_of_lt_of_eq t.isLt (N_1 : cfg1.N = 20)

/-! ## The blocks, read -/

/-- Row `p` of the activation block at point `t` is row `5000 t + p` of the activation array. -/
theorem pool_rows1 (c : Dev nD) (t : Fin cfg1.N) (ht : t.val < 20) (p : Fin 5000) (q : Fin 64) :
    (iblk1 V c 0 t : Vec Ideal S5000x64 .f32) (ix2 p q)
      = (V c main_v28 : S100000x64.Idx → EReal) (ix2 ⟨5000 * t.val + p.val, by omega⟩ q) := by
  obtain ⟨e0, e1, -⟩ := pool_block_indices1 t
  unfold iblk1
  rw [View.read_apply]
  show V c main_v28 _ = V c main_v28 _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 64 + 1 * q.val = q.val; rw [e1]; omega

/-- Row `p` of the first mask's block at point `t` is row `5000 t + p` of the first mask column, -/
theorem pool_mask1_1 (c : Dev nD) (t : Fin cfg1.N) (ht : t.val < 20) (p : Fin 5000) :
    (iblk1 V c 1 t : Vec Ideal S5000x1 .f32) (ix2 p 0)
      = (V c main_v3 : S100000x1.Idx → EReal) (ix2 ⟨5000 * t.val + p.val, by omega⟩ 0) := by
  obtain ⟨-, -, e0, e1, -⟩ := pool_block_indices1 t
  unfold iblk1
  rw [View.read_apply]
  show V c main_v3 _ = V c main_v3 _
  congr 1
  funext a
  apply Fin.ext
  match a with
  | ⟨0, _⟩ => show win1_1.index t (0 : Fin 2) * 5000 + 1 * p.val = 5000 * t.val + p.val; rw [e0]; omega
  | ⟨1, _⟩ => show win1_1.index t (1 : Fin 2) * 1 + 1 * 0 = 0; rw [e1]

/-- of the second mask's block, of the second mask column, -/
theorem pool_mask1_2 (c : Dev nD) (t : Fin cfg1.N) (ht : t.val < 20) (p : Fin 5000) :
    (iblk1 V c 2 t : Vec Ideal S5000x1 .f32) (ix2 p 0)
      = (V c main_v5 : S100000x1.Idx → EReal) (ix2 ⟨5000 * t.val + p.val, by omega⟩ 0) := by
  obtain ⟨-, -, -, -, e0, e1, -⟩ := pool_block_indices1 t
  unfold iblk1
  rw [View.read_apply]
  show V c main_v5 _ = V c main_v5 _
  congr 1
  funext a
  apply Fin.ext
  match a with
  | ⟨0, _⟩ => show win1_2.index t (0 : Fin 2) * 5000 + 1 * p.val = 5000 * t.val + p.val; rw [e0]; omega
  | ⟨1, _⟩ => show win1_2.index t (1 : Fin 2) * 1 + 1 * 0 = 0; rw [e1]

/-- and of the third mask's block, of the third mask column. -/
theorem pool_mask1_3 (c : Dev nD) (t : Fin cfg1.N) (ht : t.val < 20) (p : Fin 5000) :
    (iblk1 V c 3 t : Vec Ideal S5000x1 .f32) (ix2 p 0)
      = (V c main_v7 : S100000x1.Idx → EReal) (ix2 ⟨5000 * t.val + p.val, by omega⟩ 0) := by
  obtain ⟨-, -, -, -, -, -, e0, e1⟩ := pool_block_indices1 t
  unfold iblk1
  rw [View.read_apply]
  show V c main_v7 _ = V c main_v7 _
  congr 1
  funext a
  apply Fin.ext
  match a with
  | ⟨0, _⟩ => show win1_3.index t (0 : Fin 2) * 5000 + 1 * p.val = 5000 * t.val + p.val; rw [e0]; omega
  | ⟨1, _⟩ => show win1_3.index t (1 : Fin 2) * 1 + 1 * 0 = 0; rw [e1]

/-! ## A block's masked sums -/

/-- The first mask's sum over the block at point `t` is the contributions of rows `5000 t … 5000 t + 4999` under the
    first mask column, -/
theorem colsum_block1_1 (c : Dev nD) (t : Fin cfg1.N) (ht : t.val < 20) (q : Fin 64) :
    colsum (iblk1 V c 1 t) (iblk1 V c 0 t) q
      = ∑ p : Fin 5000, maskedTerm (V c main_v3) (V c main_v28) q ⟨5000 * t.val + p.val, by omega⟩ :=
  colsum_of_rows (V c main_v3) (V c main_v28) _ _ t.val ht (pool_mask1_1 V c t ht) (pool_rows1 V c t ht) q

/-- the second mask's under the second, -/
theorem colsum_block1_2 (c : Dev nD) (t : Fin cfg1.N) (ht : t.val < 20) (q : Fin 64) :
    colsum (iblk1 V c 2 t) (iblk1 V c 0 t) q
      = ∑ p : Fin 5000, maskedTerm (V c main_v5) (V c main_v28) q ⟨5000 * t.val + p.val, by omega⟩ :=
  colsum_of_rows (V c main_v5) (V c main_v28) _ _ t.val ht (pool_mask1_2 V c t ht) (pool_rows1 V c t ht) q

/-- and the third mask's under the third. -/
theorem colsum_block1_3 (c : Dev nD) (t : Fin cfg1.N) (ht : t.val < 20) (q : Fin 64) :
    colsum (iblk1 V c 3 t) (iblk1 V c 0 t) q
      = ∑ p : Fin 5000, maskedTerm (V c main_v7) (V c main_v28) q ⟨5000 * t.val + p.val, by omega⟩ :=
  colsum_of_rows (V c main_v7) (V c main_v28) _ _ t.val ht (pool_mask1_3 V c t ht) (pool_rows1 V c t ht) q

end Cert.KernelIdeal.HandValue

end
-- ==== Proof.KI_PoolArray1.lean ====
import proofs.«181750_j70806830841988_1_alg».proof.Proof.KI_Pool1
import proofs.«181750_j70806830841988_1_alg».proof.Proof.KI_PoolRows
import proofs.«181750_j70806830841988_1_alg».proof.Proof.KI_PoolBlocks
import proofs.«181750_j70806830841988_1_alg».proof.Proof.KI_Payloads
import proofs.«181750_j70806830841988_1_alg».proof.Proof.Spec
import Idealize.ShloMosaic.Lib.Pipeline.Value
import Idealize.ShloMosaic.Lib.ValueIdx
import Idealize.ShloMosaic.Lib.Tactic

/-!
# The pooling call 1: the array it leaves

The call walks the 20 blocks of 5000 rows of the activations h (100000 x 64) and of three mask columns m₀, m₁, m₂
(100000 x 1 each). It keeps three running rows in a 3x64 accumulator: at the first block the accumulator is set to
zero; at every block t, row r gains  Σ_p m_r[5000 t + p] · h[5000 t + p, q]  at lane q; at the last block the
accumulator is copied to the 3x64 output, which is written back then and only then.

So after block n the accumulator holds at (r, q) the sum of m_r · h[·, q] over the first 5000 (n + 1) rows (by
induction on n: zero plus the first block's sum, then one more block's sum each time), after the last block the sum
over all 100000 rows, and that is what the output array ends holding: the masked sums of the specification. Sums of
extended reals may be regrouped freely, so nothing is assumed of the entries.
-/

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

/-! ## What each case's stores leave, as rows over payloads -/

section Pieces
variable {F : FTy → Type} [FloatOps F]

/-- A block between the first and the last rewrites the three rows of the accumulator, each from what the row held. -/
theorem sout1_B_rows (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : ¬cond1_1 i)
    (x0 : Vec F S5000x64 .f32) (x1 : Vec F S5000x1 .f32) (x2 : Vec F S5000x1 .f32) (x3 : Vec F S5000x1 .f32) (xs0 : Vec F S3x64 .f32) :
    sout1_B_0 c i arg1 harg1 arg2 harg2 arg3 harg3 arg4 harg4 arg5 harg5 arg6 harg6 hc0 hc1 x0 x1 x2 x3 xs0 = View.canon ([⟨accRow2, k1_pay1 (k1_pay4 x0 x3) (View.ld xs0 accRow2)⟩, ⟨accRow1, k1_pay6 x0 x2 (View.ld xs0 accRow1)⟩, ⟨accRow0, k1_pay5 x0 x1 (View.ld xs0 accRow0)⟩] : List (View.Piece (Elt F) S3x64 .f32)) := by
  unfold sout1_B_0
  rw [View.read_writes_eq_canon _ _ _ (scover1_B_0 c i arg1 harg1 arg2 harg2 arg3 harg3 arg4 harg4 arg5 harg5 arg6 harg6 hc0 hc1 x0 x1 x2 x3 xs0)]
  unfold kernelRun1_B
  dsimp only
  sl_unfold_words
  simp only [View.readAt_eq_ld, harg1.read_unread, harg2.read_unread, harg3.read_unread, harg4.read_unread, harg6.read_unread,
    View.ld_unit_zero (S := S5000x64) pool_zero_offsets, View.ld_unit_zero (S := S5000x1) pool_zero_offsets]

/-- The last block does the same to the accumulator, -/
theorem sout1_C_rows (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : cond1_1 i)
    (x0 : Vec F S5000x64 .f32) (x1 : Vec F S5000x1 .f32) (x2 : Vec F S5000x1 .f32) (x3 : Vec F S5000x1 .f32) (xs0 : Vec F S3x64 .f32) :
    sout1_C_0 c i arg1 harg1 arg2 harg2 arg3 harg3 arg4 harg4 arg5 harg5 arg6 harg6 hc0 hc1 x0 x1 x2 x3 xs0 = View.canon ([⟨accRow2, k1_pay1 (k1_pay4 x0 x3) (View.ld xs0 accRow2)⟩, ⟨accRow1, k1_pay6 x0 x2 (View.ld xs0 accRow1)⟩, ⟨accRow0, k1_pay5 x0 x1 (View.ld xs0 accRow0)⟩] : List (View.Piece (Elt F) S3x64 .f32)) := by
  unfold sout1_C_0
  rw [View.read_writes_eq_canon _ _ _ (scover1_C_0 c i arg1 harg1 arg2 harg2 arg3 harg3 arg4 harg4 arg5 harg5 arg6 harg6 hc0 hc1 x0 x1 x2 x3 xs0)]
  unfold kernelRun1_C
  dsimp only
  sl_unfold_words
  simp only [View.readAt_eq_ld, harg1.read_unread, harg2.read_unread, harg3.read_unread, harg4.read_unread, harg6.read_unread,
    View.ld_unit_zero (S := S5000x64) pool_zero_offsets, View.ld_unit_zero (S := S5000x1) pool_zero_offsets]

/-- and copies the accumulator, read whole after its three row writes, to the output. -/
theorem out1_C_rows (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : cond1_1 i)
    (x0 : Vec F S5000x64 .f32) (x1 : Vec F S5000x1 .f32) (x2 : Vec F S5000x1 .f32) (x3 : Vec F S5000x1 .f32) (xs0 : Vec F S3x64 .f32) :
    out1_C_4 c i arg1 harg1 arg2 harg2 arg3 harg3 arg4 harg4 arg5 harg5 arg6 harg6 hc0 hc1 x0 x1 x2 x3 xs0 = View.canon ([⟨accRow2, k1_pay1 (k1_pay4 x0 x3) (View.ld xs0 accRow2)⟩, ⟨accRow1, k1_pay6 x0 x2 (View.ld xs0 accRow1)⟩, ⟨accRow0, k1_pay5 x0 x1 (View.ld xs0 accRow0)⟩] : List (View.Piece (Elt F) S3x64 .f32)) := by
  unfold out1_C_4
  rw [View.read_writes_eq_canon _ _ _ (cover1_C_4 c i arg1 harg1 arg2 harg2 arg3 harg3 arg4 harg4 arg5 harg5 arg6 harg6 hc0 hc1 x0 x1 x2 x3 xs0)]
  unfold kernelRun1_C
  dsimp only
  sl_unfold_words
  simp only [View.readAt_eq_ld, harg1.read_unread, harg2.read_unread, harg3.read_unread, harg4.read_unread, harg6.read_unread,
    View.ld_unit_zero (S := S5000x64) pool_zero_offsets, View.ld_unit_zero (S := S5000x1) pool_zero_offsets]
  rw [View.canon_unit_zero pool_zero_offsets, View.readCov_eq_canon_ld _ _ _ (rows_cover _ _ _), View.ld_unit_zero (S := S3x64) pool_zero_offsets]

end Pieces

/-! ## The same, read at an entry over the extended reals -/

/-- A block between the first and the last adds, to row r of the accumulator, mask r's sum over the block. -/
theorem sout1_B_apply (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : ¬cond1_1 i)
    (x0 : Vec Ideal S5000x64 .f32) (x1 : Vec Ideal S5000x1 .f32) (x2 : Vec Ideal S5000x1 .f32) (x3 : Vec Ideal S5000x1 .f32) (xs0 : Vec Ideal S3x64 .f32) (r : Fin 3) (q : Fin 64) :
    sout1_B_0 (F := Ideal) c i arg1 harg1 arg2 harg2 arg3 harg3 arg4 harg4 arg5 harg5 arg6 harg6 hc0 hc1 x0 x1 x2 x3 xs0 (ix2 r q)
      = (xs0 (ix2 r q) : EReal) + sel3 r (colsum x1 x0 q) (colsum x2 x0 q) (colsum x3 x0 q) := by
  rw [sout1_B_rows]
  refine (canon_rows_apply _ _ _ [] r q).trans ?_
  match r with
  | ⟨0, _⟩ => exact (pay1_row0 x0 x1 _ q).trans (congrArg (· + colsum x1 x0 q) (ld_accRow0 xs0 q))
  | ⟨1, _⟩ => exact (pay1_row1 x0 x2 _ q).trans (congrArg (· + colsum x2 x0 q) (ld_accRow1 xs0 q))
  | ⟨2, _⟩ => exact (pay1_row2b (k1_pay4 x0 x3) _ q).trans (congrArg₂ (· + ·) (ld_accRow2 xs0 q) (pay1_row2a x0 x3 q))

/-- The last block does the same to the accumulator, -/
theorem sout1_C_apply (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : cond1_1 i)
    (x0 : Vec Ideal S5000x64 .f32) (x1 : Vec Ideal S5000x1 .f32) (x2 : Vec Ideal S5000x1 .f32) (x3 : Vec Ideal S5000x1 .f32) (xs0 : Vec Ideal S3x64 .f32) (r : Fin 3) (q : Fin 64) :
    sout1_C_0 (F := Ideal) c i arg1 harg1 arg2 harg2 arg3 harg3 arg4 harg4 arg5 harg5 arg6 harg6 hc0 hc1 x0 x1 x2 x3 xs0 (ix2 r q)
      = (xs0 (ix2 r q) : EReal) + sel3 r (colsum x1 x0 q) (colsum x2 x0 q) (colsum x3 x0 q) := by
  rw [sout1_C_rows]
  refine (canon_rows_apply _ _ _ [] r q).trans ?_
  match r with
  | ⟨0, _⟩ => exact (pay1_row0 x0 x1 _ q).trans (congrArg (· + colsum x1 x0 q) (ld_accRow0 xs0 q))
  | ⟨1, _⟩ => exact (pay1_row1 x0 x2 _ q).trans (congrArg (· + colsum x2 x0 q) (ld_accRow1 xs0 q))
  | ⟨2, _⟩ => exact (pay1_row2b (k1_pay4 x0 x3) _ q).trans (congrArg₂ (· + ·) (ld_accRow2 xs0 q) (pay1_row2a x0 x3 q))

/-- and leaves the same in the output. -/
theorem out1_C_apply (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond1_0 i) (hc1 : cond1_1 i)
    (x0 : Vec Ideal S5000x64 .f32) (x1 : Vec Ideal S5000x1 .f32) (x2 : Vec Ideal S5000x1 .f32) (x3 : Vec Ideal S5000x1 .f32) (xs0 : Vec Ideal S3x64 .f32) (r : Fin 3) (q : Fin 64) :
    out1_C_4 (F := Ideal) c i arg1 harg1 arg2 harg2 arg3 harg3 arg4 harg4 arg5 harg5 arg6 harg6 hc0 hc1 x0 x1 x2 x3 xs0 (ix2 r q)
      = (xs0 (ix2 r q) : EReal) + sel3 r (colsum x1 x0 q) (colsum x2 x0 q) (colsum x3 x0 q) := by
  rw [out1_C_rows]
  refine (canon_rows_apply _ _ _ [] r q).trans ?_
  match r with
  | ⟨0, _⟩ => exact (pay1_row0 x0 x1 _ q).trans (congrArg (· + colsum x1 x0 q) (ld_accRow0 xs0 q))
  | ⟨1, _⟩ => exact (pay1_row1 x0 x2 _ q).trans (congrArg (· + colsum x2 x0 q) (ld_accRow1 xs0 q))
  | ⟨2, _⟩ => exact (pay1_row2b (k1_pay4 x0 x3) _ q).trans (congrArg₂ (· + ·) (ld_accRow2 xs0 q) (pay1_row2a x0 x3 q))

/-- The first block sets the accumulator to zero and then adds: row r ends at mask r's sum over the block. Each row is
    read back after the zero fill (and the rows written before it, which do not touch it): it reads zero. -/
theorem sout1_A_apply (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond1_0 i) (hc1 : ¬cond1_1 i)
    (x0 : Vec Ideal S5000x64 .f32) (x1 : Vec Ideal S5000x1 .f32) (x2 : Vec Ideal S5000x1 .f32) (x3 : Vec Ideal S5000x1 .f32) (r : Fin 3) (q : Fin 64) :
    sout1_A_0 (F := Ideal) c i arg1 harg1 arg2 harg2 arg3 harg3 arg4 harg4 arg5 harg5 arg6 harg6 hc0 hc1 x0 x1 x2 x3 (ix2 r q) = sel3 r (colsum x1 x0 q) (colsum x2 x0 q) (colsum x3 x0 q) := by
  unfold sout1_A_0
  rw [View.read_writes_eq_canon _ _ _ (scover1_A_0 c i arg1 harg1 arg2 harg2 arg3 harg3 arg4 harg4 arg5 harg5 arg6 harg6 hc0 hc1 x0 x1 x2 x3)]
  unfold kernelRun1_A
  dsimp only
  sl_unfold_words
  simp only [View.readAt_eq_ld, harg1.read_unread, harg2.read_unread, harg3.read_unread, harg4.read_unread, harg6.read_unread,
    View.ld_unit_zero (S := S5000x64) pool_zero_offsets, View.ld_unit_zero (S := S5000x1) pool_zero_offsets]
  refine (canon_rows_apply _ _ _ _ r q).trans ?_
  match r with
  | ⟨0, _⟩ =>
    refine (pay1_row0 x0 x1 _ q).trans ?_
    rw [readCov_row0_after_fill (F := Ideal), ld_accRow0 (F := Ideal), pay1_zero]
    exact zero_add _
  | ⟨1, _⟩ =>
    refine (pay1_row1 x0 x2 _ q).trans ?_
    rw [readCov_row1_after_fill (F := Ideal), ld_accRow1 (F := Ideal), pay1_zero]
    exact zero_add _
  | ⟨2, _⟩ =>
    refine (pay1_row2b (k1_pay4 x0 x3) _ q).trans ?_
    rw [readCov_row2_after_fill (F := Ideal), ld_accRow2 (F := Ideal), pay1_zero, pay1_row2a]
    exact zero_add _

/-! ## The accumulator after each block -/

-- the contents of the core's buffers when the call starts
variable (V : (c : Dev nD) → (b : Ref sig .tc) → Buf (Elt Ideal) ((c : Thread nD τ).loc b))

/-- Mask r's sum over block t, from the blocks the windows hold there, is the block's part of the sum over all rows. -/
theorem block_part1 (c : Dev nD) (t : Fin cfg1.N) (r : Fin 3) (q : Fin 64) :
    sel3 r (colsum (iblk1 V c 1 t) (iblk1 V c 0 t) q) (colsum (iblk1 V c 2 t) (iblk1 V c 0 t) q) (colsum (iblk1 V c 3 t) (iblk1 V c 0 t) q)
      = ∑ p : Fin 5000, (maskedTerm (sel3 r (V c main_v3) (V c main_v5) (V c main_v7)) (V c main_v28) q) ⟨5000 * t.val + p.val, by have := pool_point_lt1 t; have := p.isLt; omega⟩ := by
  match r with
  | ⟨0, _⟩ => exact colsum_block1_1 V c t (pool_point_lt1 t) q
  | ⟨1, _⟩ => exact colsum_block1_2 V c t (pool_point_lt1 t) q
  | ⟨2, _⟩ => exact colsum_block1_3 V c t (pool_point_lt1 t) q

/-- THE RUNNING SUMS. After block n the accumulator holds at (r, q) the sum of m_r · h[·, q] over the first
    5000 (n + 1) rows — by induction on the block. -/
theorem acc_after1 (c : Dev nD) : ∀ (n : ℕ) (h : n < cfg1.N) (r : Fin 3) (q : Fin 64),
    (outsAt1 V c n h).2 (ix2 r q) = rowsBelow (maskedTerm (sel3 r (V c main_v3) (V c main_v5) (V c main_v7)) (V c main_v28) q) (n + 1) (by have : cfg1.N = 20 := N_1; omega)
  | 0, h, r, q => by
    rw [outsAt1_A V c ⟨0, h⟩ (Nat.zero_mod _) (by show ¬(0 % 20 = 19); decide)]
    dsimp only
    rw [sout1_A_apply, rowsBelow_succ, rowsBelow_zero, zero_add]
    exact block_part1 V c ⟨0, h⟩ r q
  | n + 1, h, r, q => by
    have hN : cfg1.N = 20 := N_1
    have h0 : ¬(⟨n + 1, h⟩ : Fin cfg1.N).val % 20 = 0 := by dsimp only; omega
    have ih := acc_after1 c n (Nat.lt_of_succ_lt h) r q
    rw [rowsBelow_succ]
    by_cases h1 : (⟨n + 1, h⟩ : Fin cfg1.N).val % 20 = 19
    · rw [outsAt1_C V c ⟨n + 1, h⟩ h0 h1]
      dsimp only
      rw [sout1_C_apply]
      exact congrArg₂ (· + ·) ih (block_part1 V c ⟨n + 1, h⟩ r q)
    · rw [outsAt1_B V c ⟨n + 1, h⟩ h0 h1]
      dsimp only
      rw [sout1_B_apply]
      exact congrArg₂ (· + ·) ih (block_part1 V c ⟨n + 1, h⟩ r q)

/-- After the last block the output's buffer holds at (r, q) the same sum as the accumulator. -/
theorem out_after1 (c : Dev nD) : ∀ (n : ℕ) (h : n < cfg1.N) (h1 : n % 20 = 19) (r : Fin 3) (q : Fin 64),
    (outsAt1 V c n h).1 (ix2 r q) = rowsBelow (maskedTerm (sel3 r (V c main_v3) (V c main_v5) (V c main_v7)) (V c main_v28) q) (n + 1) (by have : cfg1.N = 20 := N_1; omega)
  | 0, h, h1, r, q => absurd h1 (by decide)
  | n + 1, h, h1, r, q => by
    have hN : cfg1.N = 20 := N_1
    have h0 : ¬(⟨n + 1, h⟩ : Fin cfg1.N).val % 20 = 0 := by dsimp only; omega
    rw [outsAt1_C V c ⟨n + 1, h⟩ h0 h1]
    dsimp only
    rw [out1_C_apply, rowsBelow_succ]
    exact congrArg₂ (· + ·) (acc_after1 V c n (Nat.lt_of_succ_lt h) r q) (block_part1 V c ⟨n + 1, h⟩ r q)

/-- Over all twenty blocks the sum is the sum over all rows, however the count is written. -/
theorem rowsBelow_twenty1 (f : Fin 100000 → EReal) (n : ℕ) (hn : n ≤ 20) (e : n = 20) : rowsBelow f n hn = ∑ i : Fin 100000, f i := by
  subst e
  exact rowsBelow_all f

/-! ## The array after the call -/

/-- The masked sums of the arrays as the call finds them: what the output array is to hold. -/
abbrev pooled1 (c : Dev nD) : S3x64.Idx → EReal :=
  Cert.Spec.pool (V c main_v28) (fun i => V c main_v3 (ix2 (i 0) 0)) (fun i => V c main_v5 (ix2 (i 0) 0)) (fun i => V c main_v7 (ix2 (i 0) 0))

/-- The output window's one block sits at block index (0, 0) at every point: it is the whole 3x64 array. -/
theorem out_index1 : ∀ t : Fin cfg1.N, win1_4.index t (0 : Fin 2) = 0 ∧ win1_4.index t (1 : Fin 2) = 0 :=
  (by decide +kernel : ∀ t : Fin grid1.N, _)

/-- Entry (r, q) of the output block sits at (r, q) of the output array. -/
theorem out_emb1 (t : Fin cfg1.N) (r : Fin 3) (q : Fin 64) :
    ((cfg1.win 4).blk t).view.emb (ix2 r q) = (ix2 r q : S3x64.Idx) := by
  obtain ⟨e0, e1⟩ := out_index1 t
  funext a
  apply Fin.ext
  match a with
  | ⟨0, _⟩ => show win1_4.index t (0 : Fin 2) * 3 + 1 * r.val = r.val; rw [e0]; omega
  | ⟨1, _⟩ => show win1_4.index t (1 : Fin 2) * 64 + 1 * q.val = q.val; rw [e1]; omega

/-- What the output's buffer holds after the last block, at an index of the block, is the masked sum at the index's
    place in the output array. -/
theorem flushed_at1 (c : Dev nD) (t : Fin cfg1.N) (h19 : t.val % 20 = 19) (j : S3x64.Idx) :
    (outsAt1 V c t.val t.isLt).1 j = pooled1 V c (((cfg1.win 4).blk t).view.emb j) := by
  have hlt : t.val < 20 := pool_point_lt1 t
  obtain ⟨r, q, rfl⟩ : ∃ (r : Fin 3) (q : Fin 64), j = ix2 r q := ⟨j 0, j 1, eq_ix2 j⟩
  rw [out_emb1 t r q, out_after1 V c t.val t.isLt h19 r q, rowsBelow_twenty1 _ _ _ (by omega)]
  exact maskedTerm_sum_eq_poolAt r (V c main_v3) (V c main_v5) (V c main_v7) (V c main_v28) q

/-- When the output's buffer after point t holds, index by index, a function G of the place in the output array, what
    point t writes back is its block of G (G is kept a variable: nothing of it is unfolded). -/
theorem flushed_of_pointwise1 (G : S3x64.Idx → EReal) (c : Dev nD) (t : Fin cfg1.N)
    (hG : ∀ j : S3x64.Idx, (outsAt1 V c t.val t.isLt).1 j = G (((cfg1.win 4).blk t).view.emb j)) :
    (dat1 V c).flushed 4 t = ((cfg1.win 4).blk t).view.read (Elt Ideal) G := by
  show (cfg1.win 4).cut (grid1.coords t) ((dat1 V c).after 4 t) = _
  rw [after1_4]
  funext j
  exact hG j

/-- WHAT IS WRITTEN BACK, at the one point that writes back (the last), is the masked sums. -/
theorem flushed1_eq (c : Dev nD) (t : Fin cfg1.N) (hf : (cfg1.win 4).flush t = true) :
    (dat1 V c).flushed 4 t = ((cfg1.win 4).blk t).view.read (Elt Ideal) (pooled1 V c) :=
  flushed_of_pointwise1 V (pooled1 V c) c t (flushed_at1 V c t ((flush1_4 t).mp hf))

/-- The last point's block covers the whole output array. -/
theorem cover1 (i : S3x64.Idx) : ∃ t : Fin cfg1.N, (cfg1.win 4).flush t = true ∧ i ∈ ((cfg1.win 4).blk t).view.set := by
  have h19lt : 19 < cfg1.N := lt_of_lt_of_eq (by decide) (N_1 : cfg1.N = 20).symm
  have hi0 : (i 0).val < 3 := (i 0).isLt
  have hi1 : (i 1).val < 64 := (i 1).isLt
  obtain ⟨e0, e1⟩ := out_index1 ⟨19, h19lt⟩
  refine ⟨⟨19, h19lt⟩, (flush1_4 _).mpr rfl, ?_⟩
  show i ∈ ((View.whole main_v29).slice (win1_4.rect ⟨19, h19lt⟩)).set
  rw [View.set_slice_whole, Rect.mem_set_unit]
  intro a
  match a with
  | ⟨0, _⟩ => show win1_4.index ⟨19, h19lt⟩ (0 : Fin 2) * 3 ≤ (i 0).val ∧ (i 0).val < win1_4.index ⟨19, h19lt⟩ (0 : Fin 2) * 3 + 3; rw [e0]; omega
  | ⟨1, _⟩ => show win1_4.index ⟨19, h19lt⟩ (1 : Fin 2) * 64 ≤ (i 1).val ∧ (i 1).val < win1_4.index ⟨19, h19lt⟩ (1 : Fin 2) * 64 + 64; rw [e1]; omega

/-- THE OUTPUT ARRAY after the twenty points holds the masked sums of the arrays as the call found them. -/
theorem pool1_array (c : Dev nD) : (dat1 V c).arrAt 4 cfg1.N
    = (Cert.Spec.pool (V c main_v28) (fun i => V c main_v3 (ix2 (i 0) 0)) (fun i => V c main_v5 (ix2 (i 0) 0)) (fun i => V c main_v7 (ix2 (i 0) 0)) : S3x64.Idx → EReal) :=
  (dat1 V c).arrAt_eq_of_cover 4 (pooled1 V c) (flushed1_eq V c) cover1

end Cert.KernelIdeal.HandValue

end
-- ==== Proof.KI_PoolBlocks3.lean ====
import proofs.«181750_j70806830841988_1_alg».proof.Proof.KI_Pool3
import proofs.«181750_j70806830841988_1_alg».proof.Proof.KI_PoolBlocks

/-!
# The pooling pipeline 3: its input blocks as rows of the arrays

Pipeline 3 walks twenty row blocks of 5000 rows. At block `t` it holds rows `5000 t … 5000 t + 4999` of the
100000 x 64 activation array and the same rows of three 100000 x 1 mask columns. So row `p` of a block is row
`5000 t + p` of its array, and the lane-wise masked sum the body forms over a block is the part of the masked sum over
all 100000 rows that the block's rows contribute.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

-- the contents of the core's buffers when the pipeline starts
variable (V : (c : Dev nD) → (b : Ref sig .tc) → Buf (Elt Ideal) ((c : Thread nD τ).loc b))

/-! ## Where each input window's block sits -/

/-- The block indices, decided over the twenty points: the activation window and the three mask windows are at row
    block `t`, column block 0. -/
theorem pool_block_indices3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- There are twenty points. -/
theorem pool_point_lt3 (t : Fin cfg3.N) : t.val < 20 := lt_of_lt_of_eq t.isLt (N_3 : cfg3.N = 20)

/-! ## The blocks, read -/

/-- Row `p` of the activation block at point `t` is row `5000 t + p` of the activation array. -/
theorem pool_rows3 (c : Dev nD) (t : Fin cfg3.N) (ht : t.val < 20) (p : Fin 5000) (q : Fin 64) :
    (iblk3 V c 0 t : Vec Ideal S5000x64 .f32) (ix2 p q)
      = (V c main_v54 : S100000x64.Idx → EReal) (ix2 ⟨5000 * t.val + p.val, by omega⟩ q) := by
  obtain ⟨e0, e1, -⟩ := pool_block_indices3 t
  unfold iblk3
  rw [View.read_apply]
  show V c main_v54 _ = V c main_v54 _
  congr 1
  funext a
  apply Fin.ext
  match a with
  | ⟨0, _⟩ => show win3_0.index t (0 : Fin 2) * 5000 + 1 * p.val = 5000 * t.val + p.val; rw [e0]; omega
  | ⟨1, _⟩ => show win3_0.index t (1 : Fin 2) * 64 + 1 * q.val = q.val; rw [e1]; omega

/-- Row `p` of the first mask's block at point `t` is row `5000 t + p` of the first mask column, -/
theorem pool_mask3_1 (c : Dev nD) (t : Fin cfg3.N) (ht : t.val < 20) (p : Fin 5000) :
    (iblk3 V c 1 t : Vec Ideal S5000x1 .f32) (ix2 p 0)
      = (V c main_v3 : S100000x1.Idx → EReal) (ix2 ⟨5000 * t.val + p.val, by omega⟩ 0) := by
  obtain ⟨-, -, e0, e1, -⟩ := pool_block_indices3 t
  unfold iblk3
  rw [View.read_apply]
  show V c main_v3 _ = V c main_v3 _
  congr 1
  funext a
  apply Fin.ext
  match a with
  | ⟨0, _⟩ => show win3_1.index t (0 : Fin 2) * 5000 + 1 * p.val = 5000 * t.val + p.val; rw [e0]; omega
  | ⟨1, _⟩ => show win3_1.index t (1 : Fin 2) * 1 + 1 * 0 = 0; rw [e1]

/-- of the second mask's block, of the second mask column, -/
theorem pool_mask3_2 (c : Dev nD) (t : Fin cfg3.N) (ht : t.val < 20) (p : Fin 5000) :
    (iblk3 V c 2 t : Vec Ideal S5000x1 .f32) (ix2 p 0)
      = (V c main_v5 : S100000x1.Idx → EReal) (ix2 ⟨5000 * t.val + p.val, by omega⟩ 0) := by
  obtain ⟨-, -, -, -, e0, e1, -⟩ := pool_block_indices3 t
  unfold iblk3
  rw [View.read_apply]
  show V c main_v5 _ = V c main_v5 _
  congr 1
  funext a
  apply Fin.ext
  match a with
  | ⟨0, _⟩ => show win3_2.index t (0 : Fin 2) * 5000 + 1 * p.val = 5000 * t.val + p.val; rw [e0]; omega
  | ⟨1, _⟩ => show win3_2.index t (1 : Fin 2) * 1 + 1 * 0 = 0; rw [e1]

/-- and of the third mask's block, of the third mask column. -/
theorem pool_mask3_3 (c : Dev nD) (t : Fin cfg3.N) (ht : t.val < 20) (p : Fin 5000) :
    (iblk3 V c 3 t : Vec Ideal S5000x1 .f32) (ix2 p 0)
      = (V c main_v7 : S100000x1.Idx → EReal) (ix2 ⟨5000 * t.val + p.val, by omega⟩ 0) := by
  obtain ⟨-, -, -, -, -, -, e0, e1⟩ := pool_block_indices3 t
  unfold iblk3
  rw [View.read_apply]
  show V c main_v7 _ = V c main_v7 _
  congr 1
  funext a
  apply Fin.ext
  match a with
  | ⟨0, _⟩ => show win3_3.index t (0 : Fin 2) * 5000 + 1 * p.val = 5000 * t.val + p.val; rw [e0]; omega
  | ⟨1, _⟩ => show win3_3.index t (1 : Fin 2) * 1 + 1 * 0 = 0; rw [e1]

/-! ## A block's masked sums -/

/-- The first mask's sum over the block at point `t` is the contributions of rows `5000 t … 5000 t + 4999` under the
    first mask column, -/
theorem colsum_block3_1 (c : Dev nD) (t : Fin cfg3.N) (ht : t.val < 20) (q : Fin 64) :
    colsum (iblk3 V c 1 t) (iblk3 V c 0 t) q
      = ∑ p : Fin 5000, maskedTerm (V c main_v3) (V c main_v54) q ⟨5000 * t.val + p.val, by omega⟩ :=
  colsum_of_rows (V c main_v3) (V c main_v54) _ _ t.val ht (pool_mask3_1 V c t ht) (pool_rows3 V c t ht) q

/-- the second mask's under the second, -/
theorem colsum_block3_2 (c : Dev nD) (t : Fin cfg3.N) (ht : t.val < 20) (q : Fin 64) :
    colsum (iblk3 V c 2 t) (iblk3 V c 0 t) q
      = ∑ p : Fin 5000, maskedTerm (V c main_v5) (V c main_v54) q ⟨5000 * t.val + p.val, by omega⟩ :=
  colsum_of_rows (V c main_v5) (V c main_v54) _ _ t.val ht (pool_mask3_2 V c t ht) (pool_rows3 V c t ht) q

/-- and the third mask's under the third. -/
theorem colsum_block3_3 (c : Dev nD) (t : Fin cfg3.N) (ht : t.val < 20) (q : Fin 64) :
    colsum (iblk3 V c 3 t) (iblk3 V c 0 t) q
      = ∑ p : Fin 5000, maskedTerm (V c main_v7) (V c main_v54) q ⟨5000 * t.val + p.val, by omega⟩ :=
  colsum_of_rows (V c main_v7) (V c main_v54) _ _ t.val ht (pool_mask3_3 V c t ht) (pool_rows3 V c t ht) q

end Cert.KernelIdeal.HandValue

end
-- ==== Proof.KI_PoolArray3.lean ====
import proofs.«181750_j70806830841988_1_alg».proof.Proof.KI_Pool3
import proofs.«181750_j70806830841988_1_alg».proof.Proof.KI_PoolRows
import proofs.«181750_j70806830841988_1_alg».proof.Proof.KI_PoolBlocks3
import proofs.«181750_j70806830841988_1_alg».proof.Proof.KI_Payloads
import proofs.«181750_j70806830841988_1_alg».proof.Proof.Spec
import Idealize.ShloMosaic.Lib.Pipeline.Value
import Idealize.ShloMosaic.Lib.ValueIdx
import Idealize.ShloMosaic.Lib.Tactic

/-!
# The pooling call 3: the array it leaves

The call walks the 20 blocks of 5000 rows of the activations h (100000 x 64) and of three mask columns m₀, m₁, m₂
(100000 x 1 each). It keeps three running rows in a 3x64 accumulator: at the first block the accumulator is set to
zero; at every block t, row r gains  Σ_p m_r[5000 t + p] · h[5000 t + p, q]  at lane q; at the last block the
accumulator is copied to the 3x64 output, which is written back then and only then.

So after block n the accumulator holds at (r, q) the sum of m_r · h[·, q] over the first 5000 (n + 1) rows (by
induction on n: zero plus the first block's sum, then one more block's sum each time), after the last block the sum
over all 100000 rows, and that is what the output array ends holding: the masked sums of the specification. Sums of
extended reals may be regrouped freely, so nothing is assumed of the entries.
-/

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

/-! ## What each case's stores leave, as rows over payloads -/

section Pieces
variable {F : FTy → Type} [FloatOps F]

/-- A block between the first and the last rewrites the three rows of the accumulator, each from what the row held. -/
theorem sout3_B_rows (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : ¬cond3_1 i)
    (x0 : Vec F S5000x64 .f32) (x1 : Vec F S5000x1 .f32) (x2 : Vec F S5000x1 .f32) (x3 : Vec F S5000x1 .f32) (xs0 : Vec F S3x64 .f32) :
    sout3_B_0 c i arg1 harg1 arg2 harg2 arg3 harg3 arg4 harg4 arg5 harg5 arg6 harg6 hc0 hc1 x0 x1 x2 x3 xs0 = View.canon ([⟨accRow2, k3_pay1 (k3_pay4 x0 x3) (View.ld xs0 accRow2)⟩, ⟨accRow1, k3_pay6 x0 x2 (View.ld xs0 accRow1)⟩, ⟨accRow0, k3_pay5 x0 x1 (View.ld xs0 accRow0)⟩] : List (View.Piece (Elt F) S3x64 .f32)) := by
  unfold sout3_B_0
  rw [View.read_writes_eq_canon _ _ _ (scover3_B_0 c i arg1 harg1 arg2 harg2 arg3 harg3 arg4 harg4 arg5 harg5 arg6 harg6 hc0 hc1 x0 x1 x2 x3 xs0)]
  unfold kernelRun3_B
  dsimp only
  sl_unfold_words
  simp only [View.readAt_eq_ld, harg1.read_unread, harg2.read_unread, harg3.read_unread, harg4.read_unread, harg6.read_unread,
    View.ld_unit_zero (S := S5000x64) pool_zero_offsets, View.ld_unit_zero (S := S5000x1) pool_zero_offsets]

/-- The last block does the same to the accumulator, -/
theorem sout3_C_rows (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : cond3_1 i)
    (x0 : Vec F S5000x64 .f32) (x1 : Vec F S5000x1 .f32) (x2 : Vec F S5000x1 .f32) (x3 : Vec F S5000x1 .f32) (xs0 : Vec F S3x64 .f32) :
    sout3_C_0 c i arg1 harg1 arg2 harg2 arg3 harg3 arg4 harg4 arg5 harg5 arg6 harg6 hc0 hc1 x0 x1 x2 x3 xs0 = View.canon ([⟨accRow2, k3_pay1 (k3_pay4 x0 x3) (View.ld xs0 accRow2)⟩, ⟨accRow1, k3_pay6 x0 x2 (View.ld xs0 accRow1)⟩, ⟨accRow0, k3_pay5 x0 x1 (View.ld xs0 accRow0)⟩] : List (View.Piece (Elt F) S3x64 .f32)) := by
  unfold sout3_C_0
  rw [View.read_writes_eq_canon _ _ _ (scover3_C_0 c i arg1 harg1 arg2 harg2 arg3 harg3 arg4 harg4 arg5 harg5 arg6 harg6 hc0 hc1 x0 x1 x2 x3 xs0)]
  unfold kernelRun3_C
  dsimp only
  sl_unfold_words
  simp only [View.readAt_eq_ld, harg1.read_unread, harg2.read_unread, harg3.read_unread, harg4.read_unread, harg6.read_unread,
    View.ld_unit_zero (S := S5000x64) pool_zero_offsets, View.ld_unit_zero (S := S5000x1) pool_zero_offsets]

/-- and copies the accumulator, read whole after its three row writes, to the output. -/
theorem out3_C_rows (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : cond3_1 i)
    (x0 : Vec F S5000x64 .f32) (x1 : Vec F S5000x1 .f32) (x2 : Vec F S5000x1 .f32) (x3 : Vec F S5000x1 .f32) (xs0 : Vec F S3x64 .f32) :
    out3_C_4 c i arg1 harg1 arg2 harg2 arg3 harg3 arg4 harg4 arg5 harg5 arg6 harg6 hc0 hc1 x0 x1 x2 x3 xs0 = View.canon ([⟨accRow2, k3_pay1 (k3_pay4 x0 x3) (View.ld xs0 accRow2)⟩, ⟨accRow1, k3_pay6 x0 x2 (View.ld xs0 accRow1)⟩, ⟨accRow0, k3_pay5 x0 x1 (View.ld xs0 accRow0)⟩] : List (View.Piece (Elt F) S3x64 .f32)) := by
  unfold out3_C_4
  rw [View.read_writes_eq_canon _ _ _ (cover3_C_4 c i arg1 harg1 arg2 harg2 arg3 harg3 arg4 harg4 arg5 harg5 arg6 harg6 hc0 hc1 x0 x1 x2 x3 xs0)]
  unfold kernelRun3_C
  dsimp only
  sl_unfold_words
  simp only [View.readAt_eq_ld, harg1.read_unread, harg2.read_unread, harg3.read_unread, harg4.read_unread, harg6.read_unread,
    View.ld_unit_zero (S := S5000x64) pool_zero_offsets, View.ld_unit_zero (S := S5000x1) pool_zero_offsets]
  rw [View.canon_unit_zero pool_zero_offsets, View.readCov_eq_canon_ld _ _ _ (rows_cover _ _ _), View.ld_unit_zero (S := S3x64) pool_zero_offsets]

end Pieces

/-! ## The same, read at an entry over the extended reals -/

/-- A block between the first and the last adds, to row r of the accumulator, mask r's sum over the block. -/
theorem sout3_B_apply (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : ¬cond3_1 i)
    (x0 : Vec Ideal S5000x64 .f32) (x1 : Vec Ideal S5000x1 .f32) (x2 : Vec Ideal S5000x1 .f32) (x3 : Vec Ideal S5000x1 .f32) (xs0 : Vec Ideal S3x64 .f32) (r : Fin 3) (q : Fin 64) :
    sout3_B_0 (F := Ideal) c i arg1 harg1 arg2 harg2 arg3 harg3 arg4 harg4 arg5 harg5 arg6 harg6 hc0 hc1 x0 x1 x2 x3 xs0 (ix2 r q)
      = (xs0 (ix2 r q) : EReal) + sel3 r (colsum x1 x0 q) (colsum x2 x0 q) (colsum x3 x0 q) := by
  rw [sout3_B_rows]
  refine (canon_rows_apply _ _ _ [] r q).trans ?_
  match r with
  | ⟨0, _⟩ => exact (pay3_row0 x0 x1 _ q).trans (congrArg (· + colsum x1 x0 q) (ld_accRow0 xs0 q))
  | ⟨1, _⟩ => exact (pay3_row1 x0 x2 _ q).trans (congrArg (· + colsum x2 x0 q) (ld_accRow1 xs0 q))
  | ⟨2, _⟩ => exact (pay3_row2b (k3_pay4 x0 x3) _ q).trans (congrArg₂ (· + ·) (ld_accRow2 xs0 q) (pay3_row2a x0 x3 q))

/-- The last block does the same to the accumulator, -/
theorem sout3_C_apply (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : cond3_1 i)
    (x0 : Vec Ideal S5000x64 .f32) (x1 : Vec Ideal S5000x1 .f32) (x2 : Vec Ideal S5000x1 .f32) (x3 : Vec Ideal S5000x1 .f32) (xs0 : Vec Ideal S3x64 .f32) (r : Fin 3) (q : Fin 64) :
    sout3_C_0 (F := Ideal) c i arg1 harg1 arg2 harg2 arg3 harg3 arg4 harg4 arg5 harg5 arg6 harg6 hc0 hc1 x0 x1 x2 x3 xs0 (ix2 r q)
      = (xs0 (ix2 r q) : EReal) + sel3 r (colsum x1 x0 q) (colsum x2 x0 q) (colsum x3 x0 q) := by
  rw [sout3_C_rows]
  refine (canon_rows_apply _ _ _ [] r q).trans ?_
  match r with
  | ⟨0, _⟩ => exact (pay3_row0 x0 x1 _ q).trans (congrArg (· + colsum x1 x0 q) (ld_accRow0 xs0 q))
  | ⟨1, _⟩ => exact (pay3_row1 x0 x2 _ q).trans (congrArg (· + colsum x2 x0 q) (ld_accRow1 xs0 q))
  | ⟨2, _⟩ => exact (pay3_row2b (k3_pay4 x0 x3) _ q).trans (congrArg₂ (· + ·) (ld_accRow2 xs0 q) (pay3_row2a x0 x3 q))

/-- and leaves the same in the output. -/
theorem out3_C_apply (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond3_0 i) (hc1 : cond3_1 i)
    (x0 : Vec Ideal S5000x64 .f32) (x1 : Vec Ideal S5000x1 .f32) (x2 : Vec Ideal S5000x1 .f32) (x3 : Vec Ideal S5000x1 .f32) (xs0 : Vec Ideal S3x64 .f32) (r : Fin 3) (q : Fin 64) :
    out3_C_4 (F := Ideal) c i arg1 harg1 arg2 harg2 arg3 harg3 arg4 harg4 arg5 harg5 arg6 harg6 hc0 hc1 x0 x1 x2 x3 xs0 (ix2 r q)
      = (xs0 (ix2 r q) : EReal) + sel3 r (colsum x1 x0 q) (colsum x2 x0 q) (colsum x3 x0 q) := by
  rw [out3_C_rows]
  refine (canon_rows_apply _ _ _ [] r q).trans ?_
  match r with
  | ⟨0, _⟩ => exact (pay3_row0 x0 x1 _ q).trans (congrArg (· + colsum x1 x0 q) (ld_accRow0 xs0 q))
  | ⟨1, _⟩ => exact (pay3_row1 x0 x2 _ q).trans (congrArg (· + colsum x2 x0 q) (ld_accRow1 xs0 q))
  | ⟨2, _⟩ => exact (pay3_row2b (k3_pay4 x0 x3) _ q).trans (congrArg₂ (· + ·) (ld_accRow2 xs0 q) (pay3_row2a x0 x3 q))

/-- The first block sets the accumulator to zero and then adds: row r ends at mask r's sum over the block. Each row is
    read back after the zero fill (and the rows written before it, which do not touch it): it reads zero. -/
theorem sout3_A_apply (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond3_0 i) (hc1 : ¬cond3_1 i)
    (x0 : Vec Ideal S5000x64 .f32) (x1 : Vec Ideal S5000x1 .f32) (x2 : Vec Ideal S5000x1 .f32) (x3 : Vec Ideal S5000x1 .f32) (r : Fin 3) (q : Fin 64) :
    sout3_A_0 (F := Ideal) c i arg1 harg1 arg2 harg2 arg3 harg3 arg4 harg4 arg5 harg5 arg6 harg6 hc0 hc1 x0 x1 x2 x3 (ix2 r q) = sel3 r (colsum x1 x0 q) (colsum x2 x0 q) (colsum x3 x0 q) := by
  unfold sout3_A_0
  rw [View.read_writes_eq_canon _ _ _ (scover3_A_0 c i arg1 harg1 arg2 harg2 arg3 harg3 arg4 harg4 arg5 harg5 arg6 harg6 hc0 hc1 x0 x1 x2 x3)]
  unfold kernelRun3_A
  dsimp only
  sl_unfold_words
  simp only [View.readAt_eq_ld, harg1.read_unread, harg2.read_unread, harg3.read_unread, harg4.read_unread, harg6.read_unread,
    View.ld_unit_zero (S := S5000x64) pool_zero_offsets, View.ld_unit_zero (S := S5000x1) pool_zero_offsets]
  refine (canon_rows_apply _ _ _ _ r q).trans ?_
  match r with
  | ⟨0, _⟩ =>
    refine (pay3_row0 x0 x1 _ q).trans ?_
    rw [readCov_row0_after_fill (F := Ideal), ld_accRow0 (F := Ideal), pay3_zero]
    exact zero_add _
  | ⟨1, _⟩ =>
    refine (pay3_row1 x0 x2 _ q).trans ?_
    rw [readCov_row1_after_fill (F := Ideal), ld_accRow1 (F := Ideal), pay3_zero]
    exact zero_add _
  | ⟨2, _⟩ =>
    refine (pay3_row2b (k3_pay4 x0 x3) _ q).trans ?_
    rw [readCov_row2_after_fill (F := Ideal), ld_accRow2 (F := Ideal), pay3_zero, pay3_row2a]
    exact zero_add _

/-! ## The accumulator after each block -/

-- the contents of the core's buffers when the call starts
variable (V : (c : Dev nD) → (b : Ref sig .tc) → Buf (Elt Ideal) ((c : Thread nD τ).loc b))

/-- Mask r's sum over block t, from the blocks the windows hold there, is the block's part of the sum over all rows. -/
theorem block_part3 (c : Dev nD) (t : Fin cfg3.N) (r : Fin 3) (q : Fin 64) :
    sel3 r (colsum (iblk3 V c 1 t) (iblk3 V c 0 t) q) (colsum (iblk3 V c 2 t) (iblk3 V c 0 t) q) (colsum (iblk3 V c 3 t) (iblk3 V c 0 t) q)
      = ∑ p : Fin 5000, (maskedTerm (sel3 r (V c main_v3) (V c main_v5) (V c main_v7)) (V c main_v54) q) ⟨5000 * t.val + p.val, by have := pool_point_lt3 t; have := p.isLt; omega⟩ := by
  match r with
  | ⟨0, _⟩ => exact colsum_block3_1 V c t (pool_point_lt3 t) q
  | ⟨1, _⟩ => exact colsum_block3_2 V c t (pool_point_lt3 t) q
  | ⟨2, _⟩ => exact colsum_block3_3 V c t (pool_point_lt3 t) q

/-- THE RUNNING SUMS. After block n the accumulator holds at (r, q) the sum of m_r · h[·, q] over the first
    5000 (n + 1) rows — by induction on the block. -/
theorem acc_after3 (c : Dev nD) : ∀ (n : ℕ) (h : n < cfg3.N) (r : Fin 3) (q : Fin 64),
    (outsAt3 V c n h).2 (ix2 r q) = rowsBelow (maskedTerm (sel3 r (V c main_v3) (V c main_v5) (V c main_v7)) (V c main_v54) q) (n + 1) (by have : cfg3.N = 20 := N_3; omega)
  | 0, h, r, q => by
    rw [outsAt3_A V c ⟨0, h⟩ (Nat.zero_mod _) (by show ¬(0 % 20 = 19); decide)]
    dsimp only
    rw [sout3_A_apply, rowsBelow_succ, rowsBelow_zero, zero_add]
    exact block_part3 V c ⟨0, h⟩ r q
  | n + 1, h, r, q => by
    have hN : cfg3.N = 20 := N_3
    have h0 : ¬(⟨n + 1, h⟩ : Fin cfg3.N).val % 20 = 0 := by dsimp only; omega
    have ih := acc_after3 c n (Nat.lt_of_succ_lt h) r q
    rw [rowsBelow_succ]
    by_cases h1 : (⟨n + 1, h⟩ : Fin cfg3.N).val % 20 = 19
    · rw [outsAt3_C V c ⟨n + 1, h⟩ h0 h1]
      dsimp only
      rw [sout3_C_apply]
      exact congrArg₂ (· + ·) ih (block_part3 V c ⟨n + 1, h⟩ r q)
    · rw [outsAt3_B V c ⟨n + 1, h⟩ h0 h1]
      dsimp only
      rw [sout3_B_apply]
      exact congrArg₂ (· + ·) ih (block_part3 V c ⟨n + 1, h⟩ r q)

/-- After the last block the output's buffer holds at (r, q) the same sum as the accumulator. -/
theorem out_after3 (c : Dev nD) : ∀ (n : ℕ) (h : n < cfg3.N) (h1 : n % 20 = 19) (r : Fin 3) (q : Fin 64),
    (outsAt3 V c n h).1 (ix2 r q) = rowsBelow (maskedTerm (sel3 r (V c main_v3) (V c main_v5) (V c main_v7)) (V c main_v54) q) (n + 1) (by have : cfg3.N = 20 := N_3; omega)
  | 0, h, h1, r, q => absurd h1 (by decide)
  | n + 1, h, h1, r, q => by
    have hN : cfg3.N = 20 := N_3
    have h0 : ¬(⟨n + 1, h⟩ : Fin cfg3.N).val % 20 = 0 := by dsimp only; omega
    rw [outsAt3_C V c ⟨n + 1, h⟩ h0 h1]
    dsimp only
    rw [out3_C_apply, rowsBelow_succ]
    exact congrArg₂ (· + ·) (acc_after3 V c n (Nat.lt_of_succ_lt h) r q) (block_part3 V c ⟨n + 1, h⟩ r q)

/-- Over all twenty blocks the sum is the sum over all rows, however the count is written. -/
theorem rowsBelow_twenty3 (f : Fin 100000 → EReal) (n : ℕ) (hn : n ≤ 20) (e : n = 20) : rowsBelow f n hn = ∑ i : Fin 100000, f i := by
  subst e
  exact rowsBelow_all f

/-! ## The array after the call -/

/-- The masked sums of the arrays as the call finds them: what the output array is to hold. -/
abbrev pooled3 (c : Dev nD) : S3x64.Idx → EReal :=
  Cert.Spec.pool (V c main_v54) (fun i => V c main_v3 (ix2 (i 0) 0)) (fun i => V c main_v5 (ix2 (i 0) 0)) (fun i => V c main_v7 (ix2 (i 0) 0))

/-- The output window's one block sits at block index (0, 0) at every point: it is the whole 3x64 array. -/
theorem out_index3 : ∀ t : Fin cfg3.N, win3_4.index t (0 : Fin 2) = 0 ∧ win3_4.index t (1 : Fin 2) = 0 :=
  (by decide +kernel : ∀ t : Fin grid3.N, _)

/-- Entry (r, q) of the output block sits at (r, q) of the output array. -/
theorem out_emb3 (t : Fin cfg3.N) (r : Fin 3) (q : Fin 64) :
    ((cfg3.win 4).blk t).view.emb (ix2 r q) = (ix2 r q : S3x64.Idx) := by
  obtain ⟨e0, e1⟩ := out_index3 t
  funext a
  apply Fin.ext
  match a with
  | ⟨0, _⟩ => show win3_4.index t (0 : Fin 2) * 3 + 1 * r.val = r.val; rw [e0]; omega
  | ⟨1, _⟩ => show win3_4.index t (1 : Fin 2) * 64 + 1 * q.val = q.val; rw [e1]; omega

/-- What the output's buffer holds after the last block, at an index of the block, is the masked sum at the index's
    place in the output array. -/
theorem flushed_at3 (c : Dev nD) (t : Fin cfg3.N) (h19 : t.val % 20 = 19) (j : S3x64.Idx) :
    (outsAt3 V c t.val t.isLt).1 j = pooled3 V c (((cfg3.win 4).blk t).view.emb j) := by
  have hlt : t.val < 20 := pool_point_lt3 t
  obtain ⟨r, q, rfl⟩ : ∃ (r : Fin 3) (q : Fin 64), j = ix2 r q := ⟨j 0, j 1, eq_ix2 j⟩
  rw [out_emb3 t r q, out_after3 V c t.val t.isLt h19 r q, rowsBelow_twenty3 _ _ _ (by omega)]
  exact maskedTerm_sum_eq_poolAt r (V c main_v3) (V c main_v5) (V c main_v7) (V c main_v54) q

/-- When the output's buffer after point t holds, index by index, a function G of the place in the output array, what
    point t writes back is its block of G (G is kept a variable: nothing of it is unfolded). -/
theorem flushed_of_pointwise3 (G : S3x64.Idx → EReal) (c : Dev nD) (t : Fin cfg3.N)
    (hG : ∀ j : S3x64.Idx, (outsAt3 V c t.val t.isLt).1 j = G (((cfg3.win 4).blk t).view.emb j)) :
    (dat3 V c).flushed 4 t = ((cfg3.win 4).blk t).view.read (Elt Ideal) G := by
  show (cfg3.win 4).cut (grid3.coords t) ((dat3 V c).after 4 t) = _
  rw [after3_4]
  funext j
  exact hG j

/-- WHAT IS WRITTEN BACK, at the one point that writes back (the last), is the masked sums. -/
theorem flushed3_eq (c : Dev nD) (t : Fin cfg3.N) (hf : (cfg3.win 4).flush t = true) :
    (dat3 V c).flushed 4 t = ((cfg3.win 4).blk t).view.read (Elt Ideal) (pooled3 V c) :=
  flushed_of_pointwise3 V (pooled3 V c) c t (flushed_at3 V c t ((flush3_4 t).mp hf))

/-- The last point's block covers the whole output array. -/
theorem cover3 (i : S3x64.Idx) : ∃ t : Fin cfg3.N, (cfg3.win 4).flush t = true ∧ i ∈ ((cfg3.win 4).blk t).view.set := by
  have h19lt : 19 < cfg3.N := lt_of_lt_of_eq (by decide) (N_3 : cfg3.N = 20).symm
  have hi0 : (i 0).val < 3 := (i 0).isLt
  have hi1 : (i 1).val < 64 := (i 1).isLt
  obtain ⟨e0, e1⟩ := out_index3 ⟨19, h19lt⟩
  refine ⟨⟨19, h19lt⟩, (flush3_4 _).mpr rfl, ?_⟩
  show i ∈ ((View.whole main_v55).slice (win3_4.rect ⟨19, h19lt⟩)).set
  rw [View.set_slice_whole, Rect.mem_set_unit]
  intro a
  match a with
  | ⟨0, _⟩ => show win3_4.index ⟨19, h19lt⟩ (0 : Fin 2) * 3 ≤ (i 0).val ∧ (i 0).val < win3_4.index ⟨19, h19lt⟩ (0 : Fin 2) * 3 + 3; rw [e0]; omega
  | ⟨1, _⟩ => show win3_4.index ⟨19, h19lt⟩ (1 : Fin 2) * 64 ≤ (i 1).val ∧ (i 1).val < win3_4.index ⟨19, h19lt⟩ (1 : Fin 2) * 64 + 64; rw [e1]; omega

/-- THE OUTPUT ARRAY after the twenty points holds the masked sums of the arrays as the call found them. -/
theorem pool3_array (c : Dev nD) : (dat3 V c).arrAt 4 cfg3.N
    = (Cert.Spec.pool (V c main_v54) (fun i => V c main_v3 (ix2 (i 0) 0)) (fun i => V c main_v5 (ix2 (i 0) 0)) (fun i => V c main_v7 (ix2 (i 0) 0)) : S3x64.Idx → EReal) :=
  (dat3 V c).arrAt_eq_of_cover 4 (pooled3 V c) (flushed3_eq V c) cover3

end Cert.KernelIdeal.HandValue

end
-- ==== Proof.KI_PoolBlocks5.lean ====
import proofs.«181750_j70806830841988_1_alg».proof.Proof.KI_Pool5
import proofs.«181750_j70806830841988_1_alg».proof.Proof.KI_PoolBlocks

/-!
# The pooling pipeline 5: its input blocks as rows of the arrays

Pipeline 5 walks twenty row blocks of 5000 rows. At block `t` it holds rows `5000 t … 5000 t + 4999` of the
100000 x 64 activation array and the same rows of three 100000 x 1 mask columns. So row `p` of a block is row
`5000 t + p` of its array, and the lane-wise masked sum the body forms over a block is the part of the masked sum over
all 100000 rows that the block's rows contribute.
-/

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

-- the contents of the core's buffers when the pipeline starts
variable (V : (c : Dev nD) → (b : Ref sig .tc) → Buf (Elt Ideal) ((c : Thread nD τ).loc b))

/-! ## Where each input window's block sits -/

/-- The block indices, decided over the twenty points: the activation window and the three mask windows are at row
    block `t`, column block 0. -/
theorem pool_block_indices5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- There are twenty points. -/
theorem pool_point_lt5 (t : Fin cfg5.N) : t.val < 20 := lt_of_lt_of_eq t.isLt (N_5 : cfg5.N = 20)

/-! ## The blocks, read -/

/-- Row `p` of the activation block at point `t` is row `5000 t + p` of the activation array. -/
theorem pool_rows5 (c : Dev nD) (t : Fin cfg5.N) (ht : t.val < 20) (p : Fin 5000) (q : Fin 64) :
    (iblk5 V c 0 t : Vec Ideal S5000x64 .f32) (ix2 p q)
      = (V c main_v80 : S100000x64.Idx → EReal) (ix2 ⟨5000 * t.val + p.val, by omega⟩ q) := by
  obtain ⟨e0, e1, -⟩ := pool_block_indices5 t
  unfold iblk5
  rw [View.read_apply]
  show V c main_v80 _ = V c main_v80 _
  congr 1
  funext a
  apply Fin.ext
  match a with
  | ⟨0, _⟩ => show win5_0.index t (0 : Fin 2) * 5000 + 1 * p.val = 5000 * t.val + p.val; rw [e0]; omega
  | ⟨1, _⟩ => show win5_0.index t (1 : Fin 2) * 64 + 1 * q.val = q.val; rw [e1]; omega

/-- Row `p` of the first mask's block at point `t` is row `5000 t + p` of the first mask column, -/
theorem pool_mask5_1 (c : Dev nD) (t : Fin cfg5.N) (ht : t.val < 20) (p : Fin 5000) :
    (iblk5 V c 1 t : Vec Ideal S5000x1 .f32) (ix2 p 0)
      = (V c main_v3 : S100000x1.Idx → EReal) (ix2 ⟨5000 * t.val + p.val, by omega⟩ 0) := by
  obtain ⟨-, -, e0, e1, -⟩ := pool_block_indices5 t
  unfold iblk5
  rw [View.read_apply]
  show V c main_v3 _ = V c main_v3 _
  congr 1
  funext a
  apply Fin.ext
  match a with
  | ⟨0, _⟩ => show win5_1.index t (0 : Fin 2) * 5000 + 1 * p.val = 5000 * t.val + p.val; rw [e0]; omega
  | ⟨1, _⟩ => show win5_1.index t (1 : Fin 2) * 1 + 1 * 0 = 0; rw [e1]

/-- of the second mask's block, of the second mask column, -/
theorem pool_mask5_2 (c : Dev nD) (t : Fin cfg5.N) (ht : t.val < 20) (p : Fin 5000) :
    (iblk5 V c 2 t : Vec Ideal S5000x1 .f32) (ix2 p 0)
      = (V c main_v5 : S100000x1.Idx → EReal) (ix2 ⟨5000 * t.val + p.val, by omega⟩ 0) := by
  obtain ⟨-, -, -, -, e0, e1, -⟩ := pool_block_indices5 t
  unfold iblk5
  rw [View.read_apply]
  show V c main_v5 _ = V c main_v5 _
  congr 1
  funext a
  apply Fin.ext
  match a with
  | ⟨0, _⟩ => show win5_2.index t (0 : Fin 2) * 5000 + 1 * p.val = 5000 * t.val + p.val; rw [e0]; omega
  | ⟨1, _⟩ => show win5_2.index t (1 : Fin 2) * 1 + 1 * 0 = 0; rw [e1]

/-- and of the third mask's block, of the third mask column. -/
theorem pool_mask5_3 (c : Dev nD) (t : Fin cfg5.N) (ht : t.val < 20) (p : Fin 5000) :
    (iblk5 V c 3 t : Vec Ideal S5000x1 .f32) (ix2 p 0)
      = (V c main_v7 : S100000x1.Idx → EReal) (ix2 ⟨5000 * t.val + p.val, by omega⟩ 0) := by
  obtain ⟨-, -, -, -, -, -, e0, e1⟩ := pool_block_indices5 t
  unfold iblk5
  rw [View.read_apply]
  show V c main_v7 _ = V c main_v7 _
  congr 1
  funext a
  apply Fin.ext
  match a with
  | ⟨0, _⟩ => show win5_3.index t (0 : Fin 2) * 5000 + 1 * p.val = 5000 * t.val + p.val; rw [e0]; omega
  | ⟨1, _⟩ => show win5_3.index t (1 : Fin 2) * 1 + 1 * 0 = 0; rw [e1]

/-! ## A block's masked sums -/

/-- The first mask's sum over the block at point `t` is the contributions of rows `5000 t … 5000 t + 4999` under the
    first mask column, -/
theorem colsum_block5_1 (c : Dev nD) (t : Fin cfg5.N) (ht : t.val < 20) (q : Fin 64) :
    colsum (iblk5 V c 1 t) (iblk5 V c 0 t) q
      = ∑ p : Fin 5000, maskedTerm (V c main_v3) (V c main_v80) q ⟨5000 * t.val + p.val, by omega⟩ :=
  colsum_of_rows (V c main_v3) (V c main_v80) _ _ t.val ht (pool_mask5_1 V c t ht) (pool_rows5 V c t ht) q

/-- the second mask's under the second, -/
theorem colsum_block5_2 (c : Dev nD) (t : Fin cfg5.N) (ht : t.val < 20) (q : Fin 64) :
    colsum (iblk5 V c 2 t) (iblk5 V c 0 t) q
      = ∑ p : Fin 5000, maskedTerm (V c main_v5) (V c main_v80) q ⟨5000 * t.val + p.val, by omega⟩ :=
  colsum_of_rows (V c main_v5) (V c main_v80) _ _ t.val ht (pool_mask5_2 V c t ht) (pool_rows5 V c t ht) q

/-- and the third mask's under the third. -/
theorem colsum_block5_3 (c : Dev nD) (t : Fin cfg5.N) (ht : t.val < 20) (q : Fin 64) :
    colsum (iblk5 V c 3 t) (iblk5 V c 0 t) q
      = ∑ p : Fin 5000, maskedTerm (V c main_v7) (V c main_v80) q ⟨5000 * t.val + p.val, by omega⟩ :=
  colsum_of_rows (V c main_v7) (V c main_v80) _ _ t.val ht (pool_mask5_3 V c t ht) (pool_rows5 V c t ht) q

end Cert.KernelIdeal.HandValue

end
-- ==== Proof.KI_PoolArray5.lean ====
import proofs.«181750_j70806830841988_1_alg».proof.Proof.KI_Pool5
import proofs.«181750_j70806830841988_1_alg».proof.Proof.KI_PoolRows
import proofs.«181750_j70806830841988_1_alg».proof.Proof.KI_PoolBlocks5
import proofs.«181750_j70806830841988_1_alg».proof.Proof.KI_Payloads
import proofs.«181750_j70806830841988_1_alg».proof.Proof.Spec
import Idealize.ShloMosaic.Lib.Pipeline.Value
import Idealize.ShloMosaic.Lib.ValueIdx
import Idealize.ShloMosaic.Lib.Tactic

/-!
# The pooling call 5: the array it leaves

The call walks the 20 blocks of 5000 rows of the activations h (100000 x 64) and of three mask columns m₀, m₁, m₂
(100000 x 1 each). It keeps three running rows in a 3x64 accumulator: at the first block the accumulator is set to
zero; at every block t, row r gains  Σ_p m_r[5000 t + p] · h[5000 t + p, q]  at lane q; at the last block the
accumulator is copied to the 3x64 output, which is written back then and only then.

So after block n the accumulator holds at (r, q) the sum of m_r · h[·, q] over the first 5000 (n + 1) rows (by
induction on n: zero plus the first block's sum, then one more block's sum each time), after the last block the sum
over all 100000 rows, and that is what the output array ends holding: the masked sums of the specification. Sums of
extended reals may be regrouped freely, so nothing is assumed of the entries.
-/

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

/-! ## What each case's stores leave, as rows over payloads -/

section Pieces
variable {F : FTy → Type} [FloatOps F]

/-- A block between the first and the last rewrites the three rows of the accumulator, each from what the row held. -/
theorem sout5_B_rows (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : ¬cond5_1 i)
    (x0 : Vec F S5000x64 .f32) (x1 : Vec F S5000x1 .f32) (x2 : Vec F S5000x1 .f32) (x3 : Vec F S5000x1 .f32) (xs0 : Vec F S3x64 .f32) :
    sout5_B_0 c i arg1 harg1 arg2 harg2 arg3 harg3 arg4 harg4 arg5 harg5 arg6 harg6 hc0 hc1 x0 x1 x2 x3 xs0 = View.canon ([⟨accRow2, k5_pay1 (k5_pay4 x0 x3) (View.ld xs0 accRow2)⟩, ⟨accRow1, k5_pay6 x0 x2 (View.ld xs0 accRow1)⟩, ⟨accRow0, k5_pay5 x0 x1 (View.ld xs0 accRow0)⟩] : List (View.Piece (Elt F) S3x64 .f32)) := by
  unfold sout5_B_0
  rw [View.read_writes_eq_canon _ _ _ (scover5_B_0 c i arg1 harg1 arg2 harg2 arg3 harg3 arg4 harg4 arg5 harg5 arg6 harg6 hc0 hc1 x0 x1 x2 x3 xs0)]
  unfold kernelRun5_B
  dsimp only
  sl_unfold_words
  simp only [View.readAt_eq_ld, harg1.read_unread, harg2.read_unread, harg3.read_unread, harg4.read_unread, harg6.read_unread,
    View.ld_unit_zero (S := S5000x64) pool_zero_offsets, View.ld_unit_zero (S := S5000x1) pool_zero_offsets]

/-- The last block does the same to the accumulator, -/
theorem sout5_C_rows (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : cond5_1 i)
    (x0 : Vec F S5000x64 .f32) (x1 : Vec F S5000x1 .f32) (x2 : Vec F S5000x1 .f32) (x3 : Vec F S5000x1 .f32) (xs0 : Vec F S3x64 .f32) :
    sout5_C_0 c i arg1 harg1 arg2 harg2 arg3 harg3 arg4 harg4 arg5 harg5 arg6 harg6 hc0 hc1 x0 x1 x2 x3 xs0 = View.canon ([⟨accRow2, k5_pay1 (k5_pay4 x0 x3) (View.ld xs0 accRow2)⟩, ⟨accRow1, k5_pay6 x0 x2 (View.ld xs0 accRow1)⟩, ⟨accRow0, k5_pay5 x0 x1 (View.ld xs0 accRow0)⟩] : List (View.Piece (Elt F) S3x64 .f32)) := by
  unfold sout5_C_0
  rw [View.read_writes_eq_canon _ _ _ (scover5_C_0 c i arg1 harg1 arg2 harg2 arg3 harg3 arg4 harg4 arg5 harg5 arg6 harg6 hc0 hc1 x0 x1 x2 x3 xs0)]
  unfold kernelRun5_C
  dsimp only
  sl_unfold_words
  simp only [View.readAt_eq_ld, harg1.read_unread, harg2.read_unread, harg3.read_unread, harg4.read_unread, harg6.read_unread,
    View.ld_unit_zero (S := S5000x64) pool_zero_offsets, View.ld_unit_zero (S := S5000x1) pool_zero_offsets]

/-- and copies the accumulator, read whole after its three row writes, to the output. -/
theorem out5_C_rows (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : cond5_1 i)
    (x0 : Vec F S5000x64 .f32) (x1 : Vec F S5000x1 .f32) (x2 : Vec F S5000x1 .f32) (x3 : Vec F S5000x1 .f32) (xs0 : Vec F S3x64 .f32) :
    out5_C_4 c i arg1 harg1 arg2 harg2 arg3 harg3 arg4 harg4 arg5 harg5 arg6 harg6 hc0 hc1 x0 x1 x2 x3 xs0 = View.canon ([⟨accRow2, k5_pay1 (k5_pay4 x0 x3) (View.ld xs0 accRow2)⟩, ⟨accRow1, k5_pay6 x0 x2 (View.ld xs0 accRow1)⟩, ⟨accRow0, k5_pay5 x0 x1 (View.ld xs0 accRow0)⟩] : List (View.Piece (Elt F) S3x64 .f32)) := by
  unfold out5_C_4
  rw [View.read_writes_eq_canon _ _ _ (cover5_C_4 c i arg1 harg1 arg2 harg2 arg3 harg3 arg4 harg4 arg5 harg5 arg6 harg6 hc0 hc1 x0 x1 x2 x3 xs0)]
  unfold kernelRun5_C
  dsimp only
  sl_unfold_words
  simp only [View.readAt_eq_ld, harg1.read_unread, harg2.read_unread, harg3.read_unread, harg4.read_unread, harg6.read_unread,
    View.ld_unit_zero (S := S5000x64) pool_zero_offsets, View.ld_unit_zero (S := S5000x1) pool_zero_offsets]
  rw [View.canon_unit_zero pool_zero_offsets, View.readCov_eq_canon_ld _ _ _ (rows_cover _ _ _), View.ld_unit_zero (S := S3x64) pool_zero_offsets]

end Pieces

/-! ## The same, read at an entry over the extended reals -/

/-- A block between the first and the last adds, to row r of the accumulator, mask r's sum over the block. -/
theorem sout5_B_apply (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : ¬cond5_1 i)
    (x0 : Vec Ideal S5000x64 .f32) (x1 : Vec Ideal S5000x1 .f32) (x2 : Vec Ideal S5000x1 .f32) (x3 : Vec Ideal S5000x1 .f32) (xs0 : Vec Ideal S3x64 .f32) (r : Fin 3) (q : Fin 64) :
    sout5_B_0 (F := Ideal) c i arg1 harg1 arg2 harg2 arg3 harg3 arg4 harg4 arg5 harg5 arg6 harg6 hc0 hc1 x0 x1 x2 x3 xs0 (ix2 r q)
      = (xs0 (ix2 r q) : EReal) + sel3 r (colsum x1 x0 q) (colsum x2 x0 q) (colsum x3 x0 q) := by
  rw [sout5_B_rows]
  refine (canon_rows_apply _ _ _ [] r q).trans ?_
  match r with
  | ⟨0, _⟩ => exact (pay5_row0 x0 x1 _ q).trans (congrArg (· + colsum x1 x0 q) (ld_accRow0 xs0 q))
  | ⟨1, _⟩ => exact (pay5_row1 x0 x2 _ q).trans (congrArg (· + colsum x2 x0 q) (ld_accRow1 xs0 q))
  | ⟨2, _⟩ => exact (pay5_row2b (k5_pay4 x0 x3) _ q).trans (congrArg₂ (· + ·) (ld_accRow2 xs0 q) (pay5_row2a x0 x3 q))

/-- The last block does the same to the accumulator, -/
theorem sout5_C_apply (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : cond5_1 i)
    (x0 : Vec Ideal S5000x64 .f32) (x1 : Vec Ideal S5000x1 .f32) (x2 : Vec Ideal S5000x1 .f32) (x3 : Vec Ideal S5000x1 .f32) (xs0 : Vec Ideal S3x64 .f32) (r : Fin 3) (q : Fin 64) :
    sout5_C_0 (F := Ideal) c i arg1 harg1 arg2 harg2 arg3 harg3 arg4 harg4 arg5 harg5 arg6 harg6 hc0 hc1 x0 x1 x2 x3 xs0 (ix2 r q)
      = (xs0 (ix2 r q) : EReal) + sel3 r (colsum x1 x0 q) (colsum x2 x0 q) (colsum x3 x0 q) := by
  rw [sout5_C_rows]
  refine (canon_rows_apply _ _ _ [] r q).trans ?_
  match r with
  | ⟨0, _⟩ => exact (pay5_row0 x0 x1 _ q).trans (congrArg (· + colsum x1 x0 q) (ld_accRow0 xs0 q))
  | ⟨1, _⟩ => exact (pay5_row1 x0 x2 _ q).trans (congrArg (· + colsum x2 x0 q) (ld_accRow1 xs0 q))
  | ⟨2, _⟩ => exact (pay5_row2b (k5_pay4 x0 x3) _ q).trans (congrArg₂ (· + ·) (ld_accRow2 xs0 q) (pay5_row2a x0 x3 q))

/-- and leaves the same in the output. -/
theorem out5_C_apply (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : ¬cond5_0 i) (hc1 : cond5_1 i)
    (x0 : Vec Ideal S5000x64 .f32) (x1 : Vec Ideal S5000x1 .f32) (x2 : Vec Ideal S5000x1 .f32) (x3 : Vec Ideal S5000x1 .f32) (xs0 : Vec Ideal S3x64 .f32) (r : Fin 3) (q : Fin 64) :
    out5_C_4 (F := Ideal) c i arg1 harg1 arg2 harg2 arg3 harg3 arg4 harg4 arg5 harg5 arg6 harg6 hc0 hc1 x0 x1 x2 x3 xs0 (ix2 r q)
      = (xs0 (ix2 r q) : EReal) + sel3 r (colsum x1 x0 q) (colsum x2 x0 q) (colsum x3 x0 q) := by
  rw [out5_C_rows]
  refine (canon_rows_apply _ _ _ [] r q).trans ?_
  match r with
  | ⟨0, _⟩ => exact (pay5_row0 x0 x1 _ q).trans (congrArg (· + colsum x1 x0 q) (ld_accRow0 xs0 q))
  | ⟨1, _⟩ => exact (pay5_row1 x0 x2 _ q).trans (congrArg (· + colsum x2 x0 q) (ld_accRow1 xs0 q))
  | ⟨2, _⟩ => exact (pay5_row2b (k5_pay4 x0 x3) _ q).trans (congrArg₂ (· + ·) (ld_accRow2 xs0 q) (pay5_row2a x0 x3 q))

/-- The first block sets the accumulator to zero and then adds: row r ends at mask r's sum over the block. Each row is
    read back after the zero fill (and the rows written before it, which do not touch it): it reads zero. -/
theorem sout5_A_apply (c : Dev nD) (i : grid5.Coords) (arg1 : Memref sig .tc .vmem S5000x64 .f32) (harg1 : arg1.IsWhole) (arg2 : Memref sig .tc .vmem S5000x1 .f32) (harg2 : arg2.IsWhole) (arg3 : Memref sig .tc .vmem S5000x1 .f32) (harg3 : arg3.IsWhole) (arg4 : Memref sig .tc .vmem S5000x1 .f32) (harg4 : arg4.IsWhole) (arg5 : Memref sig .tc .vmem S3x64 .f32) (harg5 : arg5.IsWhole) (arg6 : Memref sig .tc .vmem S3x64 .f32) (harg6 : arg6.IsWhole) (hc0 : cond5_0 i) (hc1 : ¬cond5_1 i)
    (x0 : Vec Ideal S5000x64 .f32) (x1 : Vec Ideal S5000x1 .f32) (x2 : Vec Ideal S5000x1 .f32) (x3 : Vec Ideal S5000x1 .f32) (r : Fin 3) (q : Fin 64) :
    sout5_A_0 (F := Ideal) c i arg1 harg1 arg2 harg2 arg3 harg3 arg4 harg4 arg5 harg5 arg6 harg6 hc0 hc1 x0 x1 x2 x3 (ix2 r q) = sel3 r (colsum x1 x0 q) (colsum x2 x0 q) (colsum x3 x0 q) := by
  unfold sout5_A_0
  rw [View.read_writes_eq_canon _ _ _ (scover5_A_0 c i arg1 harg1 arg2 harg2 arg3 harg3 arg4 harg4 arg5 harg5 arg6 harg6 hc0 hc1 x0 x1 x2 x3)]
  unfold kernelRun5_A
  dsimp only
  sl_unfold_words
  simp only [View.readAt_eq_ld, harg1.read_unread, harg2.read_unread, harg3.read_unread, harg4.read_unread, harg6.read_unread,
    View.ld_unit_zero (S := S5000x64) pool_zero_offsets, View.ld_unit_zero (S := S5000x1) pool_zero_offsets]
  refine (canon_rows_apply _ _ _ _ r q).trans ?_
  match r with
  | ⟨0, _⟩ =>
    refine (pay5_row0 x0 x1 _ q).trans ?_
    rw [readCov_row0_after_fill (F := Ideal), ld_accRow0 (F := Ideal), pay5_zero]
    exact zero_add _
  | ⟨1, _⟩ =>
    refine (pay5_row1 x0 x2 _ q).trans ?_
    rw [readCov_row1_after_fill (F := Ideal), ld_accRow1 (F := Ideal), pay5_zero]
    exact zero_add _
  | ⟨2, _⟩ =>
    refine (pay5_row2b (k5_pay4 x0 x3) _ q).trans ?_
    rw [readCov_row2_after_fill (F := Ideal), ld_accRow2 (F := Ideal), pay5_zero, pay5_row2a]
    exact zero_add _

/-! ## The accumulator after each block -/

-- the contents of the core's buffers when the call starts
variable (V : (c : Dev nD) → (b : Ref sig .tc) → Buf (Elt Ideal) ((c : Thread nD τ).loc b))

/-- Mask r's sum over block t, from the blocks the windows hold there, is the block's part of the sum over all rows. -/
theorem block_part5 (c : Dev nD) (t : Fin cfg5.N) (r : Fin 3) (q : Fin 64) :
    sel3 r (colsum (iblk5 V c 1 t) (iblk5 V c 0 t) q) (colsum (iblk5 V c 2 t) (iblk5 V c 0 t) q) (colsum (iblk5 V c 3 t) (iblk5 V c 0 t) q)
      = ∑ p : Fin 5000, (maskedTerm (sel3 r (V c main_v3) (V c main_v5) (V c main_v7)) (V c main_v80) q) ⟨5000 * t.val + p.val, by have := pool_point_lt5 t; have := p.isLt; omega⟩ := by
  match r with
  | ⟨0, _⟩ => exact colsum_block5_1 V c t (pool_point_lt5 t) q
  | ⟨1, _⟩ => exact colsum_block5_2 V c t (pool_point_lt5 t) q
  | ⟨2, _⟩ => exact colsum_block5_3 V c t (pool_point_lt5 t) q

/-- THE RUNNING SUMS. After block n the accumulator holds at (r, q) the sum of m_r · h[·, q] over the first
    5000 (n + 1) rows — by induction on the block. -/
theorem acc_after5 (c : Dev nD) : ∀ (n : ℕ) (h : n < cfg5.N) (r : Fin 3) (q : Fin 64),
    (outsAt5 V c n h).2 (ix2 r q) = rowsBelow (maskedTerm (sel3 r (V c main_v3) (V c main_v5) (V c main_v7)) (V c main_v80) q) (n + 1) (by have : cfg5.N = 20 := N_5; omega)
  | 0, h, r, q => by
    rw [outsAt5_A V c ⟨0, h⟩ (Nat.zero_mod _) (by show ¬(0 % 20 = 19); decide)]
    dsimp only
    rw [sout5_A_apply, rowsBelow_succ, rowsBelow_zero, zero_add]
    exact block_part5 V c ⟨0, h⟩ r q
  | n + 1, h, r, q => by
    have hN : cfg5.N = 20 := N_5
    have h0 : ¬(⟨n + 1, h⟩ : Fin cfg5.N).val % 20 = 0 := by dsimp only; omega
    have ih := acc_after5 c n (Nat.lt_of_succ_lt h) r q
    rw [rowsBelow_succ]
    by_cases h1 : (⟨n + 1, h⟩ : Fin cfg5.N).val % 20 = 19
    · rw [outsAt5_C V c ⟨n + 1, h⟩ h0 h1]
      dsimp only
      rw [sout5_C_apply]
      exact congrArg₂ (· + ·) ih (block_part5 V c ⟨n + 1, h⟩ r q)
    · rw [outsAt5_B V c ⟨n + 1, h⟩ h0 h1]
      dsimp only
      rw [sout5_B_apply]
      exact congrArg₂ (· + ·) ih (block_part5 V c ⟨n + 1, h⟩ r q)

/-- After the last block the output's buffer holds at (r, q) the same sum as the accumulator. -/
theorem out_after5 (c : Dev nD) : ∀ (n : ℕ) (h : n < cfg5.N) (h1 : n % 20 = 19) (r : Fin 3) (q : Fin 64),
    (outsAt5 V c n h).1 (ix2 r q) = rowsBelow (maskedTerm (sel3 r (V c main_v3) (V c main_v5) (V c main_v7)) (V c main_v80) q) (n + 1) (by have : cfg5.N = 20 := N_5; omega)
  | 0, h, h1, r, q => absurd h1 (by decide)
  | n + 1, h, h1, r, q => by
    have hN : cfg5.N = 20 := N_5
    have h0 : ¬(⟨n + 1, h⟩ : Fin cfg5.N).val % 20 = 0 := by dsimp only; omega
    rw [outsAt5_C V c ⟨n + 1, h⟩ h0 h1]
    dsimp only
    rw [out5_C_apply, rowsBelow_succ]
    exact congrArg₂ (· + ·) (acc_after5 V c n (Nat.lt_of_succ_lt h) r q) (block_part5 V c ⟨n + 1, h⟩ r q)

/-- Over all twenty blocks the sum is the sum over all rows, however the count is written. -/
theorem rowsBelow_twenty5 (f : Fin 100000 → EReal) (n : ℕ) (hn : n ≤ 20) (e : n = 20) : rowsBelow f n hn = ∑ i : Fin 100000, f i := by
  subst e
  exact rowsBelow_all f

/-! ## The array after the call -/

/-- The masked sums of the arrays as the call finds them: what the output array is to hold. -/
abbrev pooled5 (c : Dev nD) : S3x64.Idx → EReal :=
  Cert.Spec.pool (V c main_v80) (fun i => V c main_v3 (ix2 (i 0) 0)) (fun i => V c main_v5 (ix2 (i 0) 0)) (fun i => V c main_v7 (ix2 (i 0) 0))

/-- The output window's one block sits at block index (0, 0) at every point: it is the whole 3x64 array. -/
theorem out_index5 : ∀ t : Fin cfg5.N, win5_4.index t (0 : Fin 2) = 0 ∧ win5_4.index t (1 : Fin 2) = 0 :=
  (by decide +kernel : ∀ t : Fin grid5.N, _)

/-- Entry (r, q) of the output block sits at (r, q) of the output array. -/
theorem out_emb5 (t : Fin cfg5.N) (r : Fin 3) (q : Fin 64) :
    ((cfg5.win 4).blk t).view.emb (ix2 r q) = (ix2 r q : S3x64.Idx) := by
  obtain ⟨e0, e1⟩ := out_index5 t
  funext a
  apply Fin.ext
  match a with
  | ⟨0, _⟩ => show win5_4.index t (0 : Fin 2) * 3 + 1 * r.val = r.val; rw [e0]; omega
  | ⟨1, _⟩ => show win5_4.index t (1 : Fin 2) * 64 + 1 * q.val = q.val; rw [e1]; omega

/-- What the output's buffer holds after the last block, at an index of the block, is the masked sum at the index's
    place in the output array. -/
theorem flushed_at5 (c : Dev nD) (t : Fin cfg5.N) (h19 : t.val % 20 = 19) (j : S3x64.Idx) :
    (outsAt5 V c t.val t.isLt).1 j = pooled5 V c (((cfg5.win 4).blk t).view.emb j) := by
  have hlt : t.val < 20 := pool_point_lt5 t
  obtain ⟨r, q, rfl⟩ : ∃ (r : Fin 3) (q : Fin 64), j = ix2 r q := ⟨j 0, j 1, eq_ix2 j⟩
  rw [out_emb5 t r q, out_after5 V c t.val t.isLt h19 r q, rowsBelow_twenty5 _ _ _ (by omega)]
  exact maskedTerm_sum_eq_poolAt r (V c main_v3) (V c main_v5) (V c main_v7) (V c main_v80) q

/-- When the output's buffer after point t holds, index by index, a function G of the place in the output array, what
    point t writes back is its block of G (G is kept a variable: nothing of it is unfolded). -/
theorem flushed_of_pointwise5 (G : S3x64.Idx → EReal) (c : Dev nD) (t : Fin cfg5.N)
    (hG : ∀ j : S3x64.Idx, (outsAt5 V c t.val t.isLt).1 j = G (((cfg5.win 4).blk t).view.emb j)) :
    (dat5 V c).flushed 4 t = ((cfg5.win 4).blk t).view.read (Elt Ideal) G := by
  show (cfg5.win 4).cut (grid5.coords t) ((dat5 V c).after 4 t) = _
  rw [after5_4]
  funext j
  exact hG j

/-- WHAT IS WRITTEN BACK, at the one point that writes back (the last), is the masked sums. -/
theorem flushed5_eq (c : Dev nD) (t : Fin cfg5.N) (hf : (cfg5.win 4).flush t = true) :
    (dat5 V c).flushed 4 t = ((cfg5.win 4).blk t).view.read (Elt Ideal) (pooled5 V c) :=
  flushed_of_pointwise5 V (pooled5 V c) c t (flushed_at5 V c t ((flush5_4 t).mp hf))

/-- The last point's block covers the whole output array. -/
theorem cover5 (i : S3x64.Idx) : ∃ t : Fin cfg5.N, (cfg5.win 4).flush t = true ∧ i ∈ ((cfg5.win 4).blk t).view.set := by
  have h19lt : 19 < cfg5.N := lt_of_lt_of_eq (by decide) (N_5 : cfg5.N = 20).symm
  have hi0 : (i 0).val < 3 := (i 0).isLt
  have hi1 : (i 1).val < 64 := (i 1).isLt
  obtain ⟨e0, e1⟩ := out_index5 ⟨19, h19lt⟩
  refine ⟨⟨19, h19lt⟩, (flush5_4 _).mpr rfl, ?_⟩
  show i ∈ ((View.whole main_v81).slice (win5_4.rect ⟨19, h19lt⟩)).set
  rw [View.set_slice_whole, Rect.mem_set_unit]
  intro a
  match a with
  | ⟨0, _⟩ => show win5_4.index ⟨19, h19lt⟩ (0 : Fin 2) * 3 ≤ (i 0).val ∧ (i 0).val < win5_4.index ⟨19, h19lt⟩ (0 : Fin 2) * 3 + 3; rw [e0]; omega
  | ⟨1, _⟩ => show win5_4.index ⟨19, h19lt⟩ (1 : Fin 2) * 64 ≤ (i 1).val ∧ (i 1).val < win5_4.index ⟨19, h19lt⟩ (1 : Fin 2) * 64 + 64; rw [e1]; omega

/-- THE OUTPUT ARRAY after the twenty points holds the masked sums of the arrays as the call found them. -/
theorem pool5_array (c : Dev nD) : (dat5 V c).arrAt 4 cfg5.N
    = (Cert.Spec.pool (V c main_v80) (fun i => V c main_v3 (ix2 (i 0) 0)) (fun i => V c main_v5 (ix2 (i 0) 0)) (fun i => V c main_v7 (ix2 (i 0) 0)) : S3x64.Idx → EReal) :=
  (dat5 V c).arrAt_eq_of_cover 4 (pooled5 V c) (flushed5_eq V c) cover5

end Cert.KernelIdeal.HandValue

end
-- ==== Proof.RefStages.lean ====
/-
  The reference's stages are the specification's functions, at the exact instance (a float is an extended real).

  Per layer the reference computes  z·W1 (a contraction), adds the bias row, takes the maximum with zero, contracts with W2,
  adds the second bias row and takes the maximum with zero again: at row p and column q this is
      max (Σ_k max (Σ_j z[p,j]·W1[j,k] + b1[k]) 0 · W2[k,q] + b2[q]) 0 ,
  the specification's dense part. The three masks are stacked as the rows of a [3, n] array of zeros and ones (row r is
  the r-th mask converted to a number), the masked sums are that array contracted with the layer's output,
      Σ_i c_r[i] · h[i,q] ,
  and the masks' sizes are its row sums (a sum started from zero).
-/
import proofs.«181750_j70806830841988_1_alg».proof.Proof.RefReadPatched
import proofs.«181750_j70806830841988_1_alg».proof.Proof.Spec
import Idealize.ShloMosaic.Lib.Pipeline.Value
import Idealize.ShloMosaic.Lib.ValueIdx
import Idealize.ShloMosaic.PureOps.Ideal
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-- Three one-row arrays stacked along the first axis, read at row `r` and column `k`: the `r`-th array at `[0, k]`. -/
theorem concat3_apply {α : Type} (u0 u1 u2 : S1x100000.Idx → α)
    (h : Shape.Concatenates [S1x100000, S1x100000, S1x100000] S3x100000 0) (r : Fin 3) (k : Fin 100000) :
    concatenate S3x100000 0 [⟨S1x100000, u0⟩, ⟨S1x100000, u1⟩, ⟨S1x100000, u2⟩] h (ix2 r k)
      = Cert.Spec.sel3 r u0 u1 u2 (ix2 (0 : Fin 1) k) := by
  match r with
  | ⟨0, _⟩ =>
    exact concatenate_apply_piece (t := S3x100000) 0 [⟨S1x100000, u0⟩, ⟨S1x100000, u1⟩, ⟨S1x100000, u2⟩] h _ 0
      (by show 0 < 3; decide) S1x100000 u0 rfl rfl 0 rfl (ix2 (0 : Fin 1) k)
      (fun b hb => by match b with | ⟨0, _⟩ => exact absurd rfl hb | ⟨1, _⟩ => rfl) rfl
  | ⟨1, _⟩ =>
    exact concatenate_apply_piece (t := S3x100000) 0 [⟨S1x100000, u0⟩, ⟨S1x100000, u1⟩, ⟨S1x100000, u2⟩] h _ 1
      (by show 1 < 3; decide) S1x100000 u1 rfl rfl 1 rfl (ix2 (0 : Fin 1) k)
      (fun b hb => by match b with | ⟨0, _⟩ => exact absurd rfl hb | ⟨1, _⟩ => rfl) rfl
  | ⟨2, _⟩ =>
    exact concatenate_apply_piece (t := S3x100000) 0 [⟨S1x100000, u0⟩, ⟨S1x100000, u1⟩, ⟨S1x100000, u2⟩] h _ 2
      (by show 2 < 3; decide) S1x100000 u2 rfl rfl 2 rfl (ix2 (0 : Fin 1) k)
      (fun b hb => by match b with | ⟨0, _⟩ => exact absurd rfl hb | ⟨1, _⟩ => rfl) rfl

variable (x0 : (⟨S100000x2, .f32⟩ : BufTy).Contents (Elt Ideal))
  (x1 x2 : (⟨S3200000, .i32⟩ : BufTy).Contents (Elt Ideal))
  (x3 x4 : (⟨S100000, .i1⟩ : BufTy).Contents (Elt Ideal))
  (x5 : (⟨S2x64, .f32⟩ : BufTy).Contents (Elt Ideal))
  (x6 : (⟨S64, .f32⟩ : BufTy).Contents (Elt Ideal))
  (x7 : (⟨S64x64, .f32⟩ : BufTy).Contents (Elt Ideal))
  (x8 : (⟨S64, .f32⟩ : BufTy).Contents (Elt Ideal))
  (x9 : (⟨S64x64, .f32⟩ : BufTy).Contents (Elt Ideal))
  (x10 : (⟨S64, .f32⟩ : BufTy).Contents (Elt Ideal))
  (x11 : (⟨S64x64, .f32⟩ : BufTy).Contents (Elt Ideal))
  (x12 : (⟨S64, .f32⟩ : BufTy).Contents (Elt Ideal))
  (x13 : (⟨S64x64, .f32⟩ : BufTy).Contents (Elt Ideal))
  (x14 : (⟨S64, .f32⟩ : BufTy).Contents (Elt Ideal))
  (x15 : (⟨S64x64, .f32⟩ : BufTy).Contents (Elt Ideal))
  (x16 : (⟨S64, .f32⟩ : BufTy).Contents (Elt Ideal))

/-! ## The dense part of each layer -/

/-- The first layer's hidden activation at row `p`, unit `k`: max (Σ_j z[p,j]·W1[j,k] + b1[k]) 0. -/
theorem ref_hid1 (p : Fin 100000) (k : Fin 64) :
    val_main_v15 (F := Ideal) x0 x1 x2 x5 x6 (ix2 p k)
      = Cert.Spec.hidAt (val_main_v10 (F := Ideal) x0 x1 x2) x5 x6 p k := by
  unfold Cert.Spec.hidAt
  rw [val_main_v15_apply, val_main_v14_apply, val_main_v11_apply, val_main_v13_apply, val_main_v12_apply,
    val_main_call0_v0_apply, val_main_call0_cst_apply,
    show idx_main_v12 (idx_main_v13 (ix2 p k)) = ix1 k from funext fun a => Fin.ext (by match a with | ⟨0, _⟩ => rfl),
    Ideal.ofBits_def, Ideal.ofBits_zero_f32, Ideal.maximumf_def, Ideal.addf_def]
  refine congrArg (fun s => max (s + x6 (ix1 k)) 0) (Finset.sum_congr rfl fun j _ => ?_)
  rw [show lidx_main_v11 (ix2 p k) j = ix2 p j from funext fun a => Fin.ext (by match a with | ⟨0, _⟩ => rfl | ⟨1, _⟩ => rfl),
    show ridx_main_v11 (ix2 p k) j = ix2 j k from funext fun a => Fin.ext (by match a with | ⟨0, _⟩ => rfl | ⟨1, _⟩ => rfl)]

/-- The first layer's dense part is the specification's. -/
theorem ref_layer1 :
    val_main_v20 (F := Ideal) x0 x1 x2 x5 x6 x7 x8
      = Cert.Spec.mlp (val_main_v10 (F := Ideal) x0 x1 x2) x5 x6 x7 x8 := by
  funext i
  obtain ⟨p, q, rfl⟩ : ∃ (p : Fin 100000) (q : Fin 64), i = ix2 p q := ⟨i 0, i 1, eq_ix2 i⟩
  rw [Cert.Spec.mlp_apply]
  unfold Cert.Spec.mlpAt
  rw [val_main_v20_apply, val_main_v19_apply, val_main_v16_apply, val_main_v18_apply, val_main_v17_apply,
    val_main_call1_v0_apply, val_main_call1_cst_apply,
    show idx_main_v17 (idx_main_v18 (ix2 p q)) = ix1 q from funext fun a => Fin.ext (by match a with | ⟨0, _⟩ => rfl),
    Ideal.ofBits_def, Ideal.ofBits_zero_f32, Ideal.maximumf_def, Ideal.addf_def]
  refine congrArg (fun s => max (s + x8 (ix1 q)) 0) (Finset.sum_congr rfl fun k _ => ?_)
  rw [show lidx_main_v16 (ix2 p q) k = ix2 p k from funext fun a => Fin.ext (by match a with | ⟨0, _⟩ => rfl | ⟨1, _⟩ => rfl),
    show ridx_main_v16 (ix2 p q) k = ix2 k q from funext fun a => Fin.ext (by match a with | ⟨0, _⟩ => rfl | ⟨1, _⟩ => rfl),
    ref_hid1]

/-- The second layer's hidden activation at row `p`, unit `k`: max (Σ_j z[p,j]·W1[j,k] + b1[k]) 0. -/
theorem ref_hid2 (p : Fin 100000) (k : Fin 64) :
    val_main_v56 (F := Ideal) x0 x1 x2 x5 x6 x7 x8 x9 x10 (ix2 p k)
      = Cert.Spec.hidAt (val_main_v51 (F := Ideal) x0 x1 x2 x5 x6 x7 x8) x9 x10 p k := by
  unfold Cert.Spec.hidAt
  rw [val_main_v56_apply, val_main_v55_apply, val_main_v52_apply, val_main_v54_apply, val_main_v53_apply,
    val_main_call3_v0_apply, val_main_call3_cst_apply,
    show idx_main_v53 (idx_main_v54 (ix2 p k)) = ix1 k from funext fun a => Fin.ext (by match a with | ⟨0, _⟩ => rfl),
    Ideal.ofBits_def, Ideal.ofBits_zero_f32, Ideal.maximumf_def, Ideal.addf_def]
  refine congrArg (fun s => max (s + x10 (ix1 k)) 0) (Finset.sum_congr rfl fun j _ => ?_)
  rw [show lidx_main_v52 (ix2 p k) j = ix2 p j from funext fun a => Fin.ext (by match a with | ⟨0, _⟩ => rfl | ⟨1, _⟩ => rfl),
    show ridx_main_v52 (ix2 p k) j = ix2 j k from funext fun a => Fin.ext (by match a with | ⟨0, _⟩ => rfl | ⟨1, _⟩ => rfl)]

/-- The second layer's dense part is the specification's. -/
theorem ref_layer2 :
    val_main_v61 (F := Ideal) x0 x1 x2 x5 x6 x7 x8 x9 x10 x11 x12
      = Cert.Spec.mlp (val_main_v51 (F := Ideal) x0 x1 x2 x5 x6 x7 x8) x9 x10 x11 x12 := by
  funext i
  obtain ⟨p, q, rfl⟩ : ∃ (p : Fin 100000) (q : Fin 64), i = ix2 p q := ⟨i 0, i 1, eq_ix2 i⟩
  rw [Cert.Spec.mlp_apply]
  unfold Cert.Spec.mlpAt
  rw [val_main_v61_apply, val_main_v60_apply, val_main_v57_apply, val_main_v59_apply, val_main_v58_apply,
    val_main_call4_v0_apply, val_main_call4_cst_apply,
    show idx_main_v58 (idx_main_v59 (ix2 p q)) = ix1 q from funext fun a => Fin.ext (by match a with | ⟨0, _⟩ => rfl),
    Ideal.ofBits_def, Ideal.ofBits_zero_f32, Ideal.maximumf_def, Ideal.addf_def]
  refine congrArg (fun s => max (s + x12 (ix1 q)) 0) (Finset.sum_congr rfl fun k _ => ?_)
  rw [show lidx_main_v57 (ix2 p q) k = ix2 p k from funext fun a => Fin.ext (by match a with | ⟨0, _⟩ => rfl | ⟨1, _⟩ => rfl),
    show ridx_main_v57 (ix2 p q) k = ix2 k q from funext fun a => Fin.ext (by match a with | ⟨0, _⟩ => rfl | ⟨1, _⟩ => rfl),
    ref_hid2]

/-- The third layer's hidden activation at row `p`, unit `k`: max (Σ_j z[p,j]·W1[j,k] + b1[k]) 0. -/
theorem ref_hid3 (p : Fin 100000) (k : Fin 64) :
    val_main_v97 (F := Ideal) x0 x1 x2 x5 x6 x7 x8 x9 x10 x11 x12 x13 x14 (ix2 p k)
      = Cert.Spec.hidAt (val_main_v92 (F := Ideal) x0 x1 x2 x5 x6 x7 x8 x9 x10 x11 x12) x13 x14 p k := by
  unfold Cert.Spec.hidAt
  rw [val_main_v97_apply, val_main_v96_apply, val_main_v93_apply, val_main_v95_apply, val_main_v94_apply,
    val_main_call6_v0_apply, val_main_call6_cst_apply,
    show idx_main_v94 (idx_main_v95 (ix2 p k)) = ix1 k from funext fun a => Fin.ext (by match a with | ⟨0, _⟩ => rfl),
    Ideal.ofBits_def, Ideal.ofBits_zero_f32, Ideal.maximumf_def, Ideal.addf_def]
  refine congrArg (fun s => max (s + x14 (ix1 k)) 0) (Finset.sum_congr rfl fun j _ => ?_)
  rw [show lidx_main_v93 (ix2 p k) j = ix2 p j from funext fun a => Fin.ext (by match a with | ⟨0, _⟩ => rfl | ⟨1, _⟩ => rfl),
    show ridx_main_v93 (ix2 p k) j = ix2 j k from funext fun a => Fin.ext (by match a with | ⟨0, _⟩ => rfl | ⟨1, _⟩ => rfl)]

/-- The third layer's dense part is the specification's. -/
theorem ref_layer3 :
    val_main_v102 (F := Ideal) x0 x1 x2 x5 x6 x7 x8 x9 x10 x11 x12 x13 x14 x15 x16
      = Cert.Spec.mlp (val_main_v92 (F := Ideal) x0 x1 x2 x5 x6 x7 x8 x9 x10 x11 x12) x13 x14 x15 x16 := by
  funext i
  obtain ⟨p, q, rfl⟩ : ∃ (p : Fin 100000) (q : Fin 64), i = ix2 p q := ⟨i 0, i 1, eq_ix2 i⟩
  rw [Cert.Spec.mlp_apply]
  unfold Cert.Spec.mlpAt
  rw [val_main_v102_apply, val_main_v101_apply, val_main_v98_apply, val_main_v100_apply, val_main_v99_apply,
    val_main_call7_v0_apply, val_main_call7_cst_apply,
    show idx_main_v99 (idx_main_v100 (ix2 p q)) = ix1 q from funext fun a => Fin.ext (by match a with | ⟨0, _⟩ => rfl),
    Ideal.ofBits_def, Ideal.ofBits_zero_f32, Ideal.maximumf_def, Ideal.addf_def]
  refine congrArg (fun s => max (s + x16 (ix1 q)) 0) (Finset.sum_congr rfl fun k _ => ?_)
  rw [show lidx_main_v98 (ix2 p q) k = ix2 p k from funext fun a => Fin.ext (by match a with | ⟨0, _⟩ => rfl | ⟨1, _⟩ => rfl),
    show ridx_main_v98 (ix2 p q) k = ix2 k q from funext fun a => Fin.ext (by match a with | ⟨0, _⟩ => rfl | ⟨1, _⟩ => rfl),
    ref_hid3]

/-! ## The masks, their sizes and the masked sums -/

/-- The first stacked mask array at row `r`, column `k`: the `r`-th mask at `k`, as a number. -/
theorem ref_mask1 (r : Fin 3) (k : Fin 100000) :
    val_main_v27 (F := Ideal) x3 x4 (ix2 r k)
      = Cert.Spec.sel3 r (uitofp (F := Ideal) .f32 x3) (uitofp (F := Ideal) .f32 x4) (uitofp (F := Ideal) .f32 (noti (ori x3 x4))) (ix1 k) := by
  rw [val_main_v27_apply]
  unfold val_main_v26
  rw [concat3_apply]
  match r with
  | ⟨0, _⟩ =>
    exact congrArg (FloatOps.uitofp (F := Ideal) .f32) ((val_main_v23_apply (F := Ideal) x3 _).trans
      (congrArg x3 (funext fun a => Fin.ext (by match a with | ⟨0, _⟩ => rfl))))
  | ⟨1, _⟩ =>
    exact congrArg (FloatOps.uitofp (F := Ideal) .f32) ((val_main_v24_apply (F := Ideal) x4 _).trans
      (congrArg x4 (funext fun a => Fin.ext (by match a with | ⟨0, _⟩ => rfl))))
  | ⟨2, _⟩ =>
    exact congrArg (FloatOps.uitofp (F := Ideal) .f32) ((val_main_v25_apply (F := Ideal) x3 x4 _).trans
      (congrArg (val_main_v22 (F := Ideal) x3 x4) (funext fun a => Fin.ext (by match a with | ⟨0, _⟩ => rfl))))

/-- The first masks' sizes are the specification's. -/
theorem ref_counts1 :
    val_main_v28 (F := Ideal) x3 x4 = Cert.Spec.counts (uitofp (F := Ideal) .f32 x3) (uitofp (F := Ideal) .f32 x4) (uitofp (F := Ideal) .f32 (noti (ori x3 x4))) := by
  funext i
  obtain ⟨r, rfl⟩ : ∃ r : Fin 3, i = ix1 r := ⟨i 0, eq_ix1 i⟩
  rw [Cert.Spec.counts_apply]
  unfold Cert.Spec.countAt
  rw [val_main_v28_apply, val_main_cst_1_apply, Ideal.ofBits_def, Ideal.ofBits_zero_f32, zero_add]
  refine Finset.sum_congr rfl fun k _ => ?_
  rw [show idx_main_v28 (ix1 r) k = ix2 r k from funext fun a => Fin.ext (by match a with | ⟨0, _⟩ => rfl | ⟨1, _⟩ => rfl), ref_mask1]

/-- The first masked sums are the specification's. -/
theorem ref_pool1 :
    val_main_v29 (F := Ideal) x0 x1 x2 x3 x4 x5 x6 x7 x8
      = Cert.Spec.pool (val_main_v20 (F := Ideal) x0 x1 x2 x5 x6 x7 x8) (uitofp (F := Ideal) .f32 x3) (uitofp (F := Ideal) .f32 x4) (uitofp (F := Ideal) .f32 (noti (ori x3 x4))) := by
  funext i
  obtain ⟨r, q, rfl⟩ : ∃ (r : Fin 3) (q : Fin 64), i = ix2 r q := ⟨i 0, i 1, eq_ix2 i⟩
  rw [Cert.Spec.pool_apply]
  unfold Cert.Spec.poolAt
  rw [val_main_v29_apply]
  refine Finset.sum_congr rfl fun k _ => ?_
  rw [show lidx_main_v29 (ix2 r q) k = ix2 r k from funext fun a => Fin.ext (by match a with | ⟨0, _⟩ => rfl | ⟨1, _⟩ => rfl),
    show ridx_main_v29 (ix2 r q) k = ix2 k q from funext fun a => Fin.ext (by match a with | ⟨0, _⟩ => rfl | ⟨1, _⟩ => rfl),
    ref_mask1]

/-- The second stacked mask array at row `r`, column `k`: the `r`-th mask at `k`, as a number. -/
theorem ref_mask2 (r : Fin 3) (k : Fin 100000) :
    val_main_v68 (F := Ideal) x3 x4 (ix2 r k)
      = Cert.Spec.sel3 r (uitofp (F := Ideal) .f32 x3) (uitofp (F := Ideal) .f32 x4) (uitofp (F := Ideal) .f32 (noti (ori x3 x4))) (ix1 k) := by
  rw [val_main_v68_apply]
  unfold val_main_v67
  rw [concat3_apply]
  match r with
  | ⟨0, _⟩ =>
    exact congrArg (FloatOps.uitofp (F := Ideal) .f32) ((val_main_v64_apply (F := Ideal) x3 _).trans
      (congrArg x3 (funext fun a => Fin.ext (by match a with | ⟨0, _⟩ => rfl))))
  | ⟨1, _⟩ =>
    exact congrArg (FloatOps.uitofp (F := Ideal) .f32) ((val_main_v65_apply (F := Ideal) x4 _).trans
      (congrArg x4 (funext fun a => Fin.ext (by match a with | ⟨0, _⟩ => rfl))))
  | ⟨2, _⟩ =>
    exact congrArg (FloatOps.uitofp (F := Ideal) .f32) ((val_main_v66_apply (F := Ideal) x3 x4 _).trans
      (congrArg (val_main_v63 (F := Ideal) x3 x4) (funext fun a => Fin.ext (by match a with | ⟨0, _⟩ => rfl))))

/-- The second masks' sizes are the specification's. -/
theorem ref_counts2 :
    val_main_v69 (F := Ideal) x3 x4 = Cert.Spec.counts (uitofp (F := Ideal) .f32 x3) (uitofp (F := Ideal) .f32 x4) (uitofp (F := Ideal) .f32 (noti (ori x3 x4))) := by
  funext i
  obtain ⟨r, rfl⟩ : ∃ r : Fin 3, i = ix1 r := ⟨i 0, eq_ix1 i⟩
  rw [Cert.Spec.counts_apply]
  unfold Cert.Spec.countAt
  rw [val_main_v69_apply, val_main_cst_8_apply, Ideal.ofBits_def, Ideal.ofBits_zero_f32, zero_add]
  refine Finset.sum_congr rfl fun k _ => ?_
  rw [show idx_main_v69 (ix1 r) k = ix2 r k from funext fun a => Fin.ext (by match a with | ⟨0, _⟩ => rfl | ⟨1, _⟩ => rfl), ref_mask2]

/-- The second masked sums are the specification's. -/
theorem ref_pool2 :
    val_main_v70 (F := Ideal) x0 x1 x2 x3 x4 x5 x6 x7 x8 x9 x10 x11 x12
      = Cert.Spec.pool (val_main_v61 (F := Ideal) x0 x1 x2 x5 x6 x7 x8 x9 x10 x11 x12) (uitofp (F := Ideal) .f32 x3) (uitofp (F := Ideal) .f32 x4) (uitofp (F := Ideal) .f32 (noti (ori x3 x4))) := by
  funext i
  obtain ⟨r, q, rfl⟩ : ∃ (r : Fin 3) (q : Fin 64), i = ix2 r q := ⟨i 0, i 1, eq_ix2 i⟩
  rw [Cert.Spec.pool_apply]
  unfold Cert.Spec.poolAt
  rw [val_main_v70_apply]
  refine Finset.sum_congr rfl fun k _ => ?_
  rw [show lidx_main_v70 (ix2 r q) k = ix2 r k from funext fun a => Fin.ext (by match a with | ⟨0, _⟩ => rfl | ⟨1, _⟩ => rfl),
    show ridx_main_v70 (ix2 r q) k = ix2 k q from funext fun a => Fin.ext (by match a with | ⟨0, _⟩ => rfl | ⟨1, _⟩ => rfl),
    ref_mask2]

/-- The third stacked mask array at row `r`, column `k`: the `r`-th mask at `k`, as a number. -/
theorem ref_mask3 (r : Fin 3) (k : Fin 100000) :
    val_main_v109 (F := Ideal) x3 x4 (ix2 r k)
      = Cert.Spec.sel3 r (uitofp (F := Ideal) .f32 x3) (uitofp (F := Ideal) .f32 x4) (uitofp (F := Ideal) .f32 (noti (ori x3 x4))) (ix1 k) := by
  rw [val_main_v109_apply]
  unfold val_main_v108
  rw [concat3_apply]
  match r with
  | ⟨0, _⟩ =>
    exact congrArg (FloatOps.uitofp (F := Ideal) .f32) ((val_main_v105_apply (F := Ideal) x3 _).trans
      (congrArg x3 (funext fun a => Fin.ext (by match a with | ⟨0, _⟩ => rfl))))
  | ⟨1, _⟩ =>
    exact congrArg (FloatOps.uitofp (F := Ideal) .f32) ((val_main_v106_apply (F := Ideal) x4 _).trans
      (congrArg x4 (funext fun a => Fin.ext (by match a with | ⟨0, _⟩ => rfl))))
  | ⟨2, _⟩ =>
    exact congrArg (FloatOps.uitofp (F := Ideal) .f32) ((val_main_v107_apply (F := Ideal) x3 x4 _).trans
      (congrArg (val_main_v104 (F := Ideal) x3 x4) (funext fun a => Fin.ext (by match a with | ⟨0, _⟩ => rfl))))

/-- The third masks' sizes are the specification's. -/
theorem ref_counts3 :
    val_main_v110 (F := Ideal) x3 x4 = Cert.Spec.counts (uitofp (F := Ideal) .f32 x3) (uitofp (F := Ideal) .f32 x4) (uitofp (F := Ideal) .f32 (noti (ori x3 x4))) := by
  funext i
  obtain ⟨r, rfl⟩ : ∃ r : Fin 3, i = ix1 r := ⟨i 0, eq_ix1 i⟩
  rw [Cert.Spec.counts_apply]
  unfold Cert.Spec.countAt
  rw [val_main_v110_apply, val_main_cst_15_apply, Ideal.ofBits_def, Ideal.ofBits_zero_f32, zero_add]
  refine Finset.sum_congr rfl fun k _ => ?_
  rw [show idx_main_v110 (ix1 r) k = ix2 r k from funext fun a => Fin.ext (by match a with | ⟨0, _⟩ => rfl | ⟨1, _⟩ => rfl), ref_mask3]

/-- The third masked sums are the specification's. -/
theorem ref_pool3 :
    val_main_v111 (F := Ideal) x0 x1 x2 x3 x4 x5 x6 x7 x8 x9 x10 x11 x12 x13 x14 x15 x16
      = Cert.Spec.pool (val_main_v102 (F := Ideal) x0 x1 x2 x5 x6 x7 x8 x9 x10 x11 x12 x13 x14 x15 x16) (uitofp (F := Ideal) .f32 x3) (uitofp (F := Ideal) .f32 x4) (uitofp (F := Ideal) .f32 (noti (ori x3 x4))) := by
  funext i
  obtain ⟨r, q, rfl⟩ : ∃ (r : Fin 3) (q : Fin 64), i = ix2 r q := ⟨i 0, i 1, eq_ix2 i⟩
  rw [Cert.Spec.pool_apply]
  unfold Cert.Spec.poolAt
  rw [val_main_v111_apply]
  refine Finset.sum_congr rfl fun k _ => ?_
  rw [show lidx_main_v111 (ix2 r q) k = ix2 r k from funext fun a => Fin.ext (by match a with | ⟨0, _⟩ => rfl | ⟨1, _⟩ => rfl),
    show ridx_main_v111 (ix2 r q) k = ix2 k q from funext fun a => Fin.ext (by match a with | ⟨0, _⟩ => rfl | ⟨1, _⟩ => rfl),
    ref_mask3]

end Cert.ReferenceIdeal.RefValue

end
-- ==== Proof.KI_Glue.lean ====
/-
  The kernel-side host functions against the reference's stages and the specification.

  The masks' sizes: each mask is cast to a column of zeros and ones and summed over both axes from zero; a sum over
  a [n, 1] array is the sum over its rows of the one entry in each row, so the total is Σ_i c[i], the specification's
  size. The three totals are joined end to end, so entry r of the result is the r-th total. The remaining facts say
  that a cast which only adds a unit axis moves no element, and that the reference prints the same host operations as
  the kernel.
-/
import proofs.«181750_j70806830841988_1_alg».proof.Proof.KI_HostDefs
import proofs.«181750_j70806830841988_1_alg».proof.Proof.RefReadPatched
import proofs.«181750_j70806830841988_1_alg».proof.Proof.RefStages
import proofs.«181750_j70806830841988_1_alg».proof.Proof.Spec
import proofs.«181750_j70806830841988_1_alg».proof.Proof.LibColumnLayout
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

noncomputable section

namespace Cert.KernelIdeal.HandValue

open Cert.KernelIdeal Cert.KernelIdeal.HandValue.Shapes Cert.ReferenceIdeal.ReadP Idealize.ShloMosaic Idealize.ShloMosaic.ValueIdx

/-- Three one-element arrays joined end to end, read at `r`: the `r`-th array's one element. -/
theorem concat3S1_apply {α : Type} (u0 u1 u2 : S1.Idx → α)
    (h : Shape.Concatenates [S1, S1, S1] S3 0) (r : Fin 3) :
    concatenate S3 0 [⟨S1, u0⟩, ⟨S1, u1⟩, ⟨S1, u2⟩] h (ix1 r)
      = Cert.Spec.sel3 r u0 u1 u2 (ix1 (0 : Fin 1)) := by
  match r with
  | ⟨0, _⟩ =>
    exact concatenate_apply_piece (t := S3) 0 [⟨S1, u0⟩, ⟨S1, u1⟩, ⟨S1, u2⟩] h _ 0
      (by show 0 < 3; decide) S1 u0 rfl rfl 0 rfl (ix1 (0 : Fin 1))
      (fun b hb => by match b with | ⟨0, _⟩ => exact absurd rfl hb) rfl
  | ⟨1, _⟩ =>
    exact concatenate_apply_piece (t := S3) 0 [⟨S1, u0⟩, ⟨S1, u1⟩, ⟨S1, u2⟩] h _ 1
      (by show 1 < 3; decide) S1 u1 rfl rfl 1 rfl (ix1 (0 : Fin 1))
      (fun b hb => by match b with | ⟨0, _⟩ => exact absurd rfl hb) rfl
  | ⟨2, _⟩ =>
    exact concatenate_apply_piece (t := S3) 0 [⟨S1, u0⟩, ⟨S1, u1⟩, ⟨S1, u2⟩] h _ 2
      (by show 2 < 3; decide) S1 u2 rfl rfl 2 rfl (ix1 (0 : Fin 1))
      (fun b hb => by match b with | ⟨0, _⟩ => exact absurd rfl hb) rfl

/-- A mask as a column of numbers, at row `a`: the mask's entry `a` as a number. -/
theorem colOf_apply (x : (⟨Cert.ReferenceIdeal.S100000, .i1⟩ : BufTy).Contents (Elt Ideal)) (a : Fin 100000) (u : Fin 1) :
    colOf x (ix2 a u) = uitofp (F := Ideal) .f32 x (ix1 a) := by
  unfold colOf
  exact Cert.LibColumnLayout.shapeCast_a_a1_apply _ _ a u

/-- The total of a mask's column, started from zero and kept as a one-element array: the sum of the mask's entries as
    numbers. -/
theorem cnt_piece (x : (⟨Cert.ReferenceIdeal.S100000, .i1⟩ : BufTy).Contents (Elt Ideal)) :
    broadcastInDim S1 ![] bcast_S_S1
        (Host.reduceAdd (colOf x) (constant (F := Ideal) S_ .f32 0x00000000#32) reducesTo_S100000x1_S_d0_1 h_S_) (ix1 (0 : Fin 1))
      = ∑ i : Fin 100000, uitofp (F := Ideal) .f32 x (ix1 i) := by
  rw [broadcastInDim_apply _ bcast_S_S1 _ (ix1 (0 : Fin 1)) ix0 (fun a => a.elim0)]
  simp only [Host.reduceAdd, Ideal.hostReduceAdd_def]
  rw [Ideal.hostReduceAdd_total reducesTo_S100000x1_S_d0_1 (fun b => b.elim0), constant_apply, Ideal.ofBits_zero_f32, zero_add,
    sum_idx2]
  refine Finset.sum_congr rfl fun a _ => ?_
  rw [Fin.sum_univ_one, colOf_apply]

/-- The masks' sizes as the kernel's host operations compute them are the specification's. -/
theorem glue_cnt (x3 x4 : (⟨Cert.ReferenceIdeal.S100000, .i1⟩ : BufTy).Contents (Elt Ideal)) :
    cntOf x3 x4 = Cert.Spec.counts (uitofp (F := Ideal) .f32 x3) (uitofp (F := Ideal) .f32 x4)
      (uitofp (F := Ideal) .f32 (noti (ori x3 x4))) := by
  funext i
  obtain ⟨r, rfl⟩ : ∃ r : Fin 3, i = ix1 r := ⟨i 0, eq_ix1 i⟩
  rw [Cert.Spec.counts_apply]
  unfold cntOf Cert.Spec.countAt
  rw [concat3S1_apply]
  match r with
  | ⟨0, _⟩ => exact cnt_piece x3
  | ⟨1, _⟩ => exact cnt_piece x4
  | ⟨2, _⟩ => exact cnt_piece (noti (ori x3 x4))

/-- A mask's column read back along its rows is the mask as numbers. -/
theorem glue_col (x : (⟨Cert.ReferenceIdeal.S100000, .i1⟩ : BufTy).Contents (Elt Ideal)) :
    (fun i : Cert.ReferenceIdeal.S100000.Idx => colOf x (ix2 (i 0) (0 : Fin 1)))
      = (uitofp (F := Ideal) .f32 x : Cert.ReferenceIdeal.S100000.Idx → EReal) := by
  funext i
  obtain ⟨a, rfl⟩ : ∃ a : Fin 100000, i = ix1 a := ⟨i 0, eq_ix1 i⟩
  exact colOf_apply x a 0

/-- A bias vector cast to a one-row array and read back along that row is the vector. -/
theorem glue_row (b : S64.Idx → EReal) (h : S64.ShapeCasts S1x64) :
    (fun i : S64.Idx => (shapeCast S1x64 b h : S1x64.Idx → EReal) (ix2 (0 : Fin 1) (i 0))) = b := by
  funext i
  obtain ⟨a, rfl⟩ : ∃ a : Fin 64, i = ix1 a := ⟨i 0, eq_ix1 i⟩
  exact shapeCast_a_1a_apply b _ 0 a

variable (x0 : (⟨Cert.ReferenceIdeal.S100000x2, .f32⟩ : BufTy).Contents (Elt Ideal))
  (x1 x2 : (⟨Cert.ReferenceIdeal.S3200000, .i32⟩ : BufTy).Contents (Elt Ideal))
  (x3 x4 : (⟨Cert.ReferenceIdeal.S100000, .i1⟩ : BufTy).Contents (Elt Ideal))
  (x5 : (⟨Cert.ReferenceIdeal.S2x64, .f32⟩ : BufTy).Contents (Elt Ideal))
  (x6 : (⟨Cert.ReferenceIdeal.S64, .f32⟩ : BufTy).Contents (Elt Ideal))
  (x7 : (⟨Cert.ReferenceIdeal.S64x64, .f32⟩ : BufTy).Contents (Elt Ideal))
  (x8 : (⟨Cert.ReferenceIdeal.S64, .f32⟩ : BufTy).Contents (Elt Ideal))
  (x9 : (⟨Cert.ReferenceIdeal.S64x64, .f32⟩ : BufTy).Contents (Elt Ideal))
  (x10 : (⟨Cert.ReferenceIdeal.S64, .f32⟩ : BufTy).Contents (Elt Ideal))
  (x11 : (⟨Cert.ReferenceIdeal.S64x64, .f32⟩ : BufTy).Contents (Elt Ideal))
  (x12 : (⟨Cert.ReferenceIdeal.S64, .f32⟩ : BufTy).Contents (Elt Ideal))
  (x13 : (⟨Cert.ReferenceIdeal.S64x64, .f32⟩ : BufTy).Contents (Elt Ideal))
  (x14 : (⟨Cert.ReferenceIdeal.S64, .f32⟩ : BufTy).Contents (Elt Ideal))
  (x15 : (⟨Cert.ReferenceIdeal.S64x64, .f32⟩ : BufTy).Contents (Elt Ideal))
  (x16 : (⟨Cert.ReferenceIdeal.S64, .f32⟩ : BufTy).Contents (Elt Ideal))

/-! ## The reference's host stages are the kernel's host functions

The two programs print the same host operations over their own copies of the shapes and dimension records; the copies
have equal definitions, so each equation holds by unfolding. -/

/-- The first layer's aggregated input. -/
theorem glue_z1 : val_main_v10 (F := Ideal) x0 x1 x2 = agg2 x0 x1 x2 := rfl

/-- The second layer's aggregated input, from the first layer's output. -/
theorem glue_z2 : val_main_v51 (F := Ideal) x0 x1 x2 x5 x6 x7 x8 = agg64 (val_main_v20 (F := Ideal) x0 x1 x2 x5 x6 x7 x8) x1 x2 := rfl

/-- The third layer's aggregated input, from the second layer's output. -/
theorem glue_z3 : val_main_v92 (F := Ideal) x0 x1 x2 x5 x6 x7 x8 x9 x10 x11 x12 = agg64 (val_main_v61 (F := Ideal) x0 x1 x2 x5 x6 x7 x8 x9 x10 x11 x12) x1 x2 := rfl

/-- The first layer's group means, from its masked sums and the masks' sizes. -/
theorem glue_t1 : val_main_v40 (F := Ideal) x0 x1 x2 x3 x4 x5 x6 x7 x8
    = tailOf (val_main_v29 (F := Ideal) x0 x1 x2 x3 x4 x5 x6 x7 x8) (val_main_v28 (F := Ideal) x3 x4) := rfl

/-- The second layer's group means. -/
theorem glue_t2 : val_main_v81 (F := Ideal) x0 x1 x2 x3 x4 x5 x6 x7 x8 x9 x10 x11 x12
    = tailOf (val_main_v70 (F := Ideal) x0 x1 x2 x3 x4 x5 x6 x7 x8 x9 x10 x11 x12) (val_main_v69 (F := Ideal) x3 x4) := rfl

/-- The third layer's group means. -/
theorem glue_t3 : val_main_v122 (F := Ideal) x0 x1 x2 x3 x4 x5 x6 x7 x8 x9 x10 x11 x12 x13 x14 x15 x16
    = tailOf (val_main_v111 (F := Ideal) x0 x1 x2 x3 x4 x5 x6 x7 x8 x9 x10 x11 x12 x13 x14 x15 x16) (val_main_v110 (F := Ideal) x3 x4) := rfl

end Cert.KernelIdeal.HandValue

end
-- ==== Proof.KI_Value.lean ====
/-
  The result array of the idealized kernel, boundary by boundary, and its equality with the reference's.

  Notation: x0 … x16 are the argument arrays. Z1 = x0 + scatter-add of the gathered rows of x0; H1 is the dense part of Z1
  with the first layer's weights; P1 the three masked column sums of H1; C the three masks' sizes; T1 the sums divided by
  max(C, 1) where C > 0 and zero elsewhere, flattened; Z2 = H1 + its aggregated neighbours, and so on for layers two and
  three; the result is T1, T2, T3 joined. Each kernel region's output array is the specification's function of its input
  arrays (the blocks-to-array lemmas), each host stretch's results are the operations' own terms, a buffer no item writes is
  carried unchanged, and the reference's stages are the same functions of the same arguments.
-/
import proofs.«181750_j70806830841988_1_alg».proof.Proof.KI_Run
import proofs.«181750_j70806830841988_1_alg».proof.Proof.KI_HostStages
import proofs.«181750_j70806830841988_1_alg».proof.Proof.KI_MlpArray0
import proofs.«181750_j70806830841988_1_alg».proof.Proof.KI_MlpArray2
import proofs.«181750_j70806830841988_1_alg».proof.Proof.KI_MlpArray4
import proofs.«181750_j70806830841988_1_alg».proof.Proof.KI_PoolArray1
import proofs.«181750_j70806830841988_1_alg».proof.Proof.KI_PoolArray3
import proofs.«181750_j70806830841988_1_alg».proof.Proof.KI_PoolArray5
import proofs.«181750_j70806830841988_1_alg».proof.Proof.KI_Glue
import proofs.«181750_j70806830841988_1_alg».proof.Proof.RefStages

set_option maxRecDepth 16384

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand
open Cert.ReferenceIdeal.ReadP Cert.ReferenceIdeal.RefValue

variable (m : (ℓ : Loc nD τ sig) → Buf (Elt Ideal) ℓ) (c : Dev nD)

/-! ## The argument arrays and the named intermediate arrays -/

abbrev x0 := m ((c : Thread nD τ).loc main_arg0)
abbrev x1 := m ((c : Thread nD τ).loc main_arg1)
abbrev x2 := m ((c : Thread nD τ).loc main_arg2)
abbrev x3 := m ((c : Thread nD τ).loc main_arg3)
abbrev x4 := m ((c : Thread nD τ).loc main_arg4)
abbrev x5 := m ((c : Thread nD τ).loc main_arg5)
abbrev x6 := m ((c : Thread nD τ).loc main_arg6)
abbrev x7 := m ((c : Thread nD τ).loc main_arg7)
abbrev x8 := m ((c : Thread nD τ).loc main_arg8)
abbrev x9 := m ((c : Thread nD τ).loc main_arg9)
abbrev x10 := m ((c : Thread nD τ).loc main_arg10)
abbrev x11 := m ((c : Thread nD τ).loc main_arg11)
abbrev x12 := m ((c : Thread nD τ).loc main_arg12)
abbrev x13 := m ((c : Thread nD τ).loc main_arg13)
abbrev x14 := m ((c : Thread nD τ).loc main_arg14)
abbrev x15 := m ((c : Thread nD τ).loc main_arg15)
abbrev x16 := m ((c : Thread nD τ).loc main_arg16)

abbrev cu := uitofp (F := Ideal) .f32 (x3 m c)
abbrev cv := uitofp (F := Ideal) .f32 (x4 m c)
abbrev co := uitofp (F := Ideal) .f32 (noti (ori (x3 m c) (x4 m c)))
def Z1 := agg2 (x0 m c) (x1 m c) (x2 m c)
def H1 := Cert.Spec.mlp (Z1 m c) (x5 m c) (x6 m c) (x7 m c) (x8 m c)
def P1 := Cert.Spec.pool (H1 m c) (cu m c) (cv m c) (co m c)
def C3 := cntOf (x3 m c) (x4 m c)
def Z2 := agg64 (H1 m c) (x1 m c) (x2 m c)
def H2 := Cert.Spec.mlp (Z2 m c) (x9 m c) (x10 m c) (x11 m c) (x12 m c)
def P2 := Cert.Spec.pool (H2 m c) (cu m c) (cv m c) (co m c)
def Z3 := agg64 (H2 m c) (x1 m c) (x2 m c)
def H3 := Cert.Spec.mlp (Z3 m c) (x13 m c) (x14 m c) (x15 m c) (x16 m c)
def P3 := Cert.Spec.pool (H3 m c) (cu m c) (cv m c) (co m c)

/-! ## Buffers carried unchanged from one boundary to a later one -/

theorem w1_arg5 : W1 m c (Proc.devRef .tc main_arg5) = m ((c : Thread nD τ).loc main_arg5) :=
  ((StableHlo.after_of_writes_sub hostOps0 _ hostOps0_writes (by decide) : W1 m c (Proc.devRef .tc main_arg5) = W0 m c (Proc.devRef .tc main_arg5))).trans rfl
theorem w1_arg7 : W1 m c (Proc.devRef .tc main_arg7) = m ((c : Thread nD τ).loc main_arg7) :=
  ((StableHlo.after_of_writes_sub hostOps0 _ hostOps0_writes (by decide) : W1 m c (Proc.devRef .tc main_arg7) = W0 m c (Proc.devRef .tc main_arg7))).trans rfl
theorem w3_arg1 : W3 m c (Proc.devRef .tc main_arg1) = m ((c : Thread nD τ).loc main_arg1) :=
  (((W3_keep m c main_arg1 (by decide))).trans (((W2_keep m c main_arg1 (by decide))).trans ((StableHlo.after_of_writes_sub hostOps0 _ hostOps0_writes (by decide) : W1 m c (Proc.devRef .tc main_arg1) = W0 m c (Proc.devRef .tc main_arg1))))).trans rfl
theorem w3_arg2 : W3 m c (Proc.devRef .tc main_arg2) = m ((c : Thread nD τ).loc main_arg2) :=
  (((W3_keep m c main_arg2 (by decide))).trans (((W2_keep m c main_arg2 (by decide))).trans ((StableHlo.after_of_writes_sub hostOps0 _ hostOps0_writes (by decide) : W1 m c (Proc.devRef .tc main_arg2) = W0 m c (Proc.devRef .tc main_arg2))))).trans rfl
theorem w3_arg10 : W3 m c (Proc.devRef .tc main_arg10) = m ((c : Thread nD τ).loc main_arg10) :=
  (((W3_keep m c main_arg10 (by decide))).trans (((W2_keep m c main_arg10 (by decide))).trans ((StableHlo.after_of_writes_sub hostOps0 _ hostOps0_writes (by decide) : W1 m c (Proc.devRef .tc main_arg10) = W0 m c (Proc.devRef .tc main_arg10))))).trans rfl
theorem w3_arg12 : W3 m c (Proc.devRef .tc main_arg12) = m ((c : Thread nD τ).loc main_arg12) :=
  (((W3_keep m c main_arg12 (by decide))).trans (((W2_keep m c main_arg12 (by decide))).trans ((StableHlo.after_of_writes_sub hostOps0 _ hostOps0_writes (by decide) : W1 m c (Proc.devRef .tc main_arg12) = W0 m c (Proc.devRef .tc main_arg12))))).trans rfl
theorem w6_arg9 : W6 m c (Proc.devRef .tc main_arg9) = m ((c : Thread nD τ).loc main_arg9) :=
  (((StableHlo.after_of_writes_sub hostOps2_2 _ hostOps2_2_writes (by decide) : W6 m c (Proc.devRef .tc main_arg9) = W5 m c (Proc.devRef .tc main_arg9))).trans (((StableHlo.after_of_writes_sub hostOps2_1 _ hostOps2_1_writes (by decide) : W5 m c (Proc.devRef .tc main_arg9) = W4 m c (Proc.devRef .tc main_arg9))).trans (((StableHlo.after_of_writes_sub hostOps2 _ hostOps2_writes (by decide) : W4 m c (Proc.devRef .tc main_arg9) = W3 m c (Proc.devRef .tc main_arg9))).trans (((W3_keep m c main_arg9 (by decide))).trans (((W2_keep m c main_arg9 (by decide))).trans ((StableHlo.after_of_writes_sub hostOps0 _ hostOps0_writes (by decide) : W1 m c (Proc.devRef .tc main_arg9) = W0 m c (Proc.devRef .tc main_arg9)))))))).trans rfl
theorem w6_arg11 : W6 m c (Proc.devRef .tc main_arg11) = m ((c : Thread nD τ).loc main_arg11) :=
  (((StableHlo.after_of_writes_sub hostOps2_2 _ hostOps2_2_writes (by decide) : W6 m c (Proc.devRef .tc main_arg11) = W5 m c (Proc.devRef .tc main_arg11))).trans (((StableHlo.after_of_writes_sub hostOps2_1 _ hostOps2_1_writes (by decide) : W5 m c (Proc.devRef .tc main_arg11) = W4 m c (Proc.devRef .tc main_arg11))).trans (((StableHlo.after_of_writes_sub hostOps2 _ hostOps2_writes (by decide) : W4 m c (Proc.devRef .tc main_arg11) = W3 m c (Proc.devRef .tc main_arg11))).trans (((W3_keep m c main_arg11 (by decide))).trans (((W2_keep m c main_arg11 (by decide))).trans ((StableHlo.after_of_writes_sub hostOps0 _ hostOps0_writes (by decide) : W1 m c (Proc.devRef .tc main_arg11) = W0 m c (Proc.devRef .tc main_arg11)))))))).trans rfl
theorem w8_arg1 : W8 m c (Proc.devRef .tc main_arg1) = m ((c : Thread nD τ).loc main_arg1) :=
  (((W8_keep m c main_arg1 (by decide))).trans (((W7_keep m c main_arg1 (by decide))).trans (((StableHlo.after_of_writes_sub hostOps2_2 _ hostOps2_2_writes (by decide) : W6 m c (Proc.devRef .tc main_arg1) = W5 m c (Proc.devRef .tc main_arg1))).trans (((StableHlo.after_of_writes_sub hostOps2_1 _ hostOps2_1_writes (by decide) : W5 m c (Proc.devRef .tc main_arg1) = W4 m c (Proc.devRef .tc main_arg1))).trans (((StableHlo.after_of_writes_sub hostOps2 _ hostOps2_writes (by decide) : W4 m c (Proc.devRef .tc main_arg1) = W3 m c (Proc.devRef .tc main_arg1))).trans (((W3_keep m c main_arg1 (by decide))).trans (((W2_keep m c main_arg1 (by decide))).trans ((StableHlo.after_of_writes_sub hostOps0 _ hostOps0_writes (by decide) : W1 m c (Proc.devRef .tc main_arg1) = W0 m c (Proc.devRef .tc main_arg1)))))))))).trans rfl
theorem w8_arg2 : W8 m c (Proc.devRef .tc main_arg2) = m ((c : Thread nD τ).loc main_arg2) :=
  (((W8_keep m c main_arg2 (by decide))).trans (((W7_keep m c main_arg2 (by decide))).trans (((StableHlo.after_of_writes_sub hostOps2_2 _ hostOps2_2_writes (by decide) : W6 m c (Proc.devRef .tc main_arg2) = W5 m c (Proc.devRef .tc main_arg2))).trans (((StableHlo.after_of_writes_sub hostOps2_1 _ hostOps2_1_writes (by decide) : W5 m c (Proc.devRef .tc main_arg2) = W4 m c (Proc.devRef .tc main_arg2))).trans (((StableHlo.after_of_writes_sub hostOps2 _ hostOps2_writes (by decide) : W4 m c (Proc.devRef .tc main_arg2) = W3 m c (Proc.devRef .tc main_arg2))).trans (((W3_keep m c main_arg2 (by decide))).trans (((W2_keep m c main_arg2 (by decide))).trans ((StableHlo.after_of_writes_sub hostOps0 _ hostOps0_writes (by decide) : W1 m c (Proc.devRef .tc main_arg2) = W0 m c (Proc.devRef .tc main_arg2)))))))))).trans rfl
theorem w8_arg14 : W8 m c (Proc.devRef .tc main_arg14) = m ((c : Thread nD τ).loc main_arg14) :=
  (((W8_keep m c main_arg14 (by decide))).trans (((W7_keep m c main_arg14 (by decide))).trans (((StableHlo.after_of_writes_sub hostOps2_2 _ hostOps2_2_writes (by decide) : W6 m c (Proc.devRef .tc main_arg14) = W5 m c (Proc.devRef .tc main_arg14))).trans (((StableHlo.after_of_writes_sub hostOps2_1 _ hostOps2_1_writes (by decide) : W5 m c (Proc.devRef .tc main_arg14) = W4 m c (Proc.devRef .tc main_arg14))).trans (((StableHlo.after_of_writes_sub hostOps2 _ hostOps2_writes (by decide) : W4 m c (Proc.devRef .tc main_arg14) = W3 m c (Proc.devRef .tc main_arg14))).trans (((W3_keep m c main_arg14 (by decide))).trans (((W2_keep m c main_arg14 (by decide))).trans ((StableHlo.after_of_writes_sub hostOps0 _ hostOps0_writes (by decide) : W1 m c (Proc.devRef .tc main_arg14) = W0 m c (Proc.devRef .tc main_arg14)))))))))).trans rfl
theorem w8_arg16 : W8 m c (Proc.devRef .tc main_arg16) = m ((c : Thread nD τ).loc main_arg16) :=
  (((W8_keep m c main_arg16 (by decide))).trans (((W7_keep m c main_arg16 (by decide))).trans (((StableHlo.after_of_writes_sub hostOps2_2 _ hostOps2_2_writes (by decide) : W6 m c (Proc.devRef .tc main_arg16) = W5 m c (Proc.devRef .tc main_arg16))).trans (((StableHlo.after_of_writes_sub hostOps2_1 _ hostOps2_1_writes (by decide) : W5 m c (Proc.devRef .tc main_arg16) = W4 m c (Proc.devRef .tc main_arg16))).trans (((StableHlo.after_of_writes_sub hostOps2 _ hostOps2_writes (by decide) : W4 m c (Proc.devRef .tc main_arg16) = W3 m c (Proc.devRef .tc main_arg16))).trans (((W3_keep m c main_arg16 (by decide))).trans (((W2_keep m c main_arg16 (by decide))).trans ((StableHlo.after_of_writes_sub hostOps0 _ hostOps0_writes (by decide) : W1 m c (Proc.devRef .tc main_arg16) = W0 m c (Proc.devRef .tc main_arg16)))))))))).trans rfl
theorem w11_arg13 : W11 m c (Proc.devRef .tc main_arg13) = m ((c : Thread nD τ).loc main_arg13) :=
  (((StableHlo.after_of_writes_sub hostOps4_2 _ hostOps4_2_writes (by decide) : W11 m c (Proc.devRef .tc main_arg13) = W10 m c (Proc.devRef .tc main_arg13))).trans (((StableHlo.after_of_writes_sub hostOps4_1 _ hostOps4_1_writes (by decide) : W10 m c (Proc.devRef .tc main_arg13) = W9 m c (Proc.devRef .tc main_arg13))).trans (((StableHlo.after_of_writes_sub hostOps4 _ hostOps4_writes (by decide) : W9 m c (Proc.devRef .tc main_arg13) = W8 m c (Proc.devRef .tc main_arg13))).trans (((W8_keep m c main_arg13 (by decide))).trans (((W7_keep m c main_arg13 (by decide))).trans (((StableHlo.after_of_writes_sub hostOps2_2 _ hostOps2_2_writes (by decide) : W6 m c (Proc.devRef .tc main_arg13) = W5 m c (Proc.devRef .tc main_arg13))).trans (((StableHlo.after_of_writes_sub hostOps2_1 _ hostOps2_1_writes (by decide) : W5 m c (Proc.devRef .tc main_arg13) = W4 m c (Proc.devRef .tc main_arg13))).trans (((StableHlo.after_of_writes_sub hostOps2 _ hostOps2_writes (by decide) : W4 m c (Proc.devRef .tc main_arg13) = W3 m c (Proc.devRef .tc main_arg13))).trans (((W3_keep m c main_arg13 (by decide))).trans (((W2_keep m c main_arg13 (by decide))).trans ((StableHlo.after_of_writes_sub hostOps0 _ hostOps0_writes (by decide) : W1 m c (Proc.devRef .tc main_arg13) = W0 m c (Proc.devRef .tc main_arg13))))))))))))).trans rfl
theorem w11_arg15 : W11 m c (Proc.devRef .tc main_arg15) = m ((c : Thread nD τ).loc main_arg15) :=
  (((StableHlo.after_of_writes_sub hostOps4_2 _ hostOps4_2_writes (by decide) : W11 m c (Proc.devRef .tc main_arg15) = W10 m c (Proc.devRef .tc main_arg15))).trans (((StableHlo.after_of_writes_sub hostOps4_1 _ hostOps4_1_writes (by decide) : W10 m c (Proc.devRef .tc main_arg15) = W9 m c (Proc.devRef .tc main_arg15))).trans (((StableHlo.after_of_writes_sub hostOps4 _ hostOps4_writes (by decide) : W9 m c (Proc.devRef .tc main_arg15) = W8 m c (Proc.devRef .tc main_arg15))).trans (((W8_keep m c main_arg15 (by decide))).trans (((W7_keep m c main_arg15 (by decide))).trans (((StableHlo.after_of_writes_sub hostOps2_2 _ hostOps2_2_writes (by decide) : W6 m c (Proc.devRef .tc main_arg15) = W5 m c (Proc.devRef .tc main_arg15))).trans (((StableHlo.after_of_writes_sub hostOps2_1 _ hostOps2_1_writes (by decide) : W5 m c (Proc.devRef .tc main_arg15) = W4 m c (Proc.devRef .tc main_arg15))).trans (((StableHlo.after_of_writes_sub hostOps2 _ hostOps2_writes (by decide) : W4 m c (Proc.devRef .tc main_arg15) = W3 m c (Proc.devRef .tc main_arg15))).trans (((W3_keep m c main_arg15 (by decide))).trans (((W2_keep m c main_arg15 (by decide))).trans ((StableHlo.after_of_writes_sub hostOps0 _ hostOps0_writes (by decide) : W1 m c (Proc.devRef .tc main_arg15) = W0 m c (Proc.devRef .tc main_arg15))))))))))))).trans rfl
theorem keep_v3_2 : W2 m c (Proc.devRef .tc main_v3) = W1 m c (Proc.devRef .tc main_v3) :=
  (W2_keep m c main_v3 (by decide))
theorem keep_v5_2 : W2 m c (Proc.devRef .tc main_v5) = W1 m c (Proc.devRef .tc main_v5) :=
  (W2_keep m c main_v5 (by decide))
theorem keep_v7_2 : W2 m c (Proc.devRef .tc main_v7) = W1 m c (Proc.devRef .tc main_v7) :=
  (W2_keep m c main_v7 (by decide))
theorem keep_v3_7 : W7 m c (Proc.devRef .tc main_v3) = W1 m c (Proc.devRef .tc main_v3) :=
  ((W7_keep m c main_v3 (by decide))).trans (((StableHlo.after_of_writes_sub hostOps2_2 _ hostOps2_2_writes (by decide) : W6 m c (Proc.devRef .tc main_v3) = W5 m c (Proc.devRef .tc main_v3))).trans (((StableHlo.after_of_writes_sub hostOps2_1 _ hostOps2_1_writes (by decide) : W5 m c (Proc.devRef .tc main_v3) = W4 m c (Proc.devRef .tc main_v3))).trans (((StableHlo.after_of_writes_sub hostOps2 _ hostOps2_writes (by decide) : W4 m c (Proc.devRef .tc main_v3) = W3 m c (Proc.devRef .tc main_v3))).trans (((W3_keep m c main_v3 (by decide))).trans ((W2_keep m c main_v3 (by decide)))))))
theorem keep_v5_7 : W7 m c (Proc.devRef .tc main_v5) = W1 m c (Proc.devRef .tc main_v5) :=
  ((W7_keep m c main_v5 (by decide))).trans (((StableHlo.after_of_writes_sub hostOps2_2 _ hostOps2_2_writes (by decide) : W6 m c (Proc.devRef .tc main_v5) = W5 m c (Proc.devRef .tc main_v5))).trans (((StableHlo.after_of_writes_sub hostOps2_1 _ hostOps2_1_writes (by decide) : W5 m c (Proc.devRef .tc main_v5) = W4 m c (Proc.devRef .tc main_v5))).trans (((StableHlo.after_of_writes_sub hostOps2 _ hostOps2_writes (by decide) : W4 m c (Proc.devRef .tc main_v5) = W3 m c (Proc.devRef .tc main_v5))).trans (((W3_keep m c main_v5 (by decide))).trans ((W2_keep m c main_v5 (by decide)))))))
theorem keep_v7_7 : W7 m c (Proc.devRef .tc main_v7) = W1 m c (Proc.devRef .tc main_v7) :=
  ((W7_keep m c main_v7 (by decide))).trans (((StableHlo.after_of_writes_sub hostOps2_2 _ hostOps2_2_writes (by decide) : W6 m c (Proc.devRef .tc main_v7) = W5 m c (Proc.devRef .tc main_v7))).trans (((StableHlo.after_of_writes_sub hostOps2_1 _ hostOps2_1_writes (by decide) : W5 m c (Proc.devRef .tc main_v7) = W4 m c (Proc.devRef .tc main_v7))).trans (((StableHlo.after_of_writes_sub hostOps2 _ hostOps2_writes (by decide) : W4 m c (Proc.devRef .tc main_v7) = W3 m c (Proc.devRef .tc main_v7))).trans (((W3_keep m c main_v7 (by decide))).trans ((W2_keep m c main_v7 (by decide)))))))
theorem keep_v3_12 : W12 m c (Proc.devRef .tc main_v3) = W1 m c (Proc.devRef .tc main_v3) :=
  ((W12_keep m c main_v3 (by decide))).trans (((StableHlo.after_of_writes_sub hostOps4_2 _ hostOps4_2_writes (by decide) : W11 m c (Proc.devRef .tc main_v3) = W10 m c (Proc.devRef .tc main_v3))).trans (((StableHlo.after_of_writes_sub hostOps4_1 _ hostOps4_1_writes (by decide) : W10 m c (Proc.devRef .tc main_v3) = W9 m c (Proc.devRef .tc main_v3))).trans (((StableHlo.after_of_writes_sub hostOps4 _ hostOps4_writes (by decide) : W9 m c (Proc.devRef .tc main_v3) = W8 m c (Proc.devRef .tc main_v3))).trans (((W8_keep m c main_v3 (by decide))).trans (((W7_keep m c main_v3 (by decide))).trans (((StableHlo.after_of_writes_sub hostOps2_2 _ hostOps2_2_writes (by decide) : W6 m c (Proc.devRef .tc main_v3) = W5 m c (Proc.devRef .tc main_v3))).trans (((StableHlo.after_of_writes_sub hostOps2_1 _ hostOps2_1_writes (by decide) : W5 m c (Proc.devRef .tc main_v3) = W4 m c (Proc.devRef .tc main_v3))).trans (((StableHlo.after_of_writes_sub hostOps2 _ hostOps2_writes (by decide) : W4 m c (Proc.devRef .tc main_v3) = W3 m c (Proc.devRef .tc main_v3))).trans (((W3_keep m c main_v3 (by decide))).trans ((W2_keep m c main_v3 (by decide))))))))))))
theorem keep_v5_12 : W12 m c (Proc.devRef .tc main_v5) = W1 m c (Proc.devRef .tc main_v5) :=
  ((W12_keep m c main_v5 (by decide))).trans (((StableHlo.after_of_writes_sub hostOps4_2 _ hostOps4_2_writes (by decide) : W11 m c (Proc.devRef .tc main_v5) = W10 m c (Proc.devRef .tc main_v5))).trans (((StableHlo.after_of_writes_sub hostOps4_1 _ hostOps4_1_writes (by decide) : W10 m c (Proc.devRef .tc main_v5) = W9 m c (Proc.devRef .tc main_v5))).trans (((StableHlo.after_of_writes_sub hostOps4 _ hostOps4_writes (by decide) : W9 m c (Proc.devRef .tc main_v5) = W8 m c (Proc.devRef .tc main_v5))).trans (((W8_keep m c main_v5 (by decide))).trans (((W7_keep m c main_v5 (by decide))).trans (((StableHlo.after_of_writes_sub hostOps2_2 _ hostOps2_2_writes (by decide) : W6 m c (Proc.devRef .tc main_v5) = W5 m c (Proc.devRef .tc main_v5))).trans (((StableHlo.after_of_writes_sub hostOps2_1 _ hostOps2_1_writes (by decide) : W5 m c (Proc.devRef .tc main_v5) = W4 m c (Proc.devRef .tc main_v5))).trans (((StableHlo.after_of_writes_sub hostOps2 _ hostOps2_writes (by decide) : W4 m c (Proc.devRef .tc main_v5) = W3 m c (Proc.devRef .tc main_v5))).trans (((W3_keep m c main_v5 (by decide))).trans ((W2_keep m c main_v5 (by decide))))))))))))
theorem keep_v7_12 : W12 m c (Proc.devRef .tc main_v7) = W1 m c (Proc.devRef .tc main_v7) :=
  ((W12_keep m c main_v7 (by decide))).trans (((StableHlo.after_of_writes_sub hostOps4_2 _ hostOps4_2_writes (by decide) : W11 m c (Proc.devRef .tc main_v7) = W10 m c (Proc.devRef .tc main_v7))).trans (((StableHlo.after_of_writes_sub hostOps4_1 _ hostOps4_1_writes (by decide) : W10 m c (Proc.devRef .tc main_v7) = W9 m c (Proc.devRef .tc main_v7))).trans (((StableHlo.after_of_writes_sub hostOps4 _ hostOps4_writes (by decide) : W9 m c (Proc.devRef .tc main_v7) = W8 m c (Proc.devRef .tc main_v7))).trans (((W8_keep m c main_v7 (by decide))).trans (((W7_keep m c main_v7 (by decide))).trans (((StableHlo.after_of_writes_sub hostOps2_2 _ hostOps2_2_writes (by decide) : W6 m c (Proc.devRef .tc main_v7) = W5 m c (Proc.devRef .tc main_v7))).trans (((StableHlo.after_of_writes_sub hostOps2_1 _ hostOps2_1_writes (by decide) : W5 m c (Proc.devRef .tc main_v7) = W4 m c (Proc.devRef .tc main_v7))).trans (((StableHlo.after_of_writes_sub hostOps2 _ hostOps2_writes (by decide) : W4 m c (Proc.devRef .tc main_v7) = W3 m c (Proc.devRef .tc main_v7))).trans (((W3_keep m c main_v7 (by decide))).trans ((W2_keep m c main_v7 (by decide))))))))))))
theorem keep_v14_3 : W3 m c (Proc.devRef .tc main_v14) = W1 m c (Proc.devRef .tc main_v14) :=
  ((W3_keep m c main_v14 (by decide))).trans ((W2_keep m c main_v14 (by decide)))
theorem keep_v14_8 : W8 m c (Proc.devRef .tc main_v14) = W1 m c (Proc.devRef .tc main_v14) :=
  ((W8_keep m c main_v14 (by decide))).trans (((W7_keep m c main_v14 (by decide))).trans (((StableHlo.after_of_writes_sub hostOps2_2 _ hostOps2_2_writes (by decide) : W6 m c (Proc.devRef .tc main_v14) = W5 m c (Proc.devRef .tc main_v14))).trans (((StableHlo.after_of_writes_sub hostOps2_1 _ hostOps2_1_writes (by decide) : W5 m c (Proc.devRef .tc main_v14) = W4 m c (Proc.devRef .tc main_v14))).trans (((StableHlo.after_of_writes_sub hostOps2 _ hostOps2_writes (by decide) : W4 m c (Proc.devRef .tc main_v14) = W3 m c (Proc.devRef .tc main_v14))).trans (((W3_keep m c main_v14 (by decide))).trans ((W2_keep m c main_v14 (by decide))))))))
theorem keep_v14_13 : W13 m c (Proc.devRef .tc main_v14) = W1 m c (Proc.devRef .tc main_v14) :=
  ((W13_keep m c main_v14 (by decide))).trans (((W12_keep m c main_v14 (by decide))).trans (((StableHlo.after_of_writes_sub hostOps4_2 _ hostOps4_2_writes (by decide) : W11 m c (Proc.devRef .tc main_v14) = W10 m c (Proc.devRef .tc main_v14))).trans (((StableHlo.after_of_writes_sub hostOps4_1 _ hostOps4_1_writes (by decide) : W10 m c (Proc.devRef .tc main_v14) = W9 m c (Proc.devRef .tc main_v14))).trans (((StableHlo.after_of_writes_sub hostOps4 _ hostOps4_writes (by decide) : W9 m c (Proc.devRef .tc main_v14) = W8 m c (Proc.devRef .tc main_v14))).trans (((W8_keep m c main_v14 (by decide))).trans (((W7_keep m c main_v14 (by decide))).trans (((StableHlo.after_of_writes_sub hostOps2_2 _ hostOps2_2_writes (by decide) : W6 m c (Proc.devRef .tc main_v14) = W5 m c (Proc.devRef .tc main_v14))).trans (((StableHlo.after_of_writes_sub hostOps2_1 _ hostOps2_1_writes (by decide) : W5 m c (Proc.devRef .tc main_v14) = W4 m c (Proc.devRef .tc main_v14))).trans (((StableHlo.after_of_writes_sub hostOps2 _ hostOps2_writes (by decide) : W4 m c (Proc.devRef .tc main_v14) = W3 m c (Proc.devRef .tc main_v14))).trans (((W3_keep m c main_v14 (by decide))).trans ((W2_keep m c main_v14 (by decide)))))))))))))
theorem keep_v28_3 : W3 m c (Proc.devRef .tc main_v28) = W2 m c (Proc.devRef .tc main_v28) :=
  (W3_keep m c main_v28 (by decide))
theorem keep_v54_8 : W8 m c (Proc.devRef .tc main_v54) = W7 m c (Proc.devRef .tc main_v54) :=
  (W8_keep m c main_v54 (by decide))
theorem keep_v40_13 : W13 m c (Proc.devRef .tc main_v40) = W6 m c (Proc.devRef .tc main_v40) :=
  ((W13_keep m c main_v40 (by decide))).trans (((W12_keep m c main_v40 (by decide))).trans (((StableHlo.after_of_writes_sub hostOps4_2 _ hostOps4_2_writes (by decide) : W11 m c (Proc.devRef .tc main_v40) = W10 m c (Proc.devRef .tc main_v40))).trans (((StableHlo.after_of_writes_sub hostOps4_1 _ hostOps4_1_writes (by decide) : W10 m c (Proc.devRef .tc main_v40) = W9 m c (Proc.devRef .tc main_v40))).trans (((StableHlo.after_of_writes_sub hostOps4 _ hostOps4_writes (by decide) : W9 m c (Proc.devRef .tc main_v40) = W8 m c (Proc.devRef .tc main_v40))).trans (((W8_keep m c main_v40 (by decide))).trans ((W7_keep m c main_v40 (by decide))))))))
theorem keep_v66_13 : W13 m c (Proc.devRef .tc main_v66) = W11 m c (Proc.devRef .tc main_v66) :=
  ((W13_keep m c main_v66 (by decide))).trans ((W12_keep m c main_v66 (by decide)))

/-! ## The kernel's buffers, boundary by boundary -/

theorem k_Z1 : W1 m c (Proc.devRef .tc main_v25) = Z1 m c := host0_v25 (W0 m c)
theorem k_b1_1 : W1 m c (Proc.devRef .tc main_v26) = shapeCast _ (x6 m c) shapeCasts_S64_S1x64 := host0_v26 (W0 m c)
theorem k_b2_1 : W1 m c (Proc.devRef .tc main_v27) = shapeCast _ (x8 m c) shapeCasts_S64_S1x64 := host0_v27 (W0 m c)
theorem k_u : W1 m c (Proc.devRef .tc main_v3) = colOf (x3 m c) := host0_v3 (W0 m c)
theorem k_v : W1 m c (Proc.devRef .tc main_v5) = colOf (x4 m c) := host0_v5 (W0 m c)
theorem k_o : W1 m c (Proc.devRef .tc main_v7) = colOf (noti (ori (x3 m c) (x4 m c))) := host0_v7 (W0 m c)
theorem k_C : W1 m c (Proc.devRef .tc main_v14) = C3 m c := host0_v14 (W0 m c)

/-- Region 0 leaves the first layer's dense part of Z1. -/
theorem k_H1 : W2 m c (Proc.devRef .tc main_v28) = H1 m c := by
  refine ((W2_arr m c 5).trans (mlp0_array (En0 m) c)).trans ?_
  show Cert.Spec.mlp (W1 m c (Proc.devRef .tc main_v25)) (W1 m c (Proc.devRef .tc main_arg5))
      (fun i => W1 m c (Proc.devRef .tc main_v26) (ix2 0 (i 0))) (W1 m c (Proc.devRef .tc main_arg7))
      (fun i => W1 m c (Proc.devRef .tc main_v27) (ix2 0 (i 0))) = _
  rw [k_Z1, w1_arg5, k_b1_1, w1_arg7, k_b2_1, glue_row, glue_row]
  rfl

/-- Region 1 leaves the masked column sums of H1. -/
theorem k_P1 : W3 m c (Proc.devRef .tc main_v29) = P1 m c := by
  refine ((W3_arr m c 4).trans (pool1_array (En1 m) c)).trans ?_
  show Cert.Spec.pool (W2 m c (Proc.devRef .tc main_v28)) (fun i => W2 m c (Proc.devRef .tc main_v3) (ix2 (i 0) 0))
      (fun i => W2 m c (Proc.devRef .tc main_v5) (ix2 (i 0) 0)) (fun i => W2 m c (Proc.devRef .tc main_v7) (ix2 (i 0) 0)) = _
  rw [k_H1, keep_v3_2, keep_v5_2, keep_v7_2, k_u, k_v, k_o, glue_col, glue_col, glue_col]
  rfl

theorem k_T1 : W6 m c (Proc.devRef .tc main_v40) = tailOf (P1 m c) (C3 m c) := by
  refine (host2_v40 (W3 m c)).trans ?_
  rw [k_P1, keep_v14_3, k_C]
theorem k_Z2 : W6 m c (Proc.devRef .tc main_v51) = Z2 m c := by
  refine (host2_v51 (W3 m c)).trans ?_
  rw [keep_v28_3, k_H1, w3_arg1, w3_arg2]
  rfl
theorem k_b1_2 : W6 m c (Proc.devRef .tc main_v52) = shapeCast _ (x10 m c) shapeCasts_S64_S1x64 := by
  refine (host2_v52 (W3 m c)).trans ?_
  rw [w3_arg10]
theorem k_b2_2 : W6 m c (Proc.devRef .tc main_v53) = shapeCast _ (x12 m c) shapeCasts_S64_S1x64 := by
  refine (host2_v53 (W3 m c)).trans ?_
  rw [w3_arg12]

theorem k_H2 : W7 m c (Proc.devRef .tc main_v54) = H2 m c := by
  refine ((W7_arr m c 5).trans (mlp2_array (En2 m) c)).trans ?_
  show Cert.Spec.mlp (W6 m c (Proc.devRef .tc main_v51)) (W6 m c (Proc.devRef .tc main_arg9))
      (fun i => W6 m c (Proc.devRef .tc main_v52) (ix2 0 (i 0))) (W6 m c (Proc.devRef .tc main_arg11))
      (fun i => W6 m c (Proc.devRef .tc main_v53) (ix2 0 (i 0))) = _
  rw [k_Z2, w6_arg9, k_b1_2, w6_arg11, k_b2_2, glue_row, glue_row]
  rfl

theorem k_P2 : W8 m c (Proc.devRef .tc main_v55) = P2 m c := by
  refine ((W8_arr m c 4).trans (pool3_array (En3 m) c)).trans ?_
  show Cert.Spec.pool (W7 m c (Proc.devRef .tc main_v54)) (fun i => W7 m c (Proc.devRef .tc main_v3) (ix2 (i 0) 0))
      (fun i => W7 m c (Proc.devRef .tc main_v5) (ix2 (i 0) 0)) (fun i => W7 m c (Proc.devRef .tc main_v7) (ix2 (i 0) 0)) = _
  rw [k_H2, keep_v3_7, keep_v5_7, keep_v7_7, k_u, k_v, k_o, glue_col, glue_col, glue_col]
  rfl

theorem k_T2 : W11 m c (Proc.devRef .tc main_v66) = tailOf (P2 m c) (C3 m c) := by
  refine (host4_v66 (W8 m c)).trans ?_
  rw [k_P2, keep_v14_8, k_C]
theorem k_Z3 : W11 m c (Proc.devRef .tc main_v77) = Z3 m c := by
  refine (host4_v77 (W8 m c)).trans ?_
  rw [keep_v54_8, k_H2, w8_arg1, w8_arg2]
  rfl
theorem k_b1_3 : W11 m c (Proc.devRef .tc main_v78) = shapeCast _ (x14 m c) shapeCasts_S64_S1x64 := by
  refine (host4_v78 (W8 m c)).trans ?_
  rw [w8_arg14]
theorem k_b2_3 : W11 m c (Proc.devRef .tc main_v79) = shapeCast _ (x16 m c) shapeCasts_S64_S1x64 := by
  refine (host4_v79 (W8 m c)).trans ?_
  rw [w8_arg16]

theorem k_H3 : W12 m c (Proc.devRef .tc main_v80) = H3 m c := by
  refine ((W12_arr m c 5).trans (mlp4_array (En4 m) c)).trans ?_
  show Cert.Spec.mlp (W11 m c (Proc.devRef .tc main_v77)) (W11 m c (Proc.devRef .tc main_arg13))
      (fun i => W11 m c (Proc.devRef .tc main_v78) (ix2 0 (i 0))) (W11 m c (Proc.devRef .tc main_arg15))
      (fun i => W11 m c (Proc.devRef .tc main_v79) (ix2 0 (i 0))) = _
  rw [k_Z3, w11_arg13, k_b1_3, w11_arg15, k_b2_3, glue_row, glue_row]
  rfl

theorem k_P3 : W13 m c (Proc.devRef .tc main_v81) = P3 m c := by
  refine ((W13_arr m c 4).trans (pool5_array (En5 m) c)).trans ?_
  show Cert.Spec.pool (W12 m c (Proc.devRef .tc main_v80)) (fun i => W12 m c (Proc.devRef .tc main_v3) (ix2 (i 0) 0))
      (fun i => W12 m c (Proc.devRef .tc main_v5) (ix2 (i 0) 0)) (fun i => W12 m c (Proc.devRef .tc main_v7) (ix2 (i 0) 0)) = _
  rw [k_H3, keep_v3_12, keep_v5_12, keep_v7_12, k_u, k_v, k_o, glue_col, glue_col, glue_col]
  rfl

/-- The kernel's result: the three layers' flattened means joined. -/
theorem k_out : W16 m c (Proc.devRef .tc main_v93) = concatenate S576 0 [⟨S192, tailOf (P1 m c) (C3 m c)⟩, ⟨S192, tailOf (P2 m c) (C3 m c)⟩, ⟨S192, tailOf (P3 m c) (C3 m c)⟩] concatenates_S192_S192_S192_S576_d0 := by
  refine (host6_v93 (W13 m c)).trans ?_
  rw [keep_v40_13, k_T1, keep_v66_13, k_T2, k_P3, keep_v14_13, k_C]

/-! ## The reference's stages are the same arrays -/

theorem r_Z1 : val_main_v10 (F := Ideal) (x0 m c) (x1 m c) (x2 m c) = Z1 m c := glue_z1 _ _ _
theorem r_H1 : val_main_v20 (F := Ideal) (x0 m c) (x1 m c) (x2 m c) (x5 m c) (x6 m c) (x7 m c) (x8 m c) = H1 m c := by
  rw [ref_layer1, r_Z1]; rfl
theorem r_C1 : val_main_v28 (F := Ideal) (x3 m c) (x4 m c) = C3 m c := by
  rw [ref_counts1]; exact (glue_cnt _ _).symm
theorem r_P1 : val_main_v29 (F := Ideal) (x0 m c) (x1 m c) (x2 m c) (x3 m c) (x4 m c) (x5 m c) (x6 m c) (x7 m c) (x8 m c) = P1 m c := by
  rw [ref_pool1, r_H1]; rfl
theorem r_T1 : val_main_v40 (F := Ideal) (x0 m c) (x1 m c) (x2 m c) (x3 m c) (x4 m c) (x5 m c) (x6 m c) (x7 m c) (x8 m c) = tailOf (P1 m c) (C3 m c) := by
  rw [glue_t1, r_P1, r_C1]
theorem r_Z2 : val_main_v51 (F := Ideal) (x0 m c) (x1 m c) (x2 m c) (x5 m c) (x6 m c) (x7 m c) (x8 m c) = Z2 m c := by
  rw [glue_z2, r_H1]; rfl
theorem r_H2 : val_main_v61 (F := Ideal) (x0 m c) (x1 m c) (x2 m c) (x5 m c) (x6 m c) (x7 m c) (x8 m c) (x9 m c) (x10 m c) (x11 m c) (x12 m c) = H2 m c := by
  rw [ref_layer2, r_Z2]; rfl
theorem r_C2 : val_main_v69 (F := Ideal) (x3 m c) (x4 m c) = C3 m c := by
  rw [ref_counts2]; exact (glue_cnt _ _).symm
theorem r_P2 : val_main_v70 (F := Ideal) (x0 m c) (x1 m c) (x2 m c) (x3 m c) (x4 m c) (x5 m c) (x6 m c) (x7 m c) (x8 m c) (x9 m c) (x10 m c) (x11 m c) (x12 m c) = P2 m c := by
  rw [ref_pool2, r_H2]; rfl
theorem r_T2 : val_main_v81 (F := Ideal) (x0 m c) (x1 m c) (x2 m c) (x3 m c) (x4 m c) (x5 m c) (x6 m c) (x7 m c) (x8 m c) (x9 m c) (x10 m c) (x11 m c) (x12 m c) = tailOf (P2 m c) (C3 m c) := by
  rw [glue_t2, r_P2, r_C2]
theorem r_Z3 : val_main_v92 (F := Ideal) (x0 m c) (x1 m c) (x2 m c) (x5 m c) (x6 m c) (x7 m c) (x8 m c) (x9 m c) (x10 m c) (x11 m c) (x12 m c) = Z3 m c := by
  rw [glue_z3, r_H2]; rfl
theorem r_H3 : val_main_v102 (F := Ideal) (x0 m c) (x1 m c) (x2 m c) (x5 m c) (x6 m c) (x7 m c) (x8 m c) (x9 m c) (x10 m c) (x11 m c) (x12 m c) (x13 m c) (x14 m c) (x15 m c) (x16 m c) = H3 m c := by
  rw [ref_layer3, r_Z3]; rfl
theorem r_C3 : val_main_v110 (F := Ideal) (x3 m c) (x4 m c) = C3 m c := by
  rw [ref_counts3]; exact (glue_cnt _ _).symm
theorem r_P3 : val_main_v111 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c) = P3 m c := by
  rw [ref_pool3, r_H3]; rfl
theorem r_T3 : val_main_v122 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c) = tailOf (P3 m c) (C3 m c) := by
  rw [glue_t3, r_P3, r_C3]

/-- THE VALUE: the kernel's result buffer at the end of its run is the reference's result term of the same arguments. -/
theorem result_eq : W16 m c (Proc.devRef .tc main_v93) = val_main_v123 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c) := by
  rw [k_out]
  unfold val_main_v123
  rw [r_T1, r_T2, r_T3]

end Cert.KernelIdeal.HandValue

end
-- ==== Proof.lean ====
/-
  The certificate of a three-layer graph network kernel against its plain reference.

  Per layer both programs form  z = h + Σ_{edges into a node} h[source]  with the same host gather and scatter-add, apply
  the dense part  relu(relu(z·W1 + b1)·W2 + b2)  — the kernel row block by row block on the matrix unit, its operands passed
  through the half-width format, which at the ideal instance is the identity; the reference as two whole matrix products —
  and take three masked column sums of the result — the kernel accumulating them block by block in an on-chip buffer that it
  clears at the first block and copies out at the last; the reference as one product with the stacked masks — which the same
  host operations then divide by the masks' sizes. Sums of extended reals may be regrouped freely (addition is
  commutative and associative), so the two results are equal element by element; no finiteness is used.

  The frames: each kernel region runs under the pipeline's launch theorem from its body's triple (the dense body is one case;
  the pooling body has three: first block, middle blocks, last block), the host stretches between them by the host
  operations' own rule, and no item writes an argument array. The reference's frame is its run with the result dropped.
  The idealization rewrote nothing, so its soundness conjunct is trivial.
-/
import proofs.«181750_j70806830841988_1_alg».proof.Defs
import proofs.«181750_j70806830841988_1_alg».proof.Proof.Gen.Kernel
import proofs.«181750_j70806830841988_1_alg».proof.Proof.Gen.KernelIdeal
import proofs.«181750_j70806830841988_1_alg».proof.Proof.Gen.ReferenceIdeal
import proofs.«181750_j70806830841988_1_alg».proof.Proof.Gen.Pre_finite_inputs
import proofs.«181750_j70806830841988_1_alg».proof.Proof.K_Run
import proofs.«181750_j70806830841988_1_alg».proof.Proof.KI_Run
import proofs.«181750_j70806830841988_1_alg».proof.Proof.KI_Value
import proofs.«181750_j70806830841988_1_alg».proof.Proof.RefRunPatched
import proofs.«181750_j70806830841988_1_alg».proof.Proof.RefReadPatched

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both idealized programs end with the same result: the kernel's run leaves the result buffer at the last boundary's
    contents, the reference's at its operations' term of the (agreeing) arguments, and the two are one array. -/
theorem algebraic : Cert.algebraic_KernelIdeal_ReferenceIdeal := by
  intro m ρ m' ρ' _ hagree
  refine ⟨fun c => Cert.KernelIdeal.Hand.W16 m c (Proc.devRef .tc Cert.KernelIdeal.main_v93), ?_, ?_⟩
  · exact (θ_run Cert.KernelIdeal.defs _ _).mono (fun r h c =>
      ⟨h c _ (Cert.KernelIdeal.Hand.mem_uc Cert.KernelIdeal.main_v93 (by decide)),
       (h c _ (Cert.KernelIdeal.Hand.mem_uc Cert.KernelIdeal.main_arg0 (by decide))).trans (Cert.KernelIdeal.Hand.W16_arg m c Cert.KernelIdeal.main_arg0 (by decide)),
       (h c _ (Cert.KernelIdeal.Hand.mem_uc Cert.KernelIdeal.main_arg1 (by decide))).trans (Cert.KernelIdeal.Hand.W16_arg m c Cert.KernelIdeal.main_arg1 (by decide)),
       (h c _ (Cert.KernelIdeal.Hand.mem_uc Cert.KernelIdeal.main_arg2 (by decide))).trans (Cert.KernelIdeal.Hand.W16_arg m c Cert.KernelIdeal.main_arg2 (by decide)),
       (h c _ (Cert.KernelIdeal.Hand.mem_uc Cert.KernelIdeal.main_arg3 (by decide))).trans (Cert.KernelIdeal.Hand.W16_arg m c Cert.KernelIdeal.main_arg3 (by decide)),
       (h c _ (Cert.KernelIdeal.Hand.mem_uc Cert.KernelIdeal.main_arg4 (by decide))).trans (Cert.KernelIdeal.Hand.W16_arg m c Cert.KernelIdeal.main_arg4 (by decide)),
       (h c _ (Cert.KernelIdeal.Hand.mem_uc Cert.KernelIdeal.main_arg5 (by decide))).trans (Cert.KernelIdeal.Hand.W16_arg m c Cert.KernelIdeal.main_arg5 (by decide)),
       (h c _ (Cert.KernelIdeal.Hand.mem_uc Cert.KernelIdeal.main_arg6 (by decide))).trans (Cert.KernelIdeal.Hand.W16_arg m c Cert.KernelIdeal.main_arg6 (by decide)),
       (h c _ (Cert.KernelIdeal.Hand.mem_uc Cert.KernelIdeal.main_arg7 (by decide))).trans (Cert.KernelIdeal.Hand.W16_arg m c Cert.KernelIdeal.main_arg7 (by decide)),
       (h c _ (Cert.KernelIdeal.Hand.mem_uc Cert.KernelIdeal.main_arg8 (by decide))).trans (Cert.KernelIdeal.Hand.W16_arg m c Cert.KernelIdeal.main_arg8 (by decide)),
       (h c _ (Cert.KernelIdeal.Hand.mem_uc Cert.KernelIdeal.main_arg9 (by decide))).trans (Cert.KernelIdeal.Hand.W16_arg m c Cert.KernelIdeal.main_arg9 (by decide)),
       (h c _ (Cert.KernelIdeal.Hand.mem_uc Cert.KernelIdeal.main_arg10 (by decide))).trans (Cert.KernelIdeal.Hand.W16_arg m c Cert.KernelIdeal.main_arg10 (by decide)),
       (h c _ (Cert.KernelIdeal.Hand.mem_uc Cert.KernelIdeal.main_arg11 (by decide))).trans (Cert.KernelIdeal.Hand.W16_arg m c Cert.KernelIdeal.main_arg11 (by decide)),
       (h c _ (Cert.KernelIdeal.Hand.mem_uc Cert.KernelIdeal.main_arg12 (by decide))).trans (Cert.KernelIdeal.Hand.W16_arg m c Cert.KernelIdeal.main_arg12 (by decide)),
       (h c _ (Cert.KernelIdeal.Hand.mem_uc Cert.KernelIdeal.main_arg13 (by decide))).trans (Cert.KernelIdeal.Hand.W16_arg m c Cert.KernelIdeal.main_arg13 (by decide)),
       (h c _ (Cert.KernelIdeal.Hand.mem_uc Cert.KernelIdeal.main_arg14 (by decide))).trans (Cert.KernelIdeal.Hand.W16_arg m c Cert.KernelIdeal.main_arg14 (by decide)),
       (h c _ (Cert.KernelIdeal.Hand.mem_uc Cert.KernelIdeal.main_arg15 (by decide))).trans (Cert.KernelIdeal.Hand.W16_arg m c Cert.KernelIdeal.main_arg15 (by decide)),
       (h c _ (Cert.KernelIdeal.Hand.mem_uc Cert.KernelIdeal.main_arg16 (by decide))).trans (Cert.KernelIdeal.Hand.W16_arg m c Cert.KernelIdeal.main_arg16 (by decide))⟩)
      (Cert.KernelIdeal.Hand.run_all (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v123_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2]
    exact (Cert.KernelIdeal.HandValue.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
